-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S3x64x64 : Shape := ⟨3, ![3, 64, 64]⟩
abbrev S3x1x64 : Shape := ⟨3, ![3, 1, 64]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x1x64 : S_.BroadcastsInDim S3x1x64 (![] : Fin 0 → Fin S3x1x64.rank)
  reducesTo_S3x1x64_S_d0_1_2 : S3x1x64.ReducesTo [0, 1, 2] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg4 : FVec F S3x64x64 .f32) (main_arg5 : FVec F S3x1x64 .f32) (main_arg6 : FVec F S2000000 .f32) (main_v13 : IVec S_ 1) (main_v16 : IVec S3x1x64 1) : IVec S_ 1 :=
  let main_c_5 : IVec S_ 1 := constantI S_ 1 1#1
  let main_v17 : IVec S_ 1 := (fun x v => Host.reduce IntOp.andi x v reducesTo_S3x1x64_S_d0_1_2 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x1x64 .f32 := Host.absf main_arg5
  let main_cst_8 : FVec F S_ .f32 := constant S_ .f32 0x7F800000#32
  let main_v25 : FVec F S3x1x64 .f32 := broadcastInDim S3x1x64 ![] bcast_S_S3x1x64 main_cst_8
  let main_v26 : IVec S3x1x64 1 := cmpf .olt main_v24 main_v25
  let main_c_9 : IVec S_ 1 := constantI S_ 1 1#1
  let main_v27 : IVec S_ 1 := (fun x v => Host.reduce IntOp.andi x v reducesTo_S3x1x64_S_d0_1_2 h_S_) main_v26 main_c_9
  let main_v28 : IVec S_ 1 := andi main_v23 main_v27
  let main_v29 : FVec F S2000000 .f32 := Host.absf main_arg6
  let main_cst_10 : FVec F S_ .f32 := constant S_ .f32 0x7F800000#32
  let main_v30 : FVec F S2000000 .f32 := broadcastInDim S2000000 ![] bcast_S_S2000000 main_cst_10
  let main_v31 : IVec S2000000 1 := cmpf .olt main_v29 main_v30
  let main_c_11 : IVec S_ 1 := constantI S_ 1 1#1
  let main_v32 : IVec S_ 1 := (fun x v => Host.reduce IntOp.andi x v reducesTo_S2000000_S_d0 h_S_) main_v31 main_c_11
  let main_v33 : IVec S_ 1 := andi main_v28 main_v32
  main_v33

def fn {F : FTy → Type} [FloatOps F] (main_arg0 : FVec F S100000x64 .f32) (main_arg1 : FVec F S200000x64 .f32) (main_arg2 : FVec F S3x64x64 .f32) (main_arg3 : FVec F S3x1x64 .f32) (main_arg4 : FVec F S3x64x64 .f32) (main_arg5 : FVec F S3x1x64 .f32) (main_arg6 : FVec F S2000000 .f32) (main_arg7 : IVec S2000000 32) (main_arg8 : IVec S2000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x1x64 .f32 := Host.absf main_arg3
  let main_cst_4 : FVec F S_ .f32 := constant S_ .f32 0x7F800000#32
  let main_v15 : FVec F S3x1x64 .f32 := broadcastInDim S3x1x64 ![] bcast_S_S3x1x64 main_cst_4
  let main_v16 : IVec S3x1x64 1 := cmpf .olt main_v14 main_v15
  fn_part1 (F := F) main_arg4 main_arg5 main_arg6 main_v13 main_v16
-- ==== Kernel.lean ====
abbrev S100000x64 : Shape := ⟨2, ![100000, 64]⟩
abbrev S200000x64 : Shape := ⟨2, ![200000, 64]⟩
abbrev S3x64x64 : Shape := ⟨3, ![3, 64, 64]⟩
abbrev S3x1x64 : Shape := ⟨3, ![3, 1, 64]⟩
abbrev S2000000 : Shape := ⟨1, ![2000000]⟩
abbrev S300000x64 : Shape := ⟨2, ![300000, 64]⟩
abbrev S2000000x1 : Shape := ⟨2, ![2000000, 1]⟩
abbrev S_ : Shape := ⟨0, ![]⟩
abbrev S2000000x64 : Shape := ⟨2, ![2000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S3000x64 : Shape := ⟨2, ![3000, 64]⟩
abbrev S3000 : Shape := ⟨1, ![3000]⟩
abbrev S3000x1 : Shape := ⟨2, ![3000, 1]⟩

abbrev nBuf : Space → Nat
  | .hbm => 93
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S200000x64, .f32⟩
  | .hbm, ⟨2, _⟩ => ⟨S3x64x64, .f32⟩
  | .hbm, ⟨3, _⟩ => ⟨S3x1x64, .f32⟩
  | .hbm, ⟨4, _⟩ => ⟨S3x64x64, .f32⟩
  | .hbm, ⟨5, _⟩ => ⟨S3x1x64, .f32⟩
  | .hbm, ⟨6, _⟩ => ⟨S2000000, .f32⟩
  | .hbm, ⟨7, _⟩ => ⟨S2000000, .i32⟩
  | .hbm, ⟨8, _⟩ => ⟨S2000000, .i32⟩
  | .hbm, ⟨9, _⟩ => ⟨S300000x64, .f32⟩
  | .hbm, ⟨10, _⟩ => ⟨S2000000x1, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x64, .f32⟩
  | .hbm, ⟨20, _⟩ => ⟨S2000000x64, .f32⟩
  | .hbm, ⟨21, _⟩ => ⟨S2000000x64, .f32⟩
  | .hbm, ⟨22, _⟩ => ⟨S_, .f32⟩
  | .hbm, ⟨23, _⟩ => ⟨S300000x64, .f32⟩
  | .hbm, ⟨24, _⟩ => ⟨S2000000x1, .i32⟩
  | .hbm, ⟨25, _⟩ => ⟨S300000x64, .f32⟩
  | .hbm, ⟨26, _⟩ => ⟨S1x64x64, .f32⟩
  | .hbm, ⟨27, _⟩ => ⟨S64x64, .f32⟩
  | .hbm, ⟨28, _⟩ => ⟨S1x1x64, .f32⟩
  | .hbm, ⟨29, _⟩ => ⟨S1x64, .f32⟩
  | .hbm, ⟨30, _⟩ => ⟨S1x64x64, .f32⟩
  | .hbm, ⟨31, _⟩ => ⟨S64x64, .f32⟩
  | .hbm, ⟨32, _⟩ => ⟨S1x1x64, .f32⟩
  | .hbm, ⟨33, _⟩ => ⟨S1x64, .f32⟩
  | .hbm, ⟨34, _⟩ => ⟨S300000x64, .f32⟩
  | .hbm, ⟨35, _⟩ => ⟨S300000x64, .f32⟩
  | .hbm, ⟨36, _⟩ => ⟨S2000000x1, .f32⟩
  | .hbm, ⟨37, _⟩ => ⟨S_, .i32⟩
  | .hbm, ⟨38, _⟩ => ⟨S2000000, .i32⟩
  | .hbm, ⟨39, _⟩ => ⟨S2000000, .i1⟩
  | .hbm, ⟨40, _⟩ => ⟨S_, .i32⟩
  | .hbm, ⟨41, _⟩ => ⟨S2000000, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S2000000x64, .f32⟩
  | .hbm, ⟨46, _⟩ => ⟨S2000000x64, .f32⟩
  | .hbm, ⟨47, _⟩ => ⟨S2000000x64, .f32⟩
  | .hbm, ⟨48, _⟩ => ⟨S_, .f32⟩
  | .hbm, ⟨49, _⟩ => ⟨S300000x64, .f32⟩
  | .hbm, ⟨50, _⟩ => ⟨S2000000x1, .i32⟩
  | .hbm, ⟨51, _⟩ => ⟨S300000x64, .f32⟩
  | .hbm, ⟨52, _⟩ => ⟨S1x64x64, .f32⟩
  | .hbm, ⟨53, _⟩ => ⟨S64x64, .f32⟩
  | .hbm, ⟨54, _⟩ => ⟨S1x1x64, .f32⟩
  | .hbm, ⟨55, _⟩ => ⟨S1x64, .f32⟩
  | .hbm, ⟨56, _⟩ => ⟨S1x64x64, .f32⟩
  | .hbm, ⟨57, _⟩ => ⟨S64x64, .f32⟩
  | .hbm, ⟨58, _⟩ => ⟨S1x1x64, .f32⟩
  | .hbm, ⟨59, _⟩ => ⟨S1x64, .f32⟩
  | .hbm, ⟨60, _⟩ => ⟨S300000x64, .f32⟩
  | .hbm, ⟨61, _⟩ => ⟨S300000x64, .f32⟩
  | .hbm, ⟨62, _⟩ => ⟨S2000000x1, .f32⟩
  | .hbm, ⟨63, _⟩ => ⟨S_, .i32⟩
  | .hbm, ⟨64, _⟩ => ⟨S2000000, .i32⟩
  | .hbm, ⟨65, _⟩ => ⟨S2000000, .i1⟩
  | .hbm, ⟨66, _⟩ => ⟨S_, .i32⟩
  | .hbm, ⟨67, _⟩ => ⟨S2000000, .i32⟩
  | .hbm, ⟨68, _⟩ => ⟨S2000000, .i32⟩
  | .hbm, ⟨69, _⟩ => ⟨S2000000, .i32⟩
  | .hbm, ⟨70, _⟩ => ⟨S2000000x1, .i32⟩
  | .hbm, ⟨71, _⟩ => ⟨S2000000x64, .f32⟩
  | .hbm, ⟨72, _⟩ => ⟨S2000000x64, .f32⟩
  | .hbm, ⟨73, _⟩ => ⟨S2000000x64, .f32⟩
  | .hbm, ⟨74, _⟩ => ⟨S_, .f32⟩
  | .hbm, ⟨75, _⟩ => ⟨S300000x64, .f32⟩
  | .hbm, ⟨76, _⟩ => ⟨S2000000x1, .i32⟩
  | .hbm, ⟨77, _⟩ => ⟨S300000x64, .f32⟩
  | .hbm, ⟨78, _⟩ => ⟨S1x64x64, .f32⟩
  | .hbm, ⟨79, _⟩ => ⟨S64x64, .f32⟩
  | .hbm, ⟨80, _⟩ => ⟨S1x1x64, .f32⟩
  | .hbm, ⟨81, _⟩ => ⟨S1x64, .f32⟩
  | .hbm, ⟨82, _⟩ => ⟨S1x64x64, .f32⟩
  | .hbm, ⟨83, _⟩ => ⟨S64x64, .f32⟩
  | .hbm, ⟨84, _⟩ => ⟨S1x1x64, .f32⟩
  | .hbm, ⟨85, _⟩ => ⟨S1x64, .f32⟩
  | .hbm, ⟨86, _⟩ => ⟨S300000x64, .f32⟩
  | .hbm, ⟨87, _⟩ => ⟨S300000x64, .f32⟩
  | .hbm, ⟨88, _⟩ => ⟨S_, .f32⟩
  | .hbm, ⟨89, _⟩ => ⟨S300000x64, .f32⟩
  | .hbm, ⟨90, _⟩ => ⟨S300000x64, .f32⟩
  | .hbm, ⟨91, _⟩ => ⟨S100000x64, .f32⟩
  | .hbm, ⟨92, _⟩ => ⟨S200000x64, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S3000x64, .f32⟩
  | .local _ .vmem, ⟨9, _⟩ => ⟨S3000x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S3000x64, .f32⟩
  | .local _ .vmem, ⟨17, _⟩ => ⟨S3000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S3000x64, .f32⟩
  | .local _ .vmem, ⟨29, _⟩ => ⟨S3000x64, .f32⟩
  | .local _ .vmem, ⟨30, _⟩ => ⟨S3000x64, .f32⟩
  | .local _ .vmem, ⟨31, _⟩ => ⟨S3000x64, .f32⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S3000x64, .f32⟩
  | .local _ .vmem, ⟨37, _⟩ => ⟨S3000x64, .f32⟩
  | .local _ .vmem, ⟨38, _⟩ => ⟨S3000x64, .f32⟩
  | .local _ .vmem, ⟨39, _⟩ => ⟨S3000x64, .f32⟩
  | .local _ .vmem, ⟨40, _⟩ => ⟨S3000x64, .f32⟩
  | .local _ .vmem, ⟨41, _⟩ => ⟨S3000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66_0 : Ref sig .tc := ⟨.hbm, 86, rfl⟩
abbrev main_v66_1 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S3000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  concatenates_S100000x64_S200000x64_S300000x64_d0 : Shape.Concatenates [S100000x64, S200000x64] S300000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S300000x64 : S_.BroadcastsInDim S300000x64 (![] : Fin 0 → Fin S300000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  reduces_S3000x64_S3000 : S3000x64.Reduces [1] S3000
  shapeCasts_S3000_S3000x1 : S3000.ShapeCasts S3000x1
  broadcasts_S3000x1_S3000x64 : S3000x1.Broadcasts S3000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  slices_S300000x64_S100000x64_0_0 : S300000x64.Slices ![0, 0] S100000x64
  slices_S300000x64_S200000x64_100000_0 : S300000x64.Slices ![100000, 0] S200000x64
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  dot_S3000x64_S64x64_S3000x64_1_0_0_1_n_n_wf : DotDims.WF S3000x64 S64x64 S3000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S300000x64.size a
  hwx0_0 : ∀ i : grid0.Coords, EltTy.bits .f32 = 32 ∨ (Rect.block (s := S300000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S300000x64.size a
  hwx0_1 : ∀ i : grid0.Coords, EltTy.bits .f32 = 32 ∨ (Rect.block (s := S300000x64) S3000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x64.size a ≤ S300000x64.size a
  hwx0_6 : ∀ i : grid0.Coords, EltTy.bits .f32 = 32 ∨ (Rect.block (s := S300000x64) S3000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x64.size a ≤ S300000x64.size a
  hwx0_7 : ∀ i : grid0.Coords, EltTy.bits .f32 = 32 ∨ (Rect.block (s := S300000x64) S3000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3000x64.size a ≤ S300000x64.size a
  hwx0_8 : ∀ i : grid0.Coords, EltTy.bits .f32 = 32 ∨ (Rect.block (s := S300000x64) S3000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S300000x64.size a
  hwx1_0 : ∀ i : grid1.Coords, EltTy.bits .f32 = 32 ∨ (Rect.block (s := S300000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S300000x64.size a
  hwx1_1 : ∀ i : grid1.Coords, EltTy.bits .f32 = 32 ∨ (Rect.block (s := S300000x64) S3000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x64.size a ≤ S300000x64.size a
  hwx1_6 : ∀ i : grid1.Coords, EltTy.bits .f32 = 32 ∨ (Rect.block (s := S300000x64) S3000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x64.size a ≤ S300000x64.size a
  hwx1_7 : ∀ i : grid1.Coords, EltTy.bits .f32 = 32 ∨ (Rect.block (s := S300000x64) S3000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3000x64.size a ≤ S300000x64.size a
  hwx1_8 : ∀ i : grid1.Coords, EltTy.bits .f32 = 32 ∨ (Rect.block (s := S300000x64) S3000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S300000x64.size a
  hwx2_0 : ∀ i : grid2.Coords, EltTy.bits .f32 = 32 ∨ (Rect.block (s := S300000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S300000x64.size a
  hwx2_1 : ∀ i : grid2.Coords, EltTy.bits .f32 = 32 ∨ (Rect.block (s := S300000x64) S3000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x64.size a ≤ S300000x64.size a
  hwx2_6 : ∀ i : grid2.Coords, EltTy.bits .f32 = 32 ∨ (Rect.block (s := S300000x64) S3000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S300000x64.size a
  hwx2_7 : ∀ i : grid2.Coords, EltTy.bits .f32 = 32 ∨ (Rect.block (s := S300000x64) S3000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S3000x64.size a ≤ S300000x64.size a
  hwx2_8 : ∀ i : grid2.Coords, EltTy.bits .f32 = 32 ∨ (Rect.block (s := S300000x64) S3000x64.size (cc2_transform_8 i) (hinb2_8 i)).WholeWords (EltTy.packing .f32)

variable [Facts₀]

def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S3000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_0) S3000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v22_1) S3000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v22_0) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22_1) S3000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_0) S3000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v44_1) S3000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v44_0) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44_1) S3000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_0) S3000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v66_1) S3000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S200000x64 : Shape := ⟨2, ![200000, 64]⟩
abbrev S3x64x64 : Shape := ⟨3, ![3, 64, 64]⟩
abbrev S3x1x64 : Shape := ⟨3, ![3, 1, 64]⟩
abbrev S2000000 : Shape := ⟨1, ![2000000]⟩
abbrev S300000x64 : Shape := ⟨2, ![300000, 64]⟩
abbrev S2000000x1 : Shape := ⟨2, ![2000000, 1]⟩
abbrev S_ : Shape := ⟨0, ![]⟩
abbrev S2000000x64 : Shape := ⟨2, ![2000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S300000 : Shape := ⟨1, ![300000]⟩
abbrev S300000x1 : Shape := ⟨2, ![300000, 1]⟩
abbrev S300000x1x64 : Shape := ⟨3, ![300000, 1, 64]⟩
abbrev S300000x4x64 : Shape := ⟨3, ![300000, 4, 64]⟩

abbrev nBuf : Space → Nat
  | .hbm => 172
  | .vmem => 0
  | .smem => 0
  | _ => 0

abbrev hbmTy0_0 (i : Nat) : BufTy := match i % 128 with
  | 0 => ⟨S100000x64, .f32⟩
  | 1 => ⟨S200000x64, .f32⟩
  | 2 => ⟨S3x64x64, .f32⟩
  | 3 => ⟨S3x1x64, .f32⟩
  | 4 => ⟨S3x64x64, .f32⟩
  | 5 => ⟨S3x1x64, .f32⟩
  | 6 => ⟨S2000000, .f32⟩
  | 7 => ⟨S2000000, .i32⟩
  | 8 => ⟨S2000000, .i32⟩
  | 9 => ⟨S300000x64, .f32⟩
  | 10 => ⟨S2000000x1, .f32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x64, .f32⟩
  | 20 => ⟨S2000000x64, .f32⟩
  | 21 => ⟨S2000000x64, .f32⟩
  | 22 => ⟨S_, .f32⟩
  | 23 => ⟨S300000x64, .f32⟩
  | 24 => ⟨S2000000x1, .i32⟩
  | 25 => ⟨S300000x64, .f32⟩
  | 26 => ⟨S1x64x64, .f32⟩
  | 27 => ⟨S64x64, .f32⟩
  | 28 => ⟨S300000x64, .f32⟩
  | 29 => ⟨S1x1x64, .f32⟩
  | 30 => ⟨S1x64, .f32⟩
  | 31 => ⟨S300000x64, .f32⟩
  | 32 => ⟨S300000x64, .f32⟩
  | 33 => ⟨S300000x64, .f32⟩
  | 34 => ⟨S1x64x64, .f32⟩
  | 35 => ⟨S64x64, .f32⟩
  | 36 => ⟨S300000x64, .f32⟩
  | 37 => ⟨S1x1x64, .f32⟩
  | 38 => ⟨S1x64, .f32⟩
  | 39 => ⟨S300000x64, .f32⟩
  | 40 => ⟨S300000x64, .f32⟩
  | 41 => ⟨S300000x64, .f32⟩
  | 42 => ⟨S_, .f32⟩
  | 43 => ⟨S_, .f32⟩
  | 44 => ⟨S300000x64, .f32⟩
  | 45 => ⟨S300000x64, .i1⟩
  | 46 => ⟨S_, .f32⟩
  | 47 => ⟨S300000x64, .f32⟩
  | 48 => ⟨S300000x64, .f32⟩
  | 49 => ⟨S300000x64, .f32⟩
  | 50 => ⟨S300000x64, .f32⟩
  | 51 => ⟨S_, .f32⟩
  | 52 => ⟨S300000, .f32⟩
  | 53 => ⟨S300000x1, .f32⟩
  | 54 => ⟨S300000x1, .f32⟩
  | 55 => ⟨S_, .f32⟩
  | 56 => ⟨S300000x1, .f32⟩
  | 57 => ⟨S300000x1, .f32⟩
  | 58 => ⟨S300000x64, .f32⟩
  | 59 => ⟨S300000x64, .f32⟩
  | 60 => ⟨S2000000x1, .f32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x64, .f32⟩
  | 70 => ⟨S2000000x64, .f32⟩
  | 71 => ⟨S2000000x64, .f32⟩
  | 72 => ⟨S_, .f32⟩
  | 73 => ⟨S300000x64, .f32⟩
  | 74 => ⟨S2000000x1, .i32⟩
  | 75 => ⟨S300000x64, .f32⟩
  | 76 => ⟨S1x64x64, .f32⟩
  | 77 => ⟨S64x64, .f32⟩
  | 78 => ⟨S300000x64, .f32⟩
  | 79 => ⟨S1x1x64, .f32⟩
  | 80 => ⟨S1x64, .f32⟩
  | 81 => ⟨S300000x64, .f32⟩
  | 82 => ⟨S300000x64, .f32⟩
  | 83 => ⟨S300000x64, .f32⟩
  | 84 => ⟨S1x64x64, .f32⟩
  | 85 => ⟨S64x64, .f32⟩
  | 86 => ⟨S300000x64, .f32⟩
  | 87 => ⟨S1x1x64, .f32⟩
  | 88 => ⟨S1x64, .f32⟩
  | 89 => ⟨S300000x64, .f32⟩
  | 90 => ⟨S300000x64, .f32⟩
  | 91 => ⟨S300000x64, .f32⟩
  | 92 => ⟨S_, .f32⟩
  | 93 => ⟨S_, .f32⟩
  | 94 => ⟨S300000x64, .f32⟩
  | 95 => ⟨S300000x64, .i1⟩
  | 96 => ⟨S_, .f32⟩
  | 97 => ⟨S300000x64, .f32⟩
  | 98 => ⟨S300000x64, .f32⟩
  | 99 => ⟨S300000x64, .f32⟩
  | 100 => ⟨S300000x64, .f32⟩
  | 101 => ⟨S_, .f32⟩
  | 102 => ⟨S300000, .f32⟩
  | 103 => ⟨S300000x1, .f32⟩
  | 104 => ⟨S300000x1, .f32⟩
  | 105 => ⟨S_, .f32⟩
  | 106 => ⟨S300000x1, .f32⟩
  | 107 => ⟨S300000x1, .f32⟩
  | 108 => ⟨S300000x64, .f32⟩
  | 109 => ⟨S300000x64, .f32⟩
  | 110 => ⟨S2000000x1, .f32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S2000000x64, .f32⟩
  | 120 => ⟨S2000000x64, .f32⟩
  | 121 => ⟨S2000000x64, .f32⟩
  | 122 => ⟨S_, .f32⟩
  | 123 => ⟨S300000x64, .f32⟩
  | 124 => ⟨S2000000x1, .i32⟩
  | 125 => ⟨S300000x64, .f32⟩
  | 126 => ⟨S1x64x64, .f32⟩
  | 127 => ⟨S64x64, .f32⟩
  | _ => ⟨S100000x64, .f32⟩

abbrev hbmTy0_1 (i : Nat) : BufTy := match i % 128 with
  | 0 => ⟨S300000x64, .f32⟩
  | 1 => ⟨S1x1x64, .f32⟩
  | 2 => ⟨S1x64, .f32⟩
  | 3 => ⟨S300000x64, .f32⟩
  | 4 => ⟨S300000x64, .f32⟩
  | 5 => ⟨S300000x64, .f32⟩
  | 6 => ⟨S1x64x64, .f32⟩
  | 7 => ⟨S64x64, .f32⟩
  | 8 => ⟨S300000x64, .f32⟩
  | 9 => ⟨S1x1x64, .f32⟩
  | 10 => ⟨S1x64, .f32⟩
  | 11 => ⟨S300000x64, .f32⟩
  | 12 => ⟨S300000x64, .f32⟩
  | 13 => ⟨S300000x64, .f32⟩
  | 14 => ⟨S_, .f32⟩
  | 15 => ⟨S_, .f32⟩
  | 16 => ⟨S300000x64, .f32⟩
  | 17 => ⟨S300000x64, .i1⟩
  | 18 => ⟨S_, .f32⟩
  | 19 => ⟨S300000x64, .f32⟩
  | 20 => ⟨S300000x64, .f32⟩
  | 21 => ⟨S300000x64, .f32⟩
  | 22 => ⟨S300000x64, .f32⟩
  | 23 => ⟨S_, .f32⟩
  | 24 => ⟨S300000, .f32⟩
  | 25 => ⟨S300000x1, .f32⟩
  | 26 => ⟨S300000x1, .f32⟩
  | 27 => ⟨S_, .f32⟩
  | 28 => ⟨S300000x1, .f32⟩
  | 29 => ⟨S300000x1, .f32⟩
  | 30 => ⟨S300000x64, .f32⟩
  | 31 => ⟨S300000x64, .f32⟩
  | 32 => ⟨S300000x1x64, .f32⟩
  | 33 => ⟨S300000x1x64, .f32⟩
  | 34 => ⟨S300000x1x64, .f32⟩
  | 35 => ⟨S300000x1x64, .f32⟩
  | 36 => ⟨S300000x4x64, .f32⟩
  | 37 => ⟨S_, .f32⟩
  | 38 => ⟨S300000x64, .f32⟩
  | 39 => ⟨S_, .f32⟩
  | 40 => ⟨S300000x64, .f32⟩
  | 41 => ⟨S300000x64, .f32⟩
  | 42 => ⟨S100000x64, .f32⟩
  | 43 => ⟨S200000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v30 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_3 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_6 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v65 : Ref sig .tc := ⟨.hbm, 99, rfl⟩
abbrev main_call3_v0 : Ref sig .tc := ⟨.hbm, 100, rfl⟩
abbrev main_call3_cst : Ref sig .tc := ⟨.hbm, 101, rfl⟩
abbrev main_call3_v1 : Ref sig .tc := ⟨.hbm, 102, rfl⟩
abbrev main_call3_v2 : Ref sig .tc := ⟨.hbm, 103, rfl⟩
abbrev main_v66 : Ref sig .tc := ⟨.hbm, 104, rfl⟩
abbrev main_cst_7 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_8 : Ref sig .tc := ⟨.hbm, 111, rfl⟩
abbrev main_v72 : Ref sig .tc := ⟨.hbm, 112, rfl⟩
abbrev main_v73 : Ref sig .tc := ⟨.hbm, 113, rfl⟩
abbrev main_c_9 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_10 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_11 : Ref sig .tc := ⟨.hbm, 142, rfl⟩
abbrev main_call4_cst : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_v100 : Ref sig .tc := ⟨.hbm, 149, rfl⟩
abbrev main_call5_v0 : Ref sig .tc := ⟨.hbm, 150, rfl⟩
abbrev main_call5_cst : Ref sig .tc := ⟨.hbm, 151, rfl⟩
abbrev main_call5_v1 : Ref sig .tc := ⟨.hbm, 152, rfl⟩
abbrev main_call5_v2 : Ref sig .tc := ⟨.hbm, 153, rfl⟩
abbrev main_v101 : Ref sig .tc := ⟨.hbm, 154, rfl⟩
abbrev main_cst_12 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_13 : Ref sig .tc := ⟨.hbm, 165, rfl⟩
abbrev main_v111 : Ref sig .tc := ⟨.hbm, 166, rfl⟩
abbrev main_cst_14 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩

abbrev nD : Nat := 1
abbrev τ : Topo := Topo.v7x

variable {F : FTy → Type} [FloatOps F]

class Facts₀ : Prop where
  concatenates_S100000x64_S200000x64_S300000x64_d0 : Shape.Concatenates [S100000x64, S200000x64] S300000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S300000x64 : S_.BroadcastsInDim S300000x64 (![] : Fin 0 → Fin S300000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  bcast_S1x64_S300000x64_0_1 : S1x64.BroadcastsInDim S300000x64 (![0, 1] : Fin 2 → Fin S300000x64.rank)
  reducesTo_S300000x64_S300000_d1 : S300000x64.ReducesTo [1] S300000
  h_S_ : 0 < S_.numel
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  bcast_S300000x64_S300000x1x64_0_2 : S300000x64.BroadcastsInDim S300000x1x64 (![0, 2] : Fin 2 → Fin S300000x1x64.rank)
  concatenates_S300000x1x64_S300000x1x64_S300000x1x64_S300000x1x64_S300000x4x64_d1 : Shape.Concatenates [S300000x1x64, S300000x1x64, S300000x1x64, S300000x1x64] S300000x4x64 1
  reducesTo_S300000x4x64_S300000x64_d1 : S300000x4x64.ReducesTo [1] S300000x64
  slices_S300000x64_S100000x64_0_0 : S300000x64.Slices ![0, 0] S100000x64
  slices_S300000x64_S200000x64_100000_0 : S300000x64.Slices ![100000, 0] S200000x64
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  dot_S300000x64_S64x64_S300000x64_1_0_0_1_n_n_wf : DotDims.WF S300000x64 S64x64 S300000x64 [1] [0] [0] [1] [] []

variable [Facts₀]

def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf

class Facts : Prop extends Facts₀ where

variable [Facts]
-- ==== Proof.BitsBody0.lean ====
/-
  Layer 1 of the message-passing network, as one pipelined region over 100 row blocks of 3000 x 64.
  At grid point t the body reads the block of the current embeddings, the block of the aggregated neighbours,
  the two 64 x 64 weight matrices and the two bias rows of the layer, and the block of the running sum; it writes
  the block of the new embeddings (the leaky-rectified sum of the two affine branches) and the block of the running
  sum increased by the row-normalised new embeddings. This file states what the body leaves in the two output
  buffers as functions of the seven input blocks, runs the body symbolically against that, and packages the result
  as the pipeline's per-point obligation, for any contents V the region is entered with and any float instance.
-/
import proofs.«179311_j1056561954898_1_alg».proof.Proof.Gen.Kernel.Launch
import proofs.«179311_j1056561954898_1_alg».proof.Proof.Gen.Kernel.Skeleton
import proofs.«179311_j1056561954898_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window w's block at grid point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every grid point, whether the pipeline fetched it
    there or kept it from the point before (the block index did not move). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block of the array at every grid point, whether the pipeline fetched it
    there or kept it from the point before (the block index did not move). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block of the array at every grid point, whether the pipeline fetched it
    there or kept it from the point before (the block index did not move). -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's staging buffer holds its block of the array at every grid point, whether the pipeline fetched it
    there or kept it from the point before (the block index did not move). -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's staging buffer holds its block of the array at every grid point, whether the pipeline fetched it
    there or kept it from the point before (the block index did not move). -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's staging buffer holds its block of the array at every grid point, whether the pipeline fetched it
    there or kept it from the point before (the block index did not move). -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- Input window 6's staging buffer holds its block of the array at every grid point, whether the pipeline fetched it
    there or kept it from the point before (the block index did not move). -/
theorem held0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## What the body reads and writes: whole staging buffers -/

abbrev rowsRect0 : Rect S3000x64 := Rect.unit (s := S3000x64) ![0, 0] S3000x64.size inb_S3000x64_S3000x64_0_0
abbrev matRect0 : Rect S64x64 := Rect.unit (s := S64x64) ![0, 0] S64x64.size inb_S64x64_S64x64_0_0
abbrev biasRect0 : Rect S1x64 := Rect.unit (s := S1x64) ![0, 0] S1x64.size inb_S1x64_S1x64_0_0

/-- The new embeddings' buffer after the body: one store of the whole block, the leaky-rectified sum of the two
    affine branches of the six blocks read. -/
def egoOut0 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect0, k0_pay2 (View.ld x0 rowsRect0) (View.ld x1 rowsRect0) (View.ld x2 matRect0) (View.ld x3 biasRect0) (View.ld x4 matRect0) (View.ld x5 biasRect0)⟩]

/-- The running sum's buffer after the body: one store of the whole block, the sum read plus the new embeddings
    divided row by row by their Euclidean norm (bounded below by the small constant). -/
def accOut0 (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) : Vec F S3000x64 .f32 :=
  View.canon [⟨rowsRect0, k0_pay1 (k0_pay3 (View.ld x0 rowsRect0) (View.ld x1 rowsRect0) (View.ld x2 matRect0) (View.ld x3 biasRect0) (View.ld x4 matRect0) (View.ld x5 biasRect0)) (View.ld x6 rowsRect0)⟩]

/-- One store of the whole rectangle covers the buffer. -/
theorem cover0 (p0 : Vec F S3000x64 .f32) (y : S3000x64.Idx) :
    ∃ pc ∈ ([⟨rowsRect0, p0⟩] : List (View.Piece (Elt F) S3000x64 .f32)), y ∈ pc.1.set :=
  View.cover_of_tiled [⟨rowsRect0, p0⟩] S3000x64.size (by rfl) y

/-! ## The body, run symbolically -/

set_option maxHeartbeats 4000000 in
/-- From the seven input buffers at given contents and the two output buffers at anything, the body runs to its
    return with the inputs as they were and the outputs at the two functions above. -/
theorem bodyRun0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole) (arg9 : Memref sig .tc .vmem S3000x64 .f32) (harg9 : arg9.IsWhole)
    (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (egoOut0 x0 x1 x2 x3 x4 x5) ∗ owns (c : Thread nD τ) arg9 fullShare (accOut0 x0 x1 x2 x3 x4 x5 x6)) -∗ K ⟨⟩))
      ⊢ wp frame (wpE (defs₀ (F := F)) Variants.none c none) E (cc0__gnn_layer_kernel i arg1 harg1 arg2 harg2 arg3 harg3 arg4 harg4 arg5 harg5 arg6 harg6 arg7 harg7 arg8 harg8 arg9 harg9) K := by
  simp only [cc0__gnn_layer_kernel_eq_skeleton]; unfold cc0__gnn_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0 _)
  iexists _; isplitr
  swap; · iexact H8
  ipureintro
  try dsimp only
  exact View.read_writes_eq_canon _ _ _ (cover0 _)

/-! ## The pipeline's proof data -/

/-- The region's proof data on core c: the arrays as found; after the body at point t every input buffer at its
    block and the two output buffers at the functions above of the input blocks; the scoped rest and the generator
    register as the invariant; nothing owed; the array the first and the seventh window both read (the embeddings the layer starts from, which are also
    the running sum's first term) held half by each, every other array whole. -/
def layerDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => egoOut0 (blk0 V c 0 t) (blk0 V c 1 t) (blk0 V c 2 t) (blk0 V c 3 t) (blk0 V c 4 t) (blk0 V c 5 t)
    | ⟨8, _⟩ => accOut0 (blk0 V c 0 t) (blk0 V c 1 t) (blk0 V c 2 t) (blk0 V c 3 t) (blk0 V c 4 t) (blk0 V c 5 t) (blk0 V c 6 t)
  Φ _ := Pipeline.ΦA spec0 c
  q w := match w with
    | ⟨0, _⟩ => fullShare.left
    | ⟨6, _⟩ => fullShare.right
    | _ => fullShare
  owed _ := 0

theorem arr_eq0 (c : Dev nD) (w : Fin cfg0.W) : (layerDat0 V c).A w = V c (Pipeline.arrRef spec0 w) := by
  dsimp only [layerDat0]

theorem after0_0 (c : Dev nD) (t : Fin cfg0.N) : (layerDat0 V c).after 0 t = blk0 V c 0 t := by dsimp only [layerDat0]
theorem after0_1 (c : Dev nD) (t : Fin cfg0.N) : (layerDat0 V c).after 1 t = blk0 V c 1 t := by dsimp only [layerDat0]
theorem after0_2 (c : Dev nD) (t : Fin cfg0.N) : (layerDat0 V c).after 2 t = blk0 V c 2 t := by dsimp only [layerDat0]
theorem after0_3 (c : Dev nD) (t : Fin cfg0.N) : (layerDat0 V c).after 3 t = blk0 V c 3 t := by dsimp only [layerDat0]
theorem after0_4 (c : Dev nD) (t : Fin cfg0.N) : (layerDat0 V c).after 4 t = blk0 V c 4 t := by dsimp only [layerDat0]
theorem after0_5 (c : Dev nD) (t : Fin cfg0.N) : (layerDat0 V c).after 5 t = blk0 V c 5 t := by dsimp only [layerDat0]
theorem after0_6 (c : Dev nD) (t : Fin cfg0.N) : (layerDat0 V c).after 6 t = blk0 V c 6 t := by dsimp only [layerDat0]
theorem after0_7 (c : Dev nD) (t : Fin cfg0.N) : (layerDat0 V c).after 7 t = egoOut0 (blk0 V c 0 t) (blk0 V c 1 t) (blk0 V c 2 t) (blk0 V c 3 t) (blk0 V c 4 t) (blk0 V c 5 t) := by dsimp only [layerDat0]
theorem after0_8 (c : Dev nD) (t : Fin cfg0.N) : (layerDat0 V c).after 8 t = accOut0 (blk0 V c 0 t) (blk0 V c 1 t) (blk0 V c 2 t) (blk0 V c 3 t) (blk0 V c 4 t) (blk0 V c 5 t) (blk0 V c 6 t) := by dsimp only [layerDat0]

theorem held0_0 (c : Dev nD) (t : Fin cfg0.N) (d) : (layerDat0 V c).before 0 t d = blk0 V c 0 t :=
  held0_0_of V (layerDat0 V c) (arr_eq0 V c 0) (after0_0 V c) t d
theorem held0_1 (c : Dev nD) (t : Fin cfg0.N) (d) : (layerDat0 V c).before 1 t d = blk0 V c 1 t :=
  held0_1_of V (layerDat0 V c) (arr_eq0 V c 1) (after0_1 V c) t d
theorem held0_2 (c : Dev nD) (t : Fin cfg0.N) (d) : (layerDat0 V c).before 2 t d = blk0 V c 2 t :=
  held0_2_of V (layerDat0 V c) (arr_eq0 V c 2) (after0_2 V c) t d
theorem held0_3 (c : Dev nD) (t : Fin cfg0.N) (d) : (layerDat0 V c).before 3 t d = blk0 V c 3 t :=
  held0_3_of V (layerDat0 V c) (arr_eq0 V c 3) (after0_3 V c) t d
theorem held0_4 (c : Dev nD) (t : Fin cfg0.N) (d) : (layerDat0 V c).before 4 t d = blk0 V c 4 t :=
  held0_4_of V (layerDat0 V c) (arr_eq0 V c 4) (after0_4 V c) t d
theorem held0_5 (c : Dev nD) (t : Fin cfg0.N) (d) : (layerDat0 V c).before 5 t d = blk0 V c 5 t :=
  held0_5_of V (layerDat0 V c) (arr_eq0 V c 5) (after0_5 V c) t d
theorem held0_6 (c : Dev nD) (t : Fin cfg0.N) (d) : (layerDat0 V c).before 6 t d = blk0 V c 6 t :=
  held0_6_of V (layerDat0 V c) (arr_eq0 V c 6) (after0_6 V c) t d

/-! ## The obligation at a generic grid point -/

/-- What the body is called with at point t, -/
def bodyPre0 (c : Dev nD) (t : Fin cfg0.N) : sProp 𝕄 :=
  iprop((layerDat0 V c).Φ t.castSucc ∗ (layerDat0 V c).owesAt () t.castSucc
    ∗ (∃ d, owns (c : Thread nD τ) (st0_0 t) fullShare ((layerDat0 V c).before 0 t d))
    ∗ (∃ d, owns (c : Thread nD τ) (st0_1 t) fullShare ((layerDat0 V c).before 1 t d))
    ∗ (∃ d, owns (c : Thread nD τ) (st0_2 t) fullShare ((layerDat0 V c).before 2 t d))
    ∗ (∃ d, owns (c : Thread nD τ) (st0_3 t) fullShare ((layerDat0 V c).before 3 t d))
    ∗ (∃ d, owns (c : Thread nD τ) (st0_4 t) fullShare ((layerDat0 V c).before 4 t d))
    ∗ (∃ d, owns (c : Thread nD τ) (st0_5 t) fullShare ((layerDat0 V c).before 5 t d))
    ∗ (∃ d, owns (c : Thread nD τ) (st0_6 t) fullShare ((layerDat0 V c).before 6 t d))
    ∗ (∃ d, owns (c : Thread nD τ) (st0_7 t) fullShare ((layerDat0 V c).before 7 t d))
    ∗ (∃ d, owns (c : Thread nD τ) (st0_8 t) fullShare ((layerDat0 V c).before 8 t d)))

/-- and what it returns. -/
def bodyPost0 (c : Dev nD) (t : Fin cfg0.N) : sProp 𝕄 :=
  iprop((layerDat0 V c).Φ t.succ ∗ (layerDat0 V c).owesAt () t.succ
    ∗ owns (c : Thread nD τ) (st0_0 t) fullShare ((layerDat0 V c).after 0 t)
    ∗ owns (c : Thread nD τ) (st0_1 t) fullShare ((layerDat0 V c).after 1 t)
    ∗ owns (c : Thread nD τ) (st0_2 t) fullShare ((layerDat0 V c).after 2 t)
    ∗ owns (c : Thread nD τ) (st0_3 t) fullShare ((layerDat0 V c).after 3 t)
    ∗ owns (c : Thread nD τ) (st0_4 t) fullShare ((layerDat0 V c).after 4 t)
    ∗ owns (c : Thread nD τ) (st0_5 t) fullShare ((layerDat0 V c).after 5 t)
    ∗ owns (c : Thread nD τ) (st0_6 t) fullShare ((layerDat0 V c).after 6 t)
    ∗ owns (c : Thread nD τ) (st0_7 t) fullShare ((layerDat0 V c).after 7 t)
    ∗ owns (c : Thread nD τ) (st0_8 t) fullShare ((layerDat0 V c).after 8 t))

theorem bodyAtPoint0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5, held0_6]
  rw [show (layerDat0 V c).Φ t.succ = (layerDat0 V c).Φ t.castSucc from rfl,
    show (layerDat0 V c).owesAt () t.succ = (layerDat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun0 c Set.univ _ _ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem bodyOblig0 (c : Dev nD) : BodyObligation (layerDat0 (F := F) V c) (defs₀ (F := F)) Variants.none () Set.univ := fun t => by
  rw [bigSep_W0, bigSep_W0]
  exact bodyAtPoint0 V c t

end Cert.Kernel.Layer

end
-- ==== Proof.BitsBody1.lean ====
/-
  Layer 2 of the message-passing network, as one pipelined region over 100 row blocks of 3000 x 64.
  At grid point t the body reads the block of the current embeddings, the block of the aggregated neighbours,
  the two 64 x 64 weight matrices and the two bias rows of the layer, and the block of the running sum; it writes
  the block of the new embeddings (the leaky-rectified sum of the two affine branches) and the block of the running
  sum increased by the row-normalised new embeddings. This file states what the body leaves in the two output
  buffers as functions of the seven input blocks, runs the body symbolically against that, and packages the result
  as the pipeline's per-point obligation, for any contents V the region is entered with and any float instance.
-/
import proofs.«179311_j1056561954898_1_alg».proof.Proof.Gen.Kernel.Launch
import proofs.«179311_j1056561954898_1_alg».proof.Proof.Gen.Kernel.Skeleton
import proofs.«179311_j1056561954898_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window w's block at grid point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the array at every grid point, whether the pipeline fetched it
    there or kept it from the point before (the block index did not move). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block of the array at every grid point, whether the pipeline fetched it
    there or kept it from the point before (the block index did not move). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block of the array at every grid point, whether the pipeline fetched it
    there or kept it from the point before (the block index did not move). -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's staging buffer holds its block of the array at every grid point, whether the pipeline fetched it
    there or kept it from the point before (the block index did not move). -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's staging buffer holds its block of the array at every grid point, whether the pipeline fetched it
    there or kept it from the point before (the block index did not move). -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's staging buffer holds its block of the array at every grid point, whether the pipeline fetched it
    there or kept it from the point before (the block index did not move). -/
theorem held1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Input window 6's staging buffer holds its block of the array at every grid point, whether the pipeline fetched it
    there or kept it from the point before (the block index did not move). -/
theorem held1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes: whole staging buffers -/

abbrev rowsRect1 : Rect S3000x64 := Rect.unit (s := S3000x64) ![0, 0] S3000x64.size inb_S3000x64_S3000x64_0_0
abbrev matRect1 : Rect S64x64 := Rect.unit (s := S64x64) ![0, 0] S64x64.size inb_S64x64_S64x64_0_0
abbrev biasRect1 : Rect S1x64 := Rect.unit (s := S1x64) ![0, 0] S1x64.size inb_S1x64_S1x64_0_0

/-- The new embeddings' buffer after the body: one store of the whole block, the leaky-rectified sum of the two
    affine branches of the six blocks read. -/
def egoOut1 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect1, k1_pay2 (View.ld x0 rowsRect1) (View.ld x1 rowsRect1) (View.ld x2 matRect1) (View.ld x3 biasRect1) (View.ld x4 matRect1) (View.ld x5 biasRect1)⟩]

/-- The running sum's buffer after the body: one store of the whole block, the sum read plus the new embeddings
    divided row by row by their Euclidean norm (bounded below by the small constant). -/
def accOut1 (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) : Vec F S3000x64 .f32 :=
  View.canon [⟨rowsRect1, k1_pay1 (k1_pay3 (View.ld x0 rowsRect1) (View.ld x1 rowsRect1) (View.ld x2 matRect1) (View.ld x3 biasRect1) (View.ld x4 matRect1) (View.ld x5 biasRect1)) (View.ld x6 rowsRect1)⟩]

/-- One store of the whole rectangle covers the buffer. -/
theorem cover1 (p0 : Vec F S3000x64 .f32) (y : S3000x64.Idx) :
    ∃ pc ∈ ([⟨rowsRect1, p0⟩] : List (View.Piece (Elt F) S3000x64 .f32)), y ∈ pc.1.set :=
  View.cover_of_tiled [⟨rowsRect1, p0⟩] S3000x64.size (by rfl) y

/-! ## The body, run symbolically -/

set_option maxHeartbeats 4000000 in
/-- From the seven input buffers at given contents and the two output buffers at anything, the body runs to its
    return with the inputs as they were and the outputs at the two functions above. -/
theorem bodyRun1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole) (arg9 : Memref sig .tc .vmem S3000x64 .f32) (harg9 : arg9.IsWhole)
    (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (egoOut1 x0 x1 x2 x3 x4 x5) ∗ owns (c : Thread nD τ) arg9 fullShare (accOut1 x0 x1 x2 x3 x4 x5 x6)) -∗ K ⟨⟩))
      ⊢ wp frame (wpE (defs₀ (F := F)) Variants.none c none) E (cc1__gnn_layer_kernel i arg1 harg1 arg2 harg2 arg3 harg3 arg4 harg4 arg5 harg5 arg6 harg6 arg7 harg7 arg8 harg8 arg9 harg9) K := by
  simp only [cc1__gnn_layer_kernel_eq_skeleton]; unfold cc1__gnn_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1 _)
  iexists _; isplitr
  swap; · iexact H8
  ipureintro
  try dsimp only
  exact View.read_writes_eq_canon _ _ _ (cover1 _)

/-! ## The pipeline's proof data -/

/-- The region's proof data on core c: the arrays as found; after the body at point t every input buffer at its
    block and the two output buffers at the functions above of the input blocks; the scoped rest and the generator
    register as the invariant; nothing owed; full shares. -/
def layerDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => egoOut1 (blk1 V c 0 t) (blk1 V c 1 t) (blk1 V c 2 t) (blk1 V c 3 t) (blk1 V c 4 t) (blk1 V c 5 t)
    | ⟨8, _⟩ => accOut1 (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem arr_eq1 (c : Dev nD) (w : Fin cfg1.W) : (layerDat1 V c).A w = V c (Pipeline.arrRef spec1 w) := by
  dsimp only [layerDat1]

theorem after1_0 (c : Dev nD) (t : Fin cfg1.N) : (layerDat1 V c).after 0 t = blk1 V c 0 t := by dsimp only [layerDat1]
theorem after1_1 (c : Dev nD) (t : Fin cfg1.N) : (layerDat1 V c).after 1 t = blk1 V c 1 t := by dsimp only [layerDat1]
theorem after1_2 (c : Dev nD) (t : Fin cfg1.N) : (layerDat1 V c).after 2 t = blk1 V c 2 t := by dsimp only [layerDat1]
theorem after1_3 (c : Dev nD) (t : Fin cfg1.N) : (layerDat1 V c).after 3 t = blk1 V c 3 t := by dsimp only [layerDat1]
theorem after1_4 (c : Dev nD) (t : Fin cfg1.N) : (layerDat1 V c).after 4 t = blk1 V c 4 t := by dsimp only [layerDat1]
theorem after1_5 (c : Dev nD) (t : Fin cfg1.N) : (layerDat1 V c).after 5 t = blk1 V c 5 t := by dsimp only [layerDat1]
theorem after1_6 (c : Dev nD) (t : Fin cfg1.N) : (layerDat1 V c).after 6 t = blk1 V c 6 t := by dsimp only [layerDat1]
theorem after1_7 (c : Dev nD) (t : Fin cfg1.N) : (layerDat1 V c).after 7 t = egoOut1 (blk1 V c 0 t) (blk1 V c 1 t) (blk1 V c 2 t) (blk1 V c 3 t) (blk1 V c 4 t) (blk1 V c 5 t) := by dsimp only [layerDat1]
theorem after1_8 (c : Dev nD) (t : Fin cfg1.N) : (layerDat1 V c).after 8 t = accOut1 (blk1 V c 0 t) (blk1 V c 1 t) (blk1 V c 2 t) (blk1 V c 3 t) (blk1 V c 4 t) (blk1 V c 5 t) (blk1 V c 6 t) := by dsimp only [layerDat1]

theorem held1_0 (c : Dev nD) (t : Fin cfg1.N) (d) : (layerDat1 V c).before 0 t d = blk1 V c 0 t :=
  held1_0_of V (layerDat1 V c) (arr_eq1 V c 0) (after1_0 V c) t d
theorem held1_1 (c : Dev nD) (t : Fin cfg1.N) (d) : (layerDat1 V c).before 1 t d = blk1 V c 1 t :=
  held1_1_of V (layerDat1 V c) (arr_eq1 V c 1) (after1_1 V c) t d
theorem held1_2 (c : Dev nD) (t : Fin cfg1.N) (d) : (layerDat1 V c).before 2 t d = blk1 V c 2 t :=
  held1_2_of V (layerDat1 V c) (arr_eq1 V c 2) (after1_2 V c) t d
theorem held1_3 (c : Dev nD) (t : Fin cfg1.N) (d) : (layerDat1 V c).before 3 t d = blk1 V c 3 t :=
  held1_3_of V (layerDat1 V c) (arr_eq1 V c 3) (after1_3 V c) t d
theorem held1_4 (c : Dev nD) (t : Fin cfg1.N) (d) : (layerDat1 V c).before 4 t d = blk1 V c 4 t :=
  held1_4_of V (layerDat1 V c) (arr_eq1 V c 4) (after1_4 V c) t d
theorem held1_5 (c : Dev nD) (t : Fin cfg1.N) (d) : (layerDat1 V c).before 5 t d = blk1 V c 5 t :=
  held1_5_of V (layerDat1 V c) (arr_eq1 V c 5) (after1_5 V c) t d
theorem held1_6 (c : Dev nD) (t : Fin cfg1.N) (d) : (layerDat1 V c).before 6 t d = blk1 V c 6 t :=
  held1_6_of V (layerDat1 V c) (arr_eq1 V c 6) (after1_6 V c) t d

/-! ## The obligation at a generic grid point -/

/-- What the body is called with at point t, -/
def bodyPre1 (c : Dev nD) (t : Fin cfg1.N) : sProp 𝕄 :=
  iprop((layerDat1 V c).Φ t.castSucc ∗ (layerDat1 V c).owesAt () t.castSucc
    ∗ (∃ d, owns (c : Thread nD τ) (st1_0 t) fullShare ((layerDat1 V c).before 0 t d))
    ∗ (∃ d, owns (c : Thread nD τ) (st1_1 t) fullShare ((layerDat1 V c).before 1 t d))
    ∗ (∃ d, owns (c : Thread nD τ) (st1_2 t) fullShare ((layerDat1 V c).before 2 t d))
    ∗ (∃ d, owns (c : Thread nD τ) (st1_3 t) fullShare ((layerDat1 V c).before 3 t d))
    ∗ (∃ d, owns (c : Thread nD τ) (st1_4 t) fullShare ((layerDat1 V c).before 4 t d))
    ∗ (∃ d, owns (c : Thread nD τ) (st1_5 t) fullShare ((layerDat1 V c).before 5 t d))
    ∗ (∃ d, owns (c : Thread nD τ) (st1_6 t) fullShare ((layerDat1 V c).before 6 t d))
    ∗ (∃ d, owns (c : Thread nD τ) (st1_7 t) fullShare ((layerDat1 V c).before 7 t d))
    ∗ (∃ d, owns (c : Thread nD τ) (st1_8 t) fullShare ((layerDat1 V c).before 8 t d)))

/-- and what it returns. -/
def bodyPost1 (c : Dev nD) (t : Fin cfg1.N) : sProp 𝕄 :=
  iprop((layerDat1 V c).Φ t.succ ∗ (layerDat1 V c).owesAt () t.succ
    ∗ owns (c : Thread nD τ) (st1_0 t) fullShare ((layerDat1 V c).after 0 t)
    ∗ owns (c : Thread nD τ) (st1_1 t) fullShare ((layerDat1 V c).after 1 t)
    ∗ owns (c : Thread nD τ) (st1_2 t) fullShare ((layerDat1 V c).after 2 t)
    ∗ owns (c : Thread nD τ) (st1_3 t) fullShare ((layerDat1 V c).after 3 t)
    ∗ owns (c : Thread nD τ) (st1_4 t) fullShare ((layerDat1 V c).after 4 t)
    ∗ owns (c : Thread nD τ) (st1_5 t) fullShare ((layerDat1 V c).after 5 t)
    ∗ owns (c : Thread nD τ) (st1_6 t) fullShare ((layerDat1 V c).after 6 t)
    ∗ owns (c : Thread nD τ) (st1_7 t) fullShare ((layerDat1 V c).after 7 t)
    ∗ owns (c : Thread nD τ) (st1_8 t) fullShare ((layerDat1 V c).after 8 t))

theorem bodyAtPoint1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4, held1_5, held1_6]
  rw [show (layerDat1 V c).Φ t.succ = (layerDat1 V c).Φ t.castSucc from rfl,
    show (layerDat1 V c).owesAt () t.succ = (layerDat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun1 c Set.univ _ _ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem bodyOblig1 (c : Dev nD) : BodyObligation (layerDat1 (F := F) V c) (defs₀ (F := F)) Variants.none () Set.univ := fun t => by
  rw [bigSep_W1, bigSep_W1]
  exact bodyAtPoint1 V c t

end Cert.Kernel.Layer

end
-- ==== Proof.BitsBody2.lean ====
/-
  Layer 3 of the message-passing network, as one pipelined region over 100 row blocks of 3000 x 64.
  At grid point t the body reads the block of the current embeddings, the block of the aggregated neighbours,
  the two 64 x 64 weight matrices and the two bias rows of the layer, and the block of the running sum; it writes
  the block of the new embeddings (the leaky-rectified sum of the two affine branches) and the block of the running
  sum increased by the row-normalised new embeddings. This file states what the body leaves in the two output
  buffers as functions of the seven input blocks, runs the body symbolically against that, and packages the result
  as the pipeline's per-point obligation, for any contents V the region is entered with and any float instance.
-/
import proofs.«179311_j1056561954898_1_alg».proof.Proof.Gen.Kernel.Launch
import proofs.«179311_j1056561954898_1_alg».proof.Proof.Gen.Kernel.Skeleton
import proofs.«179311_j1056561954898_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window w's block at grid point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the array at every grid point, whether the pipeline fetched it
    there or kept it from the point before (the block index did not move). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's staging buffer holds its block of the array at every grid point, whether the pipeline fetched it
    there or kept it from the point before (the block index did not move). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's staging buffer holds its block of the array at every grid point, whether the pipeline fetched it
    there or kept it from the point before (the block index did not move). -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3's staging buffer holds its block of the array at every grid point, whether the pipeline fetched it
    there or kept it from the point before (the block index did not move). -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Input window 4's staging buffer holds its block of the array at every grid point, whether the pipeline fetched it
    there or kept it from the point before (the block index did not move). -/
theorem held2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- Input window 5's staging buffer holds its block of the array at every grid point, whether the pipeline fetched it
    there or kept it from the point before (the block index did not move). -/
theorem held2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-- Input window 6's staging buffer holds its block of the array at every grid point, whether the pipeline fetched it
    there or kept it from the point before (the block index did not move). -/
theorem held2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes: whole staging buffers -/

abbrev rowsRect2 : Rect S3000x64 := Rect.unit (s := S3000x64) ![0, 0] S3000x64.size inb_S3000x64_S3000x64_0_0
abbrev matRect2 : Rect S64x64 := Rect.unit (s := S64x64) ![0, 0] S64x64.size inb_S64x64_S64x64_0_0
abbrev biasRect2 : Rect S1x64 := Rect.unit (s := S1x64) ![0, 0] S1x64.size inb_S1x64_S1x64_0_0

/-- The new embeddings' buffer after the body: one store of the whole block, the leaky-rectified sum of the two
    affine branches of the six blocks read. -/
def egoOut2 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect2, k2_pay2 (View.ld x0 rowsRect2) (View.ld x1 rowsRect2) (View.ld x2 matRect2) (View.ld x3 biasRect2) (View.ld x4 matRect2) (View.ld x5 biasRect2)⟩]

/-- The running sum's buffer after the body: one store of the whole block, the sum read plus the new embeddings
    divided row by row by their Euclidean norm (bounded below by the small constant). -/
def accOut2 (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) : Vec F S3000x64 .f32 :=
  View.canon [⟨rowsRect2, k2_pay1 (k2_pay3 (View.ld x0 rowsRect2) (View.ld x1 rowsRect2) (View.ld x2 matRect2) (View.ld x3 biasRect2) (View.ld x4 matRect2) (View.ld x5 biasRect2)) (View.ld x6 rowsRect2)⟩]

/-- One store of the whole rectangle covers the buffer. -/
theorem cover2 (p0 : Vec F S3000x64 .f32) (y : S3000x64.Idx) :
    ∃ pc ∈ ([⟨rowsRect2, p0⟩] : List (View.Piece (Elt F) S3000x64 .f32)), y ∈ pc.1.set :=
  View.cover_of_tiled [⟨rowsRect2, p0⟩] S3000x64.size (by rfl) y

/-! ## The body, run symbolically -/

set_option maxHeartbeats 4000000 in
/-- From the seven input buffers at given contents and the two output buffers at anything, the body runs to its
    return with the inputs as they were and the outputs at the two functions above. -/
theorem bodyRun2 (c : Dev nD) (E : Set ℕ) (i : grid2.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole) (arg9 : Memref sig .tc .vmem S3000x64 .f32) (harg9 : arg9.IsWhole)
    (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (egoOut2 x0 x1 x2 x3 x4 x5) ∗ owns (c : Thread nD τ) arg9 fullShare (accOut2 x0 x1 x2 x3 x4 x5 x6)) -∗ K ⟨⟩))
      ⊢ wp frame (wpE (defs₀ (F := F)) Variants.none c none) E (cc2__gnn_layer_kernel i arg1 harg1 arg2 harg2 arg3 harg3 arg4 harg4 arg5 harg5 arg6 harg6 arg7 harg7 arg8 harg8 arg9 harg9) K := by
  simp only [cc2__gnn_layer_kernel_eq_skeleton]; unfold cc2__gnn_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover2 _)
  iexists _; isplitr
  swap; · iexact H8
  ipureintro
  try dsimp only
  exact View.read_writes_eq_canon _ _ _ (cover2 _)

/-! ## The pipeline's proof data -/

/-- The region's proof data on core c: the arrays as found; after the body at point t every input buffer at its
    block and the two output buffers at the functions above of the input blocks; the scoped rest and the generator
    register as the invariant; nothing owed; full shares. -/
def layerDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => egoOut2 (blk2 V c 0 t) (blk2 V c 1 t) (blk2 V c 2 t) (blk2 V c 3 t) (blk2 V c 4 t) (blk2 V c 5 t)
    | ⟨8, _⟩ => accOut2 (blk2 V c 0 t) (blk2 V c 1 t) (blk2 V c 2 t) (blk2 V c 3 t) (blk2 V c 4 t) (blk2 V c 5 t) (blk2 V c 6 t)
  Φ _ := Pipeline.ΦA spec2 c
  q _ := fullShare
  owed _ := 0

theorem arr_eq2 (c : Dev nD) (w : Fin cfg2.W) : (layerDat2 V c).A w = V c (Pipeline.arrRef spec2 w) := by
  dsimp only [layerDat2]

theorem after2_0 (c : Dev nD) (t : Fin cfg2.N) : (layerDat2 V c).after 0 t = blk2 V c 0 t := by dsimp only [layerDat2]
theorem after2_1 (c : Dev nD) (t : Fin cfg2.N) : (layerDat2 V c).after 1 t = blk2 V c 1 t := by dsimp only [layerDat2]
theorem after2_2 (c : Dev nD) (t : Fin cfg2.N) : (layerDat2 V c).after 2 t = blk2 V c 2 t := by dsimp only [layerDat2]
theorem after2_3 (c : Dev nD) (t : Fin cfg2.N) : (layerDat2 V c).after 3 t = blk2 V c 3 t := by dsimp only [layerDat2]
theorem after2_4 (c : Dev nD) (t : Fin cfg2.N) : (layerDat2 V c).after 4 t = blk2 V c 4 t := by dsimp only [layerDat2]
theorem after2_5 (c : Dev nD) (t : Fin cfg2.N) : (layerDat2 V c).after 5 t = blk2 V c 5 t := by dsimp only [layerDat2]
theorem after2_6 (c : Dev nD) (t : Fin cfg2.N) : (layerDat2 V c).after 6 t = blk2 V c 6 t := by dsimp only [layerDat2]
theorem after2_7 (c : Dev nD) (t : Fin cfg2.N) : (layerDat2 V c).after 7 t = egoOut2 (blk2 V c 0 t) (blk2 V c 1 t) (blk2 V c 2 t) (blk2 V c 3 t) (blk2 V c 4 t) (blk2 V c 5 t) := by dsimp only [layerDat2]
theorem after2_8 (c : Dev nD) (t : Fin cfg2.N) : (layerDat2 V c).after 8 t = accOut2 (blk2 V c 0 t) (blk2 V c 1 t) (blk2 V c 2 t) (blk2 V c 3 t) (blk2 V c 4 t) (blk2 V c 5 t) (blk2 V c 6 t) := by dsimp only [layerDat2]

theorem held2_0 (c : Dev nD) (t : Fin cfg2.N) (d) : (layerDat2 V c).before 0 t d = blk2 V c 0 t :=
  held2_0_of V (layerDat2 V c) (arr_eq2 V c 0) (after2_0 V c) t d
theorem held2_1 (c : Dev nD) (t : Fin cfg2.N) (d) : (layerDat2 V c).before 1 t d = blk2 V c 1 t :=
  held2_1_of V (layerDat2 V c) (arr_eq2 V c 1) (after2_1 V c) t d
theorem held2_2 (c : Dev nD) (t : Fin cfg2.N) (d) : (layerDat2 V c).before 2 t d = blk2 V c 2 t :=
  held2_2_of V (layerDat2 V c) (arr_eq2 V c 2) (after2_2 V c) t d
theorem held2_3 (c : Dev nD) (t : Fin cfg2.N) (d) : (layerDat2 V c).before 3 t d = blk2 V c 3 t :=
  held2_3_of V (layerDat2 V c) (arr_eq2 V c 3) (after2_3 V c) t d
theorem held2_4 (c : Dev nD) (t : Fin cfg2.N) (d) : (layerDat2 V c).before 4 t d = blk2 V c 4 t :=
  held2_4_of V (layerDat2 V c) (arr_eq2 V c 4) (after2_4 V c) t d
theorem held2_5 (c : Dev nD) (t : Fin cfg2.N) (d) : (layerDat2 V c).before 5 t d = blk2 V c 5 t :=
  held2_5_of V (layerDat2 V c) (arr_eq2 V c 5) (after2_5 V c) t d
theorem held2_6 (c : Dev nD) (t : Fin cfg2.N) (d) : (layerDat2 V c).before 6 t d = blk2 V c 6 t :=
  held2_6_of V (layerDat2 V c) (arr_eq2 V c 6) (after2_6 V c) t d

/-! ## The obligation at a generic grid point -/

/-- What the body is called with at point t, -/
def bodyPre2 (c : Dev nD) (t : Fin cfg2.N) : sProp 𝕄 :=
  iprop((layerDat2 V c).Φ t.castSucc ∗ (layerDat2 V c).owesAt () t.castSucc
    ∗ (∃ d, owns (c : Thread nD τ) (st2_0 t) fullShare ((layerDat2 V c).before 0 t d))
    ∗ (∃ d, owns (c : Thread nD τ) (st2_1 t) fullShare ((layerDat2 V c).before 1 t d))
    ∗ (∃ d, owns (c : Thread nD τ) (st2_2 t) fullShare ((layerDat2 V c).before 2 t d))
    ∗ (∃ d, owns (c : Thread nD τ) (st2_3 t) fullShare ((layerDat2 V c).before 3 t d))
    ∗ (∃ d, owns (c : Thread nD τ) (st2_4 t) fullShare ((layerDat2 V c).before 4 t d))
    ∗ (∃ d, owns (c : Thread nD τ) (st2_5 t) fullShare ((layerDat2 V c).before 5 t d))
    ∗ (∃ d, owns (c : Thread nD τ) (st2_6 t) fullShare ((layerDat2 V c).before 6 t d))
    ∗ (∃ d, owns (c : Thread nD τ) (st2_7 t) fullShare ((layerDat2 V c).before 7 t d))
    ∗ (∃ d, owns (c : Thread nD τ) (st2_8 t) fullShare ((layerDat2 V c).before 8 t d)))

/-- and what it returns. -/
def bodyPost2 (c : Dev nD) (t : Fin cfg2.N) : sProp 𝕄 :=
  iprop((layerDat2 V c).Φ t.succ ∗ (layerDat2 V c).owesAt () t.succ
    ∗ owns (c : Thread nD τ) (st2_0 t) fullShare ((layerDat2 V c).after 0 t)
    ∗ owns (c : Thread nD τ) (st2_1 t) fullShare ((layerDat2 V c).after 1 t)
    ∗ owns (c : Thread nD τ) (st2_2 t) fullShare ((layerDat2 V c).after 2 t)
    ∗ owns (c : Thread nD τ) (st2_3 t) fullShare ((layerDat2 V c).after 3 t)
    ∗ owns (c : Thread nD τ) (st2_4 t) fullShare ((layerDat2 V c).after 4 t)
    ∗ owns (c : Thread nD τ) (st2_5 t) fullShare ((layerDat2 V c).after 5 t)
    ∗ owns (c : Thread nD τ) (st2_6 t) fullShare ((layerDat2 V c).after 6 t)
    ∗ owns (c : Thread nD τ) (st2_7 t) fullShare ((layerDat2 V c).after 7 t)
    ∗ owns (c : Thread nD τ) (st2_8 t) fullShare ((layerDat2 V c).after 8 t))

theorem bodyAtPoint2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2, held2_3, held2_4, held2_5, held2_6]
  rw [show (layerDat2 V c).Φ t.succ = (layerDat2 V c).Φ t.castSucc from rfl,
    show (layerDat2 V c).owesAt () t.succ = (layerDat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun2 c Set.univ _ _ _ _ _ _ _ _ _ _ _ _ _ _ _ _ _ _ _ (blk2 V c 0 t) (blk2 V c 1 t) (blk2 V c 2 t) (blk2 V c 3 t) (blk2 V c 4 t) (blk2 V c 5 t) (blk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem bodyOblig2 (c : Dev nD) : BodyObligation (layerDat2 (F := F) V c) (defs₀ (F := F)) Variants.none () Set.univ := fun t => by
  rw [bigSep_W2, bigSep_W2]
  exact bodyAtPoint2 V c t

end Cert.Kernel.Layer

end
-- ==== Proof.BitsFold.lean ====
/-
  The buffer contents at each boundary of the program's seven segments, as a fold from the launch memory: a host
  stretch applies its operations; a layer region leaves its two result arrays at what its blocks' write-backs make of
  them and every other buffer as it found it. With them the proof data of the three regions, each at its region's
  entry contents, and what rides beside the buffers through every segment.
-/
import proofs.«179311_j1056561954898_1_alg».proof.Proof.BitsBody0
import proofs.«179311_j1056561954898_1_alg».proof.Proof.BitsBody1
import proofs.«179311_j1056561954898_1_alg».proof.Proof.BitsBody2

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffer contents at each boundary -/

/-- At launch. -/
abbrev W0 : Dev nD → Valuation τ sig (Elt F) := fun c b => (s₀ m ρ).mem ((c : Dev nD), b)
/-- After the first host stretch (layer 1's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After layer 1's region: the two result arrays at what the pipeline leaves, every other buffer as entered (the
    region's inputs among them: it is handed one array twice, so the results are placed by name). -/
def W2 (c : Dev nD) : Valuation τ sig (Elt F) :=
  Function.update (Function.update (W1 m ρ c) (Proc.devRef .tc main_v22_0) ((layerDat0 (V1 m ρ) c).arrAt 7 cfg0.N))
    (Proc.devRef .tc main_v22_1) ((layerDat0 (V1 m ρ) c).arrAt 8 cfg0.N)
abbrev V2 : (c : Dev nD) → (b : Ref sig .tc) → Buf (Elt F) ((c : Thread nD τ).loc b) := fun c b => W2 m ρ c b
theorem W2_egoOut (c : Dev nD) : W2 m ρ c (Proc.devRef .tc main_v22_0) = (layerDat0 (V1 m ρ) c).arrAt 7 cfg0.N := by
  unfold W2
  rw [Function.update_of_ne (StableHlo.devRef_ne_of_ne (by decide)), Function.update_self]
theorem W2_accOut (c : Dev nD) : W2 m ρ c (Proc.devRef .tc main_v22_1) = (layerDat0 (V1 m ρ) c).arrAt 8 cfg0.N := by
  unfold W2
  rw [Function.update_self]
theorem W2_of_ne (c : Dev nD) (b : Ref sig .tc) (h0 : b ≠ main_v22_0) (h1 : b ≠ main_v22_1) :
    W2 m ρ c (Proc.devRef .tc b) = W1 m ρ c (Proc.devRef .tc b) := by
  unfold W2
  rw [Function.update_of_ne (StableHlo.devRef_ne_of_ne h1), Function.update_of_ne (StableHlo.devRef_ne_of_ne h0)]
/-- An input window's array is as entered after the region. -/
theorem exitIn0 (c : Dev nD) (w : Fin cfg0.W) (hw : (cfg0.win w).isOut = false) (h0 : Pipeline.arrRef spec0 w ≠ main_v22_0) (h1 : Pipeline.arrRef spec0 w ≠ main_v22_1) :
    (layerDat0 (V1 m ρ) c).arrAt w cfg0.N = V2 m ρ c (Pipeline.arrRef spec0 w) :=
  (((layerDat0 (V1 m ρ) c).arrAt_in w hw _).trans (arr_eq0 (V1 m ρ) c w)).trans (W2_of_ne m ρ c _ h0 h1).symm
theorem exitArr0 (c : Dev nD) (w : Fin cfg0.W) : (layerDat0 (V1 m ρ) c).arrAt w cfg0.N = V2 m ρ c (Pipeline.arrRef spec0 w) := by
  match w with
  | ⟨0, _⟩ => exact exitIn0 m ρ c 0 rfl (by decide) (by decide)
  | ⟨1, _⟩ => exact exitIn0 m ρ c 1 rfl (by decide) (by decide)
  | ⟨2, _⟩ => exact exitIn0 m ρ c 2 rfl (by decide) (by decide)
  | ⟨3, _⟩ => exact exitIn0 m ρ c 3 rfl (by decide) (by decide)
  | ⟨4, _⟩ => exact exitIn0 m ρ c 4 rfl (by decide) (by decide)
  | ⟨5, _⟩ => exact exitIn0 m ρ c 5 rfl (by decide) (by decide)
  | ⟨6, _⟩ => exact exitIn0 m ρ c 6 rfl (by decide) (by decide)
  | ⟨7, _⟩ => exact (W2_egoOut m ρ c).symm
  | ⟨8, _⟩ => exact (W2_accOut m ρ c).symm
theorem exitRest0 (c : Dev nD) : ∀ b, b ∉ Finset.univ.image (Pipeline.arrRef spec0) → V2 m ρ c b = V1 m ρ c b :=
  fun b hb => W2_of_ne m ρ c b (fun e => hb (Finset.mem_image.mpr ⟨7, Finset.mem_univ _, e.symm⟩)) (fun e => hb (Finset.mem_image.mpr ⟨8, Finset.mem_univ _, e.symm⟩))

/-- After the second host stretch (layer 2's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After layer 2's region: its arrays at what the pipeline leaves (the inputs as entered, each output the fold of its
    blocks' write-backs), every other buffer as entered. -/
def W4 (c : Dev nD) : Valuation τ sig (Elt F) :=
  Pipeline.withArrays spec1 c (W3 m ρ c) fun w => (layerDat1 (V3 m ρ) c).arrAt w cfg1.N
theorem W4_arr (c : Dev nD) (w : Fin cfg1.W) :
    W4 m ρ c (Proc.devRef .tc (Pipeline.arrRef spec1 w)) = (layerDat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exitArr1 (c : Dev nD) (w : Fin cfg1.W) : (layerDat1 (V3 m ρ) c).arrAt w cfg1.N = V4 m ρ c (Pipeline.arrRef spec1 w) :=
  (W4_arr m ρ c w).symm
theorem exitRest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (layer 3's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After layer 3's region: its arrays at what the pipeline leaves (the inputs as entered, each output the fold of its
    blocks' write-backs), every other buffer as entered. -/
def W6 (c : Dev nD) : Valuation τ sig (Elt F) :=
  Pipeline.withArrays spec2 c (W5 m ρ c) fun w => (layerDat2 (V5 m ρ) c).arrAt w cfg2.N
theorem W6_arr (c : Dev nD) (w : Fin cfg2.W) :
    W6 m ρ c (Proc.devRef .tc (Pipeline.arrRef spec2 w)) = (layerDat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem exitArr2 (c : Dev nD) (w : Fin cfg2.W) : (layerDat2 (V5 m ρ) c).arrAt w cfg2.N = V6 m ρ c (Pipeline.arrRef spec2 w) :=
  (W6_arr m ρ c w).symm
theorem exitRest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the program's end. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => layerDat0 (V1 m ρ) c
  | ⟨1, _⟩ => fun c => layerDat1 (V3 m ρ) c
  | ⟨2, _⟩ => fun c => layerDat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the end's contents, the generator register at some state. -/
abbrev lastState (c : Dev nD) : sProp 𝕄 := iprop(StableHlo.held (c : Thread nD τ) (Pipeline.ucRefs τ sig) (W7 m ρ c) ∗ ∃ r, prngReg c r)

end Cert.Kernel.Layer

end
-- ==== Proof.LibSharedArrays.lean ====
/-
  Arrays that several input windows of one kernel region read.

  A kernel may be handed one array through several input windows (a matrix read as a left half and a right half, each
  by its own window). The pipeline then holds that array once per window, each window at its own share of it, and the
  shares of the windows on one buffer add up to the whole. This file regroups a core's unscoped buffers that way: a
  separating conjunction over an index set is the conjunction, over the values a function takes on it, of the
  conjunctions over the fibres; the buffers behind a region's arrays, each whole at the full share, are the pipeline's
  arrays with the windows of one fibre holding their shares; so a core's unscoped buffers at contents V are the
  region's arrays at V and the rest (the form a region is entered and left in), whether or not the arrays are distinct.
  A fibre of one window holds the full share; a fibre of two windows holds the two halves of it.
  For any signature, any type of values and any pipeline configuration.
-/
import Idealize.ShloMosaic.Lib.Pipeline.Launch

noncomputable section

namespace Idealize.ShloMosaic.Pipeline

open Idealize.SL
open Idealize.SL.BI (sProp bigSep bigSep_insert bigSep_congr bigSep_sdiff_split bigSep_filter_split bigSep_singleton)
open scoped Idealize.SL.BI
open Idealize.SL.BI.BIBase Idealize.SL.BI.Laws Idealize.SL.Sem Idealize.SL.ProofMode
open Idealize.SL.RA
open Idealize.ShloMosaic.TcCoe

set_option Elab.async false

/-- A separating conjunction over s, regrouped by the value of f: over each value b that f takes on s, the
    conjunction over the members of s that f sends to b. -/
theorem bigSep_fiberwise {M : Type _} [URA M] {I J : Type _} [DecidableEq I] [DecidableEq J] (s : Finset I) (f : I → J)
    (Φ : I → sProp M) :
    bigSep s Φ = bigSep (s.image f) fun b => bigSep (s.filter fun i => f i = b) Φ := by
  classical
  generalize hT : s.image f = T
  induction T using Finset.induction_on generalizing s with
  | empty =>
    have hs : s = ∅ := Finset.image_eq_empty.mp hT
    subst hs; rfl
  | insert b T hb ih =>
    have himg : (s.filter fun i => ¬ f i = b).image f = T := by
      ext x
      constructor
      · intro hx
        obtain ⟨i, hi, rfl⟩ := Finset.mem_image.mp hx
        have hi' := Finset.mem_filter.mp hi
        have : f i ∈ insert b T := hT ▸ Finset.mem_image_of_mem f hi'.1
        exact (Finset.mem_insert.mp this).resolve_left hi'.2
      · intro hx
        have : x ∈ s.image f := hT ▸ Finset.mem_insert_of_mem hx
        obtain ⟨i, hi, rfl⟩ := Finset.mem_image.mp this
        exact Finset.mem_image.mpr ⟨i, Finset.mem_filter.mpr ⟨hi, fun e => hb (e ▸ hx)⟩, rfl⟩
    rw [bigSep_insert hb, bigSep_filter_split s (fun i => f i = b), ih _ himg]
    refine congrArg _ (bigSep_congr fun b' hb' => ?_)
    refine congrArg (fun t => bigSep t Φ) ?_
    ext i
    simp only [Finset.mem_filter]
    constructor
    · rintro ⟨⟨hi, -⟩, e⟩; exact ⟨hi, e⟩
    · rintro ⟨hi, e⟩; exact ⟨⟨hi, fun e' => hb (e' ▸ e ▸ hb')⟩, e⟩

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

/-- What the windows on buffer b hold of it together is the whole of it: the condition under which a region's arrays
    are exactly the buffers behind them. -/
def FibreShares (cfg : Cfg sig Λ₀) (c : Dev nD) (dat : Dat τ Val Ix Name U Lvl cfg c) : Prop :=
  ∀ b ∈ Finset.univ.image (arrRef cfg.spec), ∀ g : Buf Val ((c.tc : Thread nD τ).loc b),
    ((((c.tc : Thread nD τ).loc b) ↦{fullShare} g) : sProp 𝕄)
      = bigSep (Finset.univ.filter fun w : Fin cfg.W => arrRef cfg.spec w = b) fun w => (((c.tc : Thread nD τ).loc b) ↦{dat.share w} g)

/-- The buffers behind a region's arrays, each whole at the full share at contents V, are the pipeline's arrays at V:
    every window holds its share of its array, the windows on one buffer the whole of it between them. -/
theorem arrBufs_eq_arrays (cfg : Cfg sig Λ₀) (c : Dev nD) (dat : Dat τ Val Ix Name U Lvl cfg c)
    (harr : ∀ w, (cfg.spec w).arr.IsWhole) (hfib : FibreShares cfg c dat)
    (V : (b : Ref sig .tc) → Buf Val ((c.tc : Thread nD τ).loc b))
    (F : (w : Fin cfg.W) → Buf Val ((cfg.win w).arr.view.loc (c.tc : Thread nD τ))) (hF : ∀ w, F w = V (arrRef cfg.spec w)) :
    (arrBufs cfg.spec c V : sProp 𝕄) = dat.arrays F := by
  classical
  unfold arrBufs Dat.arrays
  rw [bigSep_fiberwise Finset.univ (arrRef cfg.spec)]
  refine bigSep_congr fun b hb => ?_
  rw [hfib b hb (V b)]
  refine bigSep_congr fun w hw => ?_
  have e : arrRef cfg.spec w = b := (Finset.mem_filter.mp hw).2
  subst e
  rw [(harr w).set_eq_univ, hF]

/-- A core's unscoped buffers at contents V are a region's arrays at V and the unscoped rest, the arrays distinct or
    not: the form in which a region's arrays are taken out of the thread's buffers at its entry and put back at its
    exit. -/
theorem unscopedBufs_eq_arrays_rest (cfg : Cfg sig Λ₀) (c : Dev nD) (dat : Dat τ Val Ix Name U Lvl cfg c)
    (hun : ∀ w, (arrRef cfg.spec w).isScoped = false)
    (harr : ∀ w, (cfg.spec w).arr.IsWhole) (hfib : FibreShares cfg c dat)
    (V : (b : Ref sig .tc) → Buf Val ((c.tc : Thread nD τ).loc b))
    (F : (w : Fin cfg.W) → Buf Val ((cfg.win w).arr.view.loc (c.tc : Thread nD τ))) (hF : ∀ w, F w = V (arrRef cfg.spec w)) :
    (unscopedBufs c V : sProp 𝕄) = iprop(dat.arrays F ∗ unscopedRest cfg.spec c V) := by
  classical
  have hA : Finset.univ.image (arrRef cfg.spec) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  rw [← arrBufs_eq_arrays cfg c dat harr hfib V F hF]
  unfold unscopedBufs unscopedRest arrBufs
  rw [bigSep_sdiff_split hA]
  rfl

/-- EXIT with the arrays at new contents: the region's arrays at F and the unscoped rest at V are the core's unscoped
    buffers at any V' that has the arrays at F and agrees with V off them. -/
theorem unscopedBufs_of_arrays_rest (cfg : Cfg sig Λ₀) (c : Dev nD) (dat : Dat τ Val Ix Name U Lvl cfg c)
    (hun : ∀ w, (arrRef cfg.spec w).isScoped = false)
    (harr : ∀ w, (cfg.spec w).arr.IsWhole) (hfib : FibreShares cfg c dat)
    (V V' : (b : Ref sig .tc) → Buf Val ((c.tc : Thread nD τ).loc b))
    (F : (w : Fin cfg.W) → Buf Val ((cfg.win w).arr.view.loc (c.tc : Thread nD τ))) (hF : ∀ w, F w = V' (arrRef cfg.spec w))
    (hrest : ∀ b, b ∉ Finset.univ.image (arrRef cfg.spec) → V' b = V b) :
    iprop(dat.arrays F ∗ unscopedRest cfg.spec c V) ⊢ (unscopedBufs c V' : sProp 𝕄) := by
  rw [unscopedBufs_eq_arrays_rest cfg c dat hun harr hfib V' F hF]
  refine sep_mono .rfl (Entails.of_eq ?_)
  unfold unscopedRest
  exact bigSep_congr fun b hb => by rw [hrest b (Finset.mem_sdiff.mp hb).2]

/-- A buffer one window reads, held at the full share. -/
theorem fibre_one {ℓ : Loc nD τ sig} (g : Buf Val ℓ) {W : Nat} (S : Finset (Fin W)) (w : Fin W) (hS : S = {w})
    (q : Fin W → PosShare TreeShare) (hq : q w = fullShare) :
    ((ℓ ↦{fullShare} g) : sProp 𝕄) = bigSep S fun w' => (ℓ ↦{q w'} g) := by
  subst hS; rw [bigSep_singleton, hq]

/-- A buffer two windows read, one at each half of the full share. -/
theorem fibre_two {ℓ : Loc nD τ sig} (g : Buf Val ℓ) {W : Nat} (S : Finset (Fin W)) (w₁ w₂ : Fin W) (hne : w₁ ≠ w₂) (hS : S = {w₁, w₂})
    (q : Fin W → PosShare TreeShare) (hq₁ : q w₁ = fullShare.left) (hq₂ : q w₂ = fullShare.right) :
    ((ℓ ↦{fullShare} g) : sProp 𝕄) = bigSep S fun w' => (ℓ ↦{q w'} g) := by
  subst hS
  rw [bigSep_insert (by simpa using hne), bigSep_singleton, hq₁, hq₂]
  have h : ((ℓ ↦{fullShare} g) : sProp 𝕄) ⊣⊢ iprop((ℓ ↦{fullShare.left} g) ∗ (ℓ ↦{fullShare.right} g)) :=
    pointsTo_share (PosShare.mem_left_op_right fullShare)
  exact Idealize.SL.BI.equiv_iff.mp ⟨h.1, h.2⟩

end Idealize.ShloMosaic.Pipeline
-- ==== Proof.BitsReg0.lean ====
/-
  Layer 1's region as a segment of the program. It is handed the starting embeddings twice, as the embeddings and as
  the running sum's first term, so two of its windows read one array: each holds half of it, and the region's arrays
  are taken out of the core's buffers, and put back, by regrouping over the arrays' fibres.
-/
import proofs.«179311_j1056561954898_1_alg».proof.Proof.BitsFold
import proofs.«179311_j1056561954898_1_alg».proof.Proof.LibSharedArrays

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Layer 1's region: one array behind two windows -/

theorem unscoped0 : ∀ w : Fin cfg0.W, (Pipeline.arrRef spec0 w).isScoped = false := by decide

/-- Which windows of layer 1's region read the array window w reads: the first and the seventh read one array, every
    other window's array is its own. -/
theorem fibreSets0 : ∀ w : Fin 9, (Finset.univ.filter fun w' : Fin 9 => Pipeline.arrRef spec0 w' = Pipeline.arrRef spec0 w)
    = if w = 0 ∨ w = 6 then {0, 6} else {w} := by decide

set_option maxHeartbeats 1000000 in
/-- The array behind window w, held whole, is that array held by each window that reads it at that window's share:
    the starting embeddings' two windows hold a half each, every other array's one window holds all of it. -/
theorem fibreAt0 (c : Dev nD) (w : Fin 9) (g : Buf (Elt F) ((c.tc : Thread nD τ).loc (Pipeline.arrRef spec0 w))) :
    ((((c.tc : Thread nD τ).loc (Pipeline.arrRef spec0 w)) ↦{fullShare} g) : sProp 𝕄)
      = bigSep (Finset.univ.filter fun w' : Fin 9 => Pipeline.arrRef spec0 w' = Pipeline.arrRef spec0 w)
          fun w' => (((c.tc : Thread nD τ).loc (Pipeline.arrRef spec0 w)) ↦{(layerDat0 (V1 m ρ) c).share w'} g) := by
  match w with
  | ⟨0, _⟩ => rw [fibreSets0, if_pos (by decide +revert)]; exact Pipeline.fibre_two g _ 0 6 (by decide) rfl _ rfl rfl
  | ⟨1, _⟩ => rw [fibreSets0, if_neg (by decide +revert)]; exact Pipeline.fibre_one g _ 1 rfl _ rfl
  | ⟨2, _⟩ => rw [fibreSets0, if_neg (by decide +revert)]; exact Pipeline.fibre_one g _ 2 rfl _ rfl
  | ⟨3, _⟩ => rw [fibreSets0, if_neg (by decide +revert)]; exact Pipeline.fibre_one g _ 3 rfl _ rfl
  | ⟨4, _⟩ => rw [fibreSets0, if_neg (by decide +revert)]; exact Pipeline.fibre_one g _ 4 rfl _ rfl
  | ⟨5, _⟩ => rw [fibreSets0, if_neg (by decide +revert)]; exact Pipeline.fibre_one g _ 5 rfl _ rfl
  | ⟨6, _⟩ => rw [fibreSets0, if_pos (by decide +revert)]; exact Pipeline.fibre_two g _ 0 6 (by decide) rfl _ rfl rfl
  | ⟨7, _⟩ => rw [fibreSets0, if_neg (by decide +revert)]; exact Pipeline.fibre_one g _ 7 rfl _ rfl
  | ⟨8, _⟩ => rw [fibreSets0, if_neg (by decide +revert)]; exact Pipeline.fibre_one g _ 8 rfl _ rfl

set_option maxHeartbeats 2000000 in
set_option backward.isDefEq.respectTransparency.types false in
/-- The windows on each array of layer 1's region hold the whole of it between them. -/
theorem fibres0 (c : Dev nD) : Pipeline.FibreShares (Ix := Unit) (Name := ℕ) (U := UR sig nD τ) (Lvl := ℕ) (Pipeline.pin (pcfgs (F := F)) adm 0) c (pdats m ρ 0 c) := by
  intro b hb g
  obtain ⟨w, -, rfl⟩ := Finset.mem_image.mp hb
  exact fibreAt0 m ρ c w g

set_option maxHeartbeats 2000000 in
set_option backward.isDefEq.respectTransparency.types false in
/-- Layer 1's region over the thread state. Its arrays are taken out of the unscoped buffers and put back by the
    regrouping over the arrays' fibres, since two of its windows read one array. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (bodyOblig0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.unscopedBufs_eq_arrays_rest (Ix := Unit) (Name := ℕ) (U := UR sig nD τ) (Lvl := ℕ) (Pipeline.pin (pcfgs (F := F)) adm 0) c (pdats m ρ 0 c)
      unscoped0 arr_whole0 (fibres0 m ρ c) (V1 m ρ c) ((pdats m ρ 0 c).arrAt · 0) (fun _ => rfl)
    rw [Pipeline.unscopedBufs_held] at hsplit
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_rest (Ix := Unit) (Name := ℕ) (U := UR sig nD τ) (Lvl := ℕ) (Pipeline.pin (pcfgs (F := F)) adm 0) c (pdats m ρ 0 c)
      unscoped0 arr_whole0 (fibres0 m ρ c) (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Layer

end
-- ==== Proof.BitsReg1.lean ====
/-
  Layer 2's region as a segment of the program: its nine windows read nine distinct arrays.
-/
import proofs.«179311_j1056561954898_1_alg».proof.Proof.BitsFold

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Layer 2 -/

set_option maxHeartbeats 2000000 in
set_option backward.isDefEq.respectTransparency.types false in
/-- Layer 2's region over the thread state: entered with every unscoped buffer at the contents before it, left with
    them at the contents after it; its arrays are split out of the unscoped buffers on entry and put back on exit, the
    generator register passes through the invariant, nothing is owed, the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (bodyOblig1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Layer

end
-- ==== Proof.BitsReg2.lean ====
/-
  Layer 3's region as a segment of the program: its nine windows read nine distinct arrays.
-/
import proofs.«179311_j1056561954898_1_alg».proof.Proof.BitsFold

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Layer 3 -/

set_option maxHeartbeats 2000000 in
set_option backward.isDefEq.respectTransparency.types false in
/-- Layer 3's region over the thread state: entered with every unscoped buffer at the contents before it, left with
    them at the contents after it; its arrays are split out of the unscoped buffers on entry and put back on exit, the
    generator register passes through the invariant, nothing is owed, the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (bodyOblig2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Layer

end
-- ==== Proof.BitsRun.lean ====
/-
  The whole program as its seven segments, launched: every weakly fair execution terminates without fault, and every
  unscoped buffer of every core ends at the last boundary's contents (the results among them, and the arguments).
-/
import proofs.«179311_j1056561954898_1_alg».proof.Proof.BitsReg0
import proofs.«179311_j1056561954898_1_alg».proof.Proof.BitsReg1
import proofs.«179311_j1056561954898_1_alg».proof.Proof.BitsReg2

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option backward.isDefEq.respectTransparency.types false in
/-- Every weakly fair execution of the program from memory m with zero counters terminates, nothing faulting, and
    every unscoped buffer of every core ends at the last boundary's contents. -/
theorem runAll : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := lastState m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(lastState m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Layer

end
-- ==== Proof.BitsArgs.lean ====
/-
  The nine argument arrays reach the end of the program as launched: no host stretch writes one, and a layer region
  changes only its two result arrays. Read back through the fold of boundary contents, stretch by stretch.
-/
import proofs.«179311_j1056561954898_1_alg».proof.Proof.BitsFold
import proofs.«179311_j1056561954898_1_alg».proof.Proof.Gen.Kernel.Regions

set_option maxRecDepth 16384

noncomputable section

namespace Cert.Kernel.Layer

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer no operation of a host stretch writes is as it was after the stretch. -/
theorem keep0 (W : Valuation τ sig (Elt F)) (r : Ref sig .tc) (h : r ∉ hostOps0_W) : StableHlo.after hostOps0 W (Proc.devRef .tc r) = W (Proc.devRef .tc r) :=
  StableHlo.after_of_writes_sub hostOps0 _ hostOps0_writes h
theorem keep1 (W : Valuation τ sig (Elt F)) (r : Ref sig .tc) (h : r ∉ hostOps1_W) : StableHlo.after hostOps1 W (Proc.devRef .tc r) = W (Proc.devRef .tc r) :=
  StableHlo.after_of_writes_sub hostOps1 _ hostOps1_writes h
theorem keep2 (W : Valuation τ sig (Elt F)) (r : Ref sig .tc) (h : r ∉ hostOps2_W) : StableHlo.after hostOps2 W (Proc.devRef .tc r) = W (Proc.devRef .tc r) :=
  StableHlo.after_of_writes_sub hostOps2 _ hostOps2_writes h
theorem keep3 (W : Valuation τ sig (Elt F)) (r : Ref sig .tc) (h : r ∉ hostOps3_W) : StableHlo.after hostOps3 W (Proc.devRef .tc r) = W (Proc.devRef .tc r) :=
  StableHlo.after_of_writes_sub hostOps3 _ hostOps3_writes h

/-- A buffer that no stretch writes and that is no region's result holds its launch contents at every boundary. -/
theorem untouched (c : Dev nD) (r : Ref sig .tc) (h0 : r ∉ hostOps0_W) (ha : r ≠ main_v22_0) (hb : r ≠ main_v22_1)
    (h1 : r ∉ hostOps1_W) (h4 : ∀ w, Pipeline.arrRef spec1 w ≠ r) (h2 : r ∉ hostOps2_W) (h6 : ∀ w, Pipeline.arrRef spec2 w ≠ r) :
    W1 m ρ c (Proc.devRef .tc r) = W0 m ρ c (Proc.devRef .tc r) ∧ W2 m ρ c (Proc.devRef .tc r) = W0 m ρ c (Proc.devRef .tc r)
    ∧ W3 m ρ c (Proc.devRef .tc r) = W0 m ρ c (Proc.devRef .tc r) ∧ W4 m ρ c (Proc.devRef .tc r) = W0 m ρ c (Proc.devRef .tc r)
    ∧ W5 m ρ c (Proc.devRef .tc r) = W0 m ρ c (Proc.devRef .tc r) ∧ W6 m ρ c (Proc.devRef .tc r) = W0 m ρ c (Proc.devRef .tc r) := by
  have e1 : W1 m ρ c (Proc.devRef .tc r) = W0 m ρ c (Proc.devRef .tc r) := keep0 _ r h0
  have e2 : W2 m ρ c (Proc.devRef .tc r) = W0 m ρ c (Proc.devRef .tc r) := (W2_of_ne m ρ c r ha hb).trans e1
  have e3 : W3 m ρ c (Proc.devRef .tc r) = W0 m ρ c (Proc.devRef .tc r) := (keep1 _ r h1).trans e2
  have e4 : W4 m ρ c (Proc.devRef .tc r) = W0 m ρ c (Proc.devRef .tc r) := (W4_of_ne m ρ c r h4).trans e3
  have e5 : W5 m ρ c (Proc.devRef .tc r) = W0 m ρ c (Proc.devRef .tc r) := (keep2 _ r h2).trans e4
  have e6 : W6 m ρ c (Proc.devRef .tc r) = W0 m ρ c (Proc.devRef .tc r) := (W6_of_ne m ρ c r h6).trans e5
  exact ⟨e1, e2, e3, e4, e5, e6⟩

/-- Such a buffer ends the program at its launch contents. -/
theorem untouchedEnd (c : Dev nD) (r : Ref sig .tc) (h0 : r ∉ hostOps0_W) (ha : r ≠ main_v22_0) (hb : r ≠ main_v22_1)
    (h1 : r ∉ hostOps1_W) (h4 : ∀ w, Pipeline.arrRef spec1 w ≠ r) (h2 : r ∉ hostOps2_W) (h6 : ∀ w, Pipeline.arrRef spec2 w ≠ r)
    (h3 : r ∉ hostOps3_W) : W7 m ρ c (Proc.devRef .tc r) = m ((c : Thread nD τ).loc r) :=
  ((keep3 _ r h3).trans (untouched m ρ c r h0 ha hb h1 h4 h2 h6).2.2.2.2.2).trans rfl

theorem end_arg0 (c : Dev nD) : W7 m ρ c (Proc.devRef .tc main_arg0) = m ((c : Thread nD τ).loc main_arg0) :=
  untouchedEnd m ρ c main_arg0 (by decide) (by decide) (by decide) (by decide) (by decide) (by decide) (by decide) (by decide)
theorem end_arg1 (c : Dev nD) : W7 m ρ c (Proc.devRef .tc main_arg1) = m ((c : Thread nD τ).loc main_arg1) :=
  untouchedEnd m ρ c main_arg1 (by decide) (by decide) (by decide) (by decide) (by decide) (by decide) (by decide) (by decide)
theorem end_arg2 (c : Dev nD) : W7 m ρ c (Proc.devRef .tc main_arg2) = m ((c : Thread nD τ).loc main_arg2) :=
  untouchedEnd m ρ c main_arg2 (by decide) (by decide) (by decide) (by decide) (by decide) (by decide) (by decide) (by decide)
theorem end_arg3 (c : Dev nD) : W7 m ρ c (Proc.devRef .tc main_arg3) = m ((c : Thread nD τ).loc main_arg3) :=
  untouchedEnd m ρ c main_arg3 (by decide) (by decide) (by decide) (by decide) (by decide) (by decide) (by decide) (by decide)
theorem end_arg4 (c : Dev nD) : W7 m ρ c (Proc.devRef .tc main_arg4) = m ((c : Thread nD τ).loc main_arg4) :=
  untouchedEnd m ρ c main_arg4 (by decide) (by decide) (by decide) (by decide) (by decide) (by decide) (by decide) (by decide)
theorem end_arg5 (c : Dev nD) : W7 m ρ c (Proc.devRef .tc main_arg5) = m ((c : Thread nD τ).loc main_arg5) :=
  untouchedEnd m ρ c main_arg5 (by decide) (by decide) (by decide) (by decide) (by decide) (by decide) (by decide) (by decide)
theorem end_arg6 (c : Dev nD) : W7 m ρ c (Proc.devRef .tc main_arg6) = m ((c : Thread nD τ).loc main_arg6) :=
  untouchedEnd m ρ c main_arg6 (by decide) (by decide) (by decide) (by decide) (by decide) (by decide) (by decide) (by decide)
theorem end_arg7 (c : Dev nD) : W7 m ρ c (Proc.devRef .tc main_arg7) = m ((c : Thread nD τ).loc main_arg7) :=
  untouchedEnd m ρ c main_arg7 (by decide) (by decide) (by decide) (by decide) (by decide) (by decide) (by decide) (by decide)
theorem end_arg8 (c : Dev nD) : W7 m ρ c (Proc.devRef .tc main_arg8) = m ((c : Thread nD τ).loc main_arg8) :=
  untouchedEnd m ρ c main_arg8 (by decide) (by decide) (by decide) (by decide) (by decide) (by decide) (by decide) (by decide)

/-- An unscoped reference of the TensorCore is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Layer

end
-- ==== Proof.IdealBody0.lean ====
/-
  Layer 1 of the message-passing network, as one pipelined region over 100 row blocks of 3000 x 64.
  At grid point t the body reads the block of the current embeddings, the block of the aggregated neighbours,
  the two 64 x 64 weight matrices and the two bias rows of the layer, and the block of the running sum; it writes
  the block of the new embeddings (the leaky-rectified sum of the two affine branches) and the block of the running
  sum increased by the row-normalised new embeddings. This file states what the body leaves in the two output
  buffers as functions of the seven input blocks, runs the body symbolically against that, and packages the result
  as the pipeline's per-point obligation, for any contents V the region is entered with and any float instance.
-/
import proofs.«179311_j1056561954898_1_alg».proof.Proof.Gen.KernelIdeal.Launch
import proofs.«179311_j1056561954898_1_alg».proof.Proof.Gen.KernelIdeal.Skeleton
import proofs.«179311_j1056561954898_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window w's block at grid point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every grid point, whether the pipeline fetched it
    there or kept it from the point before (the block index did not move). -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block of the array at every grid point, whether the pipeline fetched it
    there or kept it from the point before (the block index did not move). -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block of the array at every grid point, whether the pipeline fetched it
    there or kept it from the point before (the block index did not move). -/
theorem held0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's staging buffer holds its block of the array at every grid point, whether the pipeline fetched it
    there or kept it from the point before (the block index did not move). -/
theorem held0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's staging buffer holds its block of the array at every grid point, whether the pipeline fetched it
    there or kept it from the point before (the block index did not move). -/
theorem held0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's staging buffer holds its block of the array at every grid point, whether the pipeline fetched it
    there or kept it from the point before (the block index did not move). -/
theorem held0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- Input window 6's staging buffer holds its block of the array at every grid point, whether the pipeline fetched it
    there or kept it from the point before (the block index did not move). -/
theorem held0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## What the body reads and writes: whole staging buffers -/

abbrev rowsRect0 : Rect S3000x64 := Rect.unit (s := S3000x64) ![0, 0] S3000x64.size inb_S3000x64_S3000x64_0_0
abbrev matRect0 : Rect S64x64 := Rect.unit (s := S64x64) ![0, 0] S64x64.size inb_S64x64_S64x64_0_0
abbrev biasRect0 : Rect S1x64 := Rect.unit (s := S1x64) ![0, 0] S1x64.size inb_S1x64_S1x64_0_0

/-- The new embeddings' buffer after the body: one store of the whole block, the leaky-rectified sum of the two
    affine branches of the six blocks read. -/
def egoOut0 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect0, k0_pay2 (View.ld x0 rowsRect0) (View.ld x1 rowsRect0) (View.ld x2 matRect0) (View.ld x3 biasRect0) (View.ld x4 matRect0) (View.ld x5 biasRect0)⟩]

/-- The running sum's buffer after the body: one store of the whole block, the sum read plus the new embeddings
    divided row by row by their Euclidean norm (bounded below by the small constant). -/
def accOut0 (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) : Vec F S3000x64 .f32 :=
  View.canon [⟨rowsRect0, k0_pay1 (k0_pay3 (View.ld x0 rowsRect0) (View.ld x1 rowsRect0) (View.ld x2 matRect0) (View.ld x3 biasRect0) (View.ld x4 matRect0) (View.ld x5 biasRect0)) (View.ld x6 rowsRect0)⟩]

/-- One store of the whole rectangle covers the buffer. -/
theorem cover0 (p0 : Vec F S3000x64 .f32) (y : S3000x64.Idx) :
    ∃ pc ∈ ([⟨rowsRect0, p0⟩] : List (View.Piece (Elt F) S3000x64 .f32)), y ∈ pc.1.set :=
  View.cover_of_tiled [⟨rowsRect0, p0⟩] S3000x64.size (by rfl) y

/-! ## The body, run symbolically -/

set_option maxHeartbeats 4000000 in
/-- From the seven input buffers at given contents and the two output buffers at anything, the body runs to its
    return with the inputs as they were and the outputs at the two functions above. -/
theorem bodyRun0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole) (arg9 : Memref sig .tc .vmem S3000x64 .f32) (harg9 : arg9.IsWhole)
    (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (egoOut0 x0 x1 x2 x3 x4 x5) ∗ owns (c : Thread nD τ) arg9 fullShare (accOut0 x0 x1 x2 x3 x4 x5 x6)) -∗ K ⟨⟩))
      ⊢ wp frame (wpE (defs₀ (F := F)) Variants.none c none) E (cc0__gnn_layer_kernel i arg1 harg1 arg2 harg2 arg3 harg3 arg4 harg4 arg5 harg5 arg6 harg6 arg7 harg7 arg8 harg8 arg9 harg9) K := by
  simp only [cc0__gnn_layer_kernel_eq_skeleton]; unfold cc0__gnn_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0 _)
  iexists _; isplitr
  swap; · iexact H8
  ipureintro
  try dsimp only
  exact View.read_writes_eq_canon _ _ _ (cover0 _)

/-! ## The pipeline's proof data -/

/-- The region's proof data on core c: the arrays as found; after the body at point t every input buffer at its
    block and the two output buffers at the functions above of the input blocks; the scoped rest and the generator
    register as the invariant; nothing owed; the array the first and the seventh window both read (the embeddings the layer starts from, which are also
    the running sum's first term) held half by each, every other array whole. -/
def layerDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => egoOut0 (blk0 V c 0 t) (blk0 V c 1 t) (blk0 V c 2 t) (blk0 V c 3 t) (blk0 V c 4 t) (blk0 V c 5 t)
    | ⟨8, _⟩ => accOut0 (blk0 V c 0 t) (blk0 V c 1 t) (blk0 V c 2 t) (blk0 V c 3 t) (blk0 V c 4 t) (blk0 V c 5 t) (blk0 V c 6 t)
  Φ _ := Pipeline.ΦA spec0 c
  q w := match w with
    | ⟨0, _⟩ => fullShare.left
    | ⟨6, _⟩ => fullShare.right
    | _ => fullShare
  owed _ := 0

theorem arr_eq0 (c : Dev nD) (w : Fin cfg0.W) : (layerDat0 V c).A w = V c (Pipeline.arrRef spec0 w) := by
  dsimp only [layerDat0]

theorem after0_0 (c : Dev nD) (t : Fin cfg0.N) : (layerDat0 V c).after 0 t = blk0 V c 0 t := by dsimp only [layerDat0]
theorem after0_1 (c : Dev nD) (t : Fin cfg0.N) : (layerDat0 V c).after 1 t = blk0 V c 1 t := by dsimp only [layerDat0]
theorem after0_2 (c : Dev nD) (t : Fin cfg0.N) : (layerDat0 V c).after 2 t = blk0 V c 2 t := by dsimp only [layerDat0]
theorem after0_3 (c : Dev nD) (t : Fin cfg0.N) : (layerDat0 V c).after 3 t = blk0 V c 3 t := by dsimp only [layerDat0]
theorem after0_4 (c : Dev nD) (t : Fin cfg0.N) : (layerDat0 V c).after 4 t = blk0 V c 4 t := by dsimp only [layerDat0]
theorem after0_5 (c : Dev nD) (t : Fin cfg0.N) : (layerDat0 V c).after 5 t = blk0 V c 5 t := by dsimp only [layerDat0]
theorem after0_6 (c : Dev nD) (t : Fin cfg0.N) : (layerDat0 V c).after 6 t = blk0 V c 6 t := by dsimp only [layerDat0]
theorem after0_7 (c : Dev nD) (t : Fin cfg0.N) : (layerDat0 V c).after 7 t = egoOut0 (blk0 V c 0 t) (blk0 V c 1 t) (blk0 V c 2 t) (blk0 V c 3 t) (blk0 V c 4 t) (blk0 V c 5 t) := by dsimp only [layerDat0]
theorem after0_8 (c : Dev nD) (t : Fin cfg0.N) : (layerDat0 V c).after 8 t = accOut0 (blk0 V c 0 t) (blk0 V c 1 t) (blk0 V c 2 t) (blk0 V c 3 t) (blk0 V c 4 t) (blk0 V c 5 t) (blk0 V c 6 t) := by dsimp only [layerDat0]

theorem held0_0 (c : Dev nD) (t : Fin cfg0.N) (d) : (layerDat0 V c).before 0 t d = blk0 V c 0 t :=
  held0_0_of V (layerDat0 V c) (arr_eq0 V c 0) (after0_0 V c) t d
theorem held0_1 (c : Dev nD) (t : Fin cfg0.N) (d) : (layerDat0 V c).before 1 t d = blk0 V c 1 t :=
  held0_1_of V (layerDat0 V c) (arr_eq0 V c 1) (after0_1 V c) t d
theorem held0_2 (c : Dev nD) (t : Fin cfg0.N) (d) : (layerDat0 V c).before 2 t d = blk0 V c 2 t :=
  held0_2_of V (layerDat0 V c) (arr_eq0 V c 2) (after0_2 V c) t d
theorem held0_3 (c : Dev nD) (t : Fin cfg0.N) (d) : (layerDat0 V c).before 3 t d = blk0 V c 3 t :=
  held0_3_of V (layerDat0 V c) (arr_eq0 V c 3) (after0_3 V c) t d
theorem held0_4 (c : Dev nD) (t : Fin cfg0.N) (d) : (layerDat0 V c).before 4 t d = blk0 V c 4 t :=
  held0_4_of V (layerDat0 V c) (arr_eq0 V c 4) (after0_4 V c) t d
theorem held0_5 (c : Dev nD) (t : Fin cfg0.N) (d) : (layerDat0 V c).before 5 t d = blk0 V c 5 t :=
  held0_5_of V (layerDat0 V c) (arr_eq0 V c 5) (after0_5 V c) t d
theorem held0_6 (c : Dev nD) (t : Fin cfg0.N) (d) : (layerDat0 V c).before 6 t d = blk0 V c 6 t :=
  held0_6_of V (layerDat0 V c) (arr_eq0 V c 6) (after0_6 V c) t d

/-! ## The obligation at a generic grid point -/

/-- What the body is called with at point t, -/
def bodyPre0 (c : Dev nD) (t : Fin cfg0.N) : sProp 𝕄 :=
  iprop((layerDat0 V c).Φ t.castSucc ∗ (layerDat0 V c).owesAt () t.castSucc
    ∗ (∃ d, owns (c : Thread nD τ) (st0_0 t) fullShare ((layerDat0 V c).before 0 t d))
    ∗ (∃ d, owns (c : Thread nD τ) (st0_1 t) fullShare ((layerDat0 V c).before 1 t d))
    ∗ (∃ d, owns (c : Thread nD τ) (st0_2 t) fullShare ((layerDat0 V c).before 2 t d))
    ∗ (∃ d, owns (c : Thread nD τ) (st0_3 t) fullShare ((layerDat0 V c).before 3 t d))
    ∗ (∃ d, owns (c : Thread nD τ) (st0_4 t) fullShare ((layerDat0 V c).before 4 t d))
    ∗ (∃ d, owns (c : Thread nD τ) (st0_5 t) fullShare ((layerDat0 V c).before 5 t d))
    ∗ (∃ d, owns (c : Thread nD τ) (st0_6 t) fullShare ((layerDat0 V c).before 6 t d))
    ∗ (∃ d, owns (c : Thread nD τ) (st0_7 t) fullShare ((layerDat0 V c).before 7 t d))
    ∗ (∃ d, owns (c : Thread nD τ) (st0_8 t) fullShare ((layerDat0 V c).before 8 t d)))

/-- and what it returns. -/
def bodyPost0 (c : Dev nD) (t : Fin cfg0.N) : sProp 𝕄 :=
  iprop((layerDat0 V c).Φ t.succ ∗ (layerDat0 V c).owesAt () t.succ
    ∗ owns (c : Thread nD τ) (st0_0 t) fullShare ((layerDat0 V c).after 0 t)
    ∗ owns (c : Thread nD τ) (st0_1 t) fullShare ((layerDat0 V c).after 1 t)
    ∗ owns (c : Thread nD τ) (st0_2 t) fullShare ((layerDat0 V c).after 2 t)
    ∗ owns (c : Thread nD τ) (st0_3 t) fullShare ((layerDat0 V c).after 3 t)
    ∗ owns (c : Thread nD τ) (st0_4 t) fullShare ((layerDat0 V c).after 4 t)
    ∗ owns (c : Thread nD τ) (st0_5 t) fullShare ((layerDat0 V c).after 5 t)
    ∗ owns (c : Thread nD τ) (st0_6 t) fullShare ((layerDat0 V c).after 6 t)
    ∗ owns (c : Thread nD τ) (st0_7 t) fullShare ((layerDat0 V c).after 7 t)
    ∗ owns (c : Thread nD τ) (st0_8 t) fullShare ((layerDat0 V c).after 8 t))

theorem bodyAtPoint0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5, held0_6]
  rw [show (layerDat0 V c).Φ t.succ = (layerDat0 V c).Φ t.castSucc from rfl,
    show (layerDat0 V c).owesAt () t.succ = (layerDat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun0 c Set.univ _ _ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem bodyOblig0 (c : Dev nD) : BodyObligation (layerDat0 (F := F) V c) (defs₀ (F := F)) Variants.none () Set.univ := fun t => by
  rw [bigSep_W0, bigSep_W0]
  exact bodyAtPoint0 V c t

end Cert.KernelIdeal.Layer

end
-- ==== Proof.IdealBody1.lean ====
/-
  Layer 2 of the message-passing network, as one pipelined region over 100 row blocks of 3000 x 64.
  At grid point t the body reads the block of the current embeddings, the block of the aggregated neighbours,
  the two 64 x 64 weight matrices and the two bias rows of the layer, and the block of the running sum; it writes
  the block of the new embeddings (the leaky-rectified sum of the two affine branches) and the block of the running
  sum increased by the row-normalised new embeddings. This file states what the body leaves in the two output
  buffers as functions of the seven input blocks, runs the body symbolically against that, and packages the result
  as the pipeline's per-point obligation, for any contents V the region is entered with and any float instance.
-/
import proofs.«179311_j1056561954898_1_alg».proof.Proof.Gen.KernelIdeal.Launch
import proofs.«179311_j1056561954898_1_alg».proof.Proof.Gen.KernelIdeal.Skeleton
import proofs.«179311_j1056561954898_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window w's block at grid point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the array at every grid point, whether the pipeline fetched it
    there or kept it from the point before (the block index did not move). -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block of the array at every grid point, whether the pipeline fetched it
    there or kept it from the point before (the block index did not move). -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block of the array at every grid point, whether the pipeline fetched it
    there or kept it from the point before (the block index did not move). -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's staging buffer holds its block of the array at every grid point, whether the pipeline fetched it
    there or kept it from the point before (the block index did not move). -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's staging buffer holds its block of the array at every grid point, whether the pipeline fetched it
    there or kept it from the point before (the block index did not move). -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's staging buffer holds its block of the array at every grid point, whether the pipeline fetched it
    there or kept it from the point before (the block index did not move). -/
theorem held1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Input window 6's staging buffer holds its block of the array at every grid point, whether the pipeline fetched it
    there or kept it from the point before (the block index did not move). -/
theorem held1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes: whole staging buffers -/

abbrev rowsRect1 : Rect S3000x64 := Rect.unit (s := S3000x64) ![0, 0] S3000x64.size inb_S3000x64_S3000x64_0_0
abbrev matRect1 : Rect S64x64 := Rect.unit (s := S64x64) ![0, 0] S64x64.size inb_S64x64_S64x64_0_0
abbrev biasRect1 : Rect S1x64 := Rect.unit (s := S1x64) ![0, 0] S1x64.size inb_S1x64_S1x64_0_0

/-- The new embeddings' buffer after the body: one store of the whole block, the leaky-rectified sum of the two
    affine branches of the six blocks read. -/
def egoOut1 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect1, k1_pay2 (View.ld x0 rowsRect1) (View.ld x1 rowsRect1) (View.ld x2 matRect1) (View.ld x3 biasRect1) (View.ld x4 matRect1) (View.ld x5 biasRect1)⟩]

/-- The running sum's buffer after the body: one store of the whole block, the sum read plus the new embeddings
    divided row by row by their Euclidean norm (bounded below by the small constant). -/
def accOut1 (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) : Vec F S3000x64 .f32 :=
  View.canon [⟨rowsRect1, k1_pay1 (k1_pay3 (View.ld x0 rowsRect1) (View.ld x1 rowsRect1) (View.ld x2 matRect1) (View.ld x3 biasRect1) (View.ld x4 matRect1) (View.ld x5 biasRect1)) (View.ld x6 rowsRect1)⟩]

/-- One store of the whole rectangle covers the buffer. -/
theorem cover1 (p0 : Vec F S3000x64 .f32) (y : S3000x64.Idx) :
    ∃ pc ∈ ([⟨rowsRect1, p0⟩] : List (View.Piece (Elt F) S3000x64 .f32)), y ∈ pc.1.set :=
  View.cover_of_tiled [⟨rowsRect1, p0⟩] S3000x64.size (by rfl) y

/-! ## The body, run symbolically -/

set_option maxHeartbeats 4000000 in
/-- From the seven input buffers at given contents and the two output buffers at anything, the body runs to its
    return with the inputs as they were and the outputs at the two functions above. -/
theorem bodyRun1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole) (arg9 : Memref sig .tc .vmem S3000x64 .f32) (harg9 : arg9.IsWhole)
    (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (egoOut1 x0 x1 x2 x3 x4 x5) ∗ owns (c : Thread nD τ) arg9 fullShare (accOut1 x0 x1 x2 x3 x4 x5 x6)) -∗ K ⟨⟩))
      ⊢ wp frame (wpE (defs₀ (F := F)) Variants.none c none) E (cc1__gnn_layer_kernel i arg1 harg1 arg2 harg2 arg3 harg3 arg4 harg4 arg5 harg5 arg6 harg6 arg7 harg7 arg8 harg8 arg9 harg9) K := by
  simp only [cc1__gnn_layer_kernel_eq_skeleton]; unfold cc1__gnn_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1 _)
  iexists _; isplitr
  swap; · iexact H8
  ipureintro
  try dsimp only
  exact View.read_writes_eq_canon _ _ _ (cover1 _)

/-! ## The pipeline's proof data -/

/-- The region's proof data on core c: the arrays as found; after the body at point t every input buffer at its
    block and the two output buffers at the functions above of the input blocks; the scoped rest and the generator
    register as the invariant; nothing owed; full shares. -/
def layerDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => egoOut1 (blk1 V c 0 t) (blk1 V c 1 t) (blk1 V c 2 t) (blk1 V c 3 t) (blk1 V c 4 t) (blk1 V c 5 t)
    | ⟨8, _⟩ => accOut1 (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem arr_eq1 (c : Dev nD) (w : Fin cfg1.W) : (layerDat1 V c).A w = V c (Pipeline.arrRef spec1 w) := by
  dsimp only [layerDat1]

theorem after1_0 (c : Dev nD) (t : Fin cfg1.N) : (layerDat1 V c).after 0 t = blk1 V c 0 t := by dsimp only [layerDat1]
theorem after1_1 (c : Dev nD) (t : Fin cfg1.N) : (layerDat1 V c).after 1 t = blk1 V c 1 t := by dsimp only [layerDat1]
theorem after1_2 (c : Dev nD) (t : Fin cfg1.N) : (layerDat1 V c).after 2 t = blk1 V c 2 t := by dsimp only [layerDat1]
theorem after1_3 (c : Dev nD) (t : Fin cfg1.N) : (layerDat1 V c).after 3 t = blk1 V c 3 t := by dsimp only [layerDat1]
theorem after1_4 (c : Dev nD) (t : Fin cfg1.N) : (layerDat1 V c).after 4 t = blk1 V c 4 t := by dsimp only [layerDat1]
theorem after1_5 (c : Dev nD) (t : Fin cfg1.N) : (layerDat1 V c).after 5 t = blk1 V c 5 t := by dsimp only [layerDat1]
theorem after1_6 (c : Dev nD) (t : Fin cfg1.N) : (layerDat1 V c).after 6 t = blk1 V c 6 t := by dsimp only [layerDat1]
theorem after1_7 (c : Dev nD) (t : Fin cfg1.N) : (layerDat1 V c).after 7 t = egoOut1 (blk1 V c 0 t) (blk1 V c 1 t) (blk1 V c 2 t) (blk1 V c 3 t) (blk1 V c 4 t) (blk1 V c 5 t) := by dsimp only [layerDat1]
theorem after1_8 (c : Dev nD) (t : Fin cfg1.N) : (layerDat1 V c).after 8 t = accOut1 (blk1 V c 0 t) (blk1 V c 1 t) (blk1 V c 2 t) (blk1 V c 3 t) (blk1 V c 4 t) (blk1 V c 5 t) (blk1 V c 6 t) := by dsimp only [layerDat1]

theorem held1_0 (c : Dev nD) (t : Fin cfg1.N) (d) : (layerDat1 V c).before 0 t d = blk1 V c 0 t :=
  held1_0_of V (layerDat1 V c) (arr_eq1 V c 0) (after1_0 V c) t d
theorem held1_1 (c : Dev nD) (t : Fin cfg1.N) (d) : (layerDat1 V c).before 1 t d = blk1 V c 1 t :=
  held1_1_of V (layerDat1 V c) (arr_eq1 V c 1) (after1_1 V c) t d
theorem held1_2 (c : Dev nD) (t : Fin cfg1.N) (d) : (layerDat1 V c).before 2 t d = blk1 V c 2 t :=
  held1_2_of V (layerDat1 V c) (arr_eq1 V c 2) (after1_2 V c) t d
theorem held1_3 (c : Dev nD) (t : Fin cfg1.N) (d) : (layerDat1 V c).before 3 t d = blk1 V c 3 t :=
  held1_3_of V (layerDat1 V c) (arr_eq1 V c 3) (after1_3 V c) t d
theorem held1_4 (c : Dev nD) (t : Fin cfg1.N) (d) : (layerDat1 V c).before 4 t d = blk1 V c 4 t :=
  held1_4_of V (layerDat1 V c) (arr_eq1 V c 4) (after1_4 V c) t d
theorem held1_5 (c : Dev nD) (t : Fin cfg1.N) (d) : (layerDat1 V c).before 5 t d = blk1 V c 5 t :=
  held1_5_of V (layerDat1 V c) (arr_eq1 V c 5) (after1_5 V c) t d
theorem held1_6 (c : Dev nD) (t : Fin cfg1.N) (d) : (layerDat1 V c).before 6 t d = blk1 V c 6 t :=
  held1_6_of V (layerDat1 V c) (arr_eq1 V c 6) (after1_6 V c) t d

/-! ## The obligation at a generic grid point -/

/-- What the body is called with at point t, -/
def bodyPre1 (c : Dev nD) (t : Fin cfg1.N) : sProp 𝕄 :=
  iprop((layerDat1 V c).Φ t.castSucc ∗ (layerDat1 V c).owesAt () t.castSucc
    ∗ (∃ d, owns (c : Thread nD τ) (st1_0 t) fullShare ((layerDat1 V c).before 0 t d))
    ∗ (∃ d, owns (c : Thread nD τ) (st1_1 t) fullShare ((layerDat1 V c).before 1 t d))
    ∗ (∃ d, owns (c : Thread nD τ) (st1_2 t) fullShare ((layerDat1 V c).before 2 t d))
    ∗ (∃ d, owns (c : Thread nD τ) (st1_3 t) fullShare ((layerDat1 V c).before 3 t d))
    ∗ (∃ d, owns (c : Thread nD τ) (st1_4 t) fullShare ((layerDat1 V c).before 4 t d))
    ∗ (∃ d, owns (c : Thread nD τ) (st1_5 t) fullShare ((layerDat1 V c).before 5 t d))
    ∗ (∃ d, owns (c : Thread nD τ) (st1_6 t) fullShare ((layerDat1 V c).before 6 t d))
    ∗ (∃ d, owns (c : Thread nD τ) (st1_7 t) fullShare ((layerDat1 V c).before 7 t d))
    ∗ (∃ d, owns (c : Thread nD τ) (st1_8 t) fullShare ((layerDat1 V c).before 8 t d)))

/-- and what it returns. -/
def bodyPost1 (c : Dev nD) (t : Fin cfg1.N) : sProp 𝕄 :=
  iprop((layerDat1 V c).Φ t.succ ∗ (layerDat1 V c).owesAt () t.succ
    ∗ owns (c : Thread nD τ) (st1_0 t) fullShare ((layerDat1 V c).after 0 t)
    ∗ owns (c : Thread nD τ) (st1_1 t) fullShare ((layerDat1 V c).after 1 t)
    ∗ owns (c : Thread nD τ) (st1_2 t) fullShare ((layerDat1 V c).after 2 t)
    ∗ owns (c : Thread nD τ) (st1_3 t) fullShare ((layerDat1 V c).after 3 t)
    ∗ owns (c : Thread nD τ) (st1_4 t) fullShare ((layerDat1 V c).after 4 t)
    ∗ owns (c : Thread nD τ) (st1_5 t) fullShare ((layerDat1 V c).after 5 t)
    ∗ owns (c : Thread nD τ) (st1_6 t) fullShare ((layerDat1 V c).after 6 t)
    ∗ owns (c : Thread nD τ) (st1_7 t) fullShare ((layerDat1 V c).after 7 t)
    ∗ owns (c : Thread nD τ) (st1_8 t) fullShare ((layerDat1 V c).after 8 t))

theorem bodyAtPoint1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4, held1_5, held1_6]
  rw [show (layerDat1 V c).Φ t.succ = (layerDat1 V c).Φ t.castSucc from rfl,
    show (layerDat1 V c).owesAt () t.succ = (layerDat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun1 c Set.univ _ _ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem bodyOblig1 (c : Dev nD) : BodyObligation (layerDat1 (F := F) V c) (defs₀ (F := F)) Variants.none () Set.univ := fun t => by
  rw [bigSep_W1, bigSep_W1]
  exact bodyAtPoint1 V c t

end Cert.KernelIdeal.Layer

end
-- ==== Proof.IdealBody2.lean ====
/-
  Layer 3 of the message-passing network, as one pipelined region over 100 row blocks of 3000 x 64.
  At grid point t the body reads the block of the current embeddings, the block of the aggregated neighbours,
  the two 64 x 64 weight matrices and the two bias rows of the layer, and the block of the running sum; it writes
  the block of the new embeddings (the leaky-rectified sum of the two affine branches) and the block of the running
  sum increased by the row-normalised new embeddings. This file states what the body leaves in the two output
  buffers as functions of the seven input blocks, runs the body symbolically against that, and packages the result
  as the pipeline's per-point obligation, for any contents V the region is entered with and any float instance.
-/
import proofs.«179311_j1056561954898_1_alg».proof.Proof.Gen.KernelIdeal.Launch
import proofs.«179311_j1056561954898_1_alg».proof.Proof.Gen.KernelIdeal.Skeleton
import proofs.«179311_j1056561954898_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with
variable (V : (c : Dev nD) → (b : Ref sig .tc) → Buf (Elt F) ((c : Thread nD τ).loc b))

/-! ## The windows' blocks -/

/-- Window w's block at grid point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the array at every grid point, whether the pipeline fetched it
    there or kept it from the point before (the block index did not move). -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's staging buffer holds its block of the array at every grid point, whether the pipeline fetched it
    there or kept it from the point before (the block index did not move). -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's staging buffer holds its block of the array at every grid point, whether the pipeline fetched it
    there or kept it from the point before (the block index did not move). -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Input window 3's staging buffer holds its block of the array at every grid point, whether the pipeline fetched it
    there or kept it from the point before (the block index did not move). -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Input window 4's staging buffer holds its block of the array at every grid point, whether the pipeline fetched it
    there or kept it from the point before (the block index did not move). -/
theorem held2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- Input window 5's staging buffer holds its block of the array at every grid point, whether the pipeline fetched it
    there or kept it from the point before (the block index did not move). -/
theorem held2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

/-- Input window 6's staging buffer holds its block of the array at every grid point, whether the pipeline fetched it
    there or kept it from the point before (the block index did not move). -/
theorem held2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes: whole staging buffers -/

abbrev rowsRect2 : Rect S3000x64 := Rect.unit (s := S3000x64) ![0, 0] S3000x64.size inb_S3000x64_S3000x64_0_0
abbrev matRect2 : Rect S64x64 := Rect.unit (s := S64x64) ![0, 0] S64x64.size inb_S64x64_S64x64_0_0
abbrev biasRect2 : Rect S1x64 := Rect.unit (s := S1x64) ![0, 0] S1x64.size inb_S1x64_S1x64_0_0

/-- The new embeddings' buffer after the body: one store of the whole block, the leaky-rectified sum of the two
    affine branches of the six blocks read. -/
def egoOut2 (x0 : Vec F S3000x64 .f32) (x1 : Vec F S3000x64 .f32) (x2 : Vec F S64x64 .f32) (x3 : Vec F S1x64 .f32) (x4 : Vec F S64x64 .f32) (x5 : Vec F S1x64 .f32) : Vec F S3000x64 .f32 :=
  View.canon [⟨rowsRect2, k2_pay2 (View.ld x0 rowsRect2) (View.ld x1 rowsRect2) (View.ld x2 matRect2) (View.ld x3 biasRect2) (View.ld x4 matRect2) (View.ld x5 biasRect2)⟩]

/-- The running sum's buffer after the body: one store of the whole block, the sum read plus the new embeddings
    divided row by row by their Euclidean norm (bounded below by the small constant). -/
def accOut2 (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) : Vec F S3000x64 .f32 :=
  View.canon [⟨rowsRect2, k2_pay1 (k2_pay3 (View.ld x0 rowsRect2) (View.ld x1 rowsRect2) (View.ld x2 matRect2) (View.ld x3 biasRect2) (View.ld x4 matRect2) (View.ld x5 biasRect2)) (View.ld x6 rowsRect2)⟩]

/-- One store of the whole rectangle covers the buffer. -/
theorem cover2 (p0 : Vec F S3000x64 .f32) (y : S3000x64.Idx) :
    ∃ pc ∈ ([⟨rowsRect2, p0⟩] : List (View.Piece (Elt F) S3000x64 .f32)), y ∈ pc.1.set :=
  View.cover_of_tiled [⟨rowsRect2, p0⟩] S3000x64.size (by rfl) y

/-! ## The body, run symbolically -/

set_option maxHeartbeats 4000000 in
/-- From the seven input buffers at given contents and the two output buffers at anything, the body runs to its
    return with the inputs as they were and the outputs at the two functions above. -/
theorem bodyRun2 (c : Dev nD) (E : Set ℕ) (i : grid2.Coords) (arg1 : Memref sig .tc .vmem S3000x64 .f32) (harg1 : arg1.IsWhole) (arg2 : Memref sig .tc .vmem S3000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S3000x64 .f32) (harg7 : arg7.IsWhole) (arg8 : Memref sig .tc .vmem S3000x64 .f32) (harg8 : arg8.IsWhole) (arg9 : Memref sig .tc .vmem S3000x64 .f32) (harg9 : arg9.IsWhole)
    (x0 : Vec F S3000x64 .f32) (x1 : Vec F S3000x64 .f32) (x2 : Vec F S64x64 .f32) (x3 : Vec F S1x64 .f32) (x4 : Vec F S64x64 .f32) (x5 : Vec F S1x64 .f32) (x6 : Vec F S3000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (egoOut2 x0 x1 x2 x3 x4 x5) ∗ owns (c : Thread nD τ) arg9 fullShare (accOut2 x0 x1 x2 x3 x4 x5 x6)) -∗ K ⟨⟩))
      ⊢ wp frame (wpE (defs₀ (F := F)) Variants.none c none) E (cc2__gnn_layer_kernel i arg1 harg1 arg2 harg2 arg3 harg3 arg4 harg4 arg5 harg5 arg6 harg6 arg7 harg7 arg8 harg8 arg9 harg9) K := by
  simp only [cc2__gnn_layer_kernel_eq_skeleton]; unfold cc2__gnn_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover2 _)
  iexists _; isplitr
  swap; · iexact H8
  ipureintro
  try dsimp only
  exact View.read_writes_eq_canon _ _ _ (cover2 _)

/-! ## The pipeline's proof data -/

/-- The region's proof data on core c: the arrays as found; after the body at point t every input buffer at its
    block and the two output buffers at the functions above of the input blocks; the scoped rest and the generator
    register as the invariant; nothing owed; full shares. -/
def layerDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => egoOut2 (blk2 V c 0 t) (blk2 V c 1 t) (blk2 V c 2 t) (blk2 V c 3 t) (blk2 V c 4 t) (blk2 V c 5 t)
    | ⟨8, _⟩ => accOut2 (blk2 V c 0 t) (blk2 V c 1 t) (blk2 V c 2 t) (blk2 V c 3 t) (blk2 V c 4 t) (blk2 V c 5 t) (blk2 V c 6 t)
  Φ _ := Pipeline.ΦA spec2 c
  q _ := fullShare
  owed _ := 0

theorem arr_eq2 (c : Dev nD) (w : Fin cfg2.W) : (layerDat2 V c).A w = V c (Pipeline.arrRef spec2 w) := by
  dsimp only [layerDat2]

theorem after2_0 (c : Dev nD) (t : Fin cfg2.N) : (layerDat2 V c).after 0 t = blk2 V c 0 t := by dsimp only [layerDat2]
theorem after2_1 (c : Dev nD) (t : Fin cfg2.N) : (layerDat2 V c).after 1 t = blk2 V c 1 t := by dsimp only [layerDat2]
theorem after2_2 (c : Dev nD) (t : Fin cfg2.N) : (layerDat2 V c).after 2 t = blk2 V c 2 t := by dsimp only [layerDat2]
theorem after2_3 (c : Dev nD) (t : Fin cfg2.N) : (layerDat2 V c).after 3 t = blk2 V c 3 t := by dsimp only [layerDat2]
theorem after2_4 (c : Dev nD) (t : Fin cfg2.N) : (layerDat2 V c).after 4 t = blk2 V c 4 t := by dsimp only [layerDat2]
theorem after2_5 (c : Dev nD) (t : Fin cfg2.N) : (layerDat2 V c).after 5 t = blk2 V c 5 t := by dsimp only [layerDat2]
theorem after2_6 (c : Dev nD) (t : Fin cfg2.N) : (layerDat2 V c).after 6 t = blk2 V c 6 t := by dsimp only [layerDat2]
theorem after2_7 (c : Dev nD) (t : Fin cfg2.N) : (layerDat2 V c).after 7 t = egoOut2 (blk2 V c 0 t) (blk2 V c 1 t) (blk2 V c 2 t) (blk2 V c 3 t) (blk2 V c 4 t) (blk2 V c 5 t) := by dsimp only [layerDat2]
theorem after2_8 (c : Dev nD) (t : Fin cfg2.N) : (layerDat2 V c).after 8 t = accOut2 (blk2 V c 0 t) (blk2 V c 1 t) (blk2 V c 2 t) (blk2 V c 3 t) (blk2 V c 4 t) (blk2 V c 5 t) (blk2 V c 6 t) := by dsimp only [layerDat2]

theorem held2_0 (c : Dev nD) (t : Fin cfg2.N) (d) : (layerDat2 V c).before 0 t d = blk2 V c 0 t :=
  held2_0_of V (layerDat2 V c) (arr_eq2 V c 0) (after2_0 V c) t d
theorem held2_1 (c : Dev nD) (t : Fin cfg2.N) (d) : (layerDat2 V c).before 1 t d = blk2 V c 1 t :=
  held2_1_of V (layerDat2 V c) (arr_eq2 V c 1) (after2_1 V c) t d
theorem held2_2 (c : Dev nD) (t : Fin cfg2.N) (d) : (layerDat2 V c).before 2 t d = blk2 V c 2 t :=
  held2_2_of V (layerDat2 V c) (arr_eq2 V c 2) (after2_2 V c) t d
theorem held2_3 (c : Dev nD) (t : Fin cfg2.N) (d) : (layerDat2 V c).before 3 t d = blk2 V c 3 t :=
  held2_3_of V (layerDat2 V c) (arr_eq2 V c 3) (after2_3 V c) t d
theorem held2_4 (c : Dev nD) (t : Fin cfg2.N) (d) : (layerDat2 V c).before 4 t d = blk2 V c 4 t :=
  held2_4_of V (layerDat2 V c) (arr_eq2 V c 4) (after2_4 V c) t d
theorem held2_5 (c : Dev nD) (t : Fin cfg2.N) (d) : (layerDat2 V c).before 5 t d = blk2 V c 5 t :=
  held2_5_of V (layerDat2 V c) (arr_eq2 V c 5) (after2_5 V c) t d
theorem held2_6 (c : Dev nD) (t : Fin cfg2.N) (d) : (layerDat2 V c).before 6 t d = blk2 V c 6 t :=
  held2_6_of V (layerDat2 V c) (arr_eq2 V c 6) (after2_6 V c) t d

/-! ## The obligation at a generic grid point -/

/-- What the body is called with at point t, -/
def bodyPre2 (c : Dev nD) (t : Fin cfg2.N) : sProp 𝕄 :=
  iprop((layerDat2 V c).Φ t.castSucc ∗ (layerDat2 V c).owesAt () t.castSucc
    ∗ (∃ d, owns (c : Thread nD τ) (st2_0 t) fullShare ((layerDat2 V c).before 0 t d))
    ∗ (∃ d, owns (c : Thread nD τ) (st2_1 t) fullShare ((layerDat2 V c).before 1 t d))
    ∗ (∃ d, owns (c : Thread nD τ) (st2_2 t) fullShare ((layerDat2 V c).before 2 t d))
    ∗ (∃ d, owns (c : Thread nD τ) (st2_3 t) fullShare ((layerDat2 V c).before 3 t d))
    ∗ (∃ d, owns (c : Thread nD τ) (st2_4 t) fullShare ((layerDat2 V c).before 4 t d))
    ∗ (∃ d, owns (c : Thread nD τ) (st2_5 t) fullShare ((layerDat2 V c).before 5 t d))
    ∗ (∃ d, owns (c : Thread nD τ) (st2_6 t) fullShare ((layerDat2 V c).before 6 t d))
    ∗ (∃ d, owns (c : Thread nD τ) (st2_7 t) fullShare ((layerDat2 V c).before 7 t d))
    ∗ (∃ d, owns (c : Thread nD τ) (st2_8 t) fullShare ((layerDat2 V c).before 8 t d)))

/-- and what it returns. -/
def bodyPost2 (c : Dev nD) (t : Fin cfg2.N) : sProp 𝕄 :=
  iprop((layerDat2 V c).Φ t.succ ∗ (layerDat2 V c).owesAt () t.succ
    ∗ owns (c : Thread nD τ) (st2_0 t) fullShare ((layerDat2 V c).after 0 t)
    ∗ owns (c : Thread nD τ) (st2_1 t) fullShare ((layerDat2 V c).after 1 t)
    ∗ owns (c : Thread nD τ) (st2_2 t) fullShare ((layerDat2 V c).after 2 t)
    ∗ owns (c : Thread nD τ) (st2_3 t) fullShare ((layerDat2 V c).after 3 t)
    ∗ owns (c : Thread nD τ) (st2_4 t) fullShare ((layerDat2 V c).after 4 t)
    ∗ owns (c : Thread nD τ) (st2_5 t) fullShare ((layerDat2 V c).after 5 t)
    ∗ owns (c : Thread nD τ) (st2_6 t) fullShare ((layerDat2 V c).after 6 t)
    ∗ owns (c : Thread nD τ) (st2_7 t) fullShare ((layerDat2 V c).after 7 t)
    ∗ owns (c : Thread nD τ) (st2_8 t) fullShare ((layerDat2 V c).after 8 t))

theorem bodyAtPoint2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1, held2_2, held2_3, held2_4, held2_5, held2_6]
  rw [show (layerDat2 V c).Φ t.succ = (layerDat2 V c).Φ t.castSucc from rfl,
    show (layerDat2 V c).owesAt () t.succ = (layerDat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun2 c Set.univ _ _ _ _ _ _ _ _ _ _ _ _ _ _ _ _ _ _ _ (blk2 V c 0 t) (blk2 V c 1 t) (blk2 V c 2 t) (blk2 V c 3 t) (blk2 V c 4 t) (blk2 V c 5 t) (blk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem bodyOblig2 (c : Dev nD) : BodyObligation (layerDat2 (F := F) V c) (defs₀ (F := F)) Variants.none () Set.univ := fun t => by
  rw [bigSep_W2, bigSep_W2]
  exact bodyAtPoint2 V c t

end Cert.KernelIdeal.Layer

end
-- ==== Proof.IdealFold.lean ====
/-
  The buffer contents at each boundary of the program's seven segments, as a fold from the launch memory: a host
  stretch applies its operations; a layer region leaves its two result arrays at what its blocks' write-backs make of
  them and every other buffer as it found it. With them the proof data of the three regions, each at its region's
  entry contents, and what rides beside the buffers through every segment.
-/
import proofs.«179311_j1056561954898_1_alg».proof.Proof.IdealBody0
import proofs.«179311_j1056561954898_1_alg».proof.Proof.IdealBody1
import proofs.«179311_j1056561954898_1_alg».proof.Proof.IdealBody2

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffer contents at each boundary -/

/-- At launch. -/
abbrev W0 : Dev nD → Valuation τ sig (Elt F) := fun c b => (s₀ m ρ).mem ((c : Dev nD), b)
/-- After the first host stretch (layer 1's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After layer 1's region: the two result arrays at what the pipeline leaves, every other buffer as entered (the
    region's inputs among them: it is handed one array twice, so the results are placed by name). -/
def W2 (c : Dev nD) : Valuation τ sig (Elt F) :=
  Function.update (Function.update (W1 m ρ c) (Proc.devRef .tc main_v22_0) ((layerDat0 (V1 m ρ) c).arrAt 7 cfg0.N))
    (Proc.devRef .tc main_v22_1) ((layerDat0 (V1 m ρ) c).arrAt 8 cfg0.N)
abbrev V2 : (c : Dev nD) → (b : Ref sig .tc) → Buf (Elt F) ((c : Thread nD τ).loc b) := fun c b => W2 m ρ c b
theorem W2_egoOut (c : Dev nD) : W2 m ρ c (Proc.devRef .tc main_v22_0) = (layerDat0 (V1 m ρ) c).arrAt 7 cfg0.N := by
  unfold W2
  rw [Function.update_of_ne (StableHlo.devRef_ne_of_ne (by decide)), Function.update_self]
theorem W2_accOut (c : Dev nD) : W2 m ρ c (Proc.devRef .tc main_v22_1) = (layerDat0 (V1 m ρ) c).arrAt 8 cfg0.N := by
  unfold W2
  rw [Function.update_self]
theorem W2_of_ne (c : Dev nD) (b : Ref sig .tc) (h0 : b ≠ main_v22_0) (h1 : b ≠ main_v22_1) :
    W2 m ρ c (Proc.devRef .tc b) = W1 m ρ c (Proc.devRef .tc b) := by
  unfold W2
  rw [Function.update_of_ne (StableHlo.devRef_ne_of_ne h1), Function.update_of_ne (StableHlo.devRef_ne_of_ne h0)]
/-- An input window's array is as entered after the region. -/
theorem exitIn0 (c : Dev nD) (w : Fin cfg0.W) (hw : (cfg0.win w).isOut = false) (h0 : Pipeline.arrRef spec0 w ≠ main_v22_0) (h1 : Pipeline.arrRef spec0 w ≠ main_v22_1) :
    (layerDat0 (V1 m ρ) c).arrAt w cfg0.N = V2 m ρ c (Pipeline.arrRef spec0 w) :=
  (((layerDat0 (V1 m ρ) c).arrAt_in w hw _).trans (arr_eq0 (V1 m ρ) c w)).trans (W2_of_ne m ρ c _ h0 h1).symm
theorem exitArr0 (c : Dev nD) (w : Fin cfg0.W) : (layerDat0 (V1 m ρ) c).arrAt w cfg0.N = V2 m ρ c (Pipeline.arrRef spec0 w) := by
  match w with
  | ⟨0, _⟩ => exact exitIn0 m ρ c 0 rfl (by decide) (by decide)
  | ⟨1, _⟩ => exact exitIn0 m ρ c 1 rfl (by decide) (by decide)
  | ⟨2, _⟩ => exact exitIn0 m ρ c 2 rfl (by decide) (by decide)
  | ⟨3, _⟩ => exact exitIn0 m ρ c 3 rfl (by decide) (by decide)
  | ⟨4, _⟩ => exact exitIn0 m ρ c 4 rfl (by decide) (by decide)
  | ⟨5, _⟩ => exact exitIn0 m ρ c 5 rfl (by decide) (by decide)
  | ⟨6, _⟩ => exact exitIn0 m ρ c 6 rfl (by decide) (by decide)
  | ⟨7, _⟩ => exact (W2_egoOut m ρ c).symm
  | ⟨8, _⟩ => exact (W2_accOut m ρ c).symm
theorem exitRest0 (c : Dev nD) : ∀ b, b ∉ Finset.univ.image (Pipeline.arrRef spec0) → V2 m ρ c b = V1 m ρ c b :=
  fun b hb => W2_of_ne m ρ c b (fun e => hb (Finset.mem_image.mpr ⟨7, Finset.mem_univ _, e.symm⟩)) (fun e => hb (Finset.mem_image.mpr ⟨8, Finset.mem_univ _, e.symm⟩))

/-- After the second host stretch (layer 2's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After layer 2's region: its arrays at what the pipeline leaves (the inputs as entered, each output the fold of its
    blocks' write-backs), every other buffer as entered. -/
def W4 (c : Dev nD) : Valuation τ sig (Elt F) :=
  Pipeline.withArrays spec1 c (W3 m ρ c) fun w => (layerDat1 (V3 m ρ) c).arrAt w cfg1.N
theorem W4_arr (c : Dev nD) (w : Fin cfg1.W) :
    W4 m ρ c (Proc.devRef .tc (Pipeline.arrRef spec1 w)) = (layerDat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exitArr1 (c : Dev nD) (w : Fin cfg1.W) : (layerDat1 (V3 m ρ) c).arrAt w cfg1.N = V4 m ρ c (Pipeline.arrRef spec1 w) :=
  (W4_arr m ρ c w).symm
theorem exitRest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (layer 3's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After layer 3's region: its arrays at what the pipeline leaves (the inputs as entered, each output the fold of its
    blocks' write-backs), every other buffer as entered. -/
def W6 (c : Dev nD) : Valuation τ sig (Elt F) :=
  Pipeline.withArrays spec2 c (W5 m ρ c) fun w => (layerDat2 (V5 m ρ) c).arrAt w cfg2.N
theorem W6_arr (c : Dev nD) (w : Fin cfg2.W) :
    W6 m ρ c (Proc.devRef .tc (Pipeline.arrRef spec2 w)) = (layerDat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem exitArr2 (c : Dev nD) (w : Fin cfg2.W) : (layerDat2 (V5 m ρ) c).arrAt w cfg2.N = V6 m ρ c (Pipeline.arrRef spec2 w) :=
  (W6_arr m ρ c w).symm
theorem exitRest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the program's end. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => layerDat0 (V1 m ρ) c
  | ⟨1, _⟩ => fun c => layerDat1 (V3 m ρ) c
  | ⟨2, _⟩ => fun c => layerDat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the end's contents, the generator register at some state. -/
abbrev lastState (c : Dev nD) : sProp 𝕄 := iprop(StableHlo.held (c : Thread nD τ) (Pipeline.ucRefs τ sig) (W7 m ρ c) ∗ ∃ r, prngReg c r)

end Cert.KernelIdeal.Layer

end
-- ==== Proof.IdealReg0.lean ====
/-
  Layer 1's region as a segment of the program. It is handed the starting embeddings twice, as the embeddings and as
  the running sum's first term, so two of its windows read one array: each holds half of it, and the region's arrays
  are taken out of the core's buffers, and put back, by regrouping over the arrays' fibres.
-/
import proofs.«179311_j1056561954898_1_alg».proof.Proof.IdealFold
import proofs.«179311_j1056561954898_1_alg».proof.Proof.LibSharedArrays

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Layer 1's region: one array behind two windows -/

theorem unscoped0 : ∀ w : Fin cfg0.W, (Pipeline.arrRef spec0 w).isScoped = false := by decide

/-- Which windows of layer 1's region read the array window w reads: the first and the seventh read one array, every
    other window's array is its own. -/
theorem fibreSets0 : ∀ w : Fin 9, (Finset.univ.filter fun w' : Fin 9 => Pipeline.arrRef spec0 w' = Pipeline.arrRef spec0 w)
    = if w = 0 ∨ w = 6 then {0, 6} else {w} := by decide

set_option maxHeartbeats 1000000 in
/-- The array behind window w, held whole, is that array held by each window that reads it at that window's share:
    the starting embeddings' two windows hold a half each, every other array's one window holds all of it. -/
theorem fibreAt0 (c : Dev nD) (w : Fin 9) (g : Buf (Elt F) ((c.tc : Thread nD τ).loc (Pipeline.arrRef spec0 w))) :
    ((((c.tc : Thread nD τ).loc (Pipeline.arrRef spec0 w)) ↦{fullShare} g) : sProp 𝕄)
      = bigSep (Finset.univ.filter fun w' : Fin 9 => Pipeline.arrRef spec0 w' = Pipeline.arrRef spec0 w)
          fun w' => (((c.tc : Thread nD τ).loc (Pipeline.arrRef spec0 w)) ↦{(layerDat0 (V1 m ρ) c).share w'} g) := by
  match w with
  | ⟨0, _⟩ => rw [fibreSets0, if_pos (by decide +revert)]; exact Pipeline.fibre_two g _ 0 6 (by decide) rfl _ rfl rfl
  | ⟨1, _⟩ => rw [fibreSets0, if_neg (by decide +revert)]; exact Pipeline.fibre_one g _ 1 rfl _ rfl
  | ⟨2, _⟩ => rw [fibreSets0, if_neg (by decide +revert)]; exact Pipeline.fibre_one g _ 2 rfl _ rfl
  | ⟨3, _⟩ => rw [fibreSets0, if_neg (by decide +revert)]; exact Pipeline.fibre_one g _ 3 rfl _ rfl
  | ⟨4, _⟩ => rw [fibreSets0, if_neg (by decide +revert)]; exact Pipeline.fibre_one g _ 4 rfl _ rfl
  | ⟨5, _⟩ => rw [fibreSets0, if_neg (by decide +revert)]; exact Pipeline.fibre_one g _ 5 rfl _ rfl
  | ⟨6, _⟩ => rw [fibreSets0, if_pos (by decide +revert)]; exact Pipeline.fibre_two g _ 0 6 (by decide) rfl _ rfl rfl
  | ⟨7, _⟩ => rw [fibreSets0, if_neg (by decide +revert)]; exact Pipeline.fibre_one g _ 7 rfl _ rfl
  | ⟨8, _⟩ => rw [fibreSets0, if_neg (by decide +revert)]; exact Pipeline.fibre_one g _ 8 rfl _ rfl

set_option maxHeartbeats 2000000 in
set_option backward.isDefEq.respectTransparency.types false in
/-- The windows on each array of layer 1's region hold the whole of it between them. -/
theorem fibres0 (c : Dev nD) : Pipeline.FibreShares (Ix := Unit) (Name := ℕ) (U := UR sig nD τ) (Lvl := ℕ) (Pipeline.pin (pcfgs (F := F)) adm 0) c (pdats m ρ 0 c) := by
  intro b hb g
  obtain ⟨w, -, rfl⟩ := Finset.mem_image.mp hb
  exact fibreAt0 m ρ c w g

set_option maxHeartbeats 2000000 in
set_option backward.isDefEq.respectTransparency.types false in
/-- Layer 1's region over the thread state. Its arrays are taken out of the unscoped buffers and put back by the
    regrouping over the arrays' fibres, since two of its windows read one array. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (bodyOblig0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.unscopedBufs_eq_arrays_rest (Ix := Unit) (Name := ℕ) (U := UR sig nD τ) (Lvl := ℕ) (Pipeline.pin (pcfgs (F := F)) adm 0) c (pdats m ρ 0 c)
      unscoped0 arr_whole0 (fibres0 m ρ c) (V1 m ρ c) ((pdats m ρ 0 c).arrAt · 0) (fun _ => rfl)
    rw [Pipeline.unscopedBufs_held] at hsplit
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_rest (Ix := Unit) (Name := ℕ) (U := UR sig nD τ) (Lvl := ℕ) (Pipeline.pin (pcfgs (F := F)) adm 0) c (pdats m ρ 0 c)
      unscoped0 arr_whole0 (fibres0 m ρ c) (V1 m ρ c) (V2 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Layer

end
-- ==== Proof.IdealReg1.lean ====
/-
  Layer 2's region as a segment of the program: its nine windows read nine distinct arrays.
-/
import proofs.«179311_j1056561954898_1_alg».proof.Proof.IdealFold

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Layer 2 -/

set_option maxHeartbeats 2000000 in
set_option backward.isDefEq.respectTransparency.types false in
/-- Layer 2's region over the thread state: entered with every unscoped buffer at the contents before it, left with
    them at the contents after it; its arrays are split out of the unscoped buffers on entry and put back on exit, the
    generator register passes through the invariant, nothing is owed, the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (bodyOblig1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Layer

end
-- ==== Proof.IdealReg2.lean ====
/-
  Layer 3's region as a segment of the program: its nine windows read nine distinct arrays.
-/
import proofs.«179311_j1056561954898_1_alg».proof.Proof.IdealFold

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Layer 3 -/

set_option maxHeartbeats 2000000 in
set_option backward.isDefEq.respectTransparency.types false in
/-- Layer 3's region over the thread state: entered with every unscoped buffer at the contents before it, left with
    them at the contents after it; its arrays are split out of the unscoped buffers on entry and put back on exit, the
    generator register passes through the invariant, nothing is owed, the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (bodyOblig2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Layer

end
-- ==== Proof.IdealRun.lean ====
/-
  The whole program as its seven segments, launched: every weakly fair execution terminates without fault, and every
  unscoped buffer of every core ends at the last boundary's contents (the results among them, and the arguments).
-/
import proofs.«179311_j1056561954898_1_alg».proof.Proof.IdealReg0
import proofs.«179311_j1056561954898_1_alg».proof.Proof.IdealReg1
import proofs.«179311_j1056561954898_1_alg».proof.Proof.IdealReg2

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

set_option backward.isDefEq.respectTransparency.types false in
/-- Every weakly fair execution of the program from memory m with zero counters terminates, nothing faulting, and
    every unscoped buffer of every core ends at the last boundary's contents. -/
theorem runAll : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := lastState m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(lastState m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Layer

end
-- ==== Proof.IdealArgs.lean ====
/-
  The nine argument arrays reach the end of the program as launched: no host stretch writes one, and a layer region
  changes only its two result arrays. Read back through the fold of boundary contents, stretch by stretch.
-/
import proofs.«179311_j1056561954898_1_alg».proof.Proof.IdealFold
import proofs.«179311_j1056561954898_1_alg».proof.Proof.Gen.KernelIdeal.Regions

set_option maxRecDepth 16384

noncomputable section

namespace Cert.KernelIdeal.Layer

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer no operation of a host stretch writes is as it was after the stretch. -/
theorem keep0 (W : Valuation τ sig (Elt F)) (r : Ref sig .tc) (h : r ∉ hostOps0_W) : StableHlo.after hostOps0 W (Proc.devRef .tc r) = W (Proc.devRef .tc r) :=
  StableHlo.after_of_writes_sub hostOps0 _ hostOps0_writes h
theorem keep1 (W : Valuation τ sig (Elt F)) (r : Ref sig .tc) (h : r ∉ hostOps1_W) : StableHlo.after hostOps1 W (Proc.devRef .tc r) = W (Proc.devRef .tc r) :=
  StableHlo.after_of_writes_sub hostOps1 _ hostOps1_writes h
theorem keep2 (W : Valuation τ sig (Elt F)) (r : Ref sig .tc) (h : r ∉ hostOps2_W) : StableHlo.after hostOps2 W (Proc.devRef .tc r) = W (Proc.devRef .tc r) :=
  StableHlo.after_of_writes_sub hostOps2 _ hostOps2_writes h
theorem keep3 (W : Valuation τ sig (Elt F)) (r : Ref sig .tc) (h : r ∉ hostOps3_W) : StableHlo.after hostOps3 W (Proc.devRef .tc r) = W (Proc.devRef .tc r) :=
  StableHlo.after_of_writes_sub hostOps3 _ hostOps3_writes h

/-- A buffer that no stretch writes and that is no region's result holds its launch contents at every boundary. -/
theorem untouched (c : Dev nD) (r : Ref sig .tc) (h0 : r ∉ hostOps0_W) (ha : r ≠ main_v22_0) (hb : r ≠ main_v22_1)
    (h1 : r ∉ hostOps1_W) (h4 : ∀ w, Pipeline.arrRef spec1 w ≠ r) (h2 : r ∉ hostOps2_W) (h6 : ∀ w, Pipeline.arrRef spec2 w ≠ r) :
    W1 m ρ c (Proc.devRef .tc r) = W0 m ρ c (Proc.devRef .tc r) ∧ W2 m ρ c (Proc.devRef .tc r) = W0 m ρ c (Proc.devRef .tc r)
    ∧ W3 m ρ c (Proc.devRef .tc r) = W0 m ρ c (Proc.devRef .tc r) ∧ W4 m ρ c (Proc.devRef .tc r) = W0 m ρ c (Proc.devRef .tc r)
    ∧ W5 m ρ c (Proc.devRef .tc r) = W0 m ρ c (Proc.devRef .tc r) ∧ W6 m ρ c (Proc.devRef .tc r) = W0 m ρ c (Proc.devRef .tc r) := by
  have e1 : W1 m ρ c (Proc.devRef .tc r) = W0 m ρ c (Proc.devRef .tc r) := keep0 _ r h0
  have e2 : W2 m ρ c (Proc.devRef .tc r) = W0 m ρ c (Proc.devRef .tc r) := (W2_of_ne m ρ c r ha hb).trans e1
  have e3 : W3 m ρ c (Proc.devRef .tc r) = W0 m ρ c (Proc.devRef .tc r) := (keep1 _ r h1).trans e2
  have e4 : W4 m ρ c (Proc.devRef .tc r) = W0 m ρ c (Proc.devRef .tc r) := (W4_of_ne m ρ c r h4).trans e3
  have e5 : W5 m ρ c (Proc.devRef .tc r) = W0 m ρ c (Proc.devRef .tc r) := (keep2 _ r h2).trans e4
  have e6 : W6 m ρ c (Proc.devRef .tc r) = W0 m ρ c (Proc.devRef .tc r) := (W6_of_ne m ρ c r h6).trans e5
  exact ⟨e1, e2, e3, e4, e5, e6⟩

/-- Such a buffer ends the program at its launch contents. -/
theorem untouchedEnd (c : Dev nD) (r : Ref sig .tc) (h0 : r ∉ hostOps0_W) (ha : r ≠ main_v22_0) (hb : r ≠ main_v22_1)
    (h1 : r ∉ hostOps1_W) (h4 : ∀ w, Pipeline.arrRef spec1 w ≠ r) (h2 : r ∉ hostOps2_W) (h6 : ∀ w, Pipeline.arrRef spec2 w ≠ r)
    (h3 : r ∉ hostOps3_W) : W7 m ρ c (Proc.devRef .tc r) = m ((c : Thread nD τ).loc r) :=
  ((keep3 _ r h3).trans (untouched m ρ c r h0 ha hb h1 h4 h2 h6).2.2.2.2.2).trans rfl

theorem end_arg0 (c : Dev nD) : W7 m ρ c (Proc.devRef .tc main_arg0) = m ((c : Thread nD τ).loc main_arg0) :=
  untouchedEnd m ρ c main_arg0 (by decide) (by decide) (by decide) (by decide) (by decide) (by decide) (by decide) (by decide)
theorem end_arg1 (c : Dev nD) : W7 m ρ c (Proc.devRef .tc main_arg1) = m ((c : Thread nD τ).loc main_arg1) :=
  untouchedEnd m ρ c main_arg1 (by decide) (by decide) (by decide) (by decide) (by decide) (by decide) (by decide) (by decide)
theorem end_arg2 (c : Dev nD) : W7 m ρ c (Proc.devRef .tc main_arg2) = m ((c : Thread nD τ).loc main_arg2) :=
  untouchedEnd m ρ c main_arg2 (by decide) (by decide) (by decide) (by decide) (by decide) (by decide) (by decide) (by decide)
theorem end_arg3 (c : Dev nD) : W7 m ρ c (Proc.devRef .tc main_arg3) = m ((c : Thread nD τ).loc main_arg3) :=
  untouchedEnd m ρ c main_arg3 (by decide) (by decide) (by decide) (by decide) (by decide) (by decide) (by decide) (by decide)
theorem end_arg4 (c : Dev nD) : W7 m ρ c (Proc.devRef .tc main_arg4) = m ((c : Thread nD τ).loc main_arg4) :=
  untouchedEnd m ρ c main_arg4 (by decide) (by decide) (by decide) (by decide) (by decide) (by decide) (by decide) (by decide)
theorem end_arg5 (c : Dev nD) : W7 m ρ c (Proc.devRef .tc main_arg5) = m ((c : Thread nD τ).loc main_arg5) :=
  untouchedEnd m ρ c main_arg5 (by decide) (by decide) (by decide) (by decide) (by decide) (by decide) (by decide) (by decide)
theorem end_arg6 (c : Dev nD) : W7 m ρ c (Proc.devRef .tc main_arg6) = m ((c : Thread nD τ).loc main_arg6) :=
  untouchedEnd m ρ c main_arg6 (by decide) (by decide) (by decide) (by decide) (by decide) (by decide) (by decide) (by decide)
theorem end_arg7 (c : Dev nD) : W7 m ρ c (Proc.devRef .tc main_arg7) = m ((c : Thread nD τ).loc main_arg7) :=
  untouchedEnd m ρ c main_arg7 (by decide) (by decide) (by decide) (by decide) (by decide) (by decide) (by decide) (by decide)
theorem end_arg8 (c : Dev nD) : W7 m ρ c (Proc.devRef .tc main_arg8) = m ((c : Thread nD τ).loc main_arg8) :=
  untouchedEnd m ρ c main_arg8 (by decide) (by decide) (by decide) (by decide) (by decide) (by decide) (by decide) (by decide)

/-- An unscoped reference of the TensorCore is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Layer

end
-- ==== Proof.IdealHost.lean ====
import proofs.«179311_j1056561954898_1_alg».proof.Proof.Gen.KernelIdeal.Regions
import Idealize.ShloMosaic.Lib.StableHlo.Run
import Idealize.ShloMosaic.PureOps.Ideal

noncomputable section

namespace Cert.KernelIdeal.HostVal

open Cert.KernelIdeal Cert.KernelIdeal.Gen Idealize.ShloMosaic Idealize.ShloMosaic.TcCoe Idealize.SL.Sem Idealize.ShloMosaic.StableHlo

/-- A `300000 × 64` array of ideal floats: one embedding row per node. -/
abbrev Mat : Type := FVec Ideal S300000x64 .f32

/-- The initial embedding: the two argument arrays stacked along the rows. -/
def ego0 (a0 : FVec Ideal S100000x64 .f32) (a1 : FVec Ideal S200000x64 .f32) : Mat :=
  concatenate S300000x64 0 [⟨S100000x64, a0⟩, ⟨S200000x64, a1⟩] concatenates_S100000x64_S200000x64_S300000x64_d0

/-- The sparse product with the adjacency matrix given as two million (value, row, column) triples: row `col e`
    of `x` (a negative column index counted from the end) is gathered for every triple `e`, scaled by `val e`,
    and added into row `row e` of a zero array. Stated with the reference's own operations and never opened. -/
def spmm (val : FVec Ideal S2000000 .f32) (row col : IVec S2000000 32) (x : Mat) : Mat :=
  Host.scatterAdd (F := Ideal) scatter_S300000x64_S2000000x1_S2000000x64_1_0_0_1
    (broadcastInDim S300000x64 ![] bcast_S_S300000x64 (constant (F := Ideal) S_ .f32 0x00000000#32))
    (broadcastInDim S2000000x1 ![0] bcast_S2000000_S2000000x1_0 row)
    (mulf (broadcastInDim S2000000x64 ![0, 1] bcast_S2000000x1_S2000000x64_0_1 (broadcastInDim S2000000x1 ![0] bcast_S2000000_S2000000x1_0 val))
      (Host.gather gather_S300000x64_S2000000x1_S2000000x64_1_0_n_n_0_1_164 x
        (broadcastInDim S2000000x1 ![0] bcast_S2000000_S2000000x1_0
          (select (cmpi .slt col (broadcastInDim S2000000 ![] bcast_S_S2000000 (constantI S_ 32 0#32)))
            (addi col (broadcastInDim S2000000 ![] bcast_S_S2000000 (constantI S_ 32 300000#32))) col))))

/-- One `64 × 64` weight matrix out of the stack of three: the block at offset `off`, its leading unit axis dropped. -/
def wSlice (off : Fin S3x64x64.rank → ℕ) (h : S3x64x64.Slices off S1x64x64) (w : FVec Ideal S3x64x64 .f32) : FVec Ideal S64x64 .f32 :=
  fun i => shapeCast S64x64 (extractStridedSlice S1x64x64 off w h) shapeCasts_S1x64x64_S64x64 i

/-- One `1 × 64` bias row out of the stack of three: the block at offset `off`, its leading unit axis dropped. -/
def bSlice (off : Fin S3x1x64.rank → ℕ) (h : S3x1x64.Slices off S1x1x64) (b : FVec Ideal S3x1x64 .f32) : FVec Ideal S1x64 .f32 :=
  fun i => shapeCast S1x64 (extractStridedSlice S1x1x64 off b h) shapeCasts_S1x1x64_S1x64 i

/-- An embedding divided by `4` (the `f32` word `0x40800000`), entry by entry. -/
def quarter (x : FVec Ideal S300000x64 .f32) : FVec Ideal S300000x64 .f32 :=
  Host.divf (F := Ideal) x (broadcastInDim S300000x64 ![] bcast_S_S300000x64 (constant (F := Ideal) S_ .f32 0x40800000#32))

/-! ## What each host stretch computes, from any contents

Each lemma reads one result buffer of a stretch as the program's own operations applied to the contents the stretch
starts from: the rewriting of each operation's result at its own buffer, one pass. -/

attribute [local irreducible] Host.gather Host.scatterAdd concatenate broadcastInDim extractStridedSlice

set_option maxRecDepth 8192 in
set_option maxHeartbeats 1000000 in
theorem hostOps0_v0 (W : Valuation τ sig (Elt Ideal)) :
    after (hostOps0 (F := Ideal)) W (Proc.devRef .tc main_v0) = ego0 (W (Proc.devRef .tc main_arg0)) (W (Proc.devRef .tc main_arg1)) := by
  after_results_simp <;> rfl

set_option maxRecDepth 8192 in
set_option maxHeartbeats 1000000 in
theorem hostOps0_v13 (W : Valuation τ sig (Elt Ideal)) :
    after (hostOps0 (F := Ideal)) W (Proc.devRef .tc main_v13) = spmm (W (Proc.devRef .tc main_arg6)) (W (Proc.devRef .tc main_arg7)) (W (Proc.devRef .tc main_arg8)) (ego0 (W (Proc.devRef .tc main_arg0)) (W (Proc.devRef .tc main_arg1))) := by
  after_results_simp <;> rfl

set_option maxRecDepth 8192 in
set_option maxHeartbeats 1000000 in
theorem hostOps0_v15 (W : Valuation τ sig (Elt Ideal)) :
    after (hostOps0 (F := Ideal)) W (Proc.devRef .tc main_v15) = wSlice ![0, 0, 0] slices_S3x64x64_S1x64x64_0_0_0 (W (Proc.devRef .tc main_arg2)) := by
  after_results_simp <;> rfl

set_option maxRecDepth 8192 in
set_option maxHeartbeats 1000000 in
theorem hostOps0_v17 (W : Valuation τ sig (Elt Ideal)) :
    after (hostOps0 (F := Ideal)) W (Proc.devRef .tc main_v17) = bSlice ![0, 0, 0] slices_S3x1x64_S1x1x64_0_0_0 (W (Proc.devRef .tc main_arg3)) := by
  after_results_simp <;> rfl

set_option maxRecDepth 8192 in
set_option maxHeartbeats 1000000 in
theorem hostOps0_v19 (W : Valuation τ sig (Elt Ideal)) :
    after (hostOps0 (F := Ideal)) W (Proc.devRef .tc main_v19) = wSlice ![0, 0, 0] slices_S3x64x64_S1x64x64_0_0_0 (W (Proc.devRef .tc main_arg4)) := by
  after_results_simp <;> rfl

set_option maxRecDepth 8192 in
set_option maxHeartbeats 1000000 in
theorem hostOps0_v21 (W : Valuation τ sig (Elt Ideal)) :
    after (hostOps0 (F := Ideal)) W (Proc.devRef .tc main_v21) = bSlice ![0, 0, 0] slices_S3x1x64_S1x1x64_0_0_0 (W (Proc.devRef .tc main_arg5)) := by
  after_results_simp <;> rfl

set_option maxRecDepth 8192 in
set_option maxHeartbeats 1000000 in
theorem hostOps1_v35 (W : Valuation τ sig (Elt Ideal)) :
    after (hostOps1 (F := Ideal)) W (Proc.devRef .tc main_v35) = spmm (W (Proc.devRef .tc main_arg6)) (W (Proc.devRef .tc main_arg7)) (W (Proc.devRef .tc main_arg8)) (W (Proc.devRef .tc main_v22_0)) := by
  after_results_simp <;> rfl

set_option maxRecDepth 8192 in
set_option maxHeartbeats 1000000 in
theorem hostOps1_v37 (W : Valuation τ sig (Elt Ideal)) :
    after (hostOps1 (F := Ideal)) W (Proc.devRef .tc main_v37) = wSlice ![1, 0, 0] slices_S3x64x64_S1x64x64_1_0_0 (W (Proc.devRef .tc main_arg2)) := by
  after_results_simp <;> rfl

set_option maxRecDepth 8192 in
set_option maxHeartbeats 1000000 in
theorem hostOps1_v39 (W : Valuation τ sig (Elt Ideal)) :
    after (hostOps1 (F := Ideal)) W (Proc.devRef .tc main_v39) = bSlice ![1, 0, 0] slices_S3x1x64_S1x1x64_1_0_0 (W (Proc.devRef .tc main_arg3)) := by
  after_results_simp <;> rfl

set_option maxRecDepth 8192 in
set_option maxHeartbeats 1000000 in
theorem hostOps1_v41 (W : Valuation τ sig (Elt Ideal)) :
    after (hostOps1 (F := Ideal)) W (Proc.devRef .tc main_v41) = wSlice ![1, 0, 0] slices_S3x64x64_S1x64x64_1_0_0 (W (Proc.devRef .tc main_arg4)) := by
  after_results_simp <;> rfl

set_option maxRecDepth 8192 in
set_option maxHeartbeats 1000000 in
theorem hostOps1_v43 (W : Valuation τ sig (Elt Ideal)) :
    after (hostOps1 (F := Ideal)) W (Proc.devRef .tc main_v43) = bSlice ![1, 0, 0] slices_S3x1x64_S1x1x64_1_0_0 (W (Proc.devRef .tc main_arg5)) := by
  after_results_simp <;> rfl

set_option maxRecDepth 8192 in
set_option maxHeartbeats 1000000 in
theorem hostOps2_v57 (W : Valuation τ sig (Elt Ideal)) :
    after (hostOps2 (F := Ideal)) W (Proc.devRef .tc main_v57) = spmm (W (Proc.devRef .tc main_arg6)) (W (Proc.devRef .tc main_arg7)) (W (Proc.devRef .tc main_arg8)) (W (Proc.devRef .tc main_v44_0)) := by
  after_results_simp <;> rfl

set_option maxRecDepth 8192 in
set_option maxHeartbeats 1000000 in
theorem hostOps2_v59 (W : Valuation τ sig (Elt Ideal)) :
    after (hostOps2 (F := Ideal)) W (Proc.devRef .tc main_v59) = wSlice ![2, 0, 0] slices_S3x64x64_S1x64x64_2_0_0 (W (Proc.devRef .tc main_arg2)) := by
  after_results_simp <;> rfl

set_option maxRecDepth 8192 in
set_option maxHeartbeats 1000000 in
theorem hostOps2_v61 (W : Valuation τ sig (Elt Ideal)) :
    after (hostOps2 (F := Ideal)) W (Proc.devRef .tc main_v61) = bSlice ![2, 0, 0] slices_S3x1x64_S1x1x64_2_0_0 (W (Proc.devRef .tc main_arg3)) := by
  after_results_simp <;> rfl

set_option maxRecDepth 8192 in
set_option maxHeartbeats 1000000 in
theorem hostOps2_v63 (W : Valuation τ sig (Elt Ideal)) :
    after (hostOps2 (F := Ideal)) W (Proc.devRef .tc main_v63) = wSlice ![2, 0, 0] slices_S3x64x64_S1x64x64_2_0_0 (W (Proc.devRef .tc main_arg4)) := by
  after_results_simp <;> rfl

set_option maxRecDepth 8192 in
set_option maxHeartbeats 1000000 in
theorem hostOps2_v65 (W : Valuation τ sig (Elt Ideal)) :
    after (hostOps2 (F := Ideal)) W (Proc.devRef .tc main_v65) = bSlice ![2, 0, 0] slices_S3x1x64_S1x1x64_2_0_0 (W (Proc.devRef .tc main_arg5)) := by
  after_results_simp <;> rfl

set_option maxRecDepth 8192 in
set_option maxHeartbeats 1000000 in
theorem hostOps3_v69 (W : Valuation τ sig (Elt Ideal)) :
    after (hostOps3 (F := Ideal)) W (Proc.devRef .tc main_v69) = extractStridedSlice S100000x64 ![0, 0] (quarter (W (Proc.devRef .tc main_v66_1))) slices_S300000x64_S100000x64_0_0 := by
  after_results_simp <;> rfl

set_option maxRecDepth 8192 in
set_option maxHeartbeats 1000000 in
theorem hostOps3_v70 (W : Valuation τ sig (Elt Ideal)) :
    after (hostOps3 (F := Ideal)) W (Proc.devRef .tc main_v70) = extractStridedSlice S200000x64 ![100000, 0] (quarter (W (Proc.devRef .tc main_v66_1))) slices_S300000x64_S200000x64_100000_0 := by
  after_results_simp <;> rfl

/-! ## What each host stretch leaves alone -/

/-- A buffer that stretch 0 does not write keeps its contents through it. -/
theorem hostOps0_keep {F : FTy → Type} [FloatOps F] (W : Valuation τ sig (Elt F)) (r : Ref sig .tc) (h : r ∉ hostOps0_W) :
    after hostOps0 W (Proc.devRef .tc r) = W (Proc.devRef .tc r) :=
  after_of_writes_sub hostOps0 W hostOps0_writes h

/-- A buffer that stretch 1 does not write keeps its contents through it. -/
theorem hostOps1_keep {F : FTy → Type} [FloatOps F] (W : Valuation τ sig (Elt F)) (r : Ref sig .tc) (h : r ∉ hostOps1_W) :
    after hostOps1 W (Proc.devRef .tc r) = W (Proc.devRef .tc r) :=
  after_of_writes_sub hostOps1 W hostOps1_writes h

/-- A buffer that stretch 2 does not write keeps its contents through it. -/
theorem hostOps2_keep {F : FTy → Type} [FloatOps F] (W : Valuation τ sig (Elt F)) (r : Ref sig .tc) (h : r ∉ hostOps2_W) :
    after hostOps2 W (Proc.devRef .tc r) = W (Proc.devRef .tc r) :=
  after_of_writes_sub hostOps2 W hostOps2_writes h

/-- A buffer that stretch 3 does not write keeps its contents through it. -/
theorem hostOps3_keep {F : FTy → Type} [FloatOps F] (W : Valuation τ sig (Elt F)) (r : Ref sig .tc) (h : r ∉ hostOps3_W) :
    after hostOps3 W (Proc.devRef .tc r) = W (Proc.devRef .tc r) :=
  after_of_writes_sub hostOps3 W hostOps3_writes h

end Cert.KernelIdeal.HostVal

end
-- ==== Proof.LayerSpec.lean ====
import Idealize.ShloMosaic.PureOps.Ideal
import Idealize.ShloMosaic.Lib.ValueIdx

/-!
# One layer of the network, row by row

The layer acts on each of the rows independently once the propagated embedding is known.  For a row
`x` of the current embedding and the same row `s` of the propagated embedding (both of length 64),
weights `W`, `W'` (64 × 64) and biases `b`, `b'` (length 64):

* `pre  = (s · W + b) + ((x ∘ s) · W' + b')`, a vector of length 64;
* `egoNew = leaky pre`, entry by entry, where `leaky y = y` if `y ≥ 0` and `0.2 · y` otherwise;
* `normed y = y / max (sqrt (Σ_k y_k²)) 1e-12`.

Everything is over the extended reals.  The two float literals stay the `f32` words they are
written as (`0x3E4CCCCD` for `0.2`, `0x2B8CBCCC` for `1e-12`): both programs carry the same
words, so their values are never needed.
-/

namespace Cert.LayerSpec

open Idealize.ShloMosaic

/-- The pre-activation of one row at output column `e`. -/
noncomputable def pre (x s : Fin 64 → EReal) (W : Fin 64 → Fin 64 → EReal) (b : Fin 64 → EReal)
    (W' : Fin 64 → Fin 64 → EReal) (b' : Fin 64 → EReal) (e : Fin 64) : EReal :=
  ((∑ k : Fin 64, s k * W k e) + b e) + ((∑ k : Fin 64, (x k * s k) * W' k e) + b' e)

/-- The leaky rectifier: `y` when `y ≥ 0` (the comparison against the zero word), else the
    word `0x3E4CCCCD` (`0.2`) times `y`. -/
noncomputable def leaky (y : EReal) : EReal :=
  Scalar.select (Ideal.cmp .oge y (Ideal.ofBits .f32 0x00000000#32)) y
    (Ideal.ofBits .f32 0x3E4CCCCD#32 * y)

/-- The row's new embedding at column `e`. -/
noncomputable def egoNew (x s : Fin 64 → EReal) (W : Fin 64 → Fin 64 → EReal) (b : Fin 64 → EReal)
    (W' : Fin 64 → Fin 64 → EReal) (b' : Fin 64 → EReal) (e : Fin 64) : EReal :=
  leaky (pre x s W b W' b' e)

/-- The row `y` divided by `max ‖y‖₂ 1e-12` (the word `0x2B8CBCCC`), at column `e`. -/
noncomputable def normed (y : Fin 64 → EReal) (e : Fin 64) : EReal :=
  Ideal.div (y e) (max (Ideal.sqrt (∑ k : Fin 64, y k * y k)) (Ideal.ofBits .f32 0x2B8CBCCC#32))

end Cert.LayerSpec
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.PayIdx.lean ====
import proofs.«179311_j1056561954898_1_alg».proof.Proof.Gen.KernelIdeal.Skeleton
import proofs.«179311_j1056561954898_1_alg».proof.Proof.LayerSpec
import proofs.«179311_j1056561954898_1_alg».proof.Proof.LibPlainMatmul
import proofs.«179311_j1056561954898_1_alg».proof.Proof.LibKeepdims
import Idealize.ShloMosaic.Lib.ValueLayout
import Idealize.ShloMosaic.Lib.Pipeline.Value

/-!
# The kernel's stored blocks read row by row

A region of the kernel works on one `3000 × 64` block of rows.  Its stored values are pure
functions of the blocks it loads: the new embedding (two `64 × 64` products, the bias rows
broadcast over the rows, the leaky rectifier), the same divided row by row by
`max (row norm) 1e-12`, and the accumulator plus that.  At the extended reals the changes of float
format are the identity and a product into the zero accumulator is the plain sum, so at `(p, e)`
each is the row-level function of `Cert.LayerSpec` applied to row `p` of the loaded blocks.
-/

namespace Cert.KernelIdeal.PayIdx

open Idealize.ShloMosaic Idealize.ShloMosaic.ValueIdx
open Cert.KernelIdeal
open Cert.KernelIdeal.Facts₀ Cert.KernelIdeal.Facts

variable [Cert.KernelIdeal.Facts]

/-- The block product `3000 × 64` by `64 × 64` into the zero accumulator at `(p, e)`:
    `Σ_k l(p, k) · r(k, e)`, whatever the operands' float formats. -/
theorem mm_apply {φ₁ φ₂ : FTy} (l : FVec Ideal S3000x64 φ₁) (r : FVec Ideal S64x64 φ₂) (p : Fin 3000) (e : Fin 64) :
    matmul dot_S3000x64_S64x64_S3000x64_1_0_0_1_n_n none l r
        (constant (F := Ideal) S3000x64 .f32 0x00000000#32) (ix2 p e)
      = ∑ k : Fin 64, l (ix2 p k) * r (ix2 k e) := by
  have hd : dot_S3000x64_S64x64_S3000x64_1_0_0_1_n_n = DotDims.plain 3000 64 64 := rfl
  rw [hd]
  exact matmul_plain_zero_apply 3000 64 64 none l r p e

/-- The kernel's square root acts entry by entry. -/
theorem vsqrt_apply {s : Shape} {φ : FTy} (x : FVec Ideal s φ) (i : s.Idx) :
    Idealize.ShloMosaic.sqrt x i = Ideal.sqrt (x i) := rfl

/-- The normalisation of a block `y`: `y` divided by the column `max (sqrt (row sum of squares)) 1e-12`
    broadcast over the columns.  At `(p, e)` it is the row-level normalisation of row `p`. -/
theorem normTail_apply (y : FVec Ideal S3000x64 .f32) (p : Fin 3000) (e : Fin 64) :
    divf y
        (broadcastTo S3000x64
          (maximumf
            (Idealize.ShloMosaic.sqrt
              (shapeCast S3000x1
                (multiReduction (F := Ideal) .add [1] S3000 (mulf y y) 0x00000000#32 reduces_S3000x64_S3000
                  (.inl rfl) rfl)
                shapeCasts_S3000_S3000x1))
            (broadcast S3000x1 (Scalar.ofBits (F := Ideal) .f32 0x2B8CBCCC#32)))
          broadcasts_S3000x1_S3000x64) (ix2 p e)
      = LayerSpec.normed (fun j => y (ix2 p j)) e := by
  unfold LayerSpec.normed
  rw [divf_apply, LibKeepdims.broadcastTo_a1_ab_apply _ _ p e (0 : Fin 1), maximumf_apply, broadcast_apply,
    vsqrt_apply, LibKeepdims.shapeCast_a_a1_apply]
  -- the row sum of squares, then the same division and maximum around it on both sides
  have hsum := LibKeepdims.multiReduction_add_lastAxis_apply (mulf y y) 0x00000000#32
    Facts₀.reduces_S3000x64_S3000 (.inl rfl) rfl p
  exact congrArg
    (fun t => Ideal.div (y (ix2 p e)) (max (Ideal.sqrt t) (Ideal.ofBits .f32 0x2B8CBCCC#32))) hsum

/-! ## Region 0 -/

/-- Region 0's stored new embedding at `(p, e)` is the row-level new embedding of row `p` of its
    input blocks. -/
theorem k0_pay2_apply (v0 v2 : FVec Ideal S3000x64 .f32) (v5 : FVec Ideal S64x64 .f32) (v9 : FVec Ideal S1x64 .f32)
    (v15 : FVec Ideal S64x64 .f32) (v19 : FVec Ideal S1x64 .f32) (p : Fin 3000) (e : Fin 64) :
    Gen.k0_pay2 (F := Ideal) v0 v2 v5 v9 v15 v19 (ix2 p e)
      = LayerSpec.egoNew (fun k => v0 (ix2 p k)) (fun k => v2 (ix2 p k)) (fun k e => v5 (ix2 k e))
          (fun e => v9 (ix2 (0 : Fin 1) e)) (fun k e => v15 (ix2 k e)) (fun e => v19 (ix2 (0 : Fin 1) e)) e := by
  unfold Gen.k0_pay2 LayerSpec.egoNew LayerSpec.leaky LayerSpec.pre
  simp only [shapeCast_self, select_apply, cmpf_apply, mulf_apply, addf_apply, broadcast_apply, mm_apply,
    broadcastTo_1b_ab_apply, truncf_apply]
  rfl

/-- Region 0's normalised block at `(p, e)` is the row-level normalisation of row `p` of its new
    embedding. -/
theorem k0_pay3_apply (v0 v2 : FVec Ideal S3000x64 .f32) (v5 : FVec Ideal S64x64 .f32) (v9 : FVec Ideal S1x64 .f32)
    (v15 : FVec Ideal S64x64 .f32) (v19 : FVec Ideal S1x64 .f32) (p : Fin 3000) (e : Fin 64) :
    Gen.k0_pay3 (F := Ideal) v0 v2 v5 v9 v15 v19 (ix2 p e)
      = LayerSpec.normed (fun j => Gen.k0_pay2 (F := Ideal) v0 v2 v5 v9 v15 v19 (ix2 p j)) e := by
  unfold Gen.k0_pay3
  exact normTail_apply (Gen.k0_pay2 (F := Ideal) v0 v2 v5 v9 v15 v19) p e

/-- Region 0's accumulator update: the loaded accumulator block plus the normalised block. -/
theorem k0_pay1_apply (v36 v38 : FVec Ideal S3000x64 .f32) (j : S3000x64.Idx) :
    Gen.k0_pay1 (F := Ideal) v36 v38 j = v38 j + v36 j := by
  unfold Gen.k0_pay1
  simp only [shapeCast_self]
  rfl

/-! ## Region 1 -/

/-- Region 1's stored new embedding at `(p, e)` is the row-level new embedding of row `p` of its
    input blocks. -/
theorem k1_pay2_apply (v0 v2 : FVec Ideal S3000x64 .f32) (v5 : FVec Ideal S64x64 .f32) (v9 : FVec Ideal S1x64 .f32)
    (v15 : FVec Ideal S64x64 .f32) (v19 : FVec Ideal S1x64 .f32) (p : Fin 3000) (e : Fin 64) :
    Gen.k1_pay2 (F := Ideal) v0 v2 v5 v9 v15 v19 (ix2 p e)
      = LayerSpec.egoNew (fun k => v0 (ix2 p k)) (fun k => v2 (ix2 p k)) (fun k e => v5 (ix2 k e))
          (fun e => v9 (ix2 (0 : Fin 1) e)) (fun k e => v15 (ix2 k e)) (fun e => v19 (ix2 (0 : Fin 1) e)) e := by
  unfold Gen.k1_pay2 LayerSpec.egoNew LayerSpec.leaky LayerSpec.pre
  simp only [shapeCast_self, select_apply, cmpf_apply, mulf_apply, addf_apply, broadcast_apply, mm_apply,
    broadcastTo_1b_ab_apply, truncf_apply]
  rfl

/-- Region 1's normalised block at `(p, e)` is the row-level normalisation of row `p` of its new
    embedding. -/
theorem k1_pay3_apply (v0 v2 : FVec Ideal S3000x64 .f32) (v5 : FVec Ideal S64x64 .f32) (v9 : FVec Ideal S1x64 .f32)
    (v15 : FVec Ideal S64x64 .f32) (v19 : FVec Ideal S1x64 .f32) (p : Fin 3000) (e : Fin 64) :
    Gen.k1_pay3 (F := Ideal) v0 v2 v5 v9 v15 v19 (ix2 p e)
      = LayerSpec.normed (fun j => Gen.k1_pay2 (F := Ideal) v0 v2 v5 v9 v15 v19 (ix2 p j)) e := by
  unfold Gen.k1_pay3
  exact normTail_apply (Gen.k1_pay2 (F := Ideal) v0 v2 v5 v9 v15 v19) p e

/-- Region 1's accumulator update: the loaded accumulator block plus the normalised block. -/
theorem k1_pay1_apply (v36 v38 : FVec Ideal S3000x64 .f32) (j : S3000x64.Idx) :
    Gen.k1_pay1 (F := Ideal) v36 v38 j = v38 j + v36 j := by
  unfold Gen.k1_pay1
  simp only [shapeCast_self]
  rfl

/-! ## Region 2 -/

/-- Region 2's stored new embedding at `(p, e)` is the row-level new embedding of row `p` of its
    input blocks. -/
theorem k2_pay2_apply (v0 v2 : FVec Ideal S3000x64 .f32) (v5 : FVec Ideal S64x64 .f32) (v9 : FVec Ideal S1x64 .f32)
    (v15 : FVec Ideal S64x64 .f32) (v19 : FVec Ideal S1x64 .f32) (p : Fin 3000) (e : Fin 64) :
    Gen.k2_pay2 (F := Ideal) v0 v2 v5 v9 v15 v19 (ix2 p e)
      = LayerSpec.egoNew (fun k => v0 (ix2 p k)) (fun k => v2 (ix2 p k)) (fun k e => v5 (ix2 k e))
          (fun e => v9 (ix2 (0 : Fin 1) e)) (fun k e => v15 (ix2 k e)) (fun e => v19 (ix2 (0 : Fin 1) e)) e := by
  unfold Gen.k2_pay2 LayerSpec.egoNew LayerSpec.leaky LayerSpec.pre
  simp only [shapeCast_self, select_apply, cmpf_apply, mulf_apply, addf_apply, broadcast_apply, mm_apply,
    broadcastTo_1b_ab_apply, truncf_apply]
  rfl

/-- Region 2's normalised block at `(p, e)` is the row-level normalisation of row `p` of its new
    embedding. -/
theorem k2_pay3_apply (v0 v2 : FVec Ideal S3000x64 .f32) (v5 : FVec Ideal S64x64 .f32) (v9 : FVec Ideal S1x64 .f32)
    (v15 : FVec Ideal S64x64 .f32) (v19 : FVec Ideal S1x64 .f32) (p : Fin 3000) (e : Fin 64) :
    Gen.k2_pay3 (F := Ideal) v0 v2 v5 v9 v15 v19 (ix2 p e)
      = LayerSpec.normed (fun j => Gen.k2_pay2 (F := Ideal) v0 v2 v5 v9 v15 v19 (ix2 p j)) e := by
  unfold Gen.k2_pay3
  exact normTail_apply (Gen.k2_pay2 (F := Ideal) v0 v2 v5 v9 v15 v19) p e

/-- Region 2's accumulator update: the loaded accumulator block plus the normalised block. -/
theorem k2_pay1_apply (v36 v38 : FVec Ideal S3000x64 .f32) (j : S3000x64.Idx) :
    Gen.k2_pay1 (F := Ideal) v36 v38 j = v38 j + v36 j := by
  unfold Gen.k2_pay1
  simp only [shapeCast_self]
  rfl

end Cert.KernelIdeal.PayIdx
-- ==== Proof.IdealValueSpec.lean ====
import proofs.«179311_j1056561954898_1_alg».proof.KernelIdeal
import proofs.«179311_j1056561954898_1_alg».proof.Proof.LayerSpec

/-!
# One layer over the whole arrays

The two arrays a layer region leaves, as functions of the arrays it reads, row by row: the new
embeddings at row `r` are the row-level new embedding of row `r` of the current embeddings and of
the propagated embeddings; the new running sum at row `r` is the old running sum plus the
row-normalised new embeddings of that row.
-/

namespace Cert.KernelIdeal.LayerValue

open Idealize.ShloMosaic Idealize.ShloMosaic.ValueIdx
open Cert.KernelIdeal

/-- The new embeddings: row `r`, column `e` is `LayerSpec.egoNew` of row `r` of `ego` and `side`. -/
noncomputable def egoArr (ego side : S300000x64.Idx → EReal) (W : S64x64.Idx → EReal) (b : S1x64.Idx → EReal)
    (W' : S64x64.Idx → EReal) (b' : S1x64.Idx → EReal) : S300000x64.Idx → EReal :=
  fun i => LayerSpec.egoNew (fun k => ego (ix2 (n0 := 300000) (n1 := 64) (i 0) k))
    (fun k => side (ix2 (n0 := 300000) (n1 := 64) (i 0) k)) (fun k e => W (ix2 k e))
    (fun e => b (ix2 (0 : Fin 1) e)) (fun k e => W' (ix2 k e)) (fun e => b' (ix2 (0 : Fin 1) e)) (i 1)

/-- The new running sum: the old one plus the row-normalised `y`. -/
noncomputable def accArr (acc y : S300000x64.Idx → EReal) : S300000x64.Idx → EReal :=
  fun i => acc i + LayerSpec.normed (fun j => y (ix2 (n0 := 300000) (n1 := 64) (i 0) j)) (i 1)

/-- `egoArr` at a row and column written out. -/
theorem egoArr_ix2 (ego side : S300000x64.Idx → EReal) (W : S64x64.Idx → EReal) (b : S1x64.Idx → EReal)
    (W' : S64x64.Idx → EReal) (b' : S1x64.Idx → EReal) (r : Fin 300000) (e : Fin 64) :
    egoArr ego side W b W' b' (ix2 r e)
      = LayerSpec.egoNew (fun k => ego (ix2 r k)) (fun k => side (ix2 r k)) (fun k e => W (ix2 k e))
          (fun e => b (ix2 (0 : Fin 1) e)) (fun k e => W' (ix2 k e)) (fun e => b' (ix2 (0 : Fin 1) e)) e := rfl

/-- `accArr` at a row and column written out. -/
theorem accArr_ix2 (acc y : S300000x64.Idx → EReal) (r : Fin 300000) (e : Fin 64) :
    accArr acc y (ix2 r e) = acc (ix2 r e) + LayerSpec.normed (fun j => y (ix2 r j)) e := rfl

end Cert.KernelIdeal.LayerValue
-- ==== Proof.IdealValue0.lean ====
import proofs.«179311_j1056561954898_1_alg».proof.Proof.IdealBody0
import proofs.«179311_j1056561954898_1_alg».proof.Proof.PayIdx
import proofs.«179311_j1056561954898_1_alg».proof.Proof.LayerSpec
import proofs.«179311_j1056561954898_1_alg».proof.Proof.IdealValueSpec
import Idealize.ShloMosaic.Lib.Pipeline.Value

/-!
# Layer region 0: from the blocks to the two arrays

The region runs over 100 grid points; point `t` works on rows `3000 t … 3000 t + 2999`.  What
point `t` writes back to the new-embeddings array and to the running-sum array is, entry by entry,
the row-level layer applied to the corresponding ROW of the arrays the region reads: an entry of
the output block at row `p` depends on row `p` of the input blocks, which is row `3000 t + p` of
the arrays (the weight and bias windows always show the whole array).  The blocks of the 100 points
tile the `300000` rows, so after the run each output array is the whole-array function of
`Cert.KernelIdeal.LayerValue`.
-/

noncomputable section

namespace Cert.KernelIdeal.LayerValue

open Cert.KernelIdeal
open Idealize.ShloMosaic Idealize.ShloMosaic.TcCoe Idealize.ShloMosaic.ValueIdx Idealize.SL.Sem
open Idealize.ShloMosaic.Pipeline (Dat)

-- the buffer contents the region is entered with
variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the five row-block windows sit at block row `t`,
    column block `0`; the four weight and bias windows at block `(0, 0)`. -/
theorem idx_facts0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-! ## One entry of the two stored blocks, over variables -/

/-- If row `p` of the two row blocks is row `r` of the arrays `A0`, `A1` and the weight and bias blocks
    are the arrays `A2 … A5`, the stored new embedding at `(p, e)` is the whole-array one at `(r, e)`. -/
theorem egoPoint0 (A0 A1 : S300000x64.Idx → EReal) (A2 : S64x64.Idx → EReal) (A3 : S1x64.Idx → EReal)
    (A4 : S64x64.Idx → EReal) (A5 : S1x64.Idx → EReal)
    (x0 x1 : FVec Ideal S3000x64 .f32) (x2 : FVec Ideal S64x64 .f32) (x3 : FVec Ideal S1x64 .f32)
    (x4 : FVec Ideal S64x64 .f32) (x5 : FVec Ideal S1x64 .f32)
    (r : Fin 300000) (p : Fin 3000) (e : Fin 64)
    (h0 : ∀ k : Fin 64, x0 (ix2 p k) = A0 (ix2 r k)) (h1 : ∀ k : Fin 64, x1 (ix2 p k) = A1 (ix2 r k))
    (h2 : ∀ k e : Fin 64, x2 (ix2 k e) = A2 (ix2 k e)) (h3 : ∀ e : Fin 64, x3 (ix2 (0 : Fin 1) e) = A3 (ix2 (0 : Fin 1) e))
    (h4 : ∀ k e : Fin 64, x4 (ix2 k e) = A4 (ix2 k e)) (h5 : ∀ e : Fin 64, x5 (ix2 (0 : Fin 1) e) = A5 (ix2 (0 : Fin 1) e)) :
    Gen.k0_pay2 (F := Ideal) x0 x1 x2 x3 x4 x5 (ix2 p e) = egoArr A0 A1 A2 A3 A4 A5 (ix2 r e) := by
  rw [PayIdx.k0_pay2_apply, egoArr_ix2]
  have e0 : (fun k => x0 (ix2 p k)) = fun k => A0 (ix2 r k) := funext h0
  have e1 : (fun k => x1 (ix2 p k)) = fun k => A1 (ix2 r k) := funext h1
  have e2 : (fun k e => x2 (ix2 k e)) = fun k e => A2 (ix2 k e) := funext fun k => funext (h2 k)
  have e3 : (fun e => x3 (ix2 (0 : Fin 1) e)) = fun e => A3 (ix2 (0 : Fin 1) e) := funext h3
  have e4 : (fun k e => x4 (ix2 k e)) = fun k e => A4 (ix2 k e) := funext fun k => funext (h4 k)
  have e5 : (fun e => x5 (ix2 (0 : Fin 1) e)) = fun e => A5 (ix2 (0 : Fin 1) e) := funext h5
  exact congrFun (congr (congr (congr (congr (congr (congrArg LayerSpec.egoNew e0) e1) e2) e3) e4) e5) e

/-- With the running-sum block's row `p` row `r` of `A6` as well, the stored running sum at `(p, e)` is the
    whole-array one at `(r, e)`. -/
theorem accPoint0 (A0 A1 : S300000x64.Idx → EReal) (A2 : S64x64.Idx → EReal) (A3 : S1x64.Idx → EReal)
    (A4 : S64x64.Idx → EReal) (A5 : S1x64.Idx → EReal) (A6 : S300000x64.Idx → EReal)
    (x0 x1 : FVec Ideal S3000x64 .f32) (x2 : FVec Ideal S64x64 .f32) (x3 : FVec Ideal S1x64 .f32)
    (x4 : FVec Ideal S64x64 .f32) (x5 : FVec Ideal S1x64 .f32) (x6 : FVec Ideal S3000x64 .f32)
    (r : Fin 300000) (p : Fin 3000) (e : Fin 64)
    (h0 : ∀ k : Fin 64, x0 (ix2 p k) = A0 (ix2 r k)) (h1 : ∀ k : Fin 64, x1 (ix2 p k) = A1 (ix2 r k))
    (h2 : ∀ k e : Fin 64, x2 (ix2 k e) = A2 (ix2 k e)) (h3 : ∀ e : Fin 64, x3 (ix2 (0 : Fin 1) e) = A3 (ix2 (0 : Fin 1) e))
    (h4 : ∀ k e : Fin 64, x4 (ix2 k e) = A4 (ix2 k e)) (h5 : ∀ e : Fin 64, x5 (ix2 (0 : Fin 1) e) = A5 (ix2 (0 : Fin 1) e))
    (h6 : ∀ k : Fin 64, x6 (ix2 p k) = A6 (ix2 r k)) :
    Gen.k0_pay1 (F := Ideal) (Gen.k0_pay3 (F := Ideal) x0 x1 x2 x3 x4 x5) x6 (ix2 p e)
      = accArr A6 (egoArr A0 A1 A2 A3 A4 A5) (ix2 r e) := by
  rw [PayIdx.k0_pay1_apply, PayIdx.k0_pay3_apply, accArr_ix2, h6 e]
  have hy : (fun j => Gen.k0_pay2 (F := Ideal) x0 x1 x2 x3 x4 x5 (ix2 p j)) = fun j => egoArr A0 A1 A2 A3 A4 A5 (ix2 r j) :=
    funext fun j => egoPoint0 A0 A1 A2 A3 A4 A5 x0 x1 x2 x3 x4 x5 r p j h0 h1 h2 h3 h4 h5
  exact congrArg (fun f => A6 (ix2 r e) + LayerSpec.normed f e) hy

/-! ## What a grid point writes back -/

/-- What point `t` writes back to the new-embeddings array is block `t` of `egoArr` of the arrays read. -/
theorem flushed0_7_eq (c : Dev nD) (t : Fin cfg0.N) :
    (Layer.layerDat0 V c).flushed 7 t
      = ((cfg0.win 7).blk t).view.read (Elt Ideal) (egoArr (V c main_v0) (V c main_v13) (V c main_v15) (V c main_v17) (V c main_v19) (V c main_v21)) := by
  show (cfg0.win 7).cut (grid0.coords t) ((Layer.layerDat0 V c).after 7 t) = _
  rw [Layer.after0_7]
  unfold Layer.egoOut0
  rw [View.canon_unit_zero hz0]
  simp only [View.ld_unit_zero (S := S3000x64) hz0, View.ld_unit_zero (S := S64x64) hz0, View.ld_unit_zero (S := S1x64) hz0]
  obtain ⟨i00, i01, i10, i11, i20, i21, i30, i31, i40, i41, i50, i51, i60, i61, i70, i71, i80, i81⟩ := idx_facts0 t
  have ht : t.val < 100 := by have h : t.val < grid0.N := t.isLt; have hN : grid0.N = 100 := Gen.N_0; omega
  funext j
  obtain ⟨p, e, rfl⟩ : ∃ (p : Fin 3000) (e : Fin 64), j = ix2 p e := ⟨j 0, j 1, eq_ix2 j⟩
  have hr : t.val * 3000 + p.val < 300000 := by have := p.isLt; omega
  have hemb : ((cfg0.win 7).blk t).view.emb (ix2 p e) = ix2 (⟨t.val * 3000 + p.val, hr⟩ : Fin 300000) e := by
    funext a; apply Fin.ext
    match a with
    | ⟨0, _⟩ => show win0_7.index t (0 : Fin 2) * 3000 + 1 * p.val = t.val * 3000 + p.val; rw [i70]; omega
    | ⟨1, _⟩ => show win0_7.index t (1 : Fin 2) * 64 + 1 * e.val = e.val; rw [i71]; omega
  show Gen.k0_pay2 (F := Ideal) (Layer.blk0 V c 0 t) (Layer.blk0 V c 1 t) (Layer.blk0 V c 2 t) (Layer.blk0 V c 3 t) (Layer.blk0 V c 4 t) (Layer.blk0 V c 5 t) (ix2 p e)
      = egoArr (V c main_v0) (V c main_v13) (V c main_v15) (V c main_v17) (V c main_v19) (V c main_v21) (((cfg0.win 7).blk t).view.emb (ix2 p e))
  rw [hemb]
  refine egoPoint0 _ _ _ _ _ _ _ _ _ _ _ _ _ p e ?_ ?_ ?_ ?_ ?_ ?_
  · intro k
    show V c main_v0 (((cfg0.win 0).blk t).view.emb (ix2 p k)) = V c main_v0 (ix2 (⟨t.val * 3000 + p.val, hr⟩ : Fin 300000) k)
    refine congrArg (V c main_v0) ?_
    funext a; apply Fin.ext
    match a with
    | ⟨0, _⟩ => show win0_0.index t (0 : Fin 2) * 3000 + 1 * p.val = t.val * 3000 + p.val; rw [i00]; omega
    | ⟨1, _⟩ => show win0_0.index t (1 : Fin 2) * 64 + 1 * k.val = k.val; rw [i01]; omega
  · intro k
    show V c main_v13 (((cfg0.win 1).blk t).view.emb (ix2 p k)) = V c main_v13 (ix2 (⟨t.val * 3000 + p.val, hr⟩ : Fin 300000) k)
    refine congrArg (V c main_v13) ?_
    funext a; apply Fin.ext
    match a with
    | ⟨0, _⟩ => show win0_1.index t (0 : Fin 2) * 3000 + 1 * p.val = t.val * 3000 + p.val; rw [i10]; omega
    | ⟨1, _⟩ => show win0_1.index t (1 : Fin 2) * 64 + 1 * k.val = k.val; rw [i11]; omega
  · intro k e'
    show V c main_v15 (((cfg0.win 2).blk t).view.emb (ix2 k e')) = V c main_v15 (ix2 k e')
    refine congrArg (V c main_v15) ?_
    funext a; apply Fin.ext
    match a with
    | ⟨0, _⟩ => show win0_2.index t (0 : Fin 2) * 64 + 1 * k.val = k.val; rw [i20]; omega
    | ⟨1, _⟩ => show win0_2.index t (1 : Fin 2) * 64 + 1 * e'.val = e'.val; rw [i21]; omega
  · intro e'
    show V c main_v17 (((cfg0.win 3).blk t).view.emb (ix2 (0 : Fin 1) e')) = V c main_v17 (ix2 (0 : Fin 1) e')
    refine congrArg (V c main_v17) ?_
    funext a; apply Fin.ext
    match a with
    | ⟨0, _⟩ => show win0_3.index t (0 : Fin 2) * 1 + 1 * (0 : Fin 1).val = (0 : Fin 1).val; rw [i30]; rfl
    | ⟨1, _⟩ => show win0_3.index t (1 : Fin 2) * 64 + 1 * e'.val = e'.val; rw [i31]; omega
  · intro k e'
    show V c main_v19 (((cfg0.win 4).blk t).view.emb (ix2 k e')) = V c main_v19 (ix2 k e')
    refine congrArg (V c main_v19) ?_
    funext a; apply Fin.ext
    match a with
    | ⟨0, _⟩ => show win0_4.index t (0 : Fin 2) * 64 + 1 * k.val = k.val; rw [i40]; omega
    | ⟨1, _⟩ => show win0_4.index t (1 : Fin 2) * 64 + 1 * e'.val = e'.val; rw [i41]; omega
  · intro e'
    show V c main_v21 (((cfg0.win 5).blk t).view.emb (ix2 (0 : Fin 1) e')) = V c main_v21 (ix2 (0 : Fin 1) e')
    refine congrArg (V c main_v21) ?_
    funext a; apply Fin.ext
    match a with
    | ⟨0, _⟩ => show win0_5.index t (0 : Fin 2) * 1 + 1 * (0 : Fin 1).val = (0 : Fin 1).val; rw [i50]; rfl
    | ⟨1, _⟩ => show win0_5.index t (1 : Fin 2) * 64 + 1 * e'.val = e'.val; rw [i51]; omega

/-- What point `t` writes back to the running-sum array is block `t` of `accArr` of the arrays read. -/
theorem flushed0_8_eq (c : Dev nD) (t : Fin cfg0.N) :
    (Layer.layerDat0 V c).flushed 8 t
      = ((cfg0.win 8).blk t).view.read (Elt Ideal) (accArr (V c main_v0) (egoArr (V c main_v0) (V c main_v13) (V c main_v15) (V c main_v17) (V c main_v19) (V c main_v21))) := by
  show (cfg0.win 8).cut (grid0.coords t) ((Layer.layerDat0 V c).after 8 t) = _
  rw [Layer.after0_8]
  unfold Layer.accOut0
  rw [View.canon_unit_zero hz0]
  simp only [View.ld_unit_zero (S := S3000x64) hz0, View.ld_unit_zero (S := S64x64) hz0, View.ld_unit_zero (S := S1x64) hz0]
  obtain ⟨i00, i01, i10, i11, i20, i21, i30, i31, i40, i41, i50, i51, i60, i61, i70, i71, i80, i81⟩ := idx_facts0 t
  have ht : t.val < 100 := by have h : t.val < grid0.N := t.isLt; have hN : grid0.N = 100 := Gen.N_0; omega
  funext j
  obtain ⟨p, e, rfl⟩ : ∃ (p : Fin 3000) (e : Fin 64), j = ix2 p e := ⟨j 0, j 1, eq_ix2 j⟩
  have hr : t.val * 3000 + p.val < 300000 := by have := p.isLt; omega
  have hemb : ((cfg0.win 8).blk t).view.emb (ix2 p e) = ix2 (⟨t.val * 3000 + p.val, hr⟩ : Fin 300000) e := by
    funext a; apply Fin.ext
    match a with
    | ⟨0, _⟩ => show win0_8.index t (0 : Fin 2) * 3000 + 1 * p.val = t.val * 3000 + p.val; rw [i80]; omega
    | ⟨1, _⟩ => show win0_8.index t (1 : Fin 2) * 64 + 1 * e.val = e.val; rw [i81]; omega
  show Gen.k0_pay1 (F := Ideal) (Gen.k0_pay3 (F := Ideal) (Layer.blk0 V c 0 t) (Layer.blk0 V c 1 t) (Layer.blk0 V c 2 t) (Layer.blk0 V c 3 t) (Layer.blk0 V c 4 t) (Layer.blk0 V c 5 t)) (Layer.blk0 V c 6 t) (ix2 p e)
      = accArr (V c main_v0) (egoArr (V c main_v0) (V c main_v13) (V c main_v15) (V c main_v17) (V c main_v19) (V c main_v21)) (((cfg0.win 8).blk t).view.emb (ix2 p e))
  rw [hemb]
  refine accPoint0 _ _ _ _ _ _ _ _ _ _ _ _ _ _ _ p e ?_ ?_ ?_ ?_ ?_ ?_ ?_
  · intro k
    show V c main_v0 (((cfg0.win 0).blk t).view.emb (ix2 p k)) = V c main_v0 (ix2 (⟨t.val * 3000 + p.val, hr⟩ : Fin 300000) k)
    refine congrArg (V c main_v0) ?_
    funext a; apply Fin.ext
    match a with
    | ⟨0, _⟩ => show win0_0.index t (0 : Fin 2) * 3000 + 1 * p.val = t.val * 3000 + p.val; rw [i00]; omega
    | ⟨1, _⟩ => show win0_0.index t (1 : Fin 2) * 64 + 1 * k.val = k.val; rw [i01]; omega
  · intro k
    show V c main_v13 (((cfg0.win 1).blk t).view.emb (ix2 p k)) = V c main_v13 (ix2 (⟨t.val * 3000 + p.val, hr⟩ : Fin 300000) k)
    refine congrArg (V c main_v13) ?_
    funext a; apply Fin.ext
    match a with
    | ⟨0, _⟩ => show win0_1.index t (0 : Fin 2) * 3000 + 1 * p.val = t.val * 3000 + p.val; rw [i10]; omega
    | ⟨1, _⟩ => show win0_1.index t (1 : Fin 2) * 64 + 1 * k.val = k.val; rw [i11]; omega
  · intro k e'
    show V c main_v15 (((cfg0.win 2).blk t).view.emb (ix2 k e')) = V c main_v15 (ix2 k e')
    refine congrArg (V c main_v15) ?_
    funext a; apply Fin.ext
    match a with
    | ⟨0, _⟩ => show win0_2.index t (0 : Fin 2) * 64 + 1 * k.val = k.val; rw [i20]; omega
    | ⟨1, _⟩ => show win0_2.index t (1 : Fin 2) * 64 + 1 * e'.val = e'.val; rw [i21]; omega
  · intro e'
    show V c main_v17 (((cfg0.win 3).blk t).view.emb (ix2 (0 : Fin 1) e')) = V c main_v17 (ix2 (0 : Fin 1) e')
    refine congrArg (V c main_v17) ?_
    funext a; apply Fin.ext
    match a with
    | ⟨0, _⟩ => show win0_3.index t (0 : Fin 2) * 1 + 1 * (0 : Fin 1).val = (0 : Fin 1).val; rw [i30]; rfl
    | ⟨1, _⟩ => show win0_3.index t (1 : Fin 2) * 64 + 1 * e'.val = e'.val; rw [i31]; omega
  · intro k e'
    show V c main_v19 (((cfg0.win 4).blk t).view.emb (ix2 k e')) = V c main_v19 (ix2 k e')
    refine congrArg (V c main_v19) ?_
    funext a; apply Fin.ext
    match a with
    | ⟨0, _⟩ => show win0_4.index t (0 : Fin 2) * 64 + 1 * k.val = k.val; rw [i40]; omega
    | ⟨1, _⟩ => show win0_4.index t (1 : Fin 2) * 64 + 1 * e'.val = e'.val; rw [i41]; omega
  · intro e'
    show V c main_v21 (((cfg0.win 5).blk t).view.emb (ix2 (0 : Fin 1) e')) = V c main_v21 (ix2 (0 : Fin 1) e')
    refine congrArg (V c main_v21) ?_
    funext a; apply Fin.ext
    match a with
    | ⟨0, _⟩ => show win0_5.index t (0 : Fin 2) * 1 + 1 * (0 : Fin 1).val = (0 : Fin 1).val; rw [i50]; rfl
    | ⟨1, _⟩ => show win0_5.index t (1 : Fin 2) * 64 + 1 * e'.val = e'.val; rw [i51]; omega
  · intro k
    show V c main_v0 (((cfg0.win 6).blk t).view.emb (ix2 p k)) = V c main_v0 (ix2 (⟨t.val * 3000 + p.val, hr⟩ : Fin 300000) k)
    refine congrArg (V c main_v0) ?_
    funext a; apply Fin.ext
    match a with
    | ⟨0, _⟩ => show win0_6.index t (0 : Fin 2) * 3000 + 1 * p.val = t.val * 3000 + p.val; rw [i60]; omega
    | ⟨1, _⟩ => show win0_6.index t (1 : Fin 2) * 64 + 1 * k.val = k.val; rw [i61]; omega

/-! ## The blocks tile the rows -/

/-- An index of the new-embeddings array lies in point `t`'s block iff each coordinate lies in the block's range. -/
theorem mem_blk0_7 (t : Fin cfg0.N) (i : S300000x64.Idx) :
    i ∈ ((cfg0.win 7).blk t).view.set ↔ ∀ a : Fin 2, win0_7.index t a * S3000x64.size a ≤ (i a).val ∧ (i a).val < win0_7.index t a * S3000x64.size a + S3000x64.size a := by
  show i ∈ ((View.whole main_v22_0).slice (win0_7.rect t)).set ↔ _
  rw [View.set_slice_whole, Rect.mem_set_unit]
  exact Iff.rfl

/-- Every row of the new-embeddings array lies in the block of the grid point `row / 3000`, which writes back. -/
theorem cover0_7 (i : S300000x64.Idx) :
    ∃ t : Fin cfg0.N, (cfg0.win 7).flush t = true ∧ i ∈ ((cfg0.win 7).blk t).view.set := by
  have hi0 : (i 0).val < 300000 := (i 0).isLt
  have hi1 : (i 1).val < 64 := (i 1).isLt
  have hN : grid0.N = 100 := Gen.N_0
  obtain ⟨t, ht⟩ : ∃ t : Fin cfg0.N, t.val = (i 0).val / 3000 :=
    ⟨⟨(i 0).val / 3000, by show _ < grid0.N; omega⟩, rfl⟩
  obtain ⟨i00, i01, i10, i11, i20, i21, i30, i31, i40, i41, i50, i51, i60, i61, i70, i71, i80, i81⟩ := idx_facts0 t
  refine ⟨t, Gen.flush0_7 t, ?_⟩
  rw [mem_blk0_7]
  intro a
  match a with
  | ⟨0, _⟩ =>
    show win0_7.index t (0 : Fin 2) * 3000 ≤ (i 0).val ∧ (i 0).val < win0_7.index t (0 : Fin 2) * 3000 + 3000
    rw [i70, ht]; omega
  | ⟨1, _⟩ =>
    show win0_7.index t (1 : Fin 2) * 64 ≤ (i 1).val ∧ (i 1).val < win0_7.index t (1 : Fin 2) * 64 + 64
    rw [i71]; omega

/-- An index of the running-sum array lies in point `t`'s block iff each coordinate lies in the block's range. -/
theorem mem_blk0_8 (t : Fin cfg0.N) (i : S300000x64.Idx) :
    i ∈ ((cfg0.win 8).blk t).view.set ↔ ∀ a : Fin 2, win0_8.index t a * S3000x64.size a ≤ (i a).val ∧ (i a).val < win0_8.index t a * S3000x64.size a + S3000x64.size a := by
  show i ∈ ((View.whole main_v22_1).slice (win0_8.rect t)).set ↔ _
  rw [View.set_slice_whole, Rect.mem_set_unit]
  exact Iff.rfl

/-- Every row of the running-sum array lies in the block of the grid point `row / 3000`, which writes back. -/
theorem cover0_8 (i : S300000x64.Idx) :
    ∃ t : Fin cfg0.N, (cfg0.win 8).flush t = true ∧ i ∈ ((cfg0.win 8).blk t).view.set := by
  have hi0 : (i 0).val < 300000 := (i 0).isLt
  have hi1 : (i 1).val < 64 := (i 1).isLt
  have hN : grid0.N = 100 := Gen.N_0
  obtain ⟨t, ht⟩ : ∃ t : Fin cfg0.N, t.val = (i 0).val / 3000 :=
    ⟨⟨(i 0).val / 3000, by show _ < grid0.N; omega⟩, rfl⟩
  obtain ⟨i00, i01, i10, i11, i20, i21, i30, i31, i40, i41, i50, i51, i60, i61, i70, i71, i80, i81⟩ := idx_facts0 t
  refine ⟨t, Gen.flush0_8 t, ?_⟩
  rw [mem_blk0_8]
  intro a
  match a with
  | ⟨0, _⟩ =>
    show win0_8.index t (0 : Fin 2) * 3000 ≤ (i 0).val ∧ (i 0).val < win0_8.index t (0 : Fin 2) * 3000 + 3000
    rw [i80, ht]; omega
  | ⟨1, _⟩ =>
    show win0_8.index t (1 : Fin 2) * 64 ≤ (i 1).val ∧ (i 1).val < win0_8.index t (1 : Fin 2) * 64 + 64
    rw [i81]; omega

/-! ## The two arrays after the run -/

/-- The new-embeddings array after the region: `egoArr` of the arrays the region reads. -/
theorem egoFinal0 (c : Dev nD) :
    (Layer.layerDat0 V c).arrAt 7 cfg0.N = egoArr (V c main_v0) (V c main_v13) (V c main_v15) (V c main_v17) (V c main_v19) (V c main_v21) :=
  (Layer.layerDat0 V c).arrAt_eq_of_cover 7 _ (fun t _ => flushed0_7_eq V c t) cover0_7

/-- The running-sum array after the region: the old running sum plus the row-normalised new embeddings. -/
theorem accFinal0 (c : Dev nD) :
    (Layer.layerDat0 V c).arrAt 8 cfg0.N = accArr (V c main_v0) (egoArr (V c main_v0) (V c main_v13) (V c main_v15) (V c main_v17) (V c main_v19) (V c main_v21)) :=
  (Layer.layerDat0 V c).arrAt_eq_of_cover 8 _ (fun t _ => flushed0_8_eq V c t) cover0_8

end Cert.KernelIdeal.LayerValue

end
-- ==== Proof.IdealValue1.lean ====
import proofs.«179311_j1056561954898_1_alg».proof.Proof.IdealBody1
import proofs.«179311_j1056561954898_1_alg».proof.Proof.PayIdx
import proofs.«179311_j1056561954898_1_alg».proof.Proof.LayerSpec
import proofs.«179311_j1056561954898_1_alg».proof.Proof.IdealValueSpec
import Idealize.ShloMosaic.Lib.Pipeline.Value

/-!
# Layer region 1: from the blocks to the two arrays

The region runs over 100 grid points; point `t` works on rows `3000 t … 3000 t + 2999`.  What
point `t` writes back to the new-embeddings array and to the running-sum array is, entry by entry,
the row-level layer applied to the corresponding ROW of the arrays the region reads: an entry of
the output block at row `p` depends on row `p` of the input blocks, which is row `3000 t + p` of
the arrays (the weight and bias windows always show the whole array).  The blocks of the 100 points
tile the `300000` rows, so after the run each output array is the whole-array function of
`Cert.KernelIdeal.LayerValue`.
-/

noncomputable section

namespace Cert.KernelIdeal.LayerValue

open Cert.KernelIdeal
open Idealize.ShloMosaic Idealize.ShloMosaic.TcCoe Idealize.ShloMosaic.ValueIdx Idealize.SL.Sem
open Idealize.ShloMosaic.Pipeline (Dat)

-- the buffer contents the region is entered with
variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the five row-block windows sit at block row `t`,
    column block `0`; the four weight and bias windows at block `(0, 0)`. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0
    ∧ win1_8.index t (0 : Fin 2) = t.val
    ∧ win1_8.index t (1 : Fin 2) = 0 :=
  (by decide +kernel : ∀ t : Fin grid1.N, _)

/-! ## One entry of the two stored blocks, over variables -/

/-- If row `p` of the two row blocks is row `r` of the arrays `A0`, `A1` and the weight and bias blocks
    are the arrays `A2 … A5`, the stored new embedding at `(p, e)` is the whole-array one at `(r, e)`. -/
theorem egoPoint1 (A0 A1 : S300000x64.Idx → EReal) (A2 : S64x64.Idx → EReal) (A3 : S1x64.Idx → EReal)
    (A4 : S64x64.Idx → EReal) (A5 : S1x64.Idx → EReal)
    (x0 x1 : FVec Ideal S3000x64 .f32) (x2 : FVec Ideal S64x64 .f32) (x3 : FVec Ideal S1x64 .f32)
    (x4 : FVec Ideal S64x64 .f32) (x5 : FVec Ideal S1x64 .f32)
    (r : Fin 300000) (p : Fin 3000) (e : Fin 64)
    (h0 : ∀ k : Fin 64, x0 (ix2 p k) = A0 (ix2 r k)) (h1 : ∀ k : Fin 64, x1 (ix2 p k) = A1 (ix2 r k))
    (h2 : ∀ k e : Fin 64, x2 (ix2 k e) = A2 (ix2 k e)) (h3 : ∀ e : Fin 64, x3 (ix2 (0 : Fin 1) e) = A3 (ix2 (0 : Fin 1) e))
    (h4 : ∀ k e : Fin 64, x4 (ix2 k e) = A4 (ix2 k e)) (h5 : ∀ e : Fin 64, x5 (ix2 (0 : Fin 1) e) = A5 (ix2 (0 : Fin 1) e)) :
    Gen.k1_pay2 (F := Ideal) x0 x1 x2 x3 x4 x5 (ix2 p e) = egoArr A0 A1 A2 A3 A4 A5 (ix2 r e) := by
  rw [PayIdx.k1_pay2_apply, egoArr_ix2]
  have e0 : (fun k => x0 (ix2 p k)) = fun k => A0 (ix2 r k) := funext h0
  have e1 : (fun k => x1 (ix2 p k)) = fun k => A1 (ix2 r k) := funext h1
  have e2 : (fun k e => x2 (ix2 k e)) = fun k e => A2 (ix2 k e) := funext fun k => funext (h2 k)
  have e3 : (fun e => x3 (ix2 (0 : Fin 1) e)) = fun e => A3 (ix2 (0 : Fin 1) e) := funext h3
  have e4 : (fun k e => x4 (ix2 k e)) = fun k e => A4 (ix2 k e) := funext fun k => funext (h4 k)
  have e5 : (fun e => x5 (ix2 (0 : Fin 1) e)) = fun e => A5 (ix2 (0 : Fin 1) e) := funext h5
  exact congrFun (congr (congr (congr (congr (congr (congrArg LayerSpec.egoNew e0) e1) e2) e3) e4) e5) e

/-- With the running-sum block's row `p` row `r` of `A6` as well, the stored running sum at `(p, e)` is the
    whole-array one at `(r, e)`. -/
theorem accPoint1 (A0 A1 : S300000x64.Idx → EReal) (A2 : S64x64.Idx → EReal) (A3 : S1x64.Idx → EReal)
    (A4 : S64x64.Idx → EReal) (A5 : S1x64.Idx → EReal) (A6 : S300000x64.Idx → EReal)
    (x0 x1 : FVec Ideal S3000x64 .f32) (x2 : FVec Ideal S64x64 .f32) (x3 : FVec Ideal S1x64 .f32)
    (x4 : FVec Ideal S64x64 .f32) (x5 : FVec Ideal S1x64 .f32) (x6 : FVec Ideal S3000x64 .f32)
    (r : Fin 300000) (p : Fin 3000) (e : Fin 64)
    (h0 : ∀ k : Fin 64, x0 (ix2 p k) = A0 (ix2 r k)) (h1 : ∀ k : Fin 64, x1 (ix2 p k) = A1 (ix2 r k))
    (h2 : ∀ k e : Fin 64, x2 (ix2 k e) = A2 (ix2 k e)) (h3 : ∀ e : Fin 64, x3 (ix2 (0 : Fin 1) e) = A3 (ix2 (0 : Fin 1) e))
    (h4 : ∀ k e : Fin 64, x4 (ix2 k e) = A4 (ix2 k e)) (h5 : ∀ e : Fin 64, x5 (ix2 (0 : Fin 1) e) = A5 (ix2 (0 : Fin 1) e))
    (h6 : ∀ k : Fin 64, x6 (ix2 p k) = A6 (ix2 r k)) :
    Gen.k1_pay1 (F := Ideal) (Gen.k1_pay3 (F := Ideal) x0 x1 x2 x3 x4 x5) x6 (ix2 p e)
      = accArr A6 (egoArr A0 A1 A2 A3 A4 A5) (ix2 r e) := by
  rw [PayIdx.k1_pay1_apply, PayIdx.k1_pay3_apply, accArr_ix2, h6 e]
  have hy : (fun j => Gen.k1_pay2 (F := Ideal) x0 x1 x2 x3 x4 x5 (ix2 p j)) = fun j => egoArr A0 A1 A2 A3 A4 A5 (ix2 r j) :=
    funext fun j => egoPoint1 A0 A1 A2 A3 A4 A5 x0 x1 x2 x3 x4 x5 r p j h0 h1 h2 h3 h4 h5
  exact congrArg (fun f => A6 (ix2 r e) + LayerSpec.normed f e) hy

/-! ## What a grid point writes back -/

/-- What point `t` writes back to the new-embeddings array is block `t` of `egoArr` of the arrays read. -/
theorem flushed1_7_eq (c : Dev nD) (t : Fin cfg1.N) :
    (Layer.layerDat1 V c).flushed 7 t
      = ((cfg1.win 7).blk t).view.read (Elt Ideal) (egoArr (V c main_v22_0) (V c main_v35) (V c main_v37) (V c main_v39) (V c main_v41) (V c main_v43)) := by
  show (cfg1.win 7).cut (grid1.coords t) ((Layer.layerDat1 V c).after 7 t) = _
  rw [Layer.after1_7]
  unfold Layer.egoOut1
  rw [View.canon_unit_zero hz1]
  simp only [View.ld_unit_zero (S := S3000x64) hz1, View.ld_unit_zero (S := S64x64) hz1, View.ld_unit_zero (S := S1x64) hz1]
  obtain ⟨i00, i01, i10, i11, i20, i21, i30, i31, i40, i41, i50, i51, i60, i61, i70, i71, i80, i81⟩ := idx_facts1 t
  have ht : t.val < 100 := by have h : t.val < grid1.N := t.isLt; have hN : grid1.N = 100 := Gen.N_1; omega
  funext j
  obtain ⟨p, e, rfl⟩ : ∃ (p : Fin 3000) (e : Fin 64), j = ix2 p e := ⟨j 0, j 1, eq_ix2 j⟩
  have hr : t.val * 3000 + p.val < 300000 := by have := p.isLt; omega
  have hemb : ((cfg1.win 7).blk t).view.emb (ix2 p e) = ix2 (⟨t.val * 3000 + p.val, hr⟩ : Fin 300000) e := by
    funext a; apply Fin.ext
    match a with
    | ⟨0, _⟩ => show win1_7.index t (0 : Fin 2) * 3000 + 1 * p.val = t.val * 3000 + p.val; rw [i70]; omega
    | ⟨1, _⟩ => show win1_7.index t (1 : Fin 2) * 64 + 1 * e.val = e.val; rw [i71]; omega
  show Gen.k1_pay2 (F := Ideal) (Layer.blk1 V c 0 t) (Layer.blk1 V c 1 t) (Layer.blk1 V c 2 t) (Layer.blk1 V c 3 t) (Layer.blk1 V c 4 t) (Layer.blk1 V c 5 t) (ix2 p e)
      = egoArr (V c main_v22_0) (V c main_v35) (V c main_v37) (V c main_v39) (V c main_v41) (V c main_v43) (((cfg1.win 7).blk t).view.emb (ix2 p e))
  rw [hemb]
  refine egoPoint1 _ _ _ _ _ _ _ _ _ _ _ _ _ p e ?_ ?_ ?_ ?_ ?_ ?_
  · intro k
    show V c main_v22_0 (((cfg1.win 0).blk t).view.emb (ix2 p k)) = V c main_v22_0 (ix2 (⟨t.val * 3000 + p.val, hr⟩ : Fin 300000) k)
    refine congrArg (V c main_v22_0) ?_
    funext a; apply Fin.ext
    match a with
    | ⟨0, _⟩ => show win1_0.index t (0 : Fin 2) * 3000 + 1 * p.val = t.val * 3000 + p.val; rw [i00]; omega
    | ⟨1, _⟩ => show win1_0.index t (1 : Fin 2) * 64 + 1 * k.val = k.val; rw [i01]; omega
  · intro k
    show V c main_v35 (((cfg1.win 1).blk t).view.emb (ix2 p k)) = V c main_v35 (ix2 (⟨t.val * 3000 + p.val, hr⟩ : Fin 300000) k)
    refine congrArg (V c main_v35) ?_
    funext a; apply Fin.ext
    match a with
    | ⟨0, _⟩ => show win1_1.index t (0 : Fin 2) * 3000 + 1 * p.val = t.val * 3000 + p.val; rw [i10]; omega
    | ⟨1, _⟩ => show win1_1.index t (1 : Fin 2) * 64 + 1 * k.val = k.val; rw [i11]; omega
  · intro k e'
    show V c main_v37 (((cfg1.win 2).blk t).view.emb (ix2 k e')) = V c main_v37 (ix2 k e')
    refine congrArg (V c main_v37) ?_
    funext a; apply Fin.ext
    match a with
    | ⟨0, _⟩ => show win1_2.index t (0 : Fin 2) * 64 + 1 * k.val = k.val; rw [i20]; omega
    | ⟨1, _⟩ => show win1_2.index t (1 : Fin 2) * 64 + 1 * e'.val = e'.val; rw [i21]; omega
  · intro e'
    show V c main_v39 (((cfg1.win 3).blk t).view.emb (ix2 (0 : Fin 1) e')) = V c main_v39 (ix2 (0 : Fin 1) e')
    refine congrArg (V c main_v39) ?_
    funext a; apply Fin.ext
    match a with
    | ⟨0, _⟩ => show win1_3.index t (0 : Fin 2) * 1 + 1 * (0 : Fin 1).val = (0 : Fin 1).val; rw [i30]; rfl
    | ⟨1, _⟩ => show win1_3.index t (1 : Fin 2) * 64 + 1 * e'.val = e'.val; rw [i31]; omega
  · intro k e'
    show V c main_v41 (((cfg1.win 4).blk t).view.emb (ix2 k e')) = V c main_v41 (ix2 k e')
    refine congrArg (V c main_v41) ?_
    funext a; apply Fin.ext
    match a with
    | ⟨0, _⟩ => show win1_4.index t (0 : Fin 2) * 64 + 1 * k.val = k.val; rw [i40]; omega
    | ⟨1, _⟩ => show win1_4.index t (1 : Fin 2) * 64 + 1 * e'.val = e'.val; rw [i41]; omega
  · intro e'
    show V c main_v43 (((cfg1.win 5).blk t).view.emb (ix2 (0 : Fin 1) e')) = V c main_v43 (ix2 (0 : Fin 1) e')
    refine congrArg (V c main_v43) ?_
    funext a; apply Fin.ext
    match a with
    | ⟨0, _⟩ => show win1_5.index t (0 : Fin 2) * 1 + 1 * (0 : Fin 1).val = (0 : Fin 1).val; rw [i50]; rfl
    | ⟨1, _⟩ => show win1_5.index t (1 : Fin 2) * 64 + 1 * e'.val = e'.val; rw [i51]; omega

/-- What point `t` writes back to the running-sum array is block `t` of `accArr` of the arrays read. -/
theorem flushed1_8_eq (c : Dev nD) (t : Fin cfg1.N) :
    (Layer.layerDat1 V c).flushed 8 t
      = ((cfg1.win 8).blk t).view.read (Elt Ideal) (accArr (V c main_v22_1) (egoArr (V c main_v22_0) (V c main_v35) (V c main_v37) (V c main_v39) (V c main_v41) (V c main_v43))) := by
  show (cfg1.win 8).cut (grid1.coords t) ((Layer.layerDat1 V c).after 8 t) = _
  rw [Layer.after1_8]
  unfold Layer.accOut1
  rw [View.canon_unit_zero hz1]
  simp only [View.ld_unit_zero (S := S3000x64) hz1, View.ld_unit_zero (S := S64x64) hz1, View.ld_unit_zero (S := S1x64) hz1]
  obtain ⟨i00, i01, i10, i11, i20, i21, i30, i31, i40, i41, i50, i51, i60, i61, i70, i71, i80, i81⟩ := idx_facts1 t
  have ht : t.val < 100 := by have h : t.val < grid1.N := t.isLt; have hN : grid1.N = 100 := Gen.N_1; omega
  funext j
  obtain ⟨p, e, rfl⟩ : ∃ (p : Fin 3000) (e : Fin 64), j = ix2 p e := ⟨j 0, j 1, eq_ix2 j⟩
  have hr : t.val * 3000 + p.val < 300000 := by have := p.isLt; omega
  have hemb : ((cfg1.win 8).blk t).view.emb (ix2 p e) = ix2 (⟨t.val * 3000 + p.val, hr⟩ : Fin 300000) e := by
    funext a; apply Fin.ext
    match a with
    | ⟨0, _⟩ => show win1_8.index t (0 : Fin 2) * 3000 + 1 * p.val = t.val * 3000 + p.val; rw [i80]; omega
    | ⟨1, _⟩ => show win1_8.index t (1 : Fin 2) * 64 + 1 * e.val = e.val; rw [i81]; omega
  show Gen.k1_pay1 (F := Ideal) (Gen.k1_pay3 (F := Ideal) (Layer.blk1 V c 0 t) (Layer.blk1 V c 1 t) (Layer.blk1 V c 2 t) (Layer.blk1 V c 3 t) (Layer.blk1 V c 4 t) (Layer.blk1 V c 5 t)) (Layer.blk1 V c 6 t) (ix2 p e)
      = accArr (V c main_v22_1) (egoArr (V c main_v22_0) (V c main_v35) (V c main_v37) (V c main_v39) (V c main_v41) (V c main_v43)) (((cfg1.win 8).blk t).view.emb (ix2 p e))
  rw [hemb]
  refine accPoint1 _ _ _ _ _ _ _ _ _ _ _ _ _ _ _ p e ?_ ?_ ?_ ?_ ?_ ?_ ?_
  · intro k
    show V c main_v22_0 (((cfg1.win 0).blk t).view.emb (ix2 p k)) = V c main_v22_0 (ix2 (⟨t.val * 3000 + p.val, hr⟩ : Fin 300000) k)
    refine congrArg (V c main_v22_0) ?_
    funext a; apply Fin.ext
    match a with
    | ⟨0, _⟩ => show win1_0.index t (0 : Fin 2) * 3000 + 1 * p.val = t.val * 3000 + p.val; rw [i00]; omega
    | ⟨1, _⟩ => show win1_0.index t (1 : Fin 2) * 64 + 1 * k.val = k.val; rw [i01]; omega
  · intro k
    show V c main_v35 (((cfg1.win 1).blk t).view.emb (ix2 p k)) = V c main_v35 (ix2 (⟨t.val * 3000 + p.val, hr⟩ : Fin 300000) k)
    refine congrArg (V c main_v35) ?_
    funext a; apply Fin.ext
    match a with
    | ⟨0, _⟩ => show win1_1.index t (0 : Fin 2) * 3000 + 1 * p.val = t.val * 3000 + p.val; rw [i10]; omega
    | ⟨1, _⟩ => show win1_1.index t (1 : Fin 2) * 64 + 1 * k.val = k.val; rw [i11]; omega
  · intro k e'
    show V c main_v37 (((cfg1.win 2).blk t).view.emb (ix2 k e')) = V c main_v37 (ix2 k e')
    refine congrArg (V c main_v37) ?_
    funext a; apply Fin.ext
    match a with
    | ⟨0, _⟩ => show win1_2.index t (0 : Fin 2) * 64 + 1 * k.val = k.val; rw [i20]; omega
    | ⟨1, _⟩ => show win1_2.index t (1 : Fin 2) * 64 + 1 * e'.val = e'.val; rw [i21]; omega
  · intro e'
    show V c main_v39 (((cfg1.win 3).blk t).view.emb (ix2 (0 : Fin 1) e')) = V c main_v39 (ix2 (0 : Fin 1) e')
    refine congrArg (V c main_v39) ?_
    funext a; apply Fin.ext
    match a with
    | ⟨0, _⟩ => show win1_3.index t (0 : Fin 2) * 1 + 1 * (0 : Fin 1).val = (0 : Fin 1).val; rw [i30]; rfl
    | ⟨1, _⟩ => show win1_3.index t (1 : Fin 2) * 64 + 1 * e'.val = e'.val; rw [i31]; omega
  · intro k e'
    show V c main_v41 (((cfg1.win 4).blk t).view.emb (ix2 k e')) = V c main_v41 (ix2 k e')
    refine congrArg (V c main_v41) ?_
    funext a; apply Fin.ext
    match a with
    | ⟨0, _⟩ => show win1_4.index t (0 : Fin 2) * 64 + 1 * k.val = k.val; rw [i40]; omega
    | ⟨1, _⟩ => show win1_4.index t (1 : Fin 2) * 64 + 1 * e'.val = e'.val; rw [i41]; omega
  · intro e'
    show V c main_v43 (((cfg1.win 5).blk t).view.emb (ix2 (0 : Fin 1) e')) = V c main_v43 (ix2 (0 : Fin 1) e')
    refine congrArg (V c main_v43) ?_
    funext a; apply Fin.ext
    match a with
    | ⟨0, _⟩ => show win1_5.index t (0 : Fin 2) * 1 + 1 * (0 : Fin 1).val = (0 : Fin 1).val; rw [i50]; rfl
    | ⟨1, _⟩ => show win1_5.index t (1 : Fin 2) * 64 + 1 * e'.val = e'.val; rw [i51]; omega
  · intro k
    show V c main_v22_1 (((cfg1.win 6).blk t).view.emb (ix2 p k)) = V c main_v22_1 (ix2 (⟨t.val * 3000 + p.val, hr⟩ : Fin 300000) k)
    refine congrArg (V c main_v22_1) ?_
    funext a; apply Fin.ext
    match a with
    | ⟨0, _⟩ => show win1_6.index t (0 : Fin 2) * 3000 + 1 * p.val = t.val * 3000 + p.val; rw [i60]; omega
    | ⟨1, _⟩ => show win1_6.index t (1 : Fin 2) * 64 + 1 * k.val = k.val; rw [i61]; omega

/-! ## The blocks tile the rows -/

/-- An index of the new-embeddings array lies in point `t`'s block iff each coordinate lies in the block's range. -/
theorem mem_blk1_7 (t : Fin cfg1.N) (i : S300000x64.Idx) :
    i ∈ ((cfg1.win 7).blk t).view.set ↔ ∀ a : Fin 2, win1_7.index t a * S3000x64.size a ≤ (i a).val ∧ (i a).val < win1_7.index t a * S3000x64.size a + S3000x64.size a := by
  show i ∈ ((View.whole main_v44_0).slice (win1_7.rect t)).set ↔ _
  rw [View.set_slice_whole, Rect.mem_set_unit]
  exact Iff.rfl

/-- Every row of the new-embeddings array lies in the block of the grid point `row / 3000`, which writes back. -/
theorem cover1_7 (i : S300000x64.Idx) :
    ∃ t : Fin cfg1.N, (cfg1.win 7).flush t = true ∧ i ∈ ((cfg1.win 7).blk t).view.set := by
  have hi0 : (i 0).val < 300000 := (i 0).isLt
  have hi1 : (i 1).val < 64 := (i 1).isLt
  have hN : grid1.N = 100 := Gen.N_1
  obtain ⟨t, ht⟩ : ∃ t : Fin cfg1.N, t.val = (i 0).val / 3000 :=
    ⟨⟨(i 0).val / 3000, by show _ < grid1.N; omega⟩, rfl⟩
  obtain ⟨i00, i01, i10, i11, i20, i21, i30, i31, i40, i41, i50, i51, i60, i61, i70, i71, i80, i81⟩ := idx_facts1 t
  refine ⟨t, Gen.flush1_7 t, ?_⟩
  rw [mem_blk1_7]
  intro a
  match a with
  | ⟨0, _⟩ =>
    show win1_7.index t (0 : Fin 2) * 3000 ≤ (i 0).val ∧ (i 0).val < win1_7.index t (0 : Fin 2) * 3000 + 3000
    rw [i70, ht]; omega
  | ⟨1, _⟩ =>
    show win1_7.index t (1 : Fin 2) * 64 ≤ (i 1).val ∧ (i 1).val < win1_7.index t (1 : Fin 2) * 64 + 64
    rw [i71]; omega

/-- An index of the running-sum array lies in point `t`'s block iff each coordinate lies in the block's range. -/
theorem mem_blk1_8 (t : Fin cfg1.N) (i : S300000x64.Idx) :
    i ∈ ((cfg1.win 8).blk t).view.set ↔ ∀ a : Fin 2, win1_8.index t a * S3000x64.size a ≤ (i a).val ∧ (i a).val < win1_8.index t a * S3000x64.size a + S3000x64.size a := by
  show i ∈ ((View.whole main_v44_1).slice (win1_8.rect t)).set ↔ _
  rw [View.set_slice_whole, Rect.mem_set_unit]
  exact Iff.rfl

/-- Every row of the running-sum array lies in the block of the grid point `row / 3000`, which writes back. -/
theorem cover1_8 (i : S300000x64.Idx) :
    ∃ t : Fin cfg1.N, (cfg1.win 8).flush t = true ∧ i ∈ ((cfg1.win 8).blk t).view.set := by
  have hi0 : (i 0).val < 300000 := (i 0).isLt
  have hi1 : (i 1).val < 64 := (i 1).isLt
  have hN : grid1.N = 100 := Gen.N_1
  obtain ⟨t, ht⟩ : ∃ t : Fin cfg1.N, t.val = (i 0).val / 3000 :=
    ⟨⟨(i 0).val / 3000, by show _ < grid1.N; omega⟩, rfl⟩
  obtain ⟨i00, i01, i10, i11, i20, i21, i30, i31, i40, i41, i50, i51, i60, i61, i70, i71, i80, i81⟩ := idx_facts1 t
  refine ⟨t, Gen.flush1_8 t, ?_⟩
  rw [mem_blk1_8]
  intro a
  match a with
  | ⟨0, _⟩ =>
    show win1_8.index t (0 : Fin 2) * 3000 ≤ (i 0).val ∧ (i 0).val < win1_8.index t (0 : Fin 2) * 3000 + 3000
    rw [i80, ht]; omega
  | ⟨1, _⟩ =>
    show win1_8.index t (1 : Fin 2) * 64 ≤ (i 1).val ∧ (i 1).val < win1_8.index t (1 : Fin 2) * 64 + 64
    rw [i81]; omega

/-! ## The two arrays after the run -/

/-- The new-embeddings array after the region: `egoArr` of the arrays the region reads. -/
theorem egoFinal1 (c : Dev nD) :
    (Layer.layerDat1 V c).arrAt 7 cfg1.N = egoArr (V c main_v22_0) (V c main_v35) (V c main_v37) (V c main_v39) (V c main_v41) (V c main_v43) :=
  (Layer.layerDat1 V c).arrAt_eq_of_cover 7 _ (fun t _ => flushed1_7_eq V c t) cover1_7

/-- The running-sum array after the region: the old running sum plus the row-normalised new embeddings. -/
theorem accFinal1 (c : Dev nD) :
    (Layer.layerDat1 V c).arrAt 8 cfg1.N = accArr (V c main_v22_1) (egoArr (V c main_v22_0) (V c main_v35) (V c main_v37) (V c main_v39) (V c main_v41) (V c main_v43)) :=
  (Layer.layerDat1 V c).arrAt_eq_of_cover 8 _ (fun t _ => flushed1_8_eq V c t) cover1_8

end Cert.KernelIdeal.LayerValue

end
-- ==== Proof.IdealValue2.lean ====
import proofs.«179311_j1056561954898_1_alg».proof.Proof.IdealBody2
import proofs.«179311_j1056561954898_1_alg».proof.Proof.PayIdx
import proofs.«179311_j1056561954898_1_alg».proof.Proof.LayerSpec
import proofs.«179311_j1056561954898_1_alg».proof.Proof.IdealValueSpec
import Idealize.ShloMosaic.Lib.Pipeline.Value

/-!
# Layer region 2: from the blocks to the two arrays

The region runs over 100 grid points; point `t` works on rows `3000 t … 3000 t + 2999`.  What
point `t` writes back to the new-embeddings array and to the running-sum array is, entry by entry,
the row-level layer applied to the corresponding ROW of the arrays the region reads: an entry of
the output block at row `p` depends on row `p` of the input blocks, which is row `3000 t + p` of
the arrays (the weight and bias windows always show the whole array).  The blocks of the 100 points
tile the `300000` rows, so after the run each output array is the whole-array function of
`Cert.KernelIdeal.LayerValue`.
-/

noncomputable section

namespace Cert.KernelIdeal.LayerValue

open Cert.KernelIdeal
open Idealize.ShloMosaic Idealize.ShloMosaic.TcCoe Idealize.ShloMosaic.ValueIdx Idealize.SL.Sem
open Idealize.ShloMosaic.Pipeline (Dat)

-- the buffer contents the region is entered with
variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the five row-block windows sit at block row `t`,
    column block `0`; the four weight and bias windows at block `(0, 0)`. -/
theorem idx_facts2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0
    ∧ win2_7.index t (0 : Fin 2) = t.val
    ∧ win2_7.index t (1 : Fin 2) = 0
    ∧ win2_8.index t (0 : Fin 2) = t.val
    ∧ win2_8.index t (1 : Fin 2) = 0 :=
  (by decide +kernel : ∀ t : Fin grid2.N, _)

/-! ## One entry of the two stored blocks, over variables -/

/-- If row `p` of the two row blocks is row `r` of the arrays `A0`, `A1` and the weight and bias blocks
    are the arrays `A2 … A5`, the stored new embedding at `(p, e)` is the whole-array one at `(r, e)`. -/
theorem egoPoint2 (A0 A1 : S300000x64.Idx → EReal) (A2 : S64x64.Idx → EReal) (A3 : S1x64.Idx → EReal)
    (A4 : S64x64.Idx → EReal) (A5 : S1x64.Idx → EReal)
    (x0 x1 : FVec Ideal S3000x64 .f32) (x2 : FVec Ideal S64x64 .f32) (x3 : FVec Ideal S1x64 .f32)
    (x4 : FVec Ideal S64x64 .f32) (x5 : FVec Ideal S1x64 .f32)
    (r : Fin 300000) (p : Fin 3000) (e : Fin 64)
    (h0 : ∀ k : Fin 64, x0 (ix2 p k) = A0 (ix2 r k)) (h1 : ∀ k : Fin 64, x1 (ix2 p k) = A1 (ix2 r k))
    (h2 : ∀ k e : Fin 64, x2 (ix2 k e) = A2 (ix2 k e)) (h3 : ∀ e : Fin 64, x3 (ix2 (0 : Fin 1) e) = A3 (ix2 (0 : Fin 1) e))
    (h4 : ∀ k e : Fin 64, x4 (ix2 k e) = A4 (ix2 k e)) (h5 : ∀ e : Fin 64, x5 (ix2 (0 : Fin 1) e) = A5 (ix2 (0 : Fin 1) e)) :
    Gen.k2_pay2 (F := Ideal) x0 x1 x2 x3 x4 x5 (ix2 p e) = egoArr A0 A1 A2 A3 A4 A5 (ix2 r e) := by
  rw [PayIdx.k2_pay2_apply, egoArr_ix2]
  have e0 : (fun k => x0 (ix2 p k)) = fun k => A0 (ix2 r k) := funext h0
  have e1 : (fun k => x1 (ix2 p k)) = fun k => A1 (ix2 r k) := funext h1
  have e2 : (fun k e => x2 (ix2 k e)) = fun k e => A2 (ix2 k e) := funext fun k => funext (h2 k)
  have e3 : (fun e => x3 (ix2 (0 : Fin 1) e)) = fun e => A3 (ix2 (0 : Fin 1) e) := funext h3
  have e4 : (fun k e => x4 (ix2 k e)) = fun k e => A4 (ix2 k e) := funext fun k => funext (h4 k)
  have e5 : (fun e => x5 (ix2 (0 : Fin 1) e)) = fun e => A5 (ix2 (0 : Fin 1) e) := funext h5
  exact congrFun (congr (congr (congr (congr (congr (congrArg LayerSpec.egoNew e0) e1) e2) e3) e4) e5) e

/-- With the running-sum block's row `p` row `r` of `A6` as well, the stored running sum at `(p, e)` is the
    whole-array one at `(r, e)`. -/
theorem accPoint2 (A0 A1 : S300000x64.Idx → EReal) (A2 : S64x64.Idx → EReal) (A3 : S1x64.Idx → EReal)
    (A4 : S64x64.Idx → EReal) (A5 : S1x64.Idx → EReal) (A6 : S300000x64.Idx → EReal)
    (x0 x1 : FVec Ideal S3000x64 .f32) (x2 : FVec Ideal S64x64 .f32) (x3 : FVec Ideal S1x64 .f32)
    (x4 : FVec Ideal S64x64 .f32) (x5 : FVec Ideal S1x64 .f32) (x6 : FVec Ideal S3000x64 .f32)
    (r : Fin 300000) (p : Fin 3000) (e : Fin 64)
    (h0 : ∀ k : Fin 64, x0 (ix2 p k) = A0 (ix2 r k)) (h1 : ∀ k : Fin 64, x1 (ix2 p k) = A1 (ix2 r k))
    (h2 : ∀ k e : Fin 64, x2 (ix2 k e) = A2 (ix2 k e)) (h3 : ∀ e : Fin 64, x3 (ix2 (0 : Fin 1) e) = A3 (ix2 (0 : Fin 1) e))
    (h4 : ∀ k e : Fin 64, x4 (ix2 k e) = A4 (ix2 k e)) (h5 : ∀ e : Fin 64, x5 (ix2 (0 : Fin 1) e) = A5 (ix2 (0 : Fin 1) e))
    (h6 : ∀ k : Fin 64, x6 (ix2 p k) = A6 (ix2 r k)) :
    Gen.k2_pay1 (F := Ideal) (Gen.k2_pay3 (F := Ideal) x0 x1 x2 x3 x4 x5) x6 (ix2 p e)
      = accArr A6 (egoArr A0 A1 A2 A3 A4 A5) (ix2 r e) := by
  rw [PayIdx.k2_pay1_apply, PayIdx.k2_pay3_apply, accArr_ix2, h6 e]
  have hy : (fun j => Gen.k2_pay2 (F := Ideal) x0 x1 x2 x3 x4 x5 (ix2 p j)) = fun j => egoArr A0 A1 A2 A3 A4 A5 (ix2 r j) :=
    funext fun j => egoPoint2 A0 A1 A2 A3 A4 A5 x0 x1 x2 x3 x4 x5 r p j h0 h1 h2 h3 h4 h5
  exact congrArg (fun f => A6 (ix2 r e) + LayerSpec.normed f e) hy

/-! ## What a grid point writes back -/

set_option maxHeartbeats 1000000 in
/-- What point `t` writes back to the new-embeddings array is block `t` of `egoArr` of the arrays read. -/
theorem flushed2_7_eq (c : Dev nD) (t : Fin cfg2.N) :
    (Layer.layerDat2 V c).flushed 7 t
      = ((cfg2.win 7).blk t).view.read (Elt Ideal) (egoArr (V c main_v44_0) (V c main_v57) (V c main_v59) (V c main_v61) (V c main_v63) (V c main_v65)) := by
  show (cfg2.win 7).cut (grid2.coords t) ((Layer.layerDat2 V c).after 7 t) = _
  rw [Layer.after2_7]
  unfold Layer.egoOut2
  rw [View.canon_unit_zero hz2]
  simp only [View.ld_unit_zero (S := S3000x64) hz2, View.ld_unit_zero (S := S64x64) hz2, View.ld_unit_zero (S := S1x64) hz2]
  obtain ⟨i00, i01, i10, i11, i20, i21, i30, i31, i40, i41, i50, i51, i60, i61, i70, i71, i80, i81⟩ := idx_facts2 t
  have ht : t.val < 100 := by have h : t.val < grid2.N := t.isLt; have hN : grid2.N = 100 := Gen.N_2; omega
  funext j
  obtain ⟨p, e, rfl⟩ : ∃ (p : Fin 3000) (e : Fin 64), j = ix2 p e := ⟨j 0, j 1, eq_ix2 j⟩
  have hr : t.val * 3000 + p.val < 300000 := by have := p.isLt; omega
  have hemb : ((cfg2.win 7).blk t).view.emb (ix2 p e) = ix2 (⟨t.val * 3000 + p.val, hr⟩ : Fin 300000) e := by
    funext a; apply Fin.ext
    match a with
    | ⟨0, _⟩ => show win2_7.index t (0 : Fin 2) * 3000 + 1 * p.val = t.val * 3000 + p.val; rw [i70]; omega
    | ⟨1, _⟩ => show win2_7.index t (1 : Fin 2) * 64 + 1 * e.val = e.val; rw [i71]; omega
  show Gen.k2_pay2 (F := Ideal) (Layer.blk2 V c 0 t) (Layer.blk2 V c 1 t) (Layer.blk2 V c 2 t) (Layer.blk2 V c 3 t) (Layer.blk2 V c 4 t) (Layer.blk2 V c 5 t) (ix2 p e)
      = egoArr (V c main_v44_0) (V c main_v57) (V c main_v59) (V c main_v61) (V c main_v63) (V c main_v65) (((cfg2.win 7).blk t).view.emb (ix2 p e))
  rw [hemb]
  refine egoPoint2 _ _ _ _ _ _ _ _ _ _ _ _ _ p e ?_ ?_ ?_ ?_ ?_ ?_
  · intro k
    show V c main_v44_0 (((cfg2.win 0).blk t).view.emb (ix2 p k)) = V c main_v44_0 (ix2 (⟨t.val * 3000 + p.val, hr⟩ : Fin 300000) k)
    refine congrArg (V c main_v44_0) ?_
    funext a; apply Fin.ext
    match a with
    | ⟨0, _⟩ => show win2_0.index t (0 : Fin 2) * 3000 + 1 * p.val = t.val * 3000 + p.val; rw [i00]; omega
    | ⟨1, _⟩ => show win2_0.index t (1 : Fin 2) * 64 + 1 * k.val = k.val; rw [i01]; omega
  · intro k
    show V c main_v57 (((cfg2.win 1).blk t).view.emb (ix2 p k)) = V c main_v57 (ix2 (⟨t.val * 3000 + p.val, hr⟩ : Fin 300000) k)
    refine congrArg (V c main_v57) ?_
    funext a; apply Fin.ext
    match a with
    | ⟨0, _⟩ => show win2_1.index t (0 : Fin 2) * 3000 + 1 * p.val = t.val * 3000 + p.val; rw [i10]; omega
    | ⟨1, _⟩ => show win2_1.index t (1 : Fin 2) * 64 + 1 * k.val = k.val; rw [i11]; omega
  · intro k e'
    show V c main_v59 (((cfg2.win 2).blk t).view.emb (ix2 k e')) = V c main_v59 (ix2 k e')
    refine congrArg (V c main_v59) ?_
    funext a; apply Fin.ext
    match a with
    | ⟨0, _⟩ => show win2_2.index t (0 : Fin 2) * 64 + 1 * k.val = k.val; rw [i20]; omega
    | ⟨1, _⟩ => show win2_2.index t (1 : Fin 2) * 64 + 1 * e'.val = e'.val; rw [i21]; omega
  · intro e'
    show V c main_v61 (((cfg2.win 3).blk t).view.emb (ix2 (0 : Fin 1) e')) = V c main_v61 (ix2 (0 : Fin 1) e')
    refine congrArg (V c main_v61) ?_
    funext a; apply Fin.ext
    match a with
    | ⟨0, _⟩ => show win2_3.index t (0 : Fin 2) * 1 + 1 * (0 : Fin 1).val = (0 : Fin 1).val; rw [i30]; rfl
    | ⟨1, _⟩ => show win2_3.index t (1 : Fin 2) * 64 + 1 * e'.val = e'.val; rw [i31]; omega
  · intro k e'
    show V c main_v63 (((cfg2.win 4).blk t).view.emb (ix2 k e')) = V c main_v63 (ix2 k e')
    refine congrArg (V c main_v63) ?_
    funext a; apply Fin.ext
    match a with
    | ⟨0, _⟩ => show win2_4.index t (0 : Fin 2) * 64 + 1 * k.val = k.val; rw [i40]; omega
    | ⟨1, _⟩ => show win2_4.index t (1 : Fin 2) * 64 + 1 * e'.val = e'.val; rw [i41]; omega
  · intro e'
    show V c main_v65 (((cfg2.win 5).blk t).view.emb (ix2 (0 : Fin 1) e')) = V c main_v65 (ix2 (0 : Fin 1) e')
    refine congrArg (V c main_v65) ?_
    funext a; apply Fin.ext
    match a with
    | ⟨0, _⟩ => show win2_5.index t (0 : Fin 2) * 1 + 1 * (0 : Fin 1).val = (0 : Fin 1).val; rw [i50]; rfl
    | ⟨1, _⟩ => show win2_5.index t (1 : Fin 2) * 64 + 1 * e'.val = e'.val; rw [i51]; omega

set_option maxHeartbeats 1000000 in
/-- What point `t` writes back to the running-sum array is block `t` of `accArr` of the arrays read. -/
theorem flushed2_8_eq (c : Dev nD) (t : Fin cfg2.N) :
    (Layer.layerDat2 V c).flushed 8 t
      = ((cfg2.win 8).blk t).view.read (Elt Ideal) (accArr (V c main_v44_1) (egoArr (V c main_v44_0) (V c main_v57) (V c main_v59) (V c main_v61) (V c main_v63) (V c main_v65))) := by
  show (cfg2.win 8).cut (grid2.coords t) ((Layer.layerDat2 V c).after 8 t) = _
  rw [Layer.after2_8]
  unfold Layer.accOut2
  rw [View.canon_unit_zero hz2]
  simp only [View.ld_unit_zero (S := S3000x64) hz2, View.ld_unit_zero (S := S64x64) hz2, View.ld_unit_zero (S := S1x64) hz2]
  obtain ⟨i00, i01, i10, i11, i20, i21, i30, i31, i40, i41, i50, i51, i60, i61, i70, i71, i80, i81⟩ := idx_facts2 t
  have ht : t.val < 100 := by have h : t.val < grid2.N := t.isLt; have hN : grid2.N = 100 := Gen.N_2; omega
  funext j
  obtain ⟨p, e, rfl⟩ : ∃ (p : Fin 3000) (e : Fin 64), j = ix2 p e := ⟨j 0, j 1, eq_ix2 j⟩
  have hr : t.val * 3000 + p.val < 300000 := by have := p.isLt; omega
  have hemb : ((cfg2.win 8).blk t).view.emb (ix2 p e) = ix2 (⟨t.val * 3000 + p.val, hr⟩ : Fin 300000) e := by
    funext a; apply Fin.ext
    match a with
    | ⟨0, _⟩ => show win2_8.index t (0 : Fin 2) * 3000 + 1 * p.val = t.val * 3000 + p.val; rw [i80]; omega
    | ⟨1, _⟩ => show win2_8.index t (1 : Fin 2) * 64 + 1 * e.val = e.val; rw [i81]; omega
  show Gen.k2_pay1 (F := Ideal) (Gen.k2_pay3 (F := Ideal) (Layer.blk2 V c 0 t) (Layer.blk2 V c 1 t) (Layer.blk2 V c 2 t) (Layer.blk2 V c 3 t) (Layer.blk2 V c 4 t) (Layer.blk2 V c 5 t)) (Layer.blk2 V c 6 t) (ix2 p e)
      = accArr (V c main_v44_1) (egoArr (V c main_v44_0) (V c main_v57) (V c main_v59) (V c main_v61) (V c main_v63) (V c main_v65)) (((cfg2.win 8).blk t).view.emb (ix2 p e))
  rw [hemb]
  refine accPoint2 _ _ _ _ _ _ _ _ _ _ _ _ _ _ _ p e ?_ ?_ ?_ ?_ ?_ ?_ ?_
  · intro k
    show V c main_v44_0 (((cfg2.win 0).blk t).view.emb (ix2 p k)) = V c main_v44_0 (ix2 (⟨t.val * 3000 + p.val, hr⟩ : Fin 300000) k)
    refine congrArg (V c main_v44_0) ?_
    funext a; apply Fin.ext
    match a with
    | ⟨0, _⟩ => show win2_0.index t (0 : Fin 2) * 3000 + 1 * p.val = t.val * 3000 + p.val; rw [i00]; omega
    | ⟨1, _⟩ => show win2_0.index t (1 : Fin 2) * 64 + 1 * k.val = k.val; rw [i01]; omega
  · intro k
    show V c main_v57 (((cfg2.win 1).blk t).view.emb (ix2 p k)) = V c main_v57 (ix2 (⟨t.val * 3000 + p.val, hr⟩ : Fin 300000) k)
    refine congrArg (V c main_v57) ?_
    funext a; apply Fin.ext
    match a with
    | ⟨0, _⟩ => show win2_1.index t (0 : Fin 2) * 3000 + 1 * p.val = t.val * 3000 + p.val; rw [i10]; omega
    | ⟨1, _⟩ => show win2_1.index t (1 : Fin 2) * 64 + 1 * k.val = k.val; rw [i11]; omega
  · intro k e'
    show V c main_v59 (((cfg2.win 2).blk t).view.emb (ix2 k e')) = V c main_v59 (ix2 k e')
    refine congrArg (V c main_v59) ?_
    funext a; apply Fin.ext
    match a with
    | ⟨0, _⟩ => show win2_2.index t (0 : Fin 2) * 64 + 1 * k.val = k.val; rw [i20]; omega
    | ⟨1, _⟩ => show win2_2.index t (1 : Fin 2) * 64 + 1 * e'.val = e'.val; rw [i21]; omega
  · intro e'
    show V c main_v61 (((cfg2.win 3).blk t).view.emb (ix2 (0 : Fin 1) e')) = V c main_v61 (ix2 (0 : Fin 1) e')
    refine congrArg (V c main_v61) ?_
    funext a; apply Fin.ext
    match a with
    | ⟨0, _⟩ => show win2_3.index t (0 : Fin 2) * 1 + 1 * (0 : Fin 1).val = (0 : Fin 1).val; rw [i30]; rfl
    | ⟨1, _⟩ => show win2_3.index t (1 : Fin 2) * 64 + 1 * e'.val = e'.val; rw [i31]; omega
  · intro k e'
    show V c main_v63 (((cfg2.win 4).blk t).view.emb (ix2 k e')) = V c main_v63 (ix2 k e')
    refine congrArg (V c main_v63) ?_
    funext a; apply Fin.ext
    match a with
    | ⟨0, _⟩ => show win2_4.index t (0 : Fin 2) * 64 + 1 * k.val = k.val; rw [i40]; omega
    | ⟨1, _⟩ => show win2_4.index t (1 : Fin 2) * 64 + 1 * e'.val = e'.val; rw [i41]; omega
  · intro e'
    show V c main_v65 (((cfg2.win 5).blk t).view.emb (ix2 (0 : Fin 1) e')) = V c main_v65 (ix2 (0 : Fin 1) e')
    refine congrArg (V c main_v65) ?_
    funext a; apply Fin.ext
    match a with
    | ⟨0, _⟩ => show win2_5.index t (0 : Fin 2) * 1 + 1 * (0 : Fin 1).val = (0 : Fin 1).val; rw [i50]; rfl
    | ⟨1, _⟩ => show win2_5.index t (1 : Fin 2) * 64 + 1 * e'.val = e'.val; rw [i51]; omega
  · intro k
    show V c main_v44_1 (((cfg2.win 6).blk t).view.emb (ix2 p k)) = V c main_v44_1 (ix2 (⟨t.val * 3000 + p.val, hr⟩ : Fin 300000) k)
    refine congrArg (V c main_v44_1) ?_
    funext a; apply Fin.ext
    match a with
    | ⟨0, _⟩ => show win2_6.index t (0 : Fin 2) * 3000 + 1 * p.val = t.val * 3000 + p.val; rw [i60]; omega
    | ⟨1, _⟩ => show win2_6.index t (1 : Fin 2) * 64 + 1 * k.val = k.val; rw [i61]; omega

/-! ## The blocks tile the rows -/

/-- An index of the new-embeddings array lies in point `t`'s block iff each coordinate lies in the block's range. -/
theorem mem_blk2_7 (t : Fin cfg2.N) (i : S300000x64.Idx) :
    i ∈ ((cfg2.win 7).blk t).view.set ↔ ∀ a : Fin 2, win2_7.index t a * S3000x64.size a ≤ (i a).val ∧ (i a).val < win2_7.index t a * S3000x64.size a + S3000x64.size a := by
  show i ∈ ((View.whole main_v66_0).slice (win2_7.rect t)).set ↔ _
  rw [View.set_slice_whole, Rect.mem_set_unit]
  exact Iff.rfl

/-- Every row of the new-embeddings array lies in the block of the grid point `row / 3000`, which writes back. -/
theorem cover2_7 (i : S300000x64.Idx) :
    ∃ t : Fin cfg2.N, (cfg2.win 7).flush t = true ∧ i ∈ ((cfg2.win 7).blk t).view.set := by
  have hi0 : (i 0).val < 300000 := (i 0).isLt
  have hi1 : (i 1).val < 64 := (i 1).isLt
  have hN : grid2.N = 100 := Gen.N_2
  obtain ⟨t, ht⟩ : ∃ t : Fin cfg2.N, t.val = (i 0).val / 3000 :=
    ⟨⟨(i 0).val / 3000, by show _ < grid2.N; omega⟩, rfl⟩
  obtain ⟨i00, i01, i10, i11, i20, i21, i30, i31, i40, i41, i50, i51, i60, i61, i70, i71, i80, i81⟩ := idx_facts2 t
  refine ⟨t, Gen.flush2_7 t, ?_⟩
  rw [mem_blk2_7]
  intro a
  match a with
  | ⟨0, _⟩ =>
    show win2_7.index t (0 : Fin 2) * 3000 ≤ (i 0).val ∧ (i 0).val < win2_7.index t (0 : Fin 2) * 3000 + 3000
    rw [i70, ht]; omega
  | ⟨1, _⟩ =>
    show win2_7.index t (1 : Fin 2) * 64 ≤ (i 1).val ∧ (i 1).val < win2_7.index t (1 : Fin 2) * 64 + 64
    rw [i71]; omega

/-- An index of the running-sum array lies in point `t`'s block iff each coordinate lies in the block's range. -/
theorem mem_blk2_8 (t : Fin cfg2.N) (i : S300000x64.Idx) :
    i ∈ ((cfg2.win 8).blk t).view.set ↔ ∀ a : Fin 2, win2_8.index t a * S3000x64.size a ≤ (i a).val ∧ (i a).val < win2_8.index t a * S3000x64.size a + S3000x64.size a := by
  show i ∈ ((View.whole main_v66_1).slice (win2_8.rect t)).set ↔ _
  rw [View.set_slice_whole, Rect.mem_set_unit]
  exact Iff.rfl

/-- Every row of the running-sum array lies in the block of the grid point `row / 3000`, which writes back. -/
theorem cover2_8 (i : S300000x64.Idx) :
    ∃ t : Fin cfg2.N, (cfg2.win 8).flush t = true ∧ i ∈ ((cfg2.win 8).blk t).view.set := by
  have hi0 : (i 0).val < 300000 := (i 0).isLt
  have hi1 : (i 1).val < 64 := (i 1).isLt
  have hN : grid2.N = 100 := Gen.N_2
  obtain ⟨t, ht⟩ : ∃ t : Fin cfg2.N, t.val = (i 0).val / 3000 :=
    ⟨⟨(i 0).val / 3000, by show _ < grid2.N; omega⟩, rfl⟩
  obtain ⟨i00, i01, i10, i11, i20, i21, i30, i31, i40, i41, i50, i51, i60, i61, i70, i71, i80, i81⟩ := idx_facts2 t
  refine ⟨t, Gen.flush2_8 t, ?_⟩
  rw [mem_blk2_8]
  intro a
  match a with
  | ⟨0, _⟩ =>
    show win2_8.index t (0 : Fin 2) * 3000 ≤ (i 0).val ∧ (i 0).val < win2_8.index t (0 : Fin 2) * 3000 + 3000
    rw [i80, ht]; omega
  | ⟨1, _⟩ =>
    show win2_8.index t (1 : Fin 2) * 64 ≤ (i 1).val ∧ (i 1).val < win2_8.index t (1 : Fin 2) * 64 + 64
    rw [i81]; omega

/-! ## The two arrays after the run -/

/-- The new-embeddings array after the region: `egoArr` of the arrays the region reads. -/
theorem egoFinal2 (c : Dev nD) :
    (Layer.layerDat2 V c).arrAt 7 cfg2.N = egoArr (V c main_v44_0) (V c main_v57) (V c main_v59) (V c main_v61) (V c main_v63) (V c main_v65) :=
  (Layer.layerDat2 V c).arrAt_eq_of_cover 7 _ (fun t _ => flushed2_7_eq V c t) cover2_7

/-- The running-sum array after the region: the old running sum plus the row-normalised new embeddings. -/
theorem accFinal2 (c : Dev nD) :
    (Layer.layerDat2 V c).arrAt 8 cfg2.N = accArr (V c main_v44_1) (egoArr (V c main_v44_0) (V c main_v57) (V c main_v59) (V c main_v61) (V c main_v63) (V c main_v65)) :=
  (Layer.layerDat2 V c).arrAt_eq_of_cover 8 _ (fun t _ => flushed2_8_eq V c t) cover2_8

end Cert.KernelIdeal.LayerValue

end
-- ==== Proof.RefDense.lean ====
import proofs.«179311_j1056561954898_1_alg».proof.ReferenceIdeal
import Idealize.ShloMosaic.PureOps.Ideal

/-!
# The reference's dense per-layer chain as two pure functions

One layer of the reference applies, to the current embedding `ego` and the propagated
embedding `side` (both `300000 × 64`), an affine map of `side`, an affine map of the
elementwise product `ego ∘ side`, adds them, applies a leaky rectifier with slope `0.2`, and then
divides each row by `max (‖row‖₂) 1e-12`.  `egoNew` is the value after the rectifier and
`normed` is the row-normalised value, each written as the literal composition of the array
operations of the reference's text, read at the ideal (extended-real) floats.
-/

namespace Cert.ReferenceIdeal.RefDense

open Idealize.ShloMosaic
open Cert.ReferenceIdeal
open Cert.ReferenceIdeal.Facts₀ Cert.ReferenceIdeal.Facts

variable [Cert.ReferenceIdeal.Facts]

/-- The pre-activation: `(side · W + b) + ((ego ∘ side) · W' + b')`, the biases broadcast over
    the rows. -/
noncomputable def pre (ego side : FVec Ideal S300000x64 .f32) (W : FVec Ideal S64x64 .f32)
    (b : FVec Ideal S1x64 .f32) (W' : FVec Ideal S64x64 .f32) (b' : FVec Ideal S1x64 .f32) :
    FVec Ideal S300000x64 .f32 :=
  addf
    (addf (Host.dotGeneral (F := Ideal) dot_S300000x64_S64x64_S300000x64_1_0_0_1_n_n none side W)
      (broadcastInDim S300000x64 ![0, 1] bcast_S1x64_S300000x64_0_1 b))
    (addf
      (Host.dotGeneral (F := Ideal) dot_S300000x64_S64x64_S300000x64_1_0_0_1_n_n none
        (mulf ego side) W')
      (broadcastInDim S300000x64 ![0, 1] bcast_S1x64_S300000x64_0_1 b'))

/-- The leaky rectifier with slope the `f32` word `0x3E4CCCCD` (`0.2`):
    `x` where `x ≥ 0`, else `0.2 · x`. -/
noncomputable def leaky (x : FVec Ideal S300000x64 .f32) : FVec Ideal S300000x64 .f32 :=
  select
    (cmpf .oge x
      (broadcastInDim S300000x64 ![] bcast_S_S300000x64
        (constant (F := Ideal) S_ .f32 0x00000000#32)))
    x
    (mulf
      (broadcastInDim S300000x64 ![] bcast_S_S300000x64
        (id (constant (F := Ideal) S_ .f32 0x3E4CCCCD#32)))
      x)

/-- The layer's new embedding: the leaky rectifier of the pre-activation. -/
noncomputable def egoNew (ego side : FVec Ideal S300000x64 .f32) (W : FVec Ideal S64x64 .f32)
    (b : FVec Ideal S1x64 .f32) (W' : FVec Ideal S64x64 .f32) (b' : FVec Ideal S1x64 .f32) :
    FVec Ideal S300000x64 .f32 :=
  leaky (pre ego side W b W' b')

/-- The row norms as a column: `sqrt (Σ_j x_j²)`, shape `300000 × 1`. -/
noncomputable def rowNorm (x : FVec Ideal S300000x64 .f32) : FVec Ideal S300000x1 .f32 :=
  Host.sqrt (F := Ideal)
    (broadcastInDim S300000x1 ![0] bcast_S300000_S300000x1_0
      (Host.reduceAdd (F := Ideal) (mulf x x) (constant (F := Ideal) S_ .f32 0x00000000#32)
        reducesTo_S300000x64_S300000_d1 h_S_))

/-- Each row divided by `max (its norm) 1e-12` (the `f32` word `0x2B8CBCCC`). -/
noncomputable def normed (x : FVec Ideal S300000x64 .f32) : FVec Ideal S300000x64 .f32 :=
  Host.divf (F := Ideal) x
    (broadcastInDim S300000x64 ![0, 1] bcast_S300000x1_S300000x64_0_1
      (maximumf (rowNorm x)
        (broadcastInDim S300000x1 ![] bcast_S_S300000x1
          (constant (F := Ideal) S_ .f32 0x2B8CBCCC#32))))

end Cert.ReferenceIdeal.RefDense
-- ==== Proof.RefIdx.lean ====
import proofs.«179311_j1056561954898_1_alg».proof.Proof.RefDense
import proofs.«179311_j1056561954898_1_alg».proof.Proof.LayerSpec
import proofs.«179311_j1056561954898_1_alg».proof.Proof.LibPlainMatmul
import Idealize.ShloMosaic.Lib.Pipeline.Value
import Idealize.ShloMosaic.PureOps.Ideal.Laws

/-!
# The reference's dense chain read row by row

Each array operation of the reference's per-layer chain is read at an index `(p, e)` of the
`300000 × 64` result: a matrix product is the sum over the contracted coordinate, a broadcast of a
bias row reads that row, a broadcast of a scalar reads the scalar, the row sum of squares is a
sum over the 64 columns (plus the zero initial value), and the norm column broadcast back over the
columns reads the row's own norm.  Put together: the reference's new embedding and its
normalisation at `(p, e)` are the row-level functions of `Cert.LayerSpec` applied to row `p`.
-/

namespace Cert.ReferenceIdeal.RefIdx

open Idealize.ShloMosaic Idealize.ShloMosaic.ValueIdx
open Cert.ReferenceIdeal Cert.ReferenceIdeal.Facts₀ Cert.ReferenceIdeal.Facts

variable [Cert.ReferenceIdeal.Facts]

/-- The host's square root acts entry by entry. -/
theorem hostSqrt_apply {s : Shape} {φ : FTy} (x : FVec Ideal s φ) (i : s.Idx) :
    Host.sqrt (F := Ideal) x i = Ideal.sqrt (x i) := rfl

/-- The host's quotient acts entry by entry. -/
theorem hostDivf_apply {s : Shape} {φ : FTy} (x y : FVec Ideal s φ) (i : s.Idx) :
    Host.divf (F := Ideal) x y i = Ideal.div (x i) (y i) := rfl

/-- A scalar broadcast to a `300000 × 1` column reads the scalar. -/
theorem splatCol_apply {α : Type} (c : S_.Idx → α) (p : Fin 300000) (u : Fin 1) :
    broadcastInDim S300000x1 ![] bcast_S_S300000x1 c (ix2 p u) = c ix0 :=
  broadcastInDim_apply _ _ c (ix2 p u) ix0 fun a => a.elim0

/-- The `300000 × 64` by `64 × 64` product at `(p, e)`: `Σ_k l(p, k) · r(k, e)`. -/
theorem dot_apply (l : FVec Ideal S300000x64 .f32) (r : FVec Ideal S64x64 .f32) (p : Fin 300000) (e : Fin 64) :
    Host.dotGeneral (F := Ideal) dot_S300000x64_S64x64_S300000x64_1_0_0_1_n_n none l r (ix2 p e)
      = ∑ k : Fin 64, l (ix2 p k) * r (ix2 k e) := by
  have hd : dot_S300000x64_S64x64_S300000x64_1_0_0_1_n_n = DotDims.plain 300000 64 64 := rfl
  rw [hd]
  show FloatOps.dotGeneral (DotDims.plain 300000 64 64) none .single l r (ix2 p e) = _
  rw [Ideal.dotGeneral_apply, ← Equiv.sum_comp (contrEquiv1 (DotDims.plain 300000 64 64) 64 rfl rfl).symm]
  refine Finset.sum_congr rfl fun k _ => ?_
  rw [plain_lhsIdx, plain_rhsIdx]

/-- A `1 × 64` row broadcast over the `300000` rows reads, at `(p, e)`, the row at `e`. -/
theorem bias_apply {α : Type} (b : S1x64.Idx → α) (p : Fin 300000) (e : Fin 64) :
    broadcastInDim S300000x64 ![0, 1] bcast_S1x64_S300000x64_0_1 b (ix2 p e) = b (ix2 (0 : Fin 1) e) := by
  refine broadcastInDim_apply _ _ b (ix2 p e) (ix2 (0 : Fin 1) e) fun a => ?_
  match a with
  | ⟨0, _⟩ => rfl
  | ⟨1, _⟩ => rfl

/-- A vector of length `300000` made a column reads, at `(p, u)`, the vector at `p`. -/
theorem col_apply {α : Type} (v : S300000.Idx → α) (p : Fin 300000) (u : Fin 1) :
    broadcastInDim S300000x1 ![0] bcast_S300000_S300000x1_0 v (ix2 p u) = v (ix1 p) := by
  refine broadcastInDim_apply _ _ v (ix2 p u) (ix1 p) fun a => ?_
  match a with
  | ⟨0, _⟩ => rfl

/-- A `300000 × 1` column broadcast over the 64 columns reads, at `(p, e)`, the column at row `p`. -/
theorem colBcast_apply {α : Type} (v : S300000x1.Idx → α) (p : Fin 300000) (e : Fin 64) (u : Fin 1) :
    broadcastInDim S300000x64 ![0, 1] bcast_S300000x1_S300000x64_0_1 v (ix2 p e) = v (ix2 p u) := by
  refine broadcastInDim_apply _ _ v (ix2 p e) (ix2 p u) fun a => ?_
  match a with
  | ⟨0, _⟩ => rfl
  | ⟨1, _⟩ =>
    show u.val = if (1 : ℕ) = 1 then 0 else e.val
    rw [if_pos rfl]; omega

/-- The host's sum over the columns with the zero word as initial value, at row `p`: the sum of the
    row's 64 entries. -/
theorem rowSum_apply (y : FVec Ideal S300000x64 .f32) (p : Fin 300000) :
    Host.reduceAdd (F := Ideal) y (constant (F := Ideal) S_ .f32 0x00000000#32)
        reducesTo_S300000x64_S300000_d1 h_S_ (ix1 p)
      = ∑ k : Fin 64, y (ix2 p k) := by
  have hR : S300000x64.Reduces [1] S300000 := by decide
  unfold Host.reduceAdd
  rw [Ideal.hostReduceAdd_def, Ideal.hostReduceAdd_single _ hR, constant_apply, Ideal.ofBits_zero_f32, zero_add]
  refine Finset.sum_congr rfl fun k _ => congrArg y ?_
  funext ax; apply Fin.ext
  match ax with
  | ⟨0, _⟩ => rfl
  | ⟨1, _⟩ => rfl

/-- The pre-activation at `(p, e)` is the row-level pre-activation of row `p`. -/
theorem pre_apply (ego side : FVec Ideal S300000x64 .f32) (W : FVec Ideal S64x64 .f32)
    (b : FVec Ideal S1x64 .f32) (W' : FVec Ideal S64x64 .f32) (b' : FVec Ideal S1x64 .f32)
    (p : Fin 300000) (e : Fin 64) :
    RefDense.pre ego side W b W' b' (ix2 p e)
      = LayerSpec.pre (fun k => ego (ix2 p k)) (fun k => side (ix2 p k)) (fun k e => W (ix2 k e))
          (fun e => b (ix2 (0 : Fin 1) e)) (fun k e => W' (ix2 k e)) (fun e => b' (ix2 (0 : Fin 1) e)) e := by
  unfold RefDense.pre LayerSpec.pre
  rw [addf_apply, addf_apply, addf_apply, dot_apply, dot_apply, bias_apply, bias_apply]
  rfl

/-- The leaky rectifier acts entry by entry. -/
theorem leaky_apply (x : FVec Ideal S300000x64 .f32) (i : S300000x64.Idx) :
    RefDense.leaky x i = LayerSpec.leaky (x i) := rfl

/-- The reference's new embedding at `(p, e)` is the row-level one of row `p`. -/
theorem egoNew_apply (ego side : FVec Ideal S300000x64 .f32) (W : FVec Ideal S64x64 .f32)
    (b : FVec Ideal S1x64 .f32) (W' : FVec Ideal S64x64 .f32) (b' : FVec Ideal S1x64 .f32)
    (p : Fin 300000) (e : Fin 64) :
    RefDense.egoNew ego side W b W' b' (ix2 p e)
      = LayerSpec.egoNew (fun k => ego (ix2 p k)) (fun k => side (ix2 p k)) (fun k e => W (ix2 k e))
          (fun e => b (ix2 (0 : Fin 1) e)) (fun k e => W' (ix2 k e)) (fun e => b' (ix2 (0 : Fin 1) e)) e := by
  unfold RefDense.egoNew LayerSpec.egoNew
  rw [leaky_apply, pre_apply]

/-- The norm column at `(p, u)`: the square root of the row's sum of squares. -/
theorem rowNorm_apply (x : FVec Ideal S300000x64 .f32) (p : Fin 300000) (u : Fin 1) :
    RefDense.rowNorm x (ix2 p u) = Ideal.sqrt (∑ k : Fin 64, x (ix2 p k) * x (ix2 p k)) := by
  unfold RefDense.rowNorm
  rw [hostSqrt_apply, col_apply, rowSum_apply]
  rfl

/-- The reference's normalised embedding at `(p, e)` is the row-level normalisation of row `p`. -/
theorem normed_apply (x : FVec Ideal S300000x64 .f32) (p : Fin 300000) (e : Fin 64) :
    RefDense.normed x (ix2 p e) = LayerSpec.normed (fun j => x (ix2 p j)) e := by
  unfold RefDense.normed LayerSpec.normed
  rw [hostDivf_apply, colBcast_apply _ p e (0 : Fin 1), maximumf_apply, rowNorm_apply, splatCol_apply,
    constant_apply]

end Cert.ReferenceIdeal.RefIdx
-- ==== Proof.RefRun0.lean ====
import proofs.«179311_j1056561954898_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations 1 … 70 of 163, in order (the first layer up to its affine map of the second layer's neighbourhood sums): each printed statement of the
    window is one operation; a call of an outlined function is its body's operations at the call's own buffers
    (the comparison with zero, the scaled copy and the selection for the leaky rectifier; the square, the row sum,
    its broadcast and the square root for the row norm). -/
abbrev ops0 : List (HloOp τ sig (Elt F)) :=
  [ binary main_arg0 main_arg1 main_v0 ((fun a b => concatenate S300000x64 0 [⟨S100000x64, a⟩, ⟨S200000x64, b⟩] concatenates_S100000x64_S200000x64_S300000x64_d0) : (⟨S100000x64, .f32⟩ : BufTy).Contents (Elt F) → (⟨S200000x64, .f32⟩ : BufTy).Contents (Elt F) → (⟨S300000x64, .f32⟩ : BufTy).Contents (Elt F)),
    unary main_arg6 main_v1 (broadcastInDim S2000000x1 ![0] bcast_S2000000_S2000000x1_0 : (⟨S2000000, .f32⟩ : BufTy).Contents (Elt F) → (⟨S2000000x1, .f32⟩ : BufTy).Contents (Elt F)),
    nullary main_c (constantI S_ 32 0#32),
    unary main_c main_v2 (broadcastInDim S2000000 ![] bcast_S_S2000000 : (⟨S_, .i32⟩ : BufTy).Contents (Elt F) → (⟨S2000000, .i32⟩ : BufTy).Contents (Elt F)),
    binary main_arg8 main_v2 main_v3 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 300000#32),
    unary main_c_0 main_v4 (broadcastInDim S2000000 ![] bcast_S_S2000000 : (⟨S_, .i32⟩ : BufTy).Contents (Elt F) → (⟨S2000000, .i32⟩ : BufTy).Contents (Elt F)),
    binary main_arg8 main_v4 main_v5 (addi : (⟨S2000000, .i32⟩ : BufTy).Contents (Elt F) → (⟨S2000000, .i32⟩ : BufTy).Contents (Elt F) → (⟨S2000000, .i32⟩ : BufTy).Contents (Elt F)),
    ternary main_v3 main_v5 main_arg8 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v6 main_v7 (broadcastInDim S2000000x1 ![0] bcast_S2000000_S2000000x1_0 : (⟨S2000000, .i32⟩ : BufTy).Contents (Elt F) → (⟨S2000000x1, .i32⟩ : BufTy).Contents (Elt F)),
    binary main_v0 main_v7 main_v8 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v11 (broadcastInDim S300000x64 ![] bcast_S_S300000x64 : (⟨S_, .f32⟩ : BufTy).Contents (Elt F) → (⟨S300000x64, .f32⟩ : BufTy).Contents (Elt F)),
    unary main_arg7 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)),
    unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    binary main_v13 main_v15 main_v16 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg3 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v17 main_v18 rfl shapeCasts_S1x1x64_S1x64,
    unary main_v18 main_v19 (broadcastInDim S300000x64 ![0, 1] bcast_S1x64_S300000x64_0_1 : (⟨S1x64, .f32⟩ : BufTy).Contents (Elt F) → (⟨S300000x64, .f32⟩ : BufTy).Contents (Elt F)),
    binary main_v16 main_v19 main_v20 (addf : (⟨S300000x64, .f32⟩ : BufTy).Contents (Elt F) → (⟨S300000x64, .f32⟩ : BufTy).Contents (Elt F) → (⟨S300000x64, .f32⟩ : BufTy).Contents (Elt F)),
    binary main_v0 main_v13 main_v21 (mulf : (⟨S300000x64, .f32⟩ : BufTy).Contents (Elt F) → (⟨S300000x64, .f32⟩ : BufTy).Contents (Elt F) → (⟨S300000x64, .f32⟩ : BufTy).Contents (Elt F)),
    unary main_arg4 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v22 main_v23 rfl shapeCasts_S1x64x64_S64x64,
    binary main_v21 main_v23 main_v24 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg5 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v25 main_v26 rfl shapeCasts_S1x1x64_S1x64,
    unary main_v26 main_v27 (broadcastInDim S300000x64 ![0, 1] bcast_S1x64_S300000x64_0_1 : (⟨S1x64, .f32⟩ : BufTy).Contents (Elt F) → (⟨S300000x64, .f32⟩ : BufTy).Contents (Elt F)),
    binary main_v24 main_v27 main_v28 (addf : (⟨S300000x64, .f32⟩ : BufTy).Contents (Elt F) → (⟨S300000x64, .f32⟩ : BufTy).Contents (Elt F) → (⟨S300000x64, .f32⟩ : BufTy).Contents (Elt F)),
    binary main_v20 main_v28 main_v29 (addf : (⟨S300000x64, .f32⟩ : BufTy).Contents (Elt F) → (⟨S300000x64, .f32⟩ : BufTy).Contents (Elt F) → (⟨S300000x64, .f32⟩ : BufTy).Contents (Elt F)),
    nullary main_cst_1 (constant S_ .f32 0x3E4CCCCD#32),
    nullary main_call0_cst (constant S_ .f32 0x00000000#32),
    unary main_call0_cst main_call0_v0 (broadcastInDim S300000x64 ![] bcast_S_S300000x64 : (⟨S_, .f32⟩ : BufTy).Contents (Elt F) → (⟨S300000x64, .f32⟩ : BufTy).Contents (Elt F)),
    binary main_v29 main_call0_v0 main_call0_v1 (cmpf .oge : (⟨S300000x64, .f32⟩ : BufTy).Contents (Elt F) → (⟨S300000x64, .f32⟩ : BufTy).Contents (Elt F) → (⟨S300000x64, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S300000x64 ![] bcast_S_S300000x64 : (⟨S_, .f32⟩ : BufTy).Contents (Elt F) → (⟨S300000x64, .f32⟩ : BufTy).Contents (Elt F)),
    binary main_call0_v3 main_v29 main_call0_v4 (mulf : (⟨S300000x64, .f32⟩ : BufTy).Contents (Elt F) → (⟨S300000x64, .f32⟩ : BufTy).Contents (Elt F) → (⟨S300000x64, .f32⟩ : BufTy).Contents (Elt F)),
    ternary main_call0_v1 main_v29 main_call0_v4 main_v30 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)),
    binary main_v30 main_v30 main_call1_v0 (mulf : (⟨S300000x64, .f32⟩ : BufTy).Contents (Elt F) → (⟨S300000x64, .f32⟩ : BufTy).Contents (Elt F) → (⟨S300000x64, .f32⟩ : BufTy).Contents (Elt F)),
    nullary main_call1_cst (constant S_ .f32 0x00000000#32),
    binary main_call1_v0 main_call1_cst main_call1_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    unary main_call1_v1 main_call1_v2 (broadcastInDim S300000x1 ![0] bcast_S300000_S300000x1_0 : (⟨S300000, .f32⟩ : BufTy).Contents (Elt F) → (⟨S300000x1, .f32⟩ : BufTy).Contents (Elt F)),
    unary main_call1_v2 main_v31 (Host.sqrt : (⟨S300000x1, .f32⟩ : BufTy).Contents (Elt F) → (⟨S300000x1, .f32⟩ : BufTy).Contents (Elt F)),
    nullary main_cst_2 (constant S_ .f32 0x2B8CBCCC#32),
    unary main_cst_2 main_v32 (broadcastInDim S300000x1 ![] bcast_S_S300000x1 : (⟨S_, .f32⟩ : BufTy).Contents (Elt F) → (⟨S300000x1, .f32⟩ : BufTy).Contents (Elt F)),
    binary main_v31 main_v32 main_v33 (maximumf : (⟨S300000x1, .f32⟩ : BufTy).Contents (Elt F) → (⟨S300000x1, .f32⟩ : BufTy).Contents (Elt F) → (⟨S300000x1, .f32⟩ : BufTy).Contents (Elt F)),
    unary main_v33 main_v34 (broadcastInDim S300000x64 ![0, 1] bcast_S300000x1_S300000x64_0_1 : (⟨S300000x1, .f32⟩ : BufTy).Contents (Elt F) → (⟨S300000x64, .f32⟩ : BufTy).Contents (Elt F)),
    binary main_v30 main_v34 main_v35 (Host.divf : (⟨S300000x64, .f32⟩ : BufTy).Contents (Elt F) → (⟨S300000x64, .f32⟩ : BufTy).Contents (Elt F) → (⟨S300000x64, .f32⟩ : BufTy).Contents (Elt F)),
    unary main_arg6 main_v36 (broadcastInDim S2000000x1 ![0] bcast_S2000000_S2000000x1_0 : (⟨S2000000, .f32⟩ : BufTy).Contents (Elt F) → (⟨S2000000x1, .f32⟩ : BufTy).Contents (Elt F)),
    nullary main_c_3 (constantI S_ 32 0#32),
    unary main_c_3 main_v37 (broadcastInDim S2000000 ![] bcast_S_S2000000 : (⟨S_, .i32⟩ : BufTy).Contents (Elt F) → (⟨S2000000, .i32⟩ : BufTy).Contents (Elt F)),
    binary main_arg8 main_v37 main_v38 (cmpi .slt : (⟨S2000000, .i32⟩ : BufTy).Contents (Elt F) → (⟨S2000000, .i32⟩ : BufTy).Contents (Elt F) → (⟨S2000000, .i1⟩ : BufTy).Contents (Elt F)),
    nullary main_c_4 (constantI S_ 32 300000#32),
    unary main_c_4 main_v39 (broadcastInDim S2000000 ![] bcast_S_S2000000 : (⟨S_, .i32⟩ : BufTy).Contents (Elt F) → (⟨S2000000, .i32⟩ : BufTy).Contents (Elt F)),
    binary main_arg8 main_v39 main_v40 (addi : (⟨S2000000, .i32⟩ : BufTy).Contents (Elt F) → (⟨S2000000, .i32⟩ : BufTy).Contents (Elt F) → (⟨S2000000, .i32⟩ : BufTy).Contents (Elt F)),
    ternary main_v38 main_v40 main_arg8 main_v41 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v41 main_v42 (broadcastInDim S2000000x1 ![0] bcast_S2000000_S2000000x1_0 : (⟨S2000000, .i32⟩ : BufTy).Contents (Elt F) → (⟨S2000000x1, .i32⟩ : BufTy).Contents (Elt F)),
    binary main_v30 main_v42 main_v43 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v36 main_v44 (broadcastInDim S2000000x64 ![0, 1] bcast_S2000000x1_S2000000x64_0_1 : (⟨S2000000x1, .f32⟩ : BufTy).Contents (Elt F) → (⟨S2000000x64, .f32⟩ : BufTy).Contents (Elt F)),
    binary main_v44 main_v43 main_v45 (mulf : (⟨S2000000x64, .f32⟩ : BufTy).Contents (Elt F) → (⟨S2000000x64, .f32⟩ : BufTy).Contents (Elt F) → (⟨S2000000x64, .f32⟩ : BufTy).Contents (Elt F)),
    nullary main_cst_5 (constant S_ .f32 0x00000000#32),
    unary main_cst_5 main_v46 (broadcastInDim S300000x64 ![] bcast_S_S300000x64 : (⟨S_, .f32⟩ : BufTy).Contents (Elt F) → (⟨S300000x64, .f32⟩ : BufTy).Contents (Elt F)),
    unary main_arg7 main_v47 (broadcastInDim S2000000x1 ![0] bcast_S2000000_S2000000x1_0 : (⟨S2000000, .i32⟩ : BufTy).Contents (Elt F) → (⟨S2000000x1, .i32⟩ : BufTy).Contents (Elt F)),
    ternary main_v46 main_v47 main_v45 main_v48 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)),
    unary main_arg2 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v49 main_v50 rfl shapeCasts_S1x64x64_S64x64,
    binary main_v48 main_v50 main_v51 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)) ]

set_option maxRecDepth 8192 in
set_option maxHeartbeats 4000000 in
/-- The window is that straight line: the outlined functions unfolded at their calls, the sequencing reassociated. -/
theorem main_part0_eq (c : Dev nD) : main_part0 (F := F) c = seq ops0 := by
  simp only [main_part0, fn_leaky_relu.body, fn_where.body, fn_norm.body, seq, bind_assoc, pure_bind]
  all_goals rfl

theorem ops0_sub : (ops0 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub ..⟩

/-- The buffers the window's operations write. -/
abbrev ops0_W : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_cst_1, main_call0_cst, main_call0_v0, main_call0_v1, main_call0_v2, main_call0_v3, main_call0_v4, main_v30, main_call1_v0, main_call1_cst, main_call1_v1, main_call1_v2, main_v31, main_cst_2, main_v32, main_v33, main_v34, main_v35, main_v36, main_c_3, main_v37, main_v38, main_c_4, main_v39, main_v40, main_v41, main_v42, main_v43, main_v44, main_v45, main_cst_5, main_v46, main_v47, main_v48, main_v49, main_v50, main_v51]

set_option maxRecDepth 8192 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation of the window allocates: each determines its results. -/
theorem ops0_fresh : ∀ op ∈ (ops0 : List (HloOp τ sig (Elt F))), op.fresh = ∅ := by
  intro _ h
  repeat (cases h with | head => rfl | tail _ h => ?_)
  exact nomatch h

end Cert.ReferenceIdeal.RefRun

end
-- ==== Proof.RefRun1.lean ====
import proofs.«179311_j1056561954898_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations 71 … 150 of 163, in order (the rest of the second layer and the third up to its row norms): each printed statement of the
    window is one operation; a call of an outlined function is its body's operations at the call's own buffers
    (the comparison with zero, the scaled copy and the selection for the leaky rectifier; the square, the row sum,
    its broadcast and the square root for the row norm). -/
abbrev ops1 : List (HloOp τ sig (Elt F)) :=
  [ unary main_arg3 main_v52 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v52 main_v53 rfl shapeCasts_S1x1x64_S1x64,
    unary main_v53 main_v54 (broadcastInDim S300000x64 ![0, 1] bcast_S1x64_S300000x64_0_1 : (⟨S1x64, .f32⟩ : BufTy).Contents (Elt F) → (⟨S300000x64, .f32⟩ : BufTy).Contents (Elt F)),
    binary main_v51 main_v54 main_v55 (addf : (⟨S300000x64, .f32⟩ : BufTy).Contents (Elt F) → (⟨S300000x64, .f32⟩ : BufTy).Contents (Elt F) → (⟨S300000x64, .f32⟩ : BufTy).Contents (Elt F)),
    binary main_v30 main_v48 main_v56 (mulf : (⟨S300000x64, .f32⟩ : BufTy).Contents (Elt F) → (⟨S300000x64, .f32⟩ : BufTy).Contents (Elt F) → (⟨S300000x64, .f32⟩ : BufTy).Contents (Elt F)),
    unary main_arg4 main_v57 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v57 main_v58 rfl shapeCasts_S1x64x64_S64x64,
    binary main_v56 main_v58 main_v59 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg5 main_v60 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v60 main_v61 rfl shapeCasts_S1x1x64_S1x64,
    unary main_v61 main_v62 (broadcastInDim S300000x64 ![0, 1] bcast_S1x64_S300000x64_0_1 : (⟨S1x64, .f32⟩ : BufTy).Contents (Elt F) → (⟨S300000x64, .f32⟩ : BufTy).Contents (Elt F)),
    binary main_v59 main_v62 main_v63 (addf : (⟨S300000x64, .f32⟩ : BufTy).Contents (Elt F) → (⟨S300000x64, .f32⟩ : BufTy).Contents (Elt F) → (⟨S300000x64, .f32⟩ : BufTy).Contents (Elt F)),
    binary main_v55 main_v63 main_v64 (addf : (⟨S300000x64, .f32⟩ : BufTy).Contents (Elt F) → (⟨S300000x64, .f32⟩ : BufTy).Contents (Elt F) → (⟨S300000x64, .f32⟩ : BufTy).Contents (Elt F)),
    nullary main_cst_6 (constant S_ .f32 0x3E4CCCCD#32),
    nullary main_call2_cst (constant S_ .f32 0x00000000#32),
    unary main_call2_cst main_call2_v0 (broadcastInDim S300000x64 ![] bcast_S_S300000x64 : (⟨S_, .f32⟩ : BufTy).Contents (Elt F) → (⟨S300000x64, .f32⟩ : BufTy).Contents (Elt F)),
    binary main_v64 main_call2_v0 main_call2_v1 (cmpf .oge : (⟨S300000x64, .f32⟩ : BufTy).Contents (Elt F) → (⟨S300000x64, .f32⟩ : BufTy).Contents (Elt F) → (⟨S300000x64, .i1⟩ : BufTy).Contents (Elt F)),
    unary main_cst_6 main_call2_v2 (id : (⟨S_, .f32⟩ : BufTy).Contents (Elt F) → (⟨S_, .f32⟩ : BufTy).Contents (Elt F)),
    unary main_call2_v2 main_call2_v3 (broadcastInDim S300000x64 ![] bcast_S_S300000x64 : (⟨S_, .f32⟩ : BufTy).Contents (Elt F) → (⟨S300000x64, .f32⟩ : BufTy).Contents (Elt F)),
    binary main_call2_v3 main_v64 main_call2_v4 (mulf : (⟨S300000x64, .f32⟩ : BufTy).Contents (Elt F) → (⟨S300000x64, .f32⟩ : BufTy).Contents (Elt F) → (⟨S300000x64, .f32⟩ : BufTy).Contents (Elt F)),
    ternary main_call2_v1 main_v64 main_call2_v4 main_v65 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)),
    binary main_v65 main_v65 main_call3_v0 (mulf : (⟨S300000x64, .f32⟩ : BufTy).Contents (Elt F) → (⟨S300000x64, .f32⟩ : BufTy).Contents (Elt F) → (⟨S300000x64, .f32⟩ : BufTy).Contents (Elt F)),
    nullary main_call3_cst (constant S_ .f32 0x00000000#32),
    binary main_call3_v0 main_call3_cst main_call3_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    unary main_call3_v1 main_call3_v2 (broadcastInDim S300000x1 ![0] bcast_S300000_S300000x1_0 : (⟨S300000, .f32⟩ : BufTy).Contents (Elt F) → (⟨S300000x1, .f32⟩ : BufTy).Contents (Elt F)),
    unary main_call3_v2 main_v66 (Host.sqrt : (⟨S300000x1, .f32⟩ : BufTy).Contents (Elt F) → (⟨S300000x1, .f32⟩ : BufTy).Contents (Elt F)),
    nullary main_cst_7 (constant S_ .f32 0x2B8CBCCC#32),
    unary main_cst_7 main_v67 (broadcastInDim S300000x1 ![] bcast_S_S300000x1 : (⟨S_, .f32⟩ : BufTy).Contents (Elt F) → (⟨S300000x1, .f32⟩ : BufTy).Contents (Elt F)),
    binary main_v66 main_v67 main_v68 (maximumf : (⟨S300000x1, .f32⟩ : BufTy).Contents (Elt F) → (⟨S300000x1, .f32⟩ : BufTy).Contents (Elt F) → (⟨S300000x1, .f32⟩ : BufTy).Contents (Elt F)),
    unary main_v68 main_v69 (broadcastInDim S300000x64 ![0, 1] bcast_S300000x1_S300000x64_0_1 : (⟨S300000x1, .f32⟩ : BufTy).Contents (Elt F) → (⟨S300000x64, .f32⟩ : BufTy).Contents (Elt F)),
    binary main_v65 main_v69 main_v70 (Host.divf : (⟨S300000x64, .f32⟩ : BufTy).Contents (Elt F) → (⟨S300000x64, .f32⟩ : BufTy).Contents (Elt F) → (⟨S300000x64, .f32⟩ : BufTy).Contents (Elt F)),
    unary main_arg6 main_v71 (broadcastInDim S2000000x1 ![0] bcast_S2000000_S2000000x1_0 : (⟨S2000000, .f32⟩ : BufTy).Contents (Elt F) → (⟨S2000000x1, .f32⟩ : BufTy).Contents (Elt F)),
    nullary main_c_8 (constantI S_ 32 0#32),
    unary main_c_8 main_v72 (broadcastInDim S2000000 ![] bcast_S_S2000000 : (⟨S_, .i32⟩ : BufTy).Contents (Elt F) → (⟨S2000000, .i32⟩ : BufTy).Contents (Elt F)),
    binary main_arg8 main_v72 main_v73 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 300000#32),
    unary main_c_9 main_v74 (broadcastInDim S2000000 ![] bcast_S_S2000000 : (⟨S_, .i32⟩ : BufTy).Contents (Elt F) → (⟨S2000000, .i32⟩ : BufTy).Contents (Elt F)),
    binary main_arg8 main_v74 main_v75 (addi : (⟨S2000000, .i32⟩ : BufTy).Contents (Elt F) → (⟨S2000000, .i32⟩ : BufTy).Contents (Elt F) → (⟨S2000000, .i32⟩ : BufTy).Contents (Elt F)),
    ternary main_v73 main_v75 main_arg8 main_v76 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v76 main_v77 (broadcastInDim S2000000x1 ![0] bcast_S2000000_S2000000x1_0 : (⟨S2000000, .i32⟩ : BufTy).Contents (Elt F) → (⟨S2000000x1, .i32⟩ : BufTy).Contents (Elt F)),
    binary main_v65 main_v77 main_v78 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v71 main_v79 (broadcastInDim S2000000x64 ![0, 1] bcast_S2000000x1_S2000000x64_0_1 : (⟨S2000000x1, .f32⟩ : BufTy).Contents (Elt F) → (⟨S2000000x64, .f32⟩ : BufTy).Contents (Elt F)),
    binary main_v79 main_v78 main_v80 (mulf : (⟨S2000000x64, .f32⟩ : BufTy).Contents (Elt F) → (⟨S2000000x64, .f32⟩ : BufTy).Contents (Elt F) → (⟨S2000000x64, .f32⟩ : BufTy).Contents (Elt F)),
    nullary main_cst_10 (constant S_ .f32 0x00000000#32),
    unary main_cst_10 main_v81 (broadcastInDim S300000x64 ![] bcast_S_S300000x64 : (⟨S_, .f32⟩ : BufTy).Contents (Elt F) → (⟨S300000x64, .f32⟩ : BufTy).Contents (Elt F)),
    unary main_arg7 main_v82 (broadcastInDim S2000000x1 ![0] bcast_S2000000_S2000000x1_0 : (⟨S2000000, .i32⟩ : BufTy).Contents (Elt F) → (⟨S2000000x1, .i32⟩ : BufTy).Contents (Elt F)),
    ternary main_v81 main_v82 main_v80 main_v83 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)),
    unary main_arg2 main_v84 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v84 main_v85 rfl shapeCasts_S1x64x64_S64x64,
    binary main_v83 main_v85 main_v86 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg3 main_v87 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v87 main_v88 rfl shapeCasts_S1x1x64_S1x64,
    unary main_v88 main_v89 (broadcastInDim S300000x64 ![0, 1] bcast_S1x64_S300000x64_0_1 : (⟨S1x64, .f32⟩ : BufTy).Contents (Elt F) → (⟨S300000x64, .f32⟩ : BufTy).Contents (Elt F)),
    binary main_v86 main_v89 main_v90 (addf : (⟨S300000x64, .f32⟩ : BufTy).Contents (Elt F) → (⟨S300000x64, .f32⟩ : BufTy).Contents (Elt F) → (⟨S300000x64, .f32⟩ : BufTy).Contents (Elt F)),
    binary main_v65 main_v83 main_v91 (mulf : (⟨S300000x64, .f32⟩ : BufTy).Contents (Elt F) → (⟨S300000x64, .f32⟩ : BufTy).Contents (Elt F) → (⟨S300000x64, .f32⟩ : BufTy).Contents (Elt F)),
    unary main_arg4 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v92 main_v93 rfl shapeCasts_S1x64x64_S64x64,
    binary main_v91 main_v93 main_v94 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg5 main_v95 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v95 main_v96 rfl shapeCasts_S1x1x64_S1x64,
    unary main_v96 main_v97 (broadcastInDim S300000x64 ![0, 1] bcast_S1x64_S300000x64_0_1 : (⟨S1x64, .f32⟩ : BufTy).Contents (Elt F) → (⟨S300000x64, .f32⟩ : BufTy).Contents (Elt F)),
    binary main_v94 main_v97 main_v98 (addf : (⟨S300000x64, .f32⟩ : BufTy).Contents (Elt F) → (⟨S300000x64, .f32⟩ : BufTy).Contents (Elt F) → (⟨S300000x64, .f32⟩ : BufTy).Contents (Elt F)),
    binary main_v90 main_v98 main_v99 (addf : (⟨S300000x64, .f32⟩ : BufTy).Contents (Elt F) → (⟨S300000x64, .f32⟩ : BufTy).Contents (Elt F) → (⟨S300000x64, .f32⟩ : BufTy).Contents (Elt F)),
    nullary main_cst_11 (constant S_ .f32 0x3E4CCCCD#32),
    nullary main_call4_cst (constant S_ .f32 0x00000000#32),
    unary main_call4_cst main_call4_v0 (broadcastInDim S300000x64 ![] bcast_S_S300000x64 : (⟨S_, .f32⟩ : BufTy).Contents (Elt F) → (⟨S300000x64, .f32⟩ : BufTy).Contents (Elt F)),
    binary main_v99 main_call4_v0 main_call4_v1 (cmpf .oge : (⟨S300000x64, .f32⟩ : BufTy).Contents (Elt F) → (⟨S300000x64, .f32⟩ : BufTy).Contents (Elt F) → (⟨S300000x64, .i1⟩ : BufTy).Contents (Elt F)),
    unary main_cst_11 main_call4_v2 (id : (⟨S_, .f32⟩ : BufTy).Contents (Elt F) → (⟨S_, .f32⟩ : BufTy).Contents (Elt F)),
    unary main_call4_v2 main_call4_v3 (broadcastInDim S300000x64 ![] bcast_S_S300000x64 : (⟨S_, .f32⟩ : BufTy).Contents (Elt F) → (⟨S300000x64, .f32⟩ : BufTy).Contents (Elt F)),
    binary main_call4_v3 main_v99 main_call4_v4 (mulf : (⟨S300000x64, .f32⟩ : BufTy).Contents (Elt F) → (⟨S300000x64, .f32⟩ : BufTy).Contents (Elt F) → (⟨S300000x64, .f32⟩ : BufTy).Contents (Elt F)),
    ternary main_call4_v1 main_v99 main_call4_v4 main_v100 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)),
    binary main_v100 main_v100 main_call5_v0 (mulf : (⟨S300000x64, .f32⟩ : BufTy).Contents (Elt F) → (⟨S300000x64, .f32⟩ : BufTy).Contents (Elt F) → (⟨S300000x64, .f32⟩ : BufTy).Contents (Elt F)),
    nullary main_call5_cst (constant S_ .f32 0x00000000#32),
    binary main_call5_v0 main_call5_cst main_call5_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    unary main_call5_v1 main_call5_v2 (broadcastInDim S300000x1 ![0] bcast_S300000_S300000x1_0 : (⟨S300000, .f32⟩ : BufTy).Contents (Elt F) → (⟨S300000x1, .f32⟩ : BufTy).Contents (Elt F)),
    unary main_call5_v2 main_v101 (Host.sqrt : (⟨S300000x1, .f32⟩ : BufTy).Contents (Elt F) → (⟨S300000x1, .f32⟩ : BufTy).Contents (Elt F)),
    nullary main_cst_12 (constant S_ .f32 0x2B8CBCCC#32),
    unary main_cst_12 main_v102 (broadcastInDim S300000x1 ![] bcast_S_S300000x1 : (⟨S_, .f32⟩ : BufTy).Contents (Elt F) → (⟨S300000x1, .f32⟩ : BufTy).Contents (Elt F)),
    binary main_v101 main_v102 main_v103 (maximumf : (⟨S300000x1, .f32⟩ : BufTy).Contents (Elt F) → (⟨S300000x1, .f32⟩ : BufTy).Contents (Elt F) → (⟨S300000x1, .f32⟩ : BufTy).Contents (Elt F)),
    unary main_v103 main_v104 (broadcastInDim S300000x64 ![0, 1] bcast_S300000x1_S300000x64_0_1 : (⟨S300000x1, .f32⟩ : BufTy).Contents (Elt F) → (⟨S300000x64, .f32⟩ : BufTy).Contents (Elt F)) ]

set_option maxRecDepth 8192 in
set_option maxHeartbeats 4000000 in
/-- The window is that straight line: the outlined functions unfolded at their calls, the sequencing reassociated. -/
theorem main_part1_eq (c : Dev nD) : main_part1 (F := F) c = seq ops1 := by
  simp only [main_part1, fn_leaky_relu.body, fn_where.body, fn_norm.body, seq, bind_assoc, pure_bind]
  all_goals rfl

theorem ops1_sub : (ops1 : List (HloOp τ sig (Elt F))).Forall fun op => op.bufs ⊆ tcRefs τ sig :=
  ⟨unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub ..⟩

/-- The buffers the window's operations write. -/
abbrev ops1_W : List (Ref sig .tc) := [main_v52, main_v53, main_v54, main_v55, main_v56, main_v57, main_v58, main_v59, main_v60, main_v61, main_v62, main_v63, main_v64, main_cst_6, main_call2_cst, main_call2_v0, main_call2_v1, main_call2_v2, main_call2_v3, main_call2_v4, main_v65, main_call3_v0, main_call3_cst, main_call3_v1, main_call3_v2, main_v66, main_cst_7, main_v67, main_v68, main_v69, main_v70, main_v71, main_c_8, main_v72, main_v73, main_c_9, main_v74, main_v75, main_v76, main_v77, main_v78, main_v79, main_v80, main_cst_10, main_v81, main_v82, main_v83, main_v84, main_v85, main_v86, main_v87, main_v88, main_v89, main_v90, main_v91, main_v92, main_v93, main_v94, main_v95, main_v96, main_v97, main_v98, main_v99, main_cst_11, main_call4_cst, main_call4_v0, main_call4_v1, main_call4_v2, main_call4_v3, main_call4_v4, main_v100, main_call5_v0, main_call5_cst, main_call5_v1, main_call5_v2, main_v101, main_cst_12, main_v102, main_v103, main_v104]

set_option maxRecDepth 8192 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation of the window allocates: each determines its results. -/
theorem ops1_fresh : ∀ op ∈ (ops1 : List (HloOp τ sig (Elt F))), op.fresh = ∅ := by
  intro _ h
  repeat (cases h with | head => rfl | tail _ h => ?_)
  exact nomatch h

end Cert.ReferenceIdeal.RefRun

end
-- ==== Proof.RefRun2.lean ====
import proofs.«179311_j1056561954898_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations 151 … 163 of 163, in order (the third layer's division, the mean of the four layers and the two row ranges returned): each printed statement of the
    window is one operation; a call of an outlined function is its body's operations at the call's own buffers
    (the comparison with zero, the scaled copy and the selection for the leaky rectifier; the square, the row sum,
    its broadcast and the square root for the row norm). -/
abbrev ops2 : List (HloOp τ sig (Elt F)) :=
  [ binary main_v100 main_v104 main_v105 (Host.divf : (⟨S300000x64, .f32⟩ : BufTy).Contents (Elt F) → (⟨S300000x64, .f32⟩ : BufTy).Contents (Elt F) → (⟨S300000x64, .f32⟩ : BufTy).Contents (Elt F)),
    unary main_v0 main_v106 (broadcastInDim S300000x1x64 ![0, 2] bcast_S300000x64_S300000x1x64_0_2 : (⟨S300000x64, .f32⟩ : BufTy).Contents (Elt F) → (⟨S300000x1x64, .f32⟩ : BufTy).Contents (Elt F)),
    unary main_v35 main_v107 (broadcastInDim S300000x1x64 ![0, 2] bcast_S300000x64_S300000x1x64_0_2 : (⟨S300000x64, .f32⟩ : BufTy).Contents (Elt F) → (⟨S300000x1x64, .f32⟩ : BufTy).Contents (Elt F)),
    unary main_v70 main_v108 (broadcastInDim S300000x1x64 ![0, 2] bcast_S300000x64_S300000x1x64_0_2 : (⟨S300000x64, .f32⟩ : BufTy).Contents (Elt F) → (⟨S300000x1x64, .f32⟩ : BufTy).Contents (Elt F)),
    unary main_v105 main_v109 (broadcastInDim S300000x1x64 ![0, 2] bcast_S300000x64_S300000x1x64_0_2 : (⟨S300000x64, .f32⟩ : BufTy).Contents (Elt F) → (⟨S300000x1x64, .f32⟩ : BufTy).Contents (Elt F)),
    nary ![main_v106, main_v107, main_v108, main_v109] main_v110 (fun u => concatenate S300000x4x64 1 [⟨S300000x1x64, u 0⟩, ⟨S300000x1x64, u 1⟩, ⟨S300000x1x64, u 2⟩, ⟨S300000x1x64, u 3⟩] concatenates_S300000x1x64_S300000x1x64_S300000x1x64_S300000x1x64_S300000x4x64_d1),
    nullary main_cst_13 (constant S_ .f32 0x00000000#32),
    binary main_v110 main_cst_13 main_v111 ((fun x v => Host.reduceAdd x v reducesTo_S300000x4x64_S300000x64_d1 h_S_) : (⟨S300000x4x64, .f32⟩ : BufTy).Contents (Elt F) → (⟨S_, .f32⟩ : BufTy).Contents (Elt F) → (⟨S300000x64, .f32⟩ : BufTy).Contents (Elt F)),
    nullary main_cst_14 (constant S_ .f32 0x40800000#32),
    unary main_cst_14 main_v112 (broadcastInDim S300000x64 ![] bcast_S_S300000x64 : (⟨S_, .f32⟩ : BufTy).Contents (Elt F) → (⟨S300000x64, .f32⟩ : BufTy).Contents (Elt F)),
    binary main_v111 main_v112 main_v113 (Host.divf : (⟨S300000x64, .f32⟩ : BufTy).Contents (Elt F) → (⟨S300000x64, .f32⟩ : BufTy).Contents (Elt F) → (⟨S300000x64, .f32⟩ : BufTy).Contents (Elt F)),
    unary main_v113 main_v114 ((extractStridedSlice S100000x64 ![0, 0] · slices_S300000x64_S100000x64_0_0) : (⟨S300000x64, .f32⟩ : BufTy).Contents (Elt F) → (⟨S100000x64, .f32⟩ : BufTy).Contents (Elt F)),
    unary main_v113 main_v115 ((extractStridedSlice S200000x64 ![100000, 0] · slices_S300000x64_S200000x64_100000_0) : (⟨S300000x64, .f32⟩ : BufTy).Contents (Elt F) → (⟨S200000x64, .f32⟩ : BufTy).Contents (Elt F)) ]

set_option maxRecDepth 8192 in
set_option maxHeartbeats 4000000 in
/-- The window is that straight line: the outlined functions unfolded at their calls, the sequencing reassociated. -/
theorem main_part2_eq (c : Dev nD) : main_part2 (F := F) c = seq ops2 := by
  simp only [main_part2, fn_leaky_relu.body, fn_where.body, fn_norm.body, seq, bind_assoc, pure_bind]
  all_goals rfl

theorem ops2_sub : (ops2 : List (HloOp τ sig (Elt F))).Forall fun op => op.bufs ⊆ tcRefs τ sig :=
  ⟨binary_bufs_sub .., unary_bufs_sub .., unary_bufs_sub .., unary_bufs_sub .., unary_bufs_sub .., nary_bufs_sub .., nullary_bufs_sub .., binary_bufs_sub .., nullary_bufs_sub .., unary_bufs_sub .., binary_bufs_sub .., unary_bufs_sub .., unary_bufs_sub ..⟩

/-- The buffers the window's operations write. -/
abbrev ops2_W : List (Ref sig .tc) := [main_v105, main_v106, main_v107, main_v108, main_v109, main_v110, main_cst_13, main_v111, main_cst_14, main_v112, main_v113, main_v114, main_v115]

set_option maxRecDepth 8192 in
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- No operation of the window allocates: each determines its results. -/
theorem ops2_fresh : ∀ op ∈ (ops2 : List (HloOp τ sig (Elt F))), op.fresh = ∅ := by
  intro _ h
  repeat (cases h with | head => rfl | tail _ h => ?_)
  exact nomatch h

end Cert.ReferenceIdeal.RefRun

end
-- ==== Proof.RefRun.lean ====
import proofs.«179311_j1056561954898_1_alg».proof.Proof.Gen.ReferenceIdeal
import Idealize.ShloMosaic.Lib.StableHlo.Run
import proofs.«179311_j1056561954898_1_alg».proof.Proof.RefRun0
import proofs.«179311_j1056561954898_1_alg».proof.Proof.RefRun1
import proofs.«179311_j1056561954898_1_alg».proof.Proof.RefRun2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The reference's 163 operations, in order: the three windows one after the other. -/
abbrev ops : List (HloOp τ sig (Elt F)) := ops0 ++ (ops1 ++ ops2)

/-- The reference's main function is that straight line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

theorem ops_fresh : ∀ op ∈ (ops : List (HloOp τ sig (Elt F))), op.fresh = ∅ := fun op h => by
  simp only [ops, List.mem_append] at h
  rcases h with h | h | h
  exacts [ops0_fresh op h, ops1_fresh op h, ops2_fresh op h]

/-- A buffer that no operation writes keeps its contents through the whole line. -/
theorem after_ops_keep (V : Valuation τ sig (Elt F)) (r : Ref sig .tc) (h0 : r ∉ ops0_W) (h1 : r ∉ ops1_W) (h2 : r ∉ ops2_W) :
    after ops V (Proc.devRef .tc r) = V (Proc.devRef .tc r) := by
  simp only [ops, after_append]
  rw [after_of_writes_sub ops2 _ ops2_writes h2, after_of_writes_sub ops1 _ ops1_writes h1,
    after_of_writes_sub ops0 _ ops0_writes h0]

/-- On every device, for any float values, from any memory with zero counters: every weakly fair execution of the
    reference terminates with the two results at the operations' fold over the launch contents, and the nine
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = after ops (launchContents m c) (Proc.devRef .tc main_v114)
      ∧ r.2.mem ((c.tc : Thread nD τ).loc main_v115) = after ops (launchContents m c) (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v114, h c main_v115,
      (h c main_arg0).trans (after_ops_keep _ main_arg0 (by decide) (by decide) (by decide)),
      (h c main_arg1).trans (after_ops_keep _ main_arg1 (by decide) (by decide) (by decide)),
      (h c main_arg2).trans (after_ops_keep _ main_arg2 (by decide) (by decide) (by decide)),
      (h c main_arg3).trans (after_ops_keep _ main_arg3 (by decide) (by decide) (by decide)),
      (h c main_arg4).trans (after_ops_keep _ main_arg4 (by decide) (by decide) (by decide)),
      (h c main_arg5).trans (after_ops_keep _ main_arg5 (by decide) (by decide) (by decide)),
      (h c main_arg6).trans (after_ops_keep _ main_arg6 (by decide) (by decide) (by decide)),
      (h c main_arg7).trans (after_ops_keep _ main_arg7 (by decide) (by decide) (by decide)),
      (h c main_arg8).trans (after_ops_keep _ main_arg8 (by decide) (by decide) (by decide))⟩)
    (run_seq scopedRefs_eq scopedSems_eq defs main (fun _ => ops) main_eq (fun _ => ops_sub) m ρ (fun _ => ops_fresh))

end Cert.ReferenceIdeal.RefRun

end
-- ==== Proof.RefLayersSeg.lean ====
import proofs.«179311_j1056561954898_1_alg».proof.Proof.RefRun
import proofs.«179311_j1056561954898_1_alg».proof.Proof.RefDense
import Idealize.ShloMosaic.PureOps.Ideal

noncomputable section

namespace Cert.ReferenceIdeal.RefLayers

open Cert.ReferenceIdeal Cert.ReferenceIdeal.Gen Idealize.ShloMosaic Idealize.ShloMosaic.TcCoe Idealize.SL.Sem Idealize.ShloMosaic.StableHlo
open Cert.ReferenceIdeal.RefRun

/-- A `300000 × 64` array of ideal floats: one embedding row per node. -/
abbrev Mat : Type := FVec Ideal S300000x64 .f32

/-- The initial embedding: the two argument arrays stacked along the rows. -/
def ego0 (a0 : FVec Ideal S100000x64 .f32) (a1 : FVec Ideal S200000x64 .f32) : Mat :=
  concatenate S300000x64 0 [⟨S100000x64, a0⟩, ⟨S200000x64, a1⟩] concatenates_S100000x64_S200000x64_S300000x64_d0

/-- The sparse product with the adjacency matrix given as two million (value, row, column) triples: row `col e`
    of `x` (a negative column index counted from the end) is gathered for every triple `e`, scaled by `val e`,
    and added into row `row e` of a zero array. Stated with the reference's own operations and never opened. -/
def spmm (val : FVec Ideal S2000000 .f32) (row col : IVec S2000000 32) (x : Mat) : Mat :=
  Host.scatterAdd (F := Ideal) scatter_S300000x64_S2000000x1_S2000000x64_1_0_0_1
    (broadcastInDim S300000x64 ![] bcast_S_S300000x64 (constant (F := Ideal) S_ .f32 0x00000000#32))
    (broadcastInDim S2000000x1 ![0] bcast_S2000000_S2000000x1_0 row)
    (mulf (broadcastInDim S2000000x64 ![0, 1] bcast_S2000000x1_S2000000x64_0_1 (broadcastInDim S2000000x1 ![0] bcast_S2000000_S2000000x1_0 val))
      (Host.gather gather_S300000x64_S2000000x1_S2000000x64_1_0_n_n_0_1_164 x
        (broadcastInDim S2000000x1 ![0] bcast_S2000000_S2000000x1_0
          (select (cmpi .slt col (broadcastInDim S2000000 ![] bcast_S_S2000000 (constantI S_ 32 0#32)))
            (addi col (broadcastInDim S2000000 ![] bcast_S_S2000000 (constantI S_ 32 300000#32))) col))))

/-- One `64 × 64` weight matrix out of the stack of three: the block at offset `off`, its leading unit axis dropped. -/
def wSlice (off : Fin S3x64x64.rank → ℕ) (h : S3x64x64.Slices off S1x64x64) (w : FVec Ideal S3x64x64 .f32) : FVec Ideal S64x64 .f32 :=
  fun i => shapeCast S64x64 (extractStridedSlice S1x64x64 off w h) shapeCasts_S1x64x64_S64x64 i

/-- One `1 × 64` bias row out of the stack of three: the block at offset `off`, its leading unit axis dropped. -/
def bSlice (off : Fin S3x1x64.rank → ℕ) (h : S3x1x64.Slices off S1x1x64) (b : FVec Ideal S3x1x64 .f32) : FVec Ideal S1x64 .f32 :=
  fun i => shapeCast S1x64 (extractStridedSlice S1x1x64 off b h) shapeCasts_S1x1x64_S1x64 i

/-- The mean of four embeddings: each given a unit middle axis, the four stacked along it, summed over it from zero,
    and divided by `4` (the `f32` word `0x40800000`). -/
def mean4 (x0 x1 x2 x3 : Mat) : Mat :=
  Host.divf (F := Ideal)
    (Host.reduceAdd (F := Ideal)
      (concatenate S300000x4x64 1
        [⟨S300000x1x64, broadcastInDim S300000x1x64 ![0, 2] bcast_S300000x64_S300000x1x64_0_2 x0⟩,
         ⟨S300000x1x64, broadcastInDim S300000x1x64 ![0, 2] bcast_S300000x64_S300000x1x64_0_2 x1⟩,
         ⟨S300000x1x64, broadcastInDim S300000x1x64 ![0, 2] bcast_S300000x64_S300000x1x64_0_2 x2⟩,
         ⟨S300000x1x64, broadcastInDim S300000x1x64 ![0, 2] bcast_S300000x64_S300000x1x64_0_2 x3⟩]
        concatenates_S300000x1x64_S300000x1x64_S300000x1x64_S300000x1x64_S300000x4x64_d1)
      (constant (F := Ideal) S_ .f32 0x00000000#32) reducesTo_S300000x4x64_S300000x64_d1 h_S_)
    (broadcastInDim S300000x64 ![] bcast_S_S300000x64 (constant (F := Ideal) S_ .f32 0x40800000#32))

/-! ## The reference's operations in ten stretches

Per layer: the neighbourhood sum (S), the dense map with its leaky rectifier (D), the row normalisation (N); then the
mean of the four embeddings and the two row ranges returned (FN). -/

section Stretches
variable {F : FTy → Type} [FloatOps F]

/-- Operations 1 … 17 of the reference. -/
abbrev S1 : List (HloOp τ sig (Elt F)) :=
  [ binary main_arg0 main_arg1 main_v0 ((fun a b => concatenate S300000x64 0 [⟨S100000x64, a⟩, ⟨S200000x64, b⟩] concatenates_S100000x64_S200000x64_S300000x64_d0) : (⟨S100000x64, .f32⟩ : BufTy).Contents (Elt F) → (⟨S200000x64, .f32⟩ : BufTy).Contents (Elt F) → (⟨S300000x64, .f32⟩ : BufTy).Contents (Elt F)),
    unary main_arg6 main_v1 (broadcastInDim S2000000x1 ![0] bcast_S2000000_S2000000x1_0 : (⟨S2000000, .f32⟩ : BufTy).Contents (Elt F) → (⟨S2000000x1, .f32⟩ : BufTy).Contents (Elt F)),
    nullary main_c (constantI S_ 32 0#32),
    unary main_c main_v2 (broadcastInDim S2000000 ![] bcast_S_S2000000 : (⟨S_, .i32⟩ : BufTy).Contents (Elt F) → (⟨S2000000, .i32⟩ : BufTy).Contents (Elt F)),
    binary main_arg8 main_v2 main_v3 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 300000#32),
    unary main_c_0 main_v4 (broadcastInDim S2000000 ![] bcast_S_S2000000 : (⟨S_, .i32⟩ : BufTy).Contents (Elt F) → (⟨S2000000, .i32⟩ : BufTy).Contents (Elt F)),
    binary main_arg8 main_v4 main_v5 (addi : (⟨S2000000, .i32⟩ : BufTy).Contents (Elt F) → (⟨S2000000, .i32⟩ : BufTy).Contents (Elt F) → (⟨S2000000, .i32⟩ : BufTy).Contents (Elt F)),
    ternary main_v3 main_v5 main_arg8 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v6 main_v7 (broadcastInDim S2000000x1 ![0] bcast_S2000000_S2000000x1_0 : (⟨S2000000, .i32⟩ : BufTy).Contents (Elt F) → (⟨S2000000x1, .i32⟩ : BufTy).Contents (Elt F)),
    binary main_v0 main_v7 main_v8 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v11 (broadcastInDim S300000x64 ![] bcast_S_S300000x64 : (⟨S_, .f32⟩ : BufTy).Contents (Elt F) → (⟨S300000x64, .f32⟩ : BufTy).Contents (Elt F)),
    unary main_arg7 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)) ]

/-- The buffers these operations write. -/
abbrev S1_W : List (Ref sig .tc) := [main_v0, main_v1, main_c, main_v2, main_v3, main_c_0, main_v4, main_v5, main_v6, main_v7, main_v8, main_v9, main_v10, main_cst, main_v11, main_v12, main_v13]

theorem S1_writes : (S1 : List (HloOp τ sig (Elt F))).Forall fun op =>
    op.writes ⊆ (S1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem S1_keep (W : Valuation τ sig (Elt F)) (r : Ref sig .tc) (h : r ∉ S1_W) :
    after S1 W (Proc.devRef .tc r) = W (Proc.devRef .tc r) :=
  after_of_writes_sub S1 W S1_writes h

/-- Operations 18 … 41 of the reference. -/
abbrev D1 : List (HloOp τ sig (Elt F)) :=
  [ unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    binary main_v13 main_v15 main_v16 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg3 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v17 main_v18 rfl shapeCasts_S1x1x64_S1x64,
    unary main_v18 main_v19 (broadcastInDim S300000x64 ![0, 1] bcast_S1x64_S300000x64_0_1 : (⟨S1x64, .f32⟩ : BufTy).Contents (Elt F) → (⟨S300000x64, .f32⟩ : BufTy).Contents (Elt F)),
    binary main_v16 main_v19 main_v20 (addf : (⟨S300000x64, .f32⟩ : BufTy).Contents (Elt F) → (⟨S300000x64, .f32⟩ : BufTy).Contents (Elt F) → (⟨S300000x64, .f32⟩ : BufTy).Contents (Elt F)),
    binary main_v0 main_v13 main_v21 (mulf : (⟨S300000x64, .f32⟩ : BufTy).Contents (Elt F) → (⟨S300000x64, .f32⟩ : BufTy).Contents (Elt F) → (⟨S300000x64, .f32⟩ : BufTy).Contents (Elt F)),
    unary main_arg4 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v22 main_v23 rfl shapeCasts_S1x64x64_S64x64,
    binary main_v21 main_v23 main_v24 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg5 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v25 main_v26 rfl shapeCasts_S1x1x64_S1x64,
    unary main_v26 main_v27 (broadcastInDim S300000x64 ![0, 1] bcast_S1x64_S300000x64_0_1 : (⟨S1x64, .f32⟩ : BufTy).Contents (Elt F) → (⟨S300000x64, .f32⟩ : BufTy).Contents (Elt F)),
    binary main_v24 main_v27 main_v28 (addf : (⟨S300000x64, .f32⟩ : BufTy).Contents (Elt F) → (⟨S300000x64, .f32⟩ : BufTy).Contents (Elt F) → (⟨S300000x64, .f32⟩ : BufTy).Contents (Elt F)),
    binary main_v20 main_v28 main_v29 (addf : (⟨S300000x64, .f32⟩ : BufTy).Contents (Elt F) → (⟨S300000x64, .f32⟩ : BufTy).Contents (Elt F) → (⟨S300000x64, .f32⟩ : BufTy).Contents (Elt F)),
    nullary main_cst_1 (constant S_ .f32 0x3E4CCCCD#32),
    nullary main_call0_cst (constant S_ .f32 0x00000000#32),
    unary main_call0_cst main_call0_v0 (broadcastInDim S300000x64 ![] bcast_S_S300000x64 : (⟨S_, .f32⟩ : BufTy).Contents (Elt F) → (⟨S300000x64, .f32⟩ : BufTy).Contents (Elt F)),
    binary main_v29 main_call0_v0 main_call0_v1 (cmpf .oge : (⟨S300000x64, .f32⟩ : BufTy).Contents (Elt F) → (⟨S300000x64, .f32⟩ : BufTy).Contents (Elt F) → (⟨S300000x64, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S300000x64 ![] bcast_S_S300000x64 : (⟨S_, .f32⟩ : BufTy).Contents (Elt F) → (⟨S300000x64, .f32⟩ : BufTy).Contents (Elt F)),
    binary main_call0_v3 main_v29 main_call0_v4 (mulf : (⟨S300000x64, .f32⟩ : BufTy).Contents (Elt F) → (⟨S300000x64, .f32⟩ : BufTy).Contents (Elt F) → (⟨S300000x64, .f32⟩ : BufTy).Contents (Elt F)),
    ternary main_call0_v1 main_v29 main_call0_v4 main_v30 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)) ]

/-- The buffers these operations write. -/
abbrev D1_W : List (Ref sig .tc) := [main_v14, main_v15, main_v16, main_v17, main_v18, main_v19, main_v20, main_v21, main_v22, main_v23, main_v24, main_v25, main_v26, main_v27, main_v28, main_v29, main_cst_1, main_call0_cst, main_call0_v0, main_call0_v1, main_call0_v2, main_call0_v3, main_call0_v4, main_v30]

theorem D1_writes : (D1 : List (HloOp τ sig (Elt F))).Forall fun op =>
    op.writes ⊆ (D1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem D1_keep (W : Valuation τ sig (Elt F)) (r : Ref sig .tc) (h : r ∉ D1_W) :
    after D1 W (Proc.devRef .tc r) = W (Proc.devRef .tc r) :=
  after_of_writes_sub D1 W D1_writes h

/-- Operations 42 … 51 of the reference. -/
abbrev N1 : List (HloOp τ sig (Elt F)) :=
  [ binary main_v30 main_v30 main_call1_v0 (mulf : (⟨S300000x64, .f32⟩ : BufTy).Contents (Elt F) → (⟨S300000x64, .f32⟩ : BufTy).Contents (Elt F) → (⟨S300000x64, .f32⟩ : BufTy).Contents (Elt F)),
    nullary main_call1_cst (constant S_ .f32 0x00000000#32),
    binary main_call1_v0 main_call1_cst main_call1_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    unary main_call1_v1 main_call1_v2 (broadcastInDim S300000x1 ![0] bcast_S300000_S300000x1_0 : (⟨S300000, .f32⟩ : BufTy).Contents (Elt F) → (⟨S300000x1, .f32⟩ : BufTy).Contents (Elt F)),
    unary main_call1_v2 main_v31 (Host.sqrt : (⟨S300000x1, .f32⟩ : BufTy).Contents (Elt F) → (⟨S300000x1, .f32⟩ : BufTy).Contents (Elt F)),
    nullary main_cst_2 (constant S_ .f32 0x2B8CBCCC#32),
    unary main_cst_2 main_v32 (broadcastInDim S300000x1 ![] bcast_S_S300000x1 : (⟨S_, .f32⟩ : BufTy).Contents (Elt F) → (⟨S300000x1, .f32⟩ : BufTy).Contents (Elt F)),
    binary main_v31 main_v32 main_v33 (maximumf : (⟨S300000x1, .f32⟩ : BufTy).Contents (Elt F) → (⟨S300000x1, .f32⟩ : BufTy).Contents (Elt F) → (⟨S300000x1, .f32⟩ : BufTy).Contents (Elt F)),
    unary main_v33 main_v34 (broadcastInDim S300000x64 ![0, 1] bcast_S300000x1_S300000x64_0_1 : (⟨S300000x1, .f32⟩ : BufTy).Contents (Elt F) → (⟨S300000x64, .f32⟩ : BufTy).Contents (Elt F)),
    binary main_v30 main_v34 main_v35 (Host.divf : (⟨S300000x64, .f32⟩ : BufTy).Contents (Elt F) → (⟨S300000x64, .f32⟩ : BufTy).Contents (Elt F) → (⟨S300000x64, .f32⟩ : BufTy).Contents (Elt F)) ]

/-- The buffers these operations write. -/
abbrev N1_W : List (Ref sig .tc) := [main_call1_v0, main_call1_cst, main_call1_v1, main_call1_v2, main_v31, main_cst_2, main_v32, main_v33, main_v34, main_v35]

theorem N1_writes : (N1 : List (HloOp τ sig (Elt F))).Forall fun op =>
    op.writes ⊆ (N1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem N1_keep (W : Valuation τ sig (Elt F)) (r : Ref sig .tc) (h : r ∉ N1_W) :
    after N1 W (Proc.devRef .tc r) = W (Proc.devRef .tc r) :=
  after_of_writes_sub N1 W N1_writes h

/-- Operations 52 … 67 of the reference. -/
abbrev S2 : List (HloOp τ sig (Elt F)) :=
  [ unary main_arg6 main_v36 (broadcastInDim S2000000x1 ![0] bcast_S2000000_S2000000x1_0 : (⟨S2000000, .f32⟩ : BufTy).Contents (Elt F) → (⟨S2000000x1, .f32⟩ : BufTy).Contents (Elt F)),
    nullary main_c_3 (constantI S_ 32 0#32),
    unary main_c_3 main_v37 (broadcastInDim S2000000 ![] bcast_S_S2000000 : (⟨S_, .i32⟩ : BufTy).Contents (Elt F) → (⟨S2000000, .i32⟩ : BufTy).Contents (Elt F)),
    binary main_arg8 main_v37 main_v38 (cmpi .slt : (⟨S2000000, .i32⟩ : BufTy).Contents (Elt F) → (⟨S2000000, .i32⟩ : BufTy).Contents (Elt F) → (⟨S2000000, .i1⟩ : BufTy).Contents (Elt F)),
    nullary main_c_4 (constantI S_ 32 300000#32),
    unary main_c_4 main_v39 (broadcastInDim S2000000 ![] bcast_S_S2000000 : (⟨S_, .i32⟩ : BufTy).Contents (Elt F) → (⟨S2000000, .i32⟩ : BufTy).Contents (Elt F)),
    binary main_arg8 main_v39 main_v40 (addi : (⟨S2000000, .i32⟩ : BufTy).Contents (Elt F) → (⟨S2000000, .i32⟩ : BufTy).Contents (Elt F) → (⟨S2000000, .i32⟩ : BufTy).Contents (Elt F)),
    ternary main_v38 main_v40 main_arg8 main_v41 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v41 main_v42 (broadcastInDim S2000000x1 ![0] bcast_S2000000_S2000000x1_0 : (⟨S2000000, .i32⟩ : BufTy).Contents (Elt F) → (⟨S2000000x1, .i32⟩ : BufTy).Contents (Elt F)),
    binary main_v30 main_v42 main_v43 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v36 main_v44 (broadcastInDim S2000000x64 ![0, 1] bcast_S2000000x1_S2000000x64_0_1 : (⟨S2000000x1, .f32⟩ : BufTy).Contents (Elt F) → (⟨S2000000x64, .f32⟩ : BufTy).Contents (Elt F)),
    binary main_v44 main_v43 main_v45 (mulf : (⟨S2000000x64, .f32⟩ : BufTy).Contents (Elt F) → (⟨S2000000x64, .f32⟩ : BufTy).Contents (Elt F) → (⟨S2000000x64, .f32⟩ : BufTy).Contents (Elt F)),
    nullary main_cst_5 (constant S_ .f32 0x00000000#32),
    unary main_cst_5 main_v46 (broadcastInDim S300000x64 ![] bcast_S_S300000x64 : (⟨S_, .f32⟩ : BufTy).Contents (Elt F) → (⟨S300000x64, .f32⟩ : BufTy).Contents (Elt F)),
    unary main_arg7 main_v47 (broadcastInDim S2000000x1 ![0] bcast_S2000000_S2000000x1_0 : (⟨S2000000, .i32⟩ : BufTy).Contents (Elt F) → (⟨S2000000x1, .i32⟩ : BufTy).Contents (Elt F)),
    ternary main_v46 main_v47 main_v45 main_v48 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)) ]

/-- The buffers these operations write. -/
abbrev S2_W : List (Ref sig .tc) := [main_v36, main_c_3, main_v37, main_v38, main_c_4, main_v39, main_v40, main_v41, main_v42, main_v43, main_v44, main_v45, main_cst_5, main_v46, main_v47, main_v48]

theorem S2_writes : (S2 : List (HloOp τ sig (Elt F))).Forall fun op =>
    op.writes ⊆ (S2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem S2_keep (W : Valuation τ sig (Elt F)) (r : Ref sig .tc) (h : r ∉ S2_W) :
    after S2 W (Proc.devRef .tc r) = W (Proc.devRef .tc r) :=
  after_of_writes_sub S2 W S2_writes h

/-- Operations 68 … 91 of the reference. -/
abbrev D2 : List (HloOp τ sig (Elt F)) :=
  [ unary main_arg2 main_v49 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v49 main_v50 rfl shapeCasts_S1x64x64_S64x64,
    binary main_v48 main_v50 main_v51 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg3 main_v52 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v52 main_v53 rfl shapeCasts_S1x1x64_S1x64,
    unary main_v53 main_v54 (broadcastInDim S300000x64 ![0, 1] bcast_S1x64_S300000x64_0_1 : (⟨S1x64, .f32⟩ : BufTy).Contents (Elt F) → (⟨S300000x64, .f32⟩ : BufTy).Contents (Elt F)),
    binary main_v51 main_v54 main_v55 (addf : (⟨S300000x64, .f32⟩ : BufTy).Contents (Elt F) → (⟨S300000x64, .f32⟩ : BufTy).Contents (Elt F) → (⟨S300000x64, .f32⟩ : BufTy).Contents (Elt F)),
    binary main_v30 main_v48 main_v56 (mulf : (⟨S300000x64, .f32⟩ : BufTy).Contents (Elt F) → (⟨S300000x64, .f32⟩ : BufTy).Contents (Elt F) → (⟨S300000x64, .f32⟩ : BufTy).Contents (Elt F)),
    unary main_arg4 main_v57 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v57 main_v58 rfl shapeCasts_S1x64x64_S64x64,
    binary main_v56 main_v58 main_v59 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg5 main_v60 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v60 main_v61 rfl shapeCasts_S1x1x64_S1x64,
    unary main_v61 main_v62 (broadcastInDim S300000x64 ![0, 1] bcast_S1x64_S300000x64_0_1 : (⟨S1x64, .f32⟩ : BufTy).Contents (Elt F) → (⟨S300000x64, .f32⟩ : BufTy).Contents (Elt F)),
    binary main_v59 main_v62 main_v63 (addf : (⟨S300000x64, .f32⟩ : BufTy).Contents (Elt F) → (⟨S300000x64, .f32⟩ : BufTy).Contents (Elt F) → (⟨S300000x64, .f32⟩ : BufTy).Contents (Elt F)),
    binary main_v55 main_v63 main_v64 (addf : (⟨S300000x64, .f32⟩ : BufTy).Contents (Elt F) → (⟨S300000x64, .f32⟩ : BufTy).Contents (Elt F) → (⟨S300000x64, .f32⟩ : BufTy).Contents (Elt F)),
    nullary main_cst_6 (constant S_ .f32 0x3E4CCCCD#32),
    nullary main_call2_cst (constant S_ .f32 0x00000000#32),
    unary main_call2_cst main_call2_v0 (broadcastInDim S300000x64 ![] bcast_S_S300000x64 : (⟨S_, .f32⟩ : BufTy).Contents (Elt F) → (⟨S300000x64, .f32⟩ : BufTy).Contents (Elt F)),
    binary main_v64 main_call2_v0 main_call2_v1 (cmpf .oge : (⟨S300000x64, .f32⟩ : BufTy).Contents (Elt F) → (⟨S300000x64, .f32⟩ : BufTy).Contents (Elt F) → (⟨S300000x64, .i1⟩ : BufTy).Contents (Elt F)),
    unary main_cst_6 main_call2_v2 (id : (⟨S_, .f32⟩ : BufTy).Contents (Elt F) → (⟨S_, .f32⟩ : BufTy).Contents (Elt F)),
    unary main_call2_v2 main_call2_v3 (broadcastInDim S300000x64 ![] bcast_S_S300000x64 : (⟨S_, .f32⟩ : BufTy).Contents (Elt F) → (⟨S300000x64, .f32⟩ : BufTy).Contents (Elt F)),
    binary main_call2_v3 main_v64 main_call2_v4 (mulf : (⟨S300000x64, .f32⟩ : BufTy).Contents (Elt F) → (⟨S300000x64, .f32⟩ : BufTy).Contents (Elt F) → (⟨S300000x64, .f32⟩ : BufTy).Contents (Elt F)),
    ternary main_call2_v1 main_v64 main_call2_v4 main_v65 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)) ]

/-- The buffers these operations write. -/
abbrev D2_W : List (Ref sig .tc) := [main_v49, main_v50, main_v51, main_v52, main_v53, main_v54, main_v55, main_v56, main_v57, main_v58, main_v59, main_v60, main_v61, main_v62, main_v63, main_v64, main_cst_6, main_call2_cst, main_call2_v0, main_call2_v1, main_call2_v2, main_call2_v3, main_call2_v4, main_v65]

theorem D2_writes : (D2 : List (HloOp τ sig (Elt F))).Forall fun op =>
    op.writes ⊆ (D2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem D2_keep (W : Valuation τ sig (Elt F)) (r : Ref sig .tc) (h : r ∉ D2_W) :
    after D2 W (Proc.devRef .tc r) = W (Proc.devRef .tc r) :=
  after_of_writes_sub D2 W D2_writes h

/-- Operations 92 … 101 of the reference. -/
abbrev N2 : List (HloOp τ sig (Elt F)) :=
  [ binary main_v65 main_v65 main_call3_v0 (mulf : (⟨S300000x64, .f32⟩ : BufTy).Contents (Elt F) → (⟨S300000x64, .f32⟩ : BufTy).Contents (Elt F) → (⟨S300000x64, .f32⟩ : BufTy).Contents (Elt F)),
    nullary main_call3_cst (constant S_ .f32 0x00000000#32),
    binary main_call3_v0 main_call3_cst main_call3_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    unary main_call3_v1 main_call3_v2 (broadcastInDim S300000x1 ![0] bcast_S300000_S300000x1_0 : (⟨S300000, .f32⟩ : BufTy).Contents (Elt F) → (⟨S300000x1, .f32⟩ : BufTy).Contents (Elt F)),
    unary main_call3_v2 main_v66 (Host.sqrt : (⟨S300000x1, .f32⟩ : BufTy).Contents (Elt F) → (⟨S300000x1, .f32⟩ : BufTy).Contents (Elt F)),
    nullary main_cst_7 (constant S_ .f32 0x2B8CBCCC#32),
    unary main_cst_7 main_v67 (broadcastInDim S300000x1 ![] bcast_S_S300000x1 : (⟨S_, .f32⟩ : BufTy).Contents (Elt F) → (⟨S300000x1, .f32⟩ : BufTy).Contents (Elt F)),
    binary main_v66 main_v67 main_v68 (maximumf : (⟨S300000x1, .f32⟩ : BufTy).Contents (Elt F) → (⟨S300000x1, .f32⟩ : BufTy).Contents (Elt F) → (⟨S300000x1, .f32⟩ : BufTy).Contents (Elt F)),
    unary main_v68 main_v69 (broadcastInDim S300000x64 ![0, 1] bcast_S300000x1_S300000x64_0_1 : (⟨S300000x1, .f32⟩ : BufTy).Contents (Elt F) → (⟨S300000x64, .f32⟩ : BufTy).Contents (Elt F)),
    binary main_v65 main_v69 main_v70 (Host.divf : (⟨S300000x64, .f32⟩ : BufTy).Contents (Elt F) → (⟨S300000x64, .f32⟩ : BufTy).Contents (Elt F) → (⟨S300000x64, .f32⟩ : BufTy).Contents (Elt F)) ]

/-- The buffers these operations write. -/
abbrev N2_W : List (Ref sig .tc) := [main_call3_v0, main_call3_cst, main_call3_v1, main_call3_v2, main_v66, main_cst_7, main_v67, main_v68, main_v69, main_v70]

theorem N2_writes : (N2 : List (HloOp τ sig (Elt F))).Forall fun op =>
    op.writes ⊆ (N2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem N2_keep (W : Valuation τ sig (Elt F)) (r : Ref sig .tc) (h : r ∉ N2_W) :
    after N2 W (Proc.devRef .tc r) = W (Proc.devRef .tc r) :=
  after_of_writes_sub N2 W N2_writes h

/-- Operations 102 … 117 of the reference. -/
abbrev S3 : List (HloOp τ sig (Elt F)) :=
  [ unary main_arg6 main_v71 (broadcastInDim S2000000x1 ![0] bcast_S2000000_S2000000x1_0 : (⟨S2000000, .f32⟩ : BufTy).Contents (Elt F) → (⟨S2000000x1, .f32⟩ : BufTy).Contents (Elt F)),
    nullary main_c_8 (constantI S_ 32 0#32),
    unary main_c_8 main_v72 (broadcastInDim S2000000 ![] bcast_S_S2000000 : (⟨S_, .i32⟩ : BufTy).Contents (Elt F) → (⟨S2000000, .i32⟩ : BufTy).Contents (Elt F)),
    binary main_arg8 main_v72 main_v73 (cmpi .slt : (⟨S2000000, .i32⟩ : BufTy).Contents (Elt F) → (⟨S2000000, .i32⟩ : BufTy).Contents (Elt F) → (⟨S2000000, .i1⟩ : BufTy).Contents (Elt F)),
    nullary main_c_9 (constantI S_ 32 300000#32),
    unary main_c_9 main_v74 (broadcastInDim S2000000 ![] bcast_S_S2000000 : (⟨S_, .i32⟩ : BufTy).Contents (Elt F) → (⟨S2000000, .i32⟩ : BufTy).Contents (Elt F)),
    binary main_arg8 main_v74 main_v75 (addi : (⟨S2000000, .i32⟩ : BufTy).Contents (Elt F) → (⟨S2000000, .i32⟩ : BufTy).Contents (Elt F) → (⟨S2000000, .i32⟩ : BufTy).Contents (Elt F)),
    ternary main_v73 main_v75 main_arg8 main_v76 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v76 main_v77 (broadcastInDim S2000000x1 ![0] bcast_S2000000_S2000000x1_0 : (⟨S2000000, .i32⟩ : BufTy).Contents (Elt F) → (⟨S2000000x1, .i32⟩ : BufTy).Contents (Elt F)),
    binary main_v65 main_v77 main_v78 ((fun x i => Host.gather gather_S300000x64_S2000000x1_S2000000x64_1_0_n_n_0_1_164 x i) : (⟨S300000x64, .f32⟩ : BufTy).Contents (Elt F) → (⟨S2000000x1, .i32⟩ : BufTy).Contents (Elt F) → (⟨S2000000x64, .f32⟩ : BufTy).Contents (Elt F)),
    unary main_v71 main_v79 (broadcastInDim S2000000x64 ![0, 1] bcast_S2000000x1_S2000000x64_0_1 : (⟨S2000000x1, .f32⟩ : BufTy).Contents (Elt F) → (⟨S2000000x64, .f32⟩ : BufTy).Contents (Elt F)),
    binary main_v79 main_v78 main_v80 (mulf : (⟨S2000000x64, .f32⟩ : BufTy).Contents (Elt F) → (⟨S2000000x64, .f32⟩ : BufTy).Contents (Elt F) → (⟨S2000000x64, .f32⟩ : BufTy).Contents (Elt F)),
    nullary main_cst_10 (constant S_ .f32 0x00000000#32),
    unary main_cst_10 main_v81 (broadcastInDim S300000x64 ![] bcast_S_S300000x64 : (⟨S_, .f32⟩ : BufTy).Contents (Elt F) → (⟨S300000x64, .f32⟩ : BufTy).Contents (Elt F)),
    unary main_arg7 main_v82 (broadcastInDim S2000000x1 ![0] bcast_S2000000_S2000000x1_0 : (⟨S2000000, .i32⟩ : BufTy).Contents (Elt F) → (⟨S2000000x1, .i32⟩ : BufTy).Contents (Elt F)),
    ternary main_v81 main_v82 main_v80 main_v83 ((fun x i u => Host.scatterAdd scatter_S300000x64_S2000000x1_S2000000x64_1_0_0_1 x i u) : (⟨S300000x64, .f32⟩ : BufTy).Contents (Elt F) → (⟨S2000000x1, .i32⟩ : BufTy).Contents (Elt F) → (⟨S2000000x64, .f32⟩ : BufTy).Contents (Elt F) → (⟨S300000x64, .f32⟩ : BufTy).Contents (Elt F)) ]

/-- The buffers these operations write. -/
abbrev S3_W : List (Ref sig .tc) := [main_v71, main_c_8, main_v72, main_v73, main_c_9, main_v74, main_v75, main_v76, main_v77, main_v78, main_v79, main_v80, main_cst_10, main_v81, main_v82, main_v83]

theorem S3_writes : (S3 : List (HloOp τ sig (Elt F))).Forall fun op =>
    op.writes ⊆ (S3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem S3_keep (W : Valuation τ sig (Elt F)) (r : Ref sig .tc) (h : r ∉ S3_W) :
    after S3 W (Proc.devRef .tc r) = W (Proc.devRef .tc r) :=
  after_of_writes_sub S3 W S3_writes h

/-- Operations 118 … 141 of the reference. -/
abbrev D3 : List (HloOp τ sig (Elt F)) :=
  [ unary main_arg2 main_v84 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v84 main_v85 rfl shapeCasts_S1x64x64_S64x64,
    binary main_v83 main_v85 main_v86 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg3 main_v87 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v87 main_v88 rfl shapeCasts_S1x1x64_S1x64,
    unary main_v88 main_v89 (broadcastInDim S300000x64 ![0, 1] bcast_S1x64_S300000x64_0_1 : (⟨S1x64, .f32⟩ : BufTy).Contents (Elt F) → (⟨S300000x64, .f32⟩ : BufTy).Contents (Elt F)),
    binary main_v86 main_v89 main_v90 (addf : (⟨S300000x64, .f32⟩ : BufTy).Contents (Elt F) → (⟨S300000x64, .f32⟩ : BufTy).Contents (Elt F) → (⟨S300000x64, .f32⟩ : BufTy).Contents (Elt F)),
    binary main_v65 main_v83 main_v91 (mulf : (⟨S300000x64, .f32⟩ : BufTy).Contents (Elt F) → (⟨S300000x64, .f32⟩ : BufTy).Contents (Elt F) → (⟨S300000x64, .f32⟩ : BufTy).Contents (Elt F)),
    unary main_arg4 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v92 main_v93 rfl shapeCasts_S1x64x64_S64x64,
    binary main_v91 main_v93 main_v94 ((fun l r => Host.dotGeneral dot_S300000x64_S64x64_S300000x64_1_0_0_1_n_n none l r) : (⟨S300000x64, .f32⟩ : BufTy).Contents (Elt F) → (⟨S64x64, .f32⟩ : BufTy).Contents (Elt F) → (⟨S300000x64, .f32⟩ : BufTy).Contents (Elt F)),
    unary main_arg5 main_v95 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v95 main_v96 rfl shapeCasts_S1x1x64_S1x64,
    unary main_v96 main_v97 (broadcastInDim S300000x64 ![0, 1] bcast_S1x64_S300000x64_0_1 : (⟨S1x64, .f32⟩ : BufTy).Contents (Elt F) → (⟨S300000x64, .f32⟩ : BufTy).Contents (Elt F)),
    binary main_v94 main_v97 main_v98 (addf : (⟨S300000x64, .f32⟩ : BufTy).Contents (Elt F) → (⟨S300000x64, .f32⟩ : BufTy).Contents (Elt F) → (⟨S300000x64, .f32⟩ : BufTy).Contents (Elt F)),
    binary main_v90 main_v98 main_v99 (addf : (⟨S300000x64, .f32⟩ : BufTy).Contents (Elt F) → (⟨S300000x64, .f32⟩ : BufTy).Contents (Elt F) → (⟨S300000x64, .f32⟩ : BufTy).Contents (Elt F)),
    nullary main_cst_11 (constant S_ .f32 0x3E4CCCCD#32),
    nullary main_call4_cst (constant S_ .f32 0x00000000#32),
    unary main_call4_cst main_call4_v0 (broadcastInDim S300000x64 ![] bcast_S_S300000x64 : (⟨S_, .f32⟩ : BufTy).Contents (Elt F) → (⟨S300000x64, .f32⟩ : BufTy).Contents (Elt F)),
    binary main_v99 main_call4_v0 main_call4_v1 (cmpf .oge : (⟨S300000x64, .f32⟩ : BufTy).Contents (Elt F) → (⟨S300000x64, .f32⟩ : BufTy).Contents (Elt F) → (⟨S300000x64, .i1⟩ : BufTy).Contents (Elt F)),
    unary main_cst_11 main_call4_v2 (id : (⟨S_, .f32⟩ : BufTy).Contents (Elt F) → (⟨S_, .f32⟩ : BufTy).Contents (Elt F)),
    unary main_call4_v2 main_call4_v3 (broadcastInDim S300000x64 ![] bcast_S_S300000x64 : (⟨S_, .f32⟩ : BufTy).Contents (Elt F) → (⟨S300000x64, .f32⟩ : BufTy).Contents (Elt F)),
    binary main_call4_v3 main_v99 main_call4_v4 (mulf : (⟨S300000x64, .f32⟩ : BufTy).Contents (Elt F) → (⟨S300000x64, .f32⟩ : BufTy).Contents (Elt F) → (⟨S300000x64, .f32⟩ : BufTy).Contents (Elt F)),
    ternary main_call4_v1 main_v99 main_call4_v4 main_v100 (select : (⟨S300000x64, .i1⟩ : BufTy).Contents (Elt F) → (⟨S300000x64, .f32⟩ : BufTy).Contents (Elt F) → (⟨S300000x64, .f32⟩ : BufTy).Contents (Elt F) → (⟨S300000x64, .f32⟩ : BufTy).Contents (Elt F)) ]

/-- The buffers these operations write. -/
abbrev D3_W : List (Ref sig .tc) := [main_v84, main_v85, main_v86, main_v87, main_v88, main_v89, main_v90, main_v91, main_v92, main_v93, main_v94, main_v95, main_v96, main_v97, main_v98, main_v99, main_cst_11, main_call4_cst, main_call4_v0, main_call4_v1, main_call4_v2, main_call4_v3, main_call4_v4, main_v100]

theorem D3_writes : (D3 : List (HloOp τ sig (Elt F))).Forall fun op =>
    op.writes ⊆ (D3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem D3_keep (W : Valuation τ sig (Elt F)) (r : Ref sig .tc) (h : r ∉ D3_W) :
    after D3 W (Proc.devRef .tc r) = W (Proc.devRef .tc r) :=
  after_of_writes_sub D3 W D3_writes h

/-- Operations 142 … 151 of the reference. -/
abbrev N3 : List (HloOp τ sig (Elt F)) :=
  [ binary main_v100 main_v100 main_call5_v0 (mulf : (⟨S300000x64, .f32⟩ : BufTy).Contents (Elt F) → (⟨S300000x64, .f32⟩ : BufTy).Contents (Elt F) → (⟨S300000x64, .f32⟩ : BufTy).Contents (Elt F)),
    nullary main_call5_cst (constant S_ .f32 0x00000000#32),
    binary main_call5_v0 main_call5_cst main_call5_v1 ((fun x v => Host.reduceAdd x v reducesTo_S300000x64_S300000_d1 h_S_) : (⟨S300000x64, .f32⟩ : BufTy).Contents (Elt F) → (⟨S_, .f32⟩ : BufTy).Contents (Elt F) → (⟨S300000, .f32⟩ : BufTy).Contents (Elt F)),
    unary main_call5_v1 main_call5_v2 (broadcastInDim S300000x1 ![0] bcast_S300000_S300000x1_0 : (⟨S300000, .f32⟩ : BufTy).Contents (Elt F) → (⟨S300000x1, .f32⟩ : BufTy).Contents (Elt F)),
    unary main_call5_v2 main_v101 (Host.sqrt : (⟨S300000x1, .f32⟩ : BufTy).Contents (Elt F) → (⟨S300000x1, .f32⟩ : BufTy).Contents (Elt F)),
    nullary main_cst_12 (constant S_ .f32 0x2B8CBCCC#32),
    unary main_cst_12 main_v102 (broadcastInDim S300000x1 ![] bcast_S_S300000x1 : (⟨S_, .f32⟩ : BufTy).Contents (Elt F) → (⟨S300000x1, .f32⟩ : BufTy).Contents (Elt F)),
    binary main_v101 main_v102 main_v103 (maximumf : (⟨S300000x1, .f32⟩ : BufTy).Contents (Elt F) → (⟨S300000x1, .f32⟩ : BufTy).Contents (Elt F) → (⟨S300000x1, .f32⟩ : BufTy).Contents (Elt F)),
    unary main_v103 main_v104 (broadcastInDim S300000x64 ![0, 1] bcast_S300000x1_S300000x64_0_1 : (⟨S300000x1, .f32⟩ : BufTy).Contents (Elt F) → (⟨S300000x64, .f32⟩ : BufTy).Contents (Elt F)),
    binary main_v100 main_v104 main_v105 (Host.divf : (⟨S300000x64, .f32⟩ : BufTy).Contents (Elt F) → (⟨S300000x64, .f32⟩ : BufTy).Contents (Elt F) → (⟨S300000x64, .f32⟩ : BufTy).Contents (Elt F)) ]

/-- The buffers these operations write. -/
abbrev N3_W : List (Ref sig .tc) := [main_call5_v0, main_call5_cst, main_call5_v1, main_call5_v2, main_v101, main_cst_12, main_v102, main_v103, main_v104, main_v105]

theorem N3_writes : (N3 : List (HloOp τ sig (Elt F))).Forall fun op =>
    op.writes ⊆ (N3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem N3_keep (W : Valuation τ sig (Elt F)) (r : Ref sig .tc) (h : r ∉ N3_W) :
    after N3 W (Proc.devRef .tc r) = W (Proc.devRef .tc r) :=
  after_of_writes_sub N3 W N3_writes h

/-- Operations 152 … 163 of the reference. -/
abbrev FN : List (HloOp τ sig (Elt F)) :=
  [ unary main_v0 main_v106 (broadcastInDim S300000x1x64 ![0, 2] bcast_S300000x64_S300000x1x64_0_2 : (⟨S300000x64, .f32⟩ : BufTy).Contents (Elt F) → (⟨S300000x1x64, .f32⟩ : BufTy).Contents (Elt F)),
    unary main_v35 main_v107 (broadcastInDim S300000x1x64 ![0, 2] bcast_S300000x64_S300000x1x64_0_2 : (⟨S300000x64, .f32⟩ : BufTy).Contents (Elt F) → (⟨S300000x1x64, .f32⟩ : BufTy).Contents (Elt F)),
    unary main_v70 main_v108 (broadcastInDim S300000x1x64 ![0, 2] bcast_S300000x64_S300000x1x64_0_2 : (⟨S300000x64, .f32⟩ : BufTy).Contents (Elt F) → (⟨S300000x1x64, .f32⟩ : BufTy).Contents (Elt F)),
    unary main_v105 main_v109 (broadcastInDim S300000x1x64 ![0, 2] bcast_S300000x64_S300000x1x64_0_2 : (⟨S300000x64, .f32⟩ : BufTy).Contents (Elt F) → (⟨S300000x1x64, .f32⟩ : BufTy).Contents (Elt F)),
    nary ![main_v106, main_v107, main_v108, main_v109] main_v110 (fun u => concatenate S300000x4x64 1 [⟨S300000x1x64, u 0⟩, ⟨S300000x1x64, u 1⟩, ⟨S300000x1x64, u 2⟩, ⟨S300000x1x64, u 3⟩] concatenates_S300000x1x64_S300000x1x64_S300000x1x64_S300000x1x64_S300000x4x64_d1),
    nullary main_cst_13 (constant S_ .f32 0x00000000#32),
    binary main_v110 main_cst_13 main_v111 ((fun x v => Host.reduceAdd x v reducesTo_S300000x4x64_S300000x64_d1 h_S_) : (⟨S300000x4x64, .f32⟩ : BufTy).Contents (Elt F) → (⟨S_, .f32⟩ : BufTy).Contents (Elt F) → (⟨S300000x64, .f32⟩ : BufTy).Contents (Elt F)),
    nullary main_cst_14 (constant S_ .f32 0x40800000#32),
    unary main_cst_14 main_v112 (broadcastInDim S300000x64 ![] bcast_S_S300000x64 : (⟨S_, .f32⟩ : BufTy).Contents (Elt F) → (⟨S300000x64, .f32⟩ : BufTy).Contents (Elt F)),
    binary main_v111 main_v112 main_v113 (Host.divf : (⟨S300000x64, .f32⟩ : BufTy).Contents (Elt F) → (⟨S300000x64, .f32⟩ : BufTy).Contents (Elt F) → (⟨S300000x64, .f32⟩ : BufTy).Contents (Elt F)),
    unary main_v113 main_v114 ((extractStridedSlice S100000x64 ![0, 0] · slices_S300000x64_S100000x64_0_0) : (⟨S300000x64, .f32⟩ : BufTy).Contents (Elt F) → (⟨S100000x64, .f32⟩ : BufTy).Contents (Elt F)),
    unary main_v113 main_v115 ((extractStridedSlice S200000x64 ![100000, 0] · slices_S300000x64_S200000x64_100000_0) : (⟨S300000x64, .f32⟩ : BufTy).Contents (Elt F) → (⟨S200000x64, .f32⟩ : BufTy).Contents (Elt F)) ]

/-- The buffers these operations write. -/
abbrev FN_W : List (Ref sig .tc) := [main_v106, main_v107, main_v108, main_v109, main_v110, main_cst_13, main_v111, main_cst_14, main_v112, main_v113, main_v114, main_v115]

theorem FN_writes : (FN : List (HloOp τ sig (Elt F))).Forall fun op =>
    op.writes ⊆ (FN_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem FN_keep (W : Valuation τ sig (Elt F)) (r : Ref sig .tc) (h : r ∉ FN_W) :
    after FN W (Proc.devRef .tc r) = W (Proc.devRef .tc r) :=
  after_of_writes_sub FN W FN_writes h

/-- The ten stretches one after the other. -/
abbrev opsL : List (HloOp τ sig (Elt F)) := S1 ++ (D1 ++ (N1 ++ (S2 ++ (D2 ++ (N2 ++ (S3 ++ (D3 ++ (N3 ++ (FN)))))))))

set_option maxRecDepth 8192 in
/-- The reference's operations are the ten stretches one after the other. -/
theorem ops_eq : (ops : List (HloOp τ sig (Elt F))) = opsL := rfl

end Stretches

/-! ## What each stretch computes, from any contents

Each lemma reads one stretch's result buffer as the reference's own operations applied to the contents the stretch
starts from: the rewriting of each operation's result at its own buffer, one pass. -/

attribute [local irreducible] Host.gather Host.scatterAdd Host.reduceAdd concatenate broadcastInDim extractStridedSlice

set_option maxRecDepth 8192 in
set_option maxHeartbeats 1000000 in
theorem S1_v0 (W : Valuation τ sig (Elt Ideal)) :
    after (S1 (F := Ideal)) W (Proc.devRef .tc main_v0) = ego0 (W (Proc.devRef .tc main_arg0)) (W (Proc.devRef .tc main_arg1)) := by
  after_results_simp <;> rfl

set_option maxRecDepth 8192 in
set_option maxHeartbeats 1000000 in
theorem S1_v13 (W : Valuation τ sig (Elt Ideal)) :
    after (S1 (F := Ideal)) W (Proc.devRef .tc main_v13) = spmm (W (Proc.devRef .tc main_arg6)) (W (Proc.devRef .tc main_arg7)) (W (Proc.devRef .tc main_arg8)) (ego0 (W (Proc.devRef .tc main_arg0)) (W (Proc.devRef .tc main_arg1))) := by
  after_results_simp <;> rfl

set_option maxRecDepth 8192 in
set_option maxHeartbeats 1000000 in
theorem S2_v48 (W : Valuation τ sig (Elt Ideal)) :
    after (S2 (F := Ideal)) W (Proc.devRef .tc main_v48) = spmm (W (Proc.devRef .tc main_arg6)) (W (Proc.devRef .tc main_arg7)) (W (Proc.devRef .tc main_arg8)) (W (Proc.devRef .tc main_v30)) := by
  after_results_simp <;> rfl

set_option maxRecDepth 8192 in
set_option maxHeartbeats 1000000 in
theorem S3_v83 (W : Valuation τ sig (Elt Ideal)) :
    after (S3 (F := Ideal)) W (Proc.devRef .tc main_v83) = spmm (W (Proc.devRef .tc main_arg6)) (W (Proc.devRef .tc main_arg7)) (W (Proc.devRef .tc main_arg8)) (W (Proc.devRef .tc main_v65)) := by
  after_results_simp <;> rfl

set_option maxRecDepth 8192 in
set_option maxHeartbeats 1000000 in
theorem D1_v30 (W : Valuation τ sig (Elt Ideal)) :
    after (D1 (F := Ideal)) W (Proc.devRef .tc main_v30) = RefDense.egoNew (W (Proc.devRef .tc main_v0)) (W (Proc.devRef .tc main_v13)) (wSlice ![0, 0, 0] slices_S3x64x64_S1x64x64_0_0_0 (W (Proc.devRef .tc main_arg2))) (bSlice ![0, 0, 0] slices_S3x1x64_S1x1x64_0_0_0 (W (Proc.devRef .tc main_arg3))) (wSlice ![0, 0, 0] slices_S3x64x64_S1x64x64_0_0_0 (W (Proc.devRef .tc main_arg4))) (bSlice ![0, 0, 0] slices_S3x1x64_S1x1x64_0_0_0 (W (Proc.devRef .tc main_arg5))) := by
  after_results_simp <;> rfl

set_option maxRecDepth 8192 in
set_option maxHeartbeats 1000000 in
theorem D2_v65 (W : Valuation τ sig (Elt Ideal)) :
    after (D2 (F := Ideal)) W (Proc.devRef .tc main_v65) = RefDense.egoNew (W (Proc.devRef .tc main_v30)) (W (Proc.devRef .tc main_v48)) (wSlice ![1, 0, 0] slices_S3x64x64_S1x64x64_1_0_0 (W (Proc.devRef .tc main_arg2))) (bSlice ![1, 0, 0] slices_S3x1x64_S1x1x64_1_0_0 (W (Proc.devRef .tc main_arg3))) (wSlice ![1, 0, 0] slices_S3x64x64_S1x64x64_1_0_0 (W (Proc.devRef .tc main_arg4))) (bSlice ![1, 0, 0] slices_S3x1x64_S1x1x64_1_0_0 (W (Proc.devRef .tc main_arg5))) := by
  after_results_simp <;> rfl

set_option maxRecDepth 8192 in
set_option maxHeartbeats 1000000 in
theorem D3_v100 (W : Valuation τ sig (Elt Ideal)) :
    after (D3 (F := Ideal)) W (Proc.devRef .tc main_v100) = RefDense.egoNew (W (Proc.devRef .tc main_v65)) (W (Proc.devRef .tc main_v83)) (wSlice ![2, 0, 0] slices_S3x64x64_S1x64x64_2_0_0 (W (Proc.devRef .tc main_arg2))) (bSlice ![2, 0, 0] slices_S3x1x64_S1x1x64_2_0_0 (W (Proc.devRef .tc main_arg3))) (wSlice ![2, 0, 0] slices_S3x64x64_S1x64x64_2_0_0 (W (Proc.devRef .tc main_arg4))) (bSlice ![2, 0, 0] slices_S3x1x64_S1x1x64_2_0_0 (W (Proc.devRef .tc main_arg5))) := by
  after_results_simp <;> rfl

set_option maxRecDepth 8192 in
set_option maxHeartbeats 1000000 in
theorem N1_v35 (W : Valuation τ sig (Elt Ideal)) :
    after (N1 (F := Ideal)) W (Proc.devRef .tc main_v35) = RefDense.normed (W (Proc.devRef .tc main_v30)) := by
  after_results_simp <;> rfl

set_option maxRecDepth 8192 in
set_option maxHeartbeats 1000000 in
theorem N2_v70 (W : Valuation τ sig (Elt Ideal)) :
    after (N2 (F := Ideal)) W (Proc.devRef .tc main_v70) = RefDense.normed (W (Proc.devRef .tc main_v65)) := by
  after_results_simp <;> rfl

set_option maxRecDepth 8192 in
set_option maxHeartbeats 1000000 in
theorem N3_v105 (W : Valuation τ sig (Elt Ideal)) :
    after (N3 (F := Ideal)) W (Proc.devRef .tc main_v105) = RefDense.normed (W (Proc.devRef .tc main_v100)) := by
  after_results_simp <;> rfl

set_option maxRecDepth 8192 in
set_option maxHeartbeats 1000000 in
theorem FN_v114 (W : Valuation τ sig (Elt Ideal)) :
    after (FN (F := Ideal)) W (Proc.devRef .tc main_v114) = extractStridedSlice S100000x64 ![0, 0] (mean4 (W (Proc.devRef .tc main_v0)) (W (Proc.devRef .tc main_v35)) (W (Proc.devRef .tc main_v70)) (W (Proc.devRef .tc main_v105))) slices_S300000x64_S100000x64_0_0 := by
  after_results_simp <;> rfl

set_option maxRecDepth 8192 in
set_option maxHeartbeats 1000000 in
theorem FN_v115 (W : Valuation τ sig (Elt Ideal)) :
    after (FN (F := Ideal)) W (Proc.devRef .tc main_v115) = extractStridedSlice S200000x64 ![100000, 0] (mean4 (W (Proc.devRef .tc main_v0)) (W (Proc.devRef .tc main_v35)) (W (Proc.devRef .tc main_v70)) (W (Proc.devRef .tc main_v105))) slices_S300000x64_S200000x64_100000_0 := by
  after_results_simp <;> rfl

end Cert.ReferenceIdeal.RefLayers

end
-- ==== Proof.RefLayers.lean ====
import proofs.«179311_j1056561954898_1_alg».proof.Proof.RefLayersSeg
import Idealize.ShloMosaic.PureOps.Ideal

noncomputable section

namespace Cert.ReferenceIdeal.RefLayers

open Cert.ReferenceIdeal Cert.ReferenceIdeal.Gen Idealize.ShloMosaic Idealize.ShloMosaic.TcCoe Idealize.SL.Sem Idealize.ShloMosaic.StableHlo
open Cert.ReferenceIdeal.RefRun

/-- The reference's nine argument arrays: the two halves of the initial embedding, the two stacks of three weight
    matrices with their bias rows, and the adjacency matrix as (value, row, column) triples. -/
structure Args where
  x0 : FVec Ideal S100000x64 .f32
  x1 : FVec Ideal S200000x64 .f32
  wgc : FVec Ideal S3x64x64 .f32
  bgc : FVec Ideal S3x1x64 .f32
  wbi : FVec Ideal S3x64x64 .f32
  bbi : FVec Ideal S3x1x64 .f32
  val : FVec Ideal S2000000 .f32
  row : IVec S2000000 32
  col : IVec S2000000 32

/-- The argument arrays as a device's buffers hold them. -/
abbrev argsOf (V : Valuation τ sig (Elt Ideal)) : Args :=
  ⟨V (Proc.devRef .tc main_arg0), V (Proc.devRef .tc main_arg1), V (Proc.devRef .tc main_arg2), V (Proc.devRef .tc main_arg3), V (Proc.devRef .tc main_arg4),
   V (Proc.devRef .tc main_arg5), V (Proc.devRef .tc main_arg6), V (Proc.devRef .tc main_arg7), V (Proc.devRef .tc main_arg8)⟩

namespace Args

/-- The initial embedding. -/
def e0 (a : Args) : Mat := ego0 a.x0 a.x1
/-- The neighbourhood sum of an embedding: the sparse product with the adjacency matrix. -/
def side (a : Args) (x : Mat) : Mat := spmm a.val a.row a.col x
/-- The embedding after layer 1: the dense map and leaky rectifier of the previous embedding and its neighbourhood sum,
    with the layer's weight matrices and bias rows. -/
def e1 (a : Args) : Mat :=
  RefDense.egoNew a.e0 (a.side a.e0) (wSlice ![0, 0, 0] slices_S3x64x64_S1x64x64_0_0_0 a.wgc) (bSlice ![0, 0, 0] slices_S3x1x64_S1x1x64_0_0_0 a.bgc)
    (wSlice ![0, 0, 0] slices_S3x64x64_S1x64x64_0_0_0 a.wbi) (bSlice ![0, 0, 0] slices_S3x1x64_S1x1x64_0_0_0 a.bbi)
/-- The embedding after layer 2: the dense map and leaky rectifier of the previous embedding and its neighbourhood sum,
    with the layer's weight matrices and bias rows. -/
def e2 (a : Args) : Mat :=
  RefDense.egoNew a.e1 (a.side a.e1) (wSlice ![1, 0, 0] slices_S3x64x64_S1x64x64_1_0_0 a.wgc) (bSlice ![1, 0, 0] slices_S3x1x64_S1x1x64_1_0_0 a.bgc)
    (wSlice ![1, 0, 0] slices_S3x64x64_S1x64x64_1_0_0 a.wbi) (bSlice ![1, 0, 0] slices_S3x1x64_S1x1x64_1_0_0 a.bbi)
/-- The embedding after layer 3: the dense map and leaky rectifier of the previous embedding and its neighbourhood sum,
    with the layer's weight matrices and bias rows. -/
def e3 (a : Args) : Mat :=
  RefDense.egoNew a.e2 (a.side a.e2) (wSlice ![2, 0, 0] slices_S3x64x64_S1x64x64_2_0_0 a.wgc) (bSlice ![2, 0, 0] slices_S3x1x64_S1x1x64_2_0_0 a.bgc)
    (wSlice ![2, 0, 0] slices_S3x64x64_S1x64x64_2_0_0 a.wbi) (bSlice ![2, 0, 0] slices_S3x1x64_S1x1x64_2_0_0 a.bbi)
/-- The mean of the initial embedding and the three layers' row-normalised embeddings. -/
def mean (a : Args) : Mat := mean4 a.e0 (RefDense.normed a.e1) (RefDense.normed a.e2) (RefDense.normed a.e3)
/-- The first result: rows `[0, 100000)` of the mean. -/
def out0 (a : Args) : FVec Ideal S100000x64 .f32 := extractStridedSlice S100000x64 ![0, 0] a.mean slices_S300000x64_S100000x64_0_0
/-- The second result: rows `[100000, 300000)` of the mean. -/
def out1 (a : Args) : FVec Ideal S200000x64 .f32 := extractStridedSlice S200000x64 ![100000, 0] a.mean slices_S300000x64_S200000x64_100000_0

end Args

/-! ## The stretches chained

`wK V` is the contents after the first `K` stretches from `V`; each lemma reads one buffer still needed later: a buffer
the stretch writes by the stretch's lemma at the operands read before it, any other kept through the stretch. -/

/-- The contents after the first 1 stretch. -/
def w1 (V : Valuation τ sig (Elt Ideal)) : Valuation τ sig (Elt Ideal) := after (S1 (F := Ideal)) V
set_option maxHeartbeats 400000 in
theorem w1_main_v0 (V : Valuation τ sig (Elt Ideal)) : w1 V (Proc.devRef .tc main_v0) = (argsOf V).e0 := by
  unfold w1
  rw [S1_v0] <;> rfl
set_option maxHeartbeats 400000 in
theorem w1_main_v13 (V : Valuation τ sig (Elt Ideal)) : w1 V (Proc.devRef .tc main_v13) = (argsOf V).side (argsOf V).e0 := by
  unfold w1
  rw [S1_v13] <;> rfl
theorem w1_main_arg2 (V : Valuation τ sig (Elt Ideal)) : w1 V (Proc.devRef .tc main_arg2) = V (Proc.devRef .tc main_arg2) :=
  S1_keep (F := Ideal) V main_arg2 (by decide)
theorem w1_main_arg3 (V : Valuation τ sig (Elt Ideal)) : w1 V (Proc.devRef .tc main_arg3) = V (Proc.devRef .tc main_arg3) :=
  S1_keep (F := Ideal) V main_arg3 (by decide)
theorem w1_main_arg4 (V : Valuation τ sig (Elt Ideal)) : w1 V (Proc.devRef .tc main_arg4) = V (Proc.devRef .tc main_arg4) :=
  S1_keep (F := Ideal) V main_arg4 (by decide)
theorem w1_main_arg5 (V : Valuation τ sig (Elt Ideal)) : w1 V (Proc.devRef .tc main_arg5) = V (Proc.devRef .tc main_arg5) :=
  S1_keep (F := Ideal) V main_arg5 (by decide)
theorem w1_main_arg6 (V : Valuation τ sig (Elt Ideal)) : w1 V (Proc.devRef .tc main_arg6) = V (Proc.devRef .tc main_arg6) :=
  S1_keep (F := Ideal) V main_arg6 (by decide)
theorem w1_main_arg7 (V : Valuation τ sig (Elt Ideal)) : w1 V (Proc.devRef .tc main_arg7) = V (Proc.devRef .tc main_arg7) :=
  S1_keep (F := Ideal) V main_arg7 (by decide)
theorem w1_main_arg8 (V : Valuation τ sig (Elt Ideal)) : w1 V (Proc.devRef .tc main_arg8) = V (Proc.devRef .tc main_arg8) :=
  S1_keep (F := Ideal) V main_arg8 (by decide)

/-- The contents after the first 2 stretches. -/
def w2 (V : Valuation τ sig (Elt Ideal)) : Valuation τ sig (Elt Ideal) := after (D1 (F := Ideal)) (w1 V)
theorem w2_main_v0 (V : Valuation τ sig (Elt Ideal)) : w2 V (Proc.devRef .tc main_v0) = (argsOf V).e0 :=
  (D1_keep (F := Ideal) (w1 V) main_v0 (by decide)).trans (w1_main_v0 V)
set_option maxHeartbeats 400000 in
theorem w2_main_v30 (V : Valuation τ sig (Elt Ideal)) : w2 V (Proc.devRef .tc main_v30) = (argsOf V).e1 := by
  unfold w2
  rw [D1_v30, w1_main_v0, w1_main_v13, w1_main_arg2, w1_main_arg3, w1_main_arg4, w1_main_arg5] <;> rfl
theorem w2_main_arg2 (V : Valuation τ sig (Elt Ideal)) : w2 V (Proc.devRef .tc main_arg2) = V (Proc.devRef .tc main_arg2) :=
  (D1_keep (F := Ideal) (w1 V) main_arg2 (by decide)).trans (w1_main_arg2 V)
theorem w2_main_arg3 (V : Valuation τ sig (Elt Ideal)) : w2 V (Proc.devRef .tc main_arg3) = V (Proc.devRef .tc main_arg3) :=
  (D1_keep (F := Ideal) (w1 V) main_arg3 (by decide)).trans (w1_main_arg3 V)
theorem w2_main_arg4 (V : Valuation τ sig (Elt Ideal)) : w2 V (Proc.devRef .tc main_arg4) = V (Proc.devRef .tc main_arg4) :=
  (D1_keep (F := Ideal) (w1 V) main_arg4 (by decide)).trans (w1_main_arg4 V)
theorem w2_main_arg5 (V : Valuation τ sig (Elt Ideal)) : w2 V (Proc.devRef .tc main_arg5) = V (Proc.devRef .tc main_arg5) :=
  (D1_keep (F := Ideal) (w1 V) main_arg5 (by decide)).trans (w1_main_arg5 V)
theorem w2_main_arg6 (V : Valuation τ sig (Elt Ideal)) : w2 V (Proc.devRef .tc main_arg6) = V (Proc.devRef .tc main_arg6) :=
  (D1_keep (F := Ideal) (w1 V) main_arg6 (by decide)).trans (w1_main_arg6 V)
theorem w2_main_arg7 (V : Valuation τ sig (Elt Ideal)) : w2 V (Proc.devRef .tc main_arg7) = V (Proc.devRef .tc main_arg7) :=
  (D1_keep (F := Ideal) (w1 V) main_arg7 (by decide)).trans (w1_main_arg7 V)
theorem w2_main_arg8 (V : Valuation τ sig (Elt Ideal)) : w2 V (Proc.devRef .tc main_arg8) = V (Proc.devRef .tc main_arg8) :=
  (D1_keep (F := Ideal) (w1 V) main_arg8 (by decide)).trans (w1_main_arg8 V)

/-- The contents after the first 3 stretches. -/
def w3 (V : Valuation τ sig (Elt Ideal)) : Valuation τ sig (Elt Ideal) := after (N1 (F := Ideal)) (w2 V)
theorem w3_main_v0 (V : Valuation τ sig (Elt Ideal)) : w3 V (Proc.devRef .tc main_v0) = (argsOf V).e0 :=
  (N1_keep (F := Ideal) (w2 V) main_v0 (by decide)).trans (w2_main_v0 V)
theorem w3_main_v30 (V : Valuation τ sig (Elt Ideal)) : w3 V (Proc.devRef .tc main_v30) = (argsOf V).e1 :=
  (N1_keep (F := Ideal) (w2 V) main_v30 (by decide)).trans (w2_main_v30 V)
set_option maxHeartbeats 400000 in
theorem w3_main_v35 (V : Valuation τ sig (Elt Ideal)) : w3 V (Proc.devRef .tc main_v35) = RefDense.normed (argsOf V).e1 := by
  unfold w3
  rw [N1_v35, w2_main_v30] <;> rfl
theorem w3_main_arg2 (V : Valuation τ sig (Elt Ideal)) : w3 V (Proc.devRef .tc main_arg2) = V (Proc.devRef .tc main_arg2) :=
  (N1_keep (F := Ideal) (w2 V) main_arg2 (by decide)).trans (w2_main_arg2 V)
theorem w3_main_arg3 (V : Valuation τ sig (Elt Ideal)) : w3 V (Proc.devRef .tc main_arg3) = V (Proc.devRef .tc main_arg3) :=
  (N1_keep (F := Ideal) (w2 V) main_arg3 (by decide)).trans (w2_main_arg3 V)
theorem w3_main_arg4 (V : Valuation τ sig (Elt Ideal)) : w3 V (Proc.devRef .tc main_arg4) = V (Proc.devRef .tc main_arg4) :=
  (N1_keep (F := Ideal) (w2 V) main_arg4 (by decide)).trans (w2_main_arg4 V)
theorem w3_main_arg5 (V : Valuation τ sig (Elt Ideal)) : w3 V (Proc.devRef .tc main_arg5) = V (Proc.devRef .tc main_arg5) :=
  (N1_keep (F := Ideal) (w2 V) main_arg5 (by decide)).trans (w2_main_arg5 V)
theorem w3_main_arg6 (V : Valuation τ sig (Elt Ideal)) : w3 V (Proc.devRef .tc main_arg6) = V (Proc.devRef .tc main_arg6) :=
  (N1_keep (F := Ideal) (w2 V) main_arg6 (by decide)).trans (w2_main_arg6 V)
theorem w3_main_arg7 (V : Valuation τ sig (Elt Ideal)) : w3 V (Proc.devRef .tc main_arg7) = V (Proc.devRef .tc main_arg7) :=
  (N1_keep (F := Ideal) (w2 V) main_arg7 (by decide)).trans (w2_main_arg7 V)
theorem w3_main_arg8 (V : Valuation τ sig (Elt Ideal)) : w3 V (Proc.devRef .tc main_arg8) = V (Proc.devRef .tc main_arg8) :=
  (N1_keep (F := Ideal) (w2 V) main_arg8 (by decide)).trans (w2_main_arg8 V)

/-- The contents after the first 4 stretches. -/
def w4 (V : Valuation τ sig (Elt Ideal)) : Valuation τ sig (Elt Ideal) := after (S2 (F := Ideal)) (w3 V)
theorem w4_main_v0 (V : Valuation τ sig (Elt Ideal)) : w4 V (Proc.devRef .tc main_v0) = (argsOf V).e0 :=
  (S2_keep (F := Ideal) (w3 V) main_v0 (by decide)).trans (w3_main_v0 V)
theorem w4_main_v30 (V : Valuation τ sig (Elt Ideal)) : w4 V (Proc.devRef .tc main_v30) = (argsOf V).e1 :=
  (S2_keep (F := Ideal) (w3 V) main_v30 (by decide)).trans (w3_main_v30 V)
theorem w4_main_v35 (V : Valuation τ sig (Elt Ideal)) : w4 V (Proc.devRef .tc main_v35) = RefDense.normed (argsOf V).e1 :=
  (S2_keep (F := Ideal) (w3 V) main_v35 (by decide)).trans (w3_main_v35 V)
set_option maxHeartbeats 400000 in
theorem w4_main_v48 (V : Valuation τ sig (Elt Ideal)) : w4 V (Proc.devRef .tc main_v48) = (argsOf V).side (argsOf V).e1 := by
  unfold w4
  rw [S2_v48, w3_main_arg6, w3_main_arg7, w3_main_arg8, w3_main_v30] <;> rfl
theorem w4_main_arg2 (V : Valuation τ sig (Elt Ideal)) : w4 V (Proc.devRef .tc main_arg2) = V (Proc.devRef .tc main_arg2) :=
  (S2_keep (F := Ideal) (w3 V) main_arg2 (by decide)).trans (w3_main_arg2 V)
theorem w4_main_arg3 (V : Valuation τ sig (Elt Ideal)) : w4 V (Proc.devRef .tc main_arg3) = V (Proc.devRef .tc main_arg3) :=
  (S2_keep (F := Ideal) (w3 V) main_arg3 (by decide)).trans (w3_main_arg3 V)
theorem w4_main_arg4 (V : Valuation τ sig (Elt Ideal)) : w4 V (Proc.devRef .tc main_arg4) = V (Proc.devRef .tc main_arg4) :=
  (S2_keep (F := Ideal) (w3 V) main_arg4 (by decide)).trans (w3_main_arg4 V)
theorem w4_main_arg5 (V : Valuation τ sig (Elt Ideal)) : w4 V (Proc.devRef .tc main_arg5) = V (Proc.devRef .tc main_arg5) :=
  (S2_keep (F := Ideal) (w3 V) main_arg5 (by decide)).trans (w3_main_arg5 V)
theorem w4_main_arg6 (V : Valuation τ sig (Elt Ideal)) : w4 V (Proc.devRef .tc main_arg6) = V (Proc.devRef .tc main_arg6) :=
  (S2_keep (F := Ideal) (w3 V) main_arg6 (by decide)).trans (w3_main_arg6 V)
theorem w4_main_arg7 (V : Valuation τ sig (Elt Ideal)) : w4 V (Proc.devRef .tc main_arg7) = V (Proc.devRef .tc main_arg7) :=
  (S2_keep (F := Ideal) (w3 V) main_arg7 (by decide)).trans (w3_main_arg7 V)
theorem w4_main_arg8 (V : Valuation τ sig (Elt Ideal)) : w4 V (Proc.devRef .tc main_arg8) = V (Proc.devRef .tc main_arg8) :=
  (S2_keep (F := Ideal) (w3 V) main_arg8 (by decide)).trans (w3_main_arg8 V)

/-- The contents after the first 5 stretches. -/
def w5 (V : Valuation τ sig (Elt Ideal)) : Valuation τ sig (Elt Ideal) := after (D2 (F := Ideal)) (w4 V)
theorem w5_main_v0 (V : Valuation τ sig (Elt Ideal)) : w5 V (Proc.devRef .tc main_v0) = (argsOf V).e0 :=
  (D2_keep (F := Ideal) (w4 V) main_v0 (by decide)).trans (w4_main_v0 V)
theorem w5_main_v35 (V : Valuation τ sig (Elt Ideal)) : w5 V (Proc.devRef .tc main_v35) = RefDense.normed (argsOf V).e1 :=
  (D2_keep (F := Ideal) (w4 V) main_v35 (by decide)).trans (w4_main_v35 V)
set_option maxHeartbeats 400000 in
theorem w5_main_v65 (V : Valuation τ sig (Elt Ideal)) : w5 V (Proc.devRef .tc main_v65) = (argsOf V).e2 := by
  unfold w5
  rw [D2_v65, w4_main_v30, w4_main_v48, w4_main_arg2, w4_main_arg3, w4_main_arg4, w4_main_arg5] <;> rfl
theorem w5_main_arg2 (V : Valuation τ sig (Elt Ideal)) : w5 V (Proc.devRef .tc main_arg2) = V (Proc.devRef .tc main_arg2) :=
  (D2_keep (F := Ideal) (w4 V) main_arg2 (by decide)).trans (w4_main_arg2 V)
theorem w5_main_arg3 (V : Valuation τ sig (Elt Ideal)) : w5 V (Proc.devRef .tc main_arg3) = V (Proc.devRef .tc main_arg3) :=
  (D2_keep (F := Ideal) (w4 V) main_arg3 (by decide)).trans (w4_main_arg3 V)
theorem w5_main_arg4 (V : Valuation τ sig (Elt Ideal)) : w5 V (Proc.devRef .tc main_arg4) = V (Proc.devRef .tc main_arg4) :=
  (D2_keep (F := Ideal) (w4 V) main_arg4 (by decide)).trans (w4_main_arg4 V)
theorem w5_main_arg5 (V : Valuation τ sig (Elt Ideal)) : w5 V (Proc.devRef .tc main_arg5) = V (Proc.devRef .tc main_arg5) :=
  (D2_keep (F := Ideal) (w4 V) main_arg5 (by decide)).trans (w4_main_arg5 V)
theorem w5_main_arg6 (V : Valuation τ sig (Elt Ideal)) : w5 V (Proc.devRef .tc main_arg6) = V (Proc.devRef .tc main_arg6) :=
  (D2_keep (F := Ideal) (w4 V) main_arg6 (by decide)).trans (w4_main_arg6 V)
theorem w5_main_arg7 (V : Valuation τ sig (Elt Ideal)) : w5 V (Proc.devRef .tc main_arg7) = V (Proc.devRef .tc main_arg7) :=
  (D2_keep (F := Ideal) (w4 V) main_arg7 (by decide)).trans (w4_main_arg7 V)
theorem w5_main_arg8 (V : Valuation τ sig (Elt Ideal)) : w5 V (Proc.devRef .tc main_arg8) = V (Proc.devRef .tc main_arg8) :=
  (D2_keep (F := Ideal) (w4 V) main_arg8 (by decide)).trans (w4_main_arg8 V)

/-- The contents after the first 6 stretches. -/
def w6 (V : Valuation τ sig (Elt Ideal)) : Valuation τ sig (Elt Ideal) := after (N2 (F := Ideal)) (w5 V)
theorem w6_main_v0 (V : Valuation τ sig (Elt Ideal)) : w6 V (Proc.devRef .tc main_v0) = (argsOf V).e0 :=
  (N2_keep (F := Ideal) (w5 V) main_v0 (by decide)).trans (w5_main_v0 V)
theorem w6_main_v35 (V : Valuation τ sig (Elt Ideal)) : w6 V (Proc.devRef .tc main_v35) = RefDense.normed (argsOf V).e1 :=
  (N2_keep (F := Ideal) (w5 V) main_v35 (by decide)).trans (w5_main_v35 V)
theorem w6_main_v65 (V : Valuation τ sig (Elt Ideal)) : w6 V (Proc.devRef .tc main_v65) = (argsOf V).e2 :=
  (N2_keep (F := Ideal) (w5 V) main_v65 (by decide)).trans (w5_main_v65 V)
set_option maxHeartbeats 400000 in
theorem w6_main_v70 (V : Valuation τ sig (Elt Ideal)) : w6 V (Proc.devRef .tc main_v70) = RefDense.normed (argsOf V).e2 := by
  unfold w6
  rw [N2_v70, w5_main_v65] <;> rfl
theorem w6_main_arg2 (V : Valuation τ sig (Elt Ideal)) : w6 V (Proc.devRef .tc main_arg2) = V (Proc.devRef .tc main_arg2) :=
  (N2_keep (F := Ideal) (w5 V) main_arg2 (by decide)).trans (w5_main_arg2 V)
theorem w6_main_arg3 (V : Valuation τ sig (Elt Ideal)) : w6 V (Proc.devRef .tc main_arg3) = V (Proc.devRef .tc main_arg3) :=
  (N2_keep (F := Ideal) (w5 V) main_arg3 (by decide)).trans (w5_main_arg3 V)
theorem w6_main_arg4 (V : Valuation τ sig (Elt Ideal)) : w6 V (Proc.devRef .tc main_arg4) = V (Proc.devRef .tc main_arg4) :=
  (N2_keep (F := Ideal) (w5 V) main_arg4 (by decide)).trans (w5_main_arg4 V)
theorem w6_main_arg5 (V : Valuation τ sig (Elt Ideal)) : w6 V (Proc.devRef .tc main_arg5) = V (Proc.devRef .tc main_arg5) :=
  (N2_keep (F := Ideal) (w5 V) main_arg5 (by decide)).trans (w5_main_arg5 V)
theorem w6_main_arg6 (V : Valuation τ sig (Elt Ideal)) : w6 V (Proc.devRef .tc main_arg6) = V (Proc.devRef .tc main_arg6) :=
  (N2_keep (F := Ideal) (w5 V) main_arg6 (by decide)).trans (w5_main_arg6 V)
theorem w6_main_arg7 (V : Valuation τ sig (Elt Ideal)) : w6 V (Proc.devRef .tc main_arg7) = V (Proc.devRef .tc main_arg7) :=
  (N2_keep (F := Ideal) (w5 V) main_arg7 (by decide)).trans (w5_main_arg7 V)
theorem w6_main_arg8 (V : Valuation τ sig (Elt Ideal)) : w6 V (Proc.devRef .tc main_arg8) = V (Proc.devRef .tc main_arg8) :=
  (N2_keep (F := Ideal) (w5 V) main_arg8 (by decide)).trans (w5_main_arg8 V)

/-- The contents after the first 7 stretches. -/
def w7 (V : Valuation τ sig (Elt Ideal)) : Valuation τ sig (Elt Ideal) := after (S3 (F := Ideal)) (w6 V)
theorem w7_main_v0 (V : Valuation τ sig (Elt Ideal)) : w7 V (Proc.devRef .tc main_v0) = (argsOf V).e0 :=
  (S3_keep (F := Ideal) (w6 V) main_v0 (by decide)).trans (w6_main_v0 V)
theorem w7_main_v35 (V : Valuation τ sig (Elt Ideal)) : w7 V (Proc.devRef .tc main_v35) = RefDense.normed (argsOf V).e1 :=
  (S3_keep (F := Ideal) (w6 V) main_v35 (by decide)).trans (w6_main_v35 V)
theorem w7_main_v65 (V : Valuation τ sig (Elt Ideal)) : w7 V (Proc.devRef .tc main_v65) = (argsOf V).e2 :=
  (S3_keep (F := Ideal) (w6 V) main_v65 (by decide)).trans (w6_main_v65 V)
theorem w7_main_v70 (V : Valuation τ sig (Elt Ideal)) : w7 V (Proc.devRef .tc main_v70) = RefDense.normed (argsOf V).e2 :=
  (S3_keep (F := Ideal) (w6 V) main_v70 (by decide)).trans (w6_main_v70 V)
set_option maxHeartbeats 400000 in
theorem w7_main_v83 (V : Valuation τ sig (Elt Ideal)) : w7 V (Proc.devRef .tc main_v83) = (argsOf V).side (argsOf V).e2 := by
  unfold w7
  rw [S3_v83, w6_main_arg6, w6_main_arg7, w6_main_arg8, w6_main_v65] <;> rfl
theorem w7_main_arg2 (V : Valuation τ sig (Elt Ideal)) : w7 V (Proc.devRef .tc main_arg2) = V (Proc.devRef .tc main_arg2) :=
  (S3_keep (F := Ideal) (w6 V) main_arg2 (by decide)).trans (w6_main_arg2 V)
theorem w7_main_arg3 (V : Valuation τ sig (Elt Ideal)) : w7 V (Proc.devRef .tc main_arg3) = V (Proc.devRef .tc main_arg3) :=
  (S3_keep (F := Ideal) (w6 V) main_arg3 (by decide)).trans (w6_main_arg3 V)
theorem w7_main_arg4 (V : Valuation τ sig (Elt Ideal)) : w7 V (Proc.devRef .tc main_arg4) = V (Proc.devRef .tc main_arg4) :=
  (S3_keep (F := Ideal) (w6 V) main_arg4 (by decide)).trans (w6_main_arg4 V)
theorem w7_main_arg5 (V : Valuation τ sig (Elt Ideal)) : w7 V (Proc.devRef .tc main_arg5) = V (Proc.devRef .tc main_arg5) :=
  (S3_keep (F := Ideal) (w6 V) main_arg5 (by decide)).trans (w6_main_arg5 V)

/-- The contents after the first 8 stretches. -/
def w8 (V : Valuation τ sig (Elt Ideal)) : Valuation τ sig (Elt Ideal) := after (D3 (F := Ideal)) (w7 V)
theorem w8_main_v0 (V : Valuation τ sig (Elt Ideal)) : w8 V (Proc.devRef .tc main_v0) = (argsOf V).e0 :=
  (D3_keep (F := Ideal) (w7 V) main_v0 (by decide)).trans (w7_main_v0 V)
theorem w8_main_v35 (V : Valuation τ sig (Elt Ideal)) : w8 V (Proc.devRef .tc main_v35) = RefDense.normed (argsOf V).e1 :=
  (D3_keep (F := Ideal) (w7 V) main_v35 (by decide)).trans (w7_main_v35 V)
theorem w8_main_v70 (V : Valuation τ sig (Elt Ideal)) : w8 V (Proc.devRef .tc main_v70) = RefDense.normed (argsOf V).e2 :=
  (D3_keep (F := Ideal) (w7 V) main_v70 (by decide)).trans (w7_main_v70 V)
set_option maxHeartbeats 400000 in
theorem w8_main_v100 (V : Valuation τ sig (Elt Ideal)) : w8 V (Proc.devRef .tc main_v100) = (argsOf V).e3 := by
  unfold w8
  rw [D3_v100, w7_main_v65, w7_main_v83, w7_main_arg2, w7_main_arg3, w7_main_arg4, w7_main_arg5] <;> rfl

/-- The contents after the first 9 stretches. -/
def w9 (V : Valuation τ sig (Elt Ideal)) : Valuation τ sig (Elt Ideal) := after (N3 (F := Ideal)) (w8 V)
theorem w9_main_v0 (V : Valuation τ sig (Elt Ideal)) : w9 V (Proc.devRef .tc main_v0) = (argsOf V).e0 :=
  (N3_keep (F := Ideal) (w8 V) main_v0 (by decide)).trans (w8_main_v0 V)
theorem w9_main_v35 (V : Valuation τ sig (Elt Ideal)) : w9 V (Proc.devRef .tc main_v35) = RefDense.normed (argsOf V).e1 :=
  (N3_keep (F := Ideal) (w8 V) main_v35 (by decide)).trans (w8_main_v35 V)
theorem w9_main_v70 (V : Valuation τ sig (Elt Ideal)) : w9 V (Proc.devRef .tc main_v70) = RefDense.normed (argsOf V).e2 :=
  (N3_keep (F := Ideal) (w8 V) main_v70 (by decide)).trans (w8_main_v70 V)
set_option maxHeartbeats 400000 in
theorem w9_main_v105 (V : Valuation τ sig (Elt Ideal)) : w9 V (Proc.devRef .tc main_v105) = RefDense.normed (argsOf V).e3 := by
  unfold w9
  rw [N3_v105, w8_main_v100] <;> rfl

/-- The contents after the first 10 stretches. -/
def w10 (V : Valuation τ sig (Elt Ideal)) : Valuation τ sig (Elt Ideal) := after (FN (F := Ideal)) (w9 V)
set_option maxHeartbeats 400000 in
theorem w10_main_v114 (V : Valuation τ sig (Elt Ideal)) : w10 V (Proc.devRef .tc main_v114) = (argsOf V).out0 := by
  unfold w10
  rw [FN_v114, w9_main_v0, w9_main_v35, w9_main_v70, w9_main_v105] <;> rfl
set_option maxHeartbeats 400000 in
theorem w10_main_v115 (V : Valuation τ sig (Elt Ideal)) : w10 V (Proc.devRef .tc main_v115) = (argsOf V).out1 := by
  unfold w10
  rw [FN_v115, w9_main_v0, w9_main_v35, w9_main_v70, w9_main_v105] <;> rfl

/-- The whole line is the ten stretches in order. -/
theorem after_ops (V : Valuation τ sig (Elt Ideal)) : after (ops : List (HloOp τ sig (Elt Ideal))) V = w10 V := by
  rw [ops_eq (F := Ideal)]
  simp only [opsL, after_append]
  rfl

/-- The reference's first result is rows `[0, 100000)` of the mean of the initial embedding and the three
    normalised layer embeddings, each layer the dense map of the previous embedding and its neighbourhood sum. -/
theorem v114_eq (V : Valuation τ sig (Elt Ideal)) :
    after (ops : List (HloOp τ sig (Elt Ideal))) V (Proc.devRef .tc main_v114) = (argsOf V).out0 := by
  rw [after_ops]; exact w10_main_v114 V

/-- The reference's second result is rows `[100000, 300000)` of the same mean. -/
theorem v115_eq (V : Valuation τ sig (Elt Ideal)) :
    after (ops : List (HloOp τ sig (Elt Ideal))) V (Proc.devRef .tc main_v115) = (argsOf V).out1 := by
  rw [after_ops]; exact w10_main_v115 V

end Cert.ReferenceIdeal.RefLayers

end
-- ==== Proof.RefMeanIdx.lean ====
import proofs.«179311_j1056561954898_1_alg».proof.Proof.RefLayersSeg
import Idealize.ShloMosaic.Lib.Pipeline.Value
import Idealize.ShloMosaic.Lib.ValueIdx
import Idealize.ShloMosaic.PureOps.Ideal.Laws

/-!
# The mean of the four embeddings, entry by entry

The reference stacks the four embeddings along a new middle axis, sums over that axis from the zero word and divides by
the word for `4`. Read at an entry `(p, e)`: the sum over the middle axis is the sum of the four stacked pieces there,
and piece `k` of the stack at `(p, k, e)` is embedding `k` at `(p, e)`.
-/

noncomputable section

namespace Cert.ReferenceIdeal.RefMeanIdx

open Idealize.ShloMosaic Idealize.ShloMosaic.ValueIdx
open Cert.ReferenceIdeal Cert.ReferenceIdeal.Gen Cert.ReferenceIdeal.RefLayers

/-- An embedding given a unit middle axis reads, at `(p, 0, e)`, the embedding at `(p, e)`. -/
theorem mid_apply (x : Mat) (p : Fin 300000) (u : Fin 1) (e : Fin 64) :
    broadcastInDim S300000x1x64 ![0, 2] bcast_S300000x64_S300000x1x64_0_2 x (ix3 p u e) = x (ix2 p e) := by
  refine broadcastInDim_apply _ _ x (ix3 p u e) (ix2 p e) fun a => ?_
  match a with
  | ⟨0, _⟩ => rfl
  | ⟨1, _⟩ => rfl

/-- The stack of the four embeddings along the middle axis. -/
abbrev stack (x0 x1 x2 x3 : Mat) : FVec Ideal S300000x4x64 .f32 :=
  concatenate S300000x4x64 1
    [⟨S300000x1x64, broadcastInDim S300000x1x64 ![0, 2] bcast_S300000x64_S300000x1x64_0_2 x0⟩,
     ⟨S300000x1x64, broadcastInDim S300000x1x64 ![0, 2] bcast_S300000x64_S300000x1x64_0_2 x1⟩,
     ⟨S300000x1x64, broadcastInDim S300000x1x64 ![0, 2] bcast_S300000x64_S300000x1x64_0_2 x2⟩,
     ⟨S300000x1x64, broadcastInDim S300000x1x64 ![0, 2] bcast_S300000x64_S300000x1x64_0_2 x3⟩]
    concatenates_S300000x1x64_S300000x1x64_S300000x1x64_S300000x1x64_S300000x4x64_d1

/-- The stack at `(p, k, e)` is embedding `k` at `(p, e)`. -/
theorem stack_apply (x0 x1 x2 x3 : Mat) (p : Fin 300000) (e : Fin 64) :
    stack x0 x1 x2 x3 (ix3 p (0 : Fin 4) e) = x0 (ix2 p e)
    ∧ stack x0 x1 x2 x3 (ix3 p (1 : Fin 4) e) = x1 (ix2 p e)
    ∧ stack x0 x1 x2 x3 (ix3 p (2 : Fin 4) e) = x2 (ix2 p e)
    ∧ stack x0 x1 x2 x3 (ix3 p (3 : Fin 4) e) = x3 (ix2 p e) := by
  refine ⟨?_, ?_, ?_, ?_⟩
  · refine (concatenate_apply_piece (1 : Fin S300000x4x64.rank) _ _ _ 0 (by simp) S300000x1x64 _ rfl rfl 0 rfl
      (ix3 p (0 : Fin 1) e) (fun b hb => ?_) rfl).trans (mid_apply x0 p 0 e)
    match b with
    | ⟨0, _⟩ => rfl
    | ⟨1, _⟩ => exact absurd rfl hb
    | ⟨2, _⟩ => rfl
  · refine (concatenate_apply_piece (1 : Fin S300000x4x64.rank) _ _ _ 1 (by simp) S300000x1x64 _ rfl rfl 1 rfl
      (ix3 p (0 : Fin 1) e) (fun b hb => ?_) rfl).trans (mid_apply x1 p 0 e)
    match b with
    | ⟨0, _⟩ => rfl
    | ⟨1, _⟩ => exact absurd rfl hb
    | ⟨2, _⟩ => rfl
  · refine (concatenate_apply_piece (1 : Fin S300000x4x64.rank) _ _ _ 2 (by simp) S300000x1x64 _ rfl rfl 2 rfl
      (ix3 p (0 : Fin 1) e) (fun b hb => ?_) rfl).trans (mid_apply x2 p 0 e)
    match b with
    | ⟨0, _⟩ => rfl
    | ⟨1, _⟩ => exact absurd rfl hb
    | ⟨2, _⟩ => rfl
  · refine (concatenate_apply_piece (1 : Fin S300000x4x64.rank) _ _ _ 3 (by simp) S300000x1x64 _ rfl rfl 3 rfl
      (ix3 p (0 : Fin 1) e) (fun b hb => ?_) rfl).trans (mid_apply x3 p 0 e)
    match b with
    | ⟨0, _⟩ => rfl
    | ⟨1, _⟩ => exact absurd rfl hb
    | ⟨2, _⟩ => rfl

/-- The host's quotient acts entry by entry. -/
theorem hostDivf_apply {s : Shape} {φ : FTy} (x y : FVec Ideal s φ) (i : s.Idx) :
    Host.divf (F := Ideal) x y i = Ideal.div (x i) (y i) := rfl

set_option maxRecDepth 8192 in
/-- The mean of the four embeddings at an entry: their sum there, divided by what the word `0x40800000` denotes. -/
theorem mean4_apply (x0 x1 x2 x3 : Mat) (i : S300000x64.Idx) :
    mean4 x0 x1 x2 x3 i = Ideal.div (((x0 i + x1 i) + x2 i) + x3 i) (Ideal.ofBits .f32 0x40800000#32) := by
  obtain ⟨p, e, rfl⟩ : ∃ (p : Fin 300000) (e : Fin 64), i = ix2 p e := ⟨i 0, i 1, eq_ix2 i⟩
  have hR : S300000x4x64.Reduces [1] S300000x64 := by decide
  obtain ⟨h0, h1, h2, h3⟩ := stack_apply x0 x1 x2 x3 p e
  unfold mean4
  rw [hostDivf_apply]
  refine congrArg₂ Ideal.div ?_ rfl
  show Host.reduceAdd (F := Ideal) (stack x0 x1 x2 x3) (constant (F := Ideal) S_ .f32 0x00000000#32)
      reducesTo_S300000x4x64_S300000x64_d1 h_S_ (ix2 p e) = _
  unfold Host.reduceAdd
  rw [Ideal.hostReduceAdd_def, Ideal.hostReduceAdd_single _ hR, constant_apply, Ideal.ofBits_zero_f32, zero_add]
  rw [show (∑ k : Fin (S300000x4x64.size 1), stack x0 x1 x2 x3 (hR.lift (ix2 p e) k))
      = ∑ k : Fin 4, stack x0 x1 x2 x3 (hR.lift (ix2 p e) k) from rfl, Fin.sum_univ_four]
  have l0 : hR.lift (ix2 p e) (0 : Fin 4) = ix3 p (0 : Fin 4) e := by
    funext c; apply Fin.ext; match c with | ⟨0, _⟩ => rfl | ⟨1, _⟩ => rfl | ⟨2, _⟩ => rfl
  have l1 : hR.lift (ix2 p e) (1 : Fin 4) = ix3 p (1 : Fin 4) e := by
    funext c; apply Fin.ext; match c with | ⟨0, _⟩ => rfl | ⟨1, _⟩ => rfl | ⟨2, _⟩ => rfl
  have l2 : hR.lift (ix2 p e) (2 : Fin 4) = ix3 p (2 : Fin 4) e := by
    funext c; apply Fin.ext; match c with | ⟨0, _⟩ => rfl | ⟨1, _⟩ => rfl | ⟨2, _⟩ => rfl
  have l3 : hR.lift (ix2 p e) (3 : Fin 4) = ix3 p (3 : Fin 4) e := by
    funext c; apply Fin.ext; match c with | ⟨0, _⟩ => rfl | ⟨1, _⟩ => rfl | ⟨2, _⟩ => rfl
  rw [l0, l1, l2, l3, h0, h1, h2, h3]

end Cert.ReferenceIdeal.RefMeanIdx

end
-- ==== Proof.BridgeDefs.lean ====
import proofs.«179311_j1056561954898_1_alg».proof.Proof.IdealHost
import proofs.«179311_j1056561954898_1_alg».proof.Proof.RefLayersSeg

noncomputable section

namespace Cert.BridgeDefs

open Idealize.ShloMosaic

/-! The kernel program's host stretches and the reference are read with the same four array functions: the two
programs' shapes are the same literals and their dimension records differ only in the proofs they carry. -/

/-- The initial embedding (the two argument arrays stacked along the rows) is the same function on both sides. -/
theorem ego0_eq : Cert.KernelIdeal.HostVal.ego0 = Cert.ReferenceIdeal.RefLayers.ego0 := rfl

set_option maxHeartbeats 400000 in
/-- The sparse product with the adjacency triples is the same function on both sides. -/
theorem spmm_eq : Cert.KernelIdeal.HostVal.spmm = Cert.ReferenceIdeal.RefLayers.spmm := rfl

/-- One weight matrix of the stack of three is the same function on both sides. -/
theorem wSlice_eq : Cert.KernelIdeal.HostVal.wSlice = Cert.ReferenceIdeal.RefLayers.wSlice := rfl

/-- One bias row of the stack of three is the same function on both sides. -/
theorem bSlice_eq : Cert.KernelIdeal.HostVal.bSlice = Cert.ReferenceIdeal.RefLayers.bSlice := rfl

/-- The division by four, entry by entry: the extended-real quotient by what the word `0x40800000` denotes. -/
theorem quarter_apply (x : FVec Ideal Cert.KernelIdeal.S300000x64 .f32) (i : Cert.KernelIdeal.S300000x64.Idx) :
    Cert.KernelIdeal.HostVal.quarter x i = Ideal.div (x i) (Ideal.ofBits .f32 0x40800000#32) := rfl

/-- The same as an equation of arrays. -/
theorem quarter_eq (x : FVec Ideal Cert.KernelIdeal.S300000x64 .f32) :
    Cert.KernelIdeal.HostVal.quarter x = fun i => Ideal.div (x i) (Ideal.ofBits .f32 0x40800000#32) := rfl

end Cert.BridgeDefs

end
-- ==== Proof.BridgeMath.lean ====
import proofs.«179311_j1056561954898_1_alg».proof.Proof.IdealValueSpec
import proofs.«179311_j1056561954898_1_alg».proof.Proof.RefIdx
import proofs.«179311_j1056561954898_1_alg».proof.Proof.RefLayers
import proofs.«179311_j1056561954898_1_alg».proof.Proof.RefMeanIdx
import proofs.«179311_j1056561954898_1_alg».proof.Proof.BridgeDefs

noncomputable section

namespace Cert.BridgeMath

open Idealize.ShloMosaic Idealize.ShloMosaic.ValueIdx
open Cert.KernelIdeal
open Cert.ReferenceIdeal.RefLayers (Args)

/-! ## The layer, array by array

The kernel's layer is stated row by row; the reference's is a composition of whole-array operations. Read at an index
`(p, e)` the reference's composition is the row-level function of row `p`, so the two arrays are equal. -/

/-- A `300000 × 64` array of extended reals (the two programs' shapes are the same literal). -/
abbrev Arr : Type := Cert.KernelIdeal.S300000x64.Idx → EReal

/-- The kernel's new embeddings are the reference's dense map and leaky rectifier. -/
theorem egoArr_eq (ego side : Arr) (W : Cert.KernelIdeal.S64x64.Idx → EReal) (b : Cert.KernelIdeal.S1x64.Idx → EReal)
    (W' : Cert.KernelIdeal.S64x64.Idx → EReal) (b' : Cert.KernelIdeal.S1x64.Idx → EReal) :
    Cert.KernelIdeal.LayerValue.egoArr ego side W b W' b' = Cert.ReferenceIdeal.RefDense.egoNew ego side W b W' b' := by
  funext i
  obtain ⟨p, e, rfl⟩ : ∃ (p : Fin 300000) (e : Fin 64), i = ix2 p e := ⟨i 0, i 1, eq_ix2 i⟩
  rw [Cert.ReferenceIdeal.RefIdx.egoNew_apply]
  rfl

/-- The kernel's new running sum adds the reference's row-normalised array. -/
theorem accArr_eq (acc y : Arr) :
    Cert.KernelIdeal.LayerValue.accArr acc y = fun i => acc i + Cert.ReferenceIdeal.RefDense.normed y i := by
  funext i
  obtain ⟨p, e, rfl⟩ : ∃ (p : Fin 300000) (e : Fin 64), i = ix2 p e := ⟨i 0, i 1, eq_ix2 i⟩
  show _ = acc (ix2 p e) + Cert.ReferenceIdeal.RefDense.normed y (ix2 p e)
  rw [Cert.ReferenceIdeal.RefIdx.normed_apply]
  rfl

/-! ## The three layers over the argument arrays

The kernel program's values as functions of the nine argument arrays: its host stretches compute the initial
embedding, the neighbourhood sums and the weight slices; each region the row-level layer and the running sum. -/

/-- The initial embedding, as the kernel program's first host stretch computes it. -/
def e0' (a : Args) : Arr := HostVal.ego0 a.x0 a.x1

/-- The embeddings after the kernel's first layer. -/
def kE1 (a : Args) : Arr :=
  LayerValue.egoArr (e0' a) (HostVal.spmm a.val a.row a.col (e0' a))
    (HostVal.wSlice ![0, 0, 0] Cert.KernelIdeal.Facts₀.slices_S3x64x64_S1x64x64_0_0_0 a.wgc) (HostVal.bSlice ![0, 0, 0] Cert.KernelIdeal.Facts₀.slices_S3x1x64_S1x1x64_0_0_0 a.bgc)
    (HostVal.wSlice ![0, 0, 0] Cert.KernelIdeal.Facts₀.slices_S3x64x64_S1x64x64_0_0_0 a.wbi) (HostVal.bSlice ![0, 0, 0] Cert.KernelIdeal.Facts₀.slices_S3x1x64_S1x1x64_0_0_0 a.bbi)

/-- The embeddings after the kernel's second layer. -/
def kE2 (a : Args) : Arr :=
  LayerValue.egoArr (kE1 a) (HostVal.spmm a.val a.row a.col (kE1 a))
    (HostVal.wSlice ![1, 0, 0] Cert.KernelIdeal.Facts₀.slices_S3x64x64_S1x64x64_1_0_0 a.wgc) (HostVal.bSlice ![1, 0, 0] Cert.KernelIdeal.Facts₀.slices_S3x1x64_S1x1x64_1_0_0 a.bgc)
    (HostVal.wSlice ![1, 0, 0] Cert.KernelIdeal.Facts₀.slices_S3x64x64_S1x64x64_1_0_0 a.wbi) (HostVal.bSlice ![1, 0, 0] Cert.KernelIdeal.Facts₀.slices_S3x1x64_S1x1x64_1_0_0 a.bbi)

/-- The embeddings after the kernel's third layer. -/
def kE3 (a : Args) : Arr :=
  LayerValue.egoArr (kE2 a) (HostVal.spmm a.val a.row a.col (kE2 a))
    (HostVal.wSlice ![2, 0, 0] Cert.KernelIdeal.Facts₀.slices_S3x64x64_S1x64x64_2_0_0 a.wgc) (HostVal.bSlice ![2, 0, 0] Cert.KernelIdeal.Facts₀.slices_S3x1x64_S1x1x64_2_0_0 a.bgc)
    (HostVal.wSlice ![2, 0, 0] Cert.KernelIdeal.Facts₀.slices_S3x64x64_S1x64x64_2_0_0 a.wbi) (HostVal.bSlice ![2, 0, 0] Cert.KernelIdeal.Facts₀.slices_S3x1x64_S1x1x64_2_0_0 a.bbi)

/-- The kernel's running sum after the third layer: the initial embedding plus the three normalised layers. -/
def kAcc3 (a : Args) : Arr :=
  LayerValue.accArr (LayerValue.accArr (LayerValue.accArr (e0' a) (kE1 a)) (kE2 a)) (kE3 a)

theorem e0'_eq (a : Args) : e0' a = a.e0 := rfl

set_option maxHeartbeats 400000 in
theorem kE1_eq (a : Args) : kE1 a = a.e1 := by
  unfold kE1
  rw [egoArr_eq, e0'_eq]
  rfl

set_option maxHeartbeats 400000 in
theorem kE2_eq (a : Args) : kE2 a = a.e2 := by
  unfold kE2
  rw [egoArr_eq, kE1_eq]
  rfl

set_option maxHeartbeats 400000 in
theorem kE3_eq (a : Args) : kE3 a = a.e3 := by
  unfold kE3
  rw [egoArr_eq, kE2_eq]
  rfl

/-! ## The mean and the two results -/

/-- The kernel's last host stretch divides the running sum by four; the reference takes the mean of the four
    embeddings: the same array, entry by entry. -/
theorem mean_eq (e0 y1 y2 y3 : Arr) :
    HostVal.quarter (LayerValue.accArr (LayerValue.accArr (LayerValue.accArr e0 y1) y2) y3)
      = Cert.ReferenceIdeal.RefLayers.mean4 e0 (Cert.ReferenceIdeal.RefDense.normed y1) (Cert.ReferenceIdeal.RefDense.normed y2) (Cert.ReferenceIdeal.RefDense.normed y3) := by
  funext i
  rw [Cert.BridgeDefs.quarter_apply, Cert.ReferenceIdeal.RefMeanIdx.mean4_apply, accArr_eq, accArr_eq, accArr_eq]

/-- The kernel program's first result, as a function of the argument arrays, is the reference's. -/
theorem out0_eq (a : Args) :
    extractStridedSlice Cert.KernelIdeal.S100000x64 ![0, 0] (HostVal.quarter (kAcc3 a)) Cert.KernelIdeal.Facts₀.slices_S300000x64_S100000x64_0_0 = a.out0 := by
  unfold kAcc3
  rw [mean_eq, e0'_eq, kE1_eq, kE2_eq, kE3_eq]
  rfl

/-- The kernel program's second result, as a function of the argument arrays, is the reference's. -/
theorem out1_eq (a : Args) :
    extractStridedSlice Cert.KernelIdeal.S200000x64 ![100000, 0] (HostVal.quarter (kAcc3 a)) Cert.KernelIdeal.Facts₀.slices_S300000x64_S200000x64_100000_0 = a.out1 := by
  unfold kAcc3
  rw [mean_eq, e0'_eq, kE1_eq, kE2_eq, kE3_eq]
  rfl

end Cert.BridgeMath

end
-- ==== Proof.IdealCompose.lean ====
/-
  What the program's two results hold at the end, at the ideal instance, as one function of the argument arrays.
  Boundary by boundary: a host stretch leaves the sparse aggregation of the current embeddings and the layer's slices
  of the weight and bias arrays; a layer region leaves the new embeddings (row by row the leaky-rectified sum of the
  two affine branches) and the running sum increased by their row-normalised form; the last stretch divides the
  running sum by four and splits it into the first 100000 rows and the remaining 200000. The running sum after three
  layers is the starting embeddings plus the three normalised layers, which is four times the mean the reference
  takes, so the two results are the reference's.
-/
import proofs.«179311_j1056561954898_1_alg».proof.Proof.IdealArgs
import proofs.«179311_j1056561954898_1_alg».proof.Proof.IdealHost
import proofs.«179311_j1056561954898_1_alg».proof.Proof.IdealValue0
import proofs.«179311_j1056561954898_1_alg».proof.Proof.IdealValue1
import proofs.«179311_j1056561954898_1_alg».proof.Proof.IdealValue2
import proofs.«179311_j1056561954898_1_alg».proof.Proof.BridgeMath

set_option maxRecDepth 16384

noncomputable section

namespace Cert.KernelIdeal.Compose

open Cert.KernelIdeal Cert.KernelIdeal.Gen Cert.KernelIdeal.Layer
open Idealize.ShloMosaic Idealize.ShloMosaic.TcCoe
open Idealize.SL Idealize.SL.Sem
open Cert.BridgeMath (e0' kE1 kE2 kE3 kAcc3)

variable (m : (ℓ : Loc nD τ sig) → Buf (Elt Ideal) ℓ) (ρ : Dev nD → PrngReg)

/-- Core c's nine argument arrays, as launched. -/
def launched (c : Dev nD) : Cert.ReferenceIdeal.RefLayers.Args :=
  ⟨W0 m ρ c (Proc.devRef .tc main_arg0), W0 m ρ c (Proc.devRef .tc main_arg1), W0 m ρ c (Proc.devRef .tc main_arg2), W0 m ρ c (Proc.devRef .tc main_arg3), W0 m ρ c (Proc.devRef .tc main_arg4),
    W0 m ρ c (Proc.devRef .tc main_arg5), W0 m ρ c (Proc.devRef .tc main_arg6), W0 m ρ c (Proc.devRef .tc main_arg7), W0 m ρ c (Proc.devRef .tc main_arg8)⟩

/-! ## Layer 1 -/

theorem ego1 (c : Dev nD) : W2 m ρ c (Proc.devRef .tc main_v22_0) = kE1 (launched m ρ c) := by
  rw [W2_egoOut, LayerValue.egoFinal0]
  have h0 : V1 m ρ c main_v0 = e0' (launched m ρ c) := HostVal.hostOps0_v0 (W0 m ρ c)
  have h13 : V1 m ρ c main_v13 = HostVal.spmm (launched m ρ c).val (launched m ρ c).row (launched m ρ c).col (e0' (launched m ρ c)) := HostVal.hostOps0_v13 (W0 m ρ c)
  have h15 : V1 m ρ c main_v15 = _ := HostVal.hostOps0_v15 (W0 m ρ c)
  have h17 : V1 m ρ c main_v17 = _ := HostVal.hostOps0_v17 (W0 m ρ c)
  have h19 : V1 m ρ c main_v19 = _ := HostVal.hostOps0_v19 (W0 m ρ c)
  have h21 : V1 m ρ c main_v21 = _ := HostVal.hostOps0_v21 (W0 m ρ c)
  rw [h0, h13, h15, h17, h19, h21]
  rfl

theorem acc1 (c : Dev nD) : W2 m ρ c (Proc.devRef .tc main_v22_1) = LayerValue.accArr (e0' (launched m ρ c)) (kE1 (launched m ρ c)) := by
  have hE := ego1 m ρ c
  rw [W2_egoOut, LayerValue.egoFinal0] at hE
  rw [W2_accOut, LayerValue.accFinal0, hE]
  have h0 : V1 m ρ c main_v0 = e0' (launched m ρ c) := HostVal.hostOps0_v0 (W0 m ρ c)
  rw [h0]

/-! ## Layer 2 -/

theorem ego2 (c : Dev nD) : W4 m ρ c (Proc.devRef .tc main_v44_0) = kE2 (launched m ρ c) := by
  have hA := fun r h0 ha hb h1 h4 h2 h6 => (untouched m ρ c r h0 ha hb h1 h4 h2 h6).2.1
  rw [show W4 m ρ c (Proc.devRef .tc main_v44_0) = _ from W4_arr m ρ c 7, LayerValue.egoFinal1]
  have hin : V3 m ρ c main_v22_0 = kE1 (launched m ρ c) := (keep1 (W2 m ρ c) main_v22_0 (by decide)).trans (ego1 m ρ c)
  have h35 : V3 m ρ c main_v35 = HostVal.spmm (launched m ρ c).val (launched m ρ c).row (launched m ρ c).col (kE1 (launched m ρ c)) := by
    refine (HostVal.hostOps1_v35 (W2 m ρ c)).trans ?_
    rw [hA main_arg6 (by decide) (by decide) (by decide) (by decide) (by decide) (by decide) (by decide),
      hA main_arg7 (by decide) (by decide) (by decide) (by decide) (by decide) (by decide) (by decide),
      hA main_arg8 (by decide) (by decide) (by decide) (by decide) (by decide) (by decide) (by decide), ego1 m ρ c]
    rfl
  have h37 : V3 m ρ c main_v37 = _ := (HostVal.hostOps1_v37 (W2 m ρ c)).trans (by rw [hA main_arg2 (by decide) (by decide) (by decide) (by decide) (by decide) (by decide) (by decide)])
  have h39 : V3 m ρ c main_v39 = _ := (HostVal.hostOps1_v39 (W2 m ρ c)).trans (by rw [hA main_arg3 (by decide) (by decide) (by decide) (by decide) (by decide) (by decide) (by decide)])
  have h41 : V3 m ρ c main_v41 = _ := (HostVal.hostOps1_v41 (W2 m ρ c)).trans (by rw [hA main_arg4 (by decide) (by decide) (by decide) (by decide) (by decide) (by decide) (by decide)])
  have h43 : V3 m ρ c main_v43 = _ := (HostVal.hostOps1_v43 (W2 m ρ c)).trans (by rw [hA main_arg5 (by decide) (by decide) (by decide) (by decide) (by decide) (by decide) (by decide)])
  rw [hin, h35, h37, h39, h41, h43]
  rfl

theorem acc2 (c : Dev nD) : W4 m ρ c (Proc.devRef .tc main_v44_1) = LayerValue.accArr (LayerValue.accArr (e0' (launched m ρ c)) (kE1 (launched m ρ c))) (kE2 (launched m ρ c)) := by
  have hE := ego2 m ρ c
  rw [show W4 m ρ c (Proc.devRef .tc main_v44_0) = _ from W4_arr m ρ c 7, LayerValue.egoFinal1] at hE
  rw [show W4 m ρ c (Proc.devRef .tc main_v44_1) = _ from W4_arr m ρ c 8, LayerValue.accFinal1, hE]
  have hin : V3 m ρ c main_v22_1 = _ := (keep1 (W2 m ρ c) main_v22_1 (by decide)).trans (acc1 m ρ c)
  rw [hin]

/-! ## Layer 3 -/

theorem ego3 (c : Dev nD) : W6 m ρ c (Proc.devRef .tc main_v66_0) = kE3 (launched m ρ c) := by
  have hA := fun r h0 ha hb h1 h4 h2 h6 => (untouched m ρ c r h0 ha hb h1 h4 h2 h6).2.2.2.1
  rw [show W6 m ρ c (Proc.devRef .tc main_v66_0) = _ from W6_arr m ρ c 7, LayerValue.egoFinal2]
  have hin : V5 m ρ c main_v44_0 = kE2 (launched m ρ c) := (keep2 (W4 m ρ c) main_v44_0 (by decide)).trans (ego2 m ρ c)
  have h57 : V5 m ρ c main_v57 = HostVal.spmm (launched m ρ c).val (launched m ρ c).row (launched m ρ c).col (kE2 (launched m ρ c)) := by
    refine (HostVal.hostOps2_v57 (W4 m ρ c)).trans ?_
    rw [hA main_arg6 (by decide) (by decide) (by decide) (by decide) (by decide) (by decide) (by decide),
      hA main_arg7 (by decide) (by decide) (by decide) (by decide) (by decide) (by decide) (by decide),
      hA main_arg8 (by decide) (by decide) (by decide) (by decide) (by decide) (by decide) (by decide), ego2 m ρ c]
    rfl
  have h59 : V5 m ρ c main_v59 = _ := (HostVal.hostOps2_v59 (W4 m ρ c)).trans (by rw [hA main_arg2 (by decide) (by decide) (by decide) (by decide) (by decide) (by decide) (by decide)])
  have h61 : V5 m ρ c main_v61 = _ := (HostVal.hostOps2_v61 (W4 m ρ c)).trans (by rw [hA main_arg3 (by decide) (by decide) (by decide) (by decide) (by decide) (by decide) (by decide)])
  have h63 : V5 m ρ c main_v63 = _ := (HostVal.hostOps2_v63 (W4 m ρ c)).trans (by rw [hA main_arg4 (by decide) (by decide) (by decide) (by decide) (by decide) (by decide) (by decide)])
  have h65 : V5 m ρ c main_v65 = _ := (HostVal.hostOps2_v65 (W4 m ρ c)).trans (by rw [hA main_arg5 (by decide) (by decide) (by decide) (by decide) (by decide) (by decide) (by decide)])
  rw [hin, h57, h59, h61, h63, h65]
  rfl

theorem acc3 (c : Dev nD) : W6 m ρ c (Proc.devRef .tc main_v66_1) = kAcc3 (launched m ρ c) := by
  have hE := ego3 m ρ c
  rw [show W6 m ρ c (Proc.devRef .tc main_v66_0) = _ from W6_arr m ρ c 7, LayerValue.egoFinal2] at hE
  rw [show W6 m ρ c (Proc.devRef .tc main_v66_1) = _ from W6_arr m ρ c 8, LayerValue.accFinal2, hE]
  have hin : V5 m ρ c main_v44_1 = _ := (keep2 (W4 m ρ c) main_v44_1 (by decide)).trans (acc2 m ρ c)
  rw [hin]
  rfl

/-! ## The results -/

/-- The first result: rows 0 … 99999 of the mean of the starting embeddings and the three normalised layers. -/
theorem result0 (c : Dev nD) : W7 m ρ c (Proc.devRef .tc main_v69) = (launched m ρ c).out0 := by
  refine (HostVal.hostOps3_v69 (W6 m ρ c)).trans ?_
  rw [acc3 m ρ c]
  exact Cert.BridgeMath.out0_eq (launched m ρ c)

/-- The second result: rows 100000 … 299999 of it. -/
theorem result1 (c : Dev nD) : W7 m ρ c (Proc.devRef .tc main_v70) = (launched m ρ c).out1 := by
  refine (HostVal.hostOps3_v70 (W6 m ρ c)).trans ?_
  rw [acc3 m ρ c]
  exact Cert.BridgeMath.out1_eq (launched m ρ c)

end Cert.KernelIdeal.Compose

end
-- ==== Proof.Claims.lean ====
import proofs.«179311_j1056561954898_1_alg».proof.Defs
import proofs.«179311_j1056561954898_1_alg».proof.Proof.Gen.Pre_finite_inputs
import proofs.«179311_j1056561954898_1_alg».proof.Proof.BitsRun
import proofs.«179311_j1056561954898_1_alg».proof.Proof.BitsArgs
import proofs.«179311_j1056561954898_1_alg».proof.Proof.IdealRun
import proofs.«179311_j1056561954898_1_alg».proof.Proof.IdealArgs
import proofs.«179311_j1056561954898_1_alg».proof.Proof.IdealCompose
import proofs.«179311_j1056561954898_1_alg».proof.Proof.RefRun
import proofs.«179311_j1056561954898_1_alg».proof.Proof.RefLayers

/-!
# The five claims

The kernel (three pipelined layer regions between host stretches) and the reference (plain host
operations) both compute, from an initial embedding, three stacks of weights and biases and a sparse
adjacency matrix, the mean of the initial embedding and of three row-normalised message-passing
layers, returned as two row ranges.  Both programs run from any memory and leave their nine
argument arrays as they found them; at the extended reals both results are the same function
`Args.out0`, `Args.out1` of the argument arrays, so from memories that agree on the arguments
the two programs end with equal results.  No step uses that the inputs are finite.
-/

noncomputable section

namespace Cert.Proof.LayerClaims

open Idealize.ShloMosaic Idealize.ShloMosaic.TcCoe Idealize.SL.Sem

/-- The word-level kernel runs and leaves its nine arguments unchanged: each is a buffer the run
    ends holding at the fold of the host stretches and regions, none of which writes it. -/
theorem frame_k : Cert.frame_Kernel := fun m ρ _ =>
  (θ_run Cert.Kernel.defs _ _).mono (fun r h c =>
    ⟨(h c _ (Cert.Kernel.Layer.mem_uc Cert.Kernel.main_arg0 (by decide))).trans (Cert.Kernel.Layer.end_arg0 m ρ c),
     (h c _ (Cert.Kernel.Layer.mem_uc Cert.Kernel.main_arg1 (by decide))).trans (Cert.Kernel.Layer.end_arg1 m ρ c),
     (h c _ (Cert.Kernel.Layer.mem_uc Cert.Kernel.main_arg2 (by decide))).trans (Cert.Kernel.Layer.end_arg2 m ρ c),
     (h c _ (Cert.Kernel.Layer.mem_uc Cert.Kernel.main_arg3 (by decide))).trans (Cert.Kernel.Layer.end_arg3 m ρ c),
     (h c _ (Cert.Kernel.Layer.mem_uc Cert.Kernel.main_arg4 (by decide))).trans (Cert.Kernel.Layer.end_arg4 m ρ c),
     (h c _ (Cert.Kernel.Layer.mem_uc Cert.Kernel.main_arg5 (by decide))).trans (Cert.Kernel.Layer.end_arg5 m ρ c),
     (h c _ (Cert.Kernel.Layer.mem_uc Cert.Kernel.main_arg6 (by decide))).trans (Cert.Kernel.Layer.end_arg6 m ρ c),
     (h c _ (Cert.Kernel.Layer.mem_uc Cert.Kernel.main_arg7 (by decide))).trans (Cert.Kernel.Layer.end_arg7 m ρ c),
     (h c _ (Cert.Kernel.Layer.mem_uc Cert.Kernel.main_arg8 (by decide))).trans (Cert.Kernel.Layer.end_arg8 m ρ c)⟩)
    (Cert.Kernel.Layer.runAll (F := Bits) m ρ)

/-- The same for the kernel read at the extended reals. -/
theorem frame_ki : Cert.frame_KernelIdeal := fun m ρ _ =>
  (θ_run Cert.KernelIdeal.defs _ _).mono (fun r h c =>
    ⟨(h c _ (Cert.KernelIdeal.Layer.mem_uc Cert.KernelIdeal.main_arg0 (by decide))).trans (Cert.KernelIdeal.Layer.end_arg0 m ρ c),
     (h c _ (Cert.KernelIdeal.Layer.mem_uc Cert.KernelIdeal.main_arg1 (by decide))).trans (Cert.KernelIdeal.Layer.end_arg1 m ρ c),
     (h c _ (Cert.KernelIdeal.Layer.mem_uc Cert.KernelIdeal.main_arg2 (by decide))).trans (Cert.KernelIdeal.Layer.end_arg2 m ρ c),
     (h c _ (Cert.KernelIdeal.Layer.mem_uc Cert.KernelIdeal.main_arg3 (by decide))).trans (Cert.KernelIdeal.Layer.end_arg3 m ρ c),
     (h c _ (Cert.KernelIdeal.Layer.mem_uc Cert.KernelIdeal.main_arg4 (by decide))).trans (Cert.KernelIdeal.Layer.end_arg4 m ρ c),
     (h c _ (Cert.KernelIdeal.Layer.mem_uc Cert.KernelIdeal.main_arg5 (by decide))).trans (Cert.KernelIdeal.Layer.end_arg5 m ρ c),
     (h c _ (Cert.KernelIdeal.Layer.mem_uc Cert.KernelIdeal.main_arg6 (by decide))).trans (Cert.KernelIdeal.Layer.end_arg6 m ρ c),
     (h c _ (Cert.KernelIdeal.Layer.mem_uc Cert.KernelIdeal.main_arg7 (by decide))).trans (Cert.KernelIdeal.Layer.end_arg7 m ρ c),
     (h c _ (Cert.KernelIdeal.Layer.mem_uc Cert.KernelIdeal.main_arg8 (by decide))).trans (Cert.KernelIdeal.Layer.end_arg8 m ρ c)⟩)
    (Cert.KernelIdeal.Layer.runAll (F := Ideal) m ρ)

/-- The reference runs and leaves its nine arguments unchanged. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- From memories that agree on the nine arguments, the reference's argument record is the kernel's. -/
theorem args_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefLayers.argsOf (StableHlo.launchContents m' c) = Cert.KernelIdeal.Compose.launched m ρ c := by
  obtain ⟨h0, h1, h2, h3, h4, h5, h6, h7, h8⟩ := h
  exact congr (congr (congr (congr (congr (congr (congr (congr (congrArg Cert.ReferenceIdeal.RefLayers.Args.mk h0) h1) h2) h3) h4) h5) h6) h7) h8

/-- At the extended reals the kernel's two results and the reference's are the same two functions of the argument
    arrays, and both programs leave their arguments unchanged. -/
theorem algebraic : Cert.algebraic_KernelIdeal_ReferenceIdeal := by
  intro m ρ m' ρ' _ hagree
  refine ⟨fun c => (Cert.KernelIdeal.Compose.launched m ρ c).out0, fun c => (Cert.KernelIdeal.Compose.launched m ρ c).out1, ?_, ?_⟩
  · exact (θ_run Cert.KernelIdeal.defs _ _).mono (fun r h c =>
      ⟨(h c _ (Cert.KernelIdeal.Layer.mem_uc Cert.KernelIdeal.main_v69 (by decide))).trans (Cert.KernelIdeal.Compose.result0 m ρ c),
       (h c _ (Cert.KernelIdeal.Layer.mem_uc Cert.KernelIdeal.main_v70 (by decide))).trans (Cert.KernelIdeal.Compose.result1 m ρ c),
       (h c _ (Cert.KernelIdeal.Layer.mem_uc Cert.KernelIdeal.main_arg0 (by decide))).trans (Cert.KernelIdeal.Layer.end_arg0 m ρ c),
       (h c _ (Cert.KernelIdeal.Layer.mem_uc Cert.KernelIdeal.main_arg1 (by decide))).trans (Cert.KernelIdeal.Layer.end_arg1 m ρ c),
       (h c _ (Cert.KernelIdeal.Layer.mem_uc Cert.KernelIdeal.main_arg2 (by decide))).trans (Cert.KernelIdeal.Layer.end_arg2 m ρ c),
       (h c _ (Cert.KernelIdeal.Layer.mem_uc Cert.KernelIdeal.main_arg3 (by decide))).trans (Cert.KernelIdeal.Layer.end_arg3 m ρ c),
       (h c _ (Cert.KernelIdeal.Layer.mem_uc Cert.KernelIdeal.main_arg4 (by decide))).trans (Cert.KernelIdeal.Layer.end_arg4 m ρ c),
       (h c _ (Cert.KernelIdeal.Layer.mem_uc Cert.KernelIdeal.main_arg5 (by decide))).trans (Cert.KernelIdeal.Layer.end_arg5 m ρ c),
       (h c _ (Cert.KernelIdeal.Layer.mem_uc Cert.KernelIdeal.main_arg6 (by decide))).trans (Cert.KernelIdeal.Layer.end_arg6 m ρ c),
       (h c _ (Cert.KernelIdeal.Layer.mem_uc Cert.KernelIdeal.main_arg7 (by decide))).trans (Cert.KernelIdeal.Layer.end_arg7 m ρ c),
       (h c _ (Cert.KernelIdeal.Layer.mem_uc Cert.KernelIdeal.main_arg8 (by decide))).trans (Cert.KernelIdeal.Layer.end_arg8 m ρ c)⟩)
      (Cert.KernelIdeal.Layer.runAll (F := Ideal) m ρ)
  · refine (θ_run Cert.ReferenceIdeal.defs _ _).mono (fun r h c => ?_) (Cert.ReferenceIdeal.RefRun.run (F := Ideal) m' ρ')
    have hA := args_eq m ρ m' c (hagree c)
    exact ⟨(h c).1.trans ((Cert.ReferenceIdeal.RefLayers.v114_eq _).trans (congrArg Cert.ReferenceIdeal.RefLayers.Args.out0 hA)),
      (h c).2.1.trans ((Cert.ReferenceIdeal.RefLayers.v115_eq _).trans (congrArg Cert.ReferenceIdeal.RefLayers.Args.out1 hA)),
      (h c).2.2⟩

end Cert.Proof.LayerClaims

end
-- ==== Proof.lean ====
/- The proof of `Cert.Claim`: a three-layer message-passing network over 300000 rows of 64 features.
   Each layer maps an embedding `x` and its neighbourhood sum `s` to `leaky ((s · W + b) + ((x ∘ s) · W' + b'))`;
   the result is the mean of the initial embedding and the three layers' row-normalised embeddings.
   The kernel computes each layer block of rows by block of rows and the reference on whole arrays; row by row,
   at the extended reals, both are the same function of the argument arrays. -/
import proofs.«179311_j1056561954898_1_alg».proof.Defs
import proofs.«179311_j1056561954898_1_alg».proof.Proof.Gen.Kernel
import proofs.«179311_j1056561954898_1_alg».proof.Proof.Gen.Kernel.Skeleton
import proofs.«179311_j1056561954898_1_alg».proof.Proof.Gen.Kernel.Launch
import proofs.«179311_j1056561954898_1_alg».proof.Proof.Gen.Kernel.Regions
import proofs.«179311_j1056561954898_1_alg».proof.Proof.Gen.Kernel.Points
import proofs.«179311_j1056561954898_1_alg».proof.Proof.Gen.KernelIdeal
import proofs.«179311_j1056561954898_1_alg».proof.Proof.Gen.KernelIdeal.Skeleton
import proofs.«179311_j1056561954898_1_alg».proof.Proof.Gen.KernelIdeal.Launch
import proofs.«179311_j1056561954898_1_alg».proof.Proof.Gen.KernelIdeal.Regions
import proofs.«179311_j1056561954898_1_alg».proof.Proof.Gen.KernelIdeal.Points
import proofs.«179311_j1056561954898_1_alg».proof.Proof.Gen.ReferenceIdeal
import proofs.«179311_j1056561954898_1_alg».proof.Proof.Gen.Pre_finite_inputs
import Idealize.ShloMosaic.Adequacy
import Idealize.ShloMosaic.Init
import proofs.«179311_j1056561954898_1_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  LayerClaims.frame_k, LayerClaims.frame_ki, LayerClaims.frame_ri, LayerClaims.preserves, LayerClaims.algebraic⟩

end Cert.Proof

end
